-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v188)) (v1 : (c : Dev Cert.KernelIdeal.nD) → Buf (Elt Ideal) ((c.tc : Thread Cert.KernelIdeal.nD Cert.KernelIdeal.τ).loc Cert.KernelIdeal.main_v190)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_v190) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_v273) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x200 : Shape := ⟨2, ![50000, 200]⟩
abbrev S2x400000 : Shape := ⟨2, ![2, 400000]⟩
abbrev S400000 : Shape := ⟨1, ![400000]⟩
abbrev S400x200 : Shape := ⟨2, ![400, 200]⟩
abbrev S3x200000 : Shape := ⟨2, ![3, 200000]⟩
abbrev S200x200 : Shape := ⟨2, ![200, 200]⟩
abbrev S1x200 : Shape := ⟨2, ![1, 200]⟩
abbrev S200 : Shape := ⟨1, ![200]⟩
abbrev S_ : Shape := ⟨0, ![]⟩

class Facts : Prop where
  bcast_S_S50000x200 : S_.BroadcastsInDim S50000x200 (![] : Fin 0 → Fin S50000x200.rank)
  reducesTo_S50000x200_S_d0_1 : S50000x200.ReducesTo [0, 1] S_
  h_S_ : 0 < S_.numel
  bcast_S_S400x200 : S_.BroadcastsInDim S400x200 (![] : Fin 0 → Fin S400x200.rank)
  reducesTo_S400x200_S_d0_1 : S400x200.ReducesTo [0, 1] S_
  bcast_S_S200x200 : S_.BroadcastsInDim S200x200 (![] : Fin 0 → Fin S200x200.rank)
  reducesTo_S200x200_S_d0_1 : S200x200.ReducesTo [0, 1] S_
  bcast_S_S1x200 : S_.BroadcastsInDim S1x200 (![] : Fin 0 → Fin S1x200.rank)
  reducesTo_S1x200_S_d0_1 : S1x200.ReducesTo [0, 1] S_
  bcast_S_S200 : S_.BroadcastsInDim S200 (![] : Fin 0 → Fin S200.rank)
  reducesTo_S200_S_d0 : S200.ReducesTo [0] S_

variable [Facts]

def fn_part2 {F : FTy → Type} [FloatOps F] (main_arg10 : FVec F S1x200 .f32) (main_arg11 : FVec F S200 .f32) (main_arg12 : FVec F S200 .f32) (main_v33 : IVec S_ 1) : IVec S_ 1 :=
  let main_v34 : FVec F S1x200 .f32 := Host.absf main_arg10
  let main_cst_12 : FVec F S_ .f32 := constant S_ .f32 0x7F800000#32
  let main_v35 : FVec F S1x200 .f32 := broadcastInDim S1x200 ![] bcast_S_S1x200 main_cst_12
  let main_v36 : IVec S1x200 1 := cmpf .olt main_v34 main_v35
  let main_c_13 : IVec S_ 1 := constantI S_ 1 1#1
  let main_v37 : IVec S_ 1 := (fun x v => Host.reduce IntOp.andi x v reducesTo_S1x200_S_d0_1 h_S_) main_v36 main_c_13
  let main_v38 : IVec S_ 1 := andi main_v33 main_v37
  let main_v39 : FVec F S200 .f32 := Host.absf main_arg11
  let main_cst_14 : FVec F S_ .f32 := constant S_ .f32 0x7F800000#32
  let main_v40 : FVec F S200 .f32 := broadcastInDim S200 ![] bcast_S_S200 main_cst_14
  let main_v41 : IVec S200 1 := cmpf .olt main_v39 main_v40
  let main_c_15 : IVec S_ 1 := constantI S_ 1 1#1
  let main_v42 : IVec S_ 1 := (fun x v => Host.reduce IntOp.andi x v reducesTo_S200_S_d0 h_S_) main_v41 main_c_15
  let main_v43 : IVec S_ 1 := andi main_v38 main_v42
  let main_v44 : FVec F S200 .f32 := Host.absf main_arg12
  let main_cst_16 : FVec F S_ .f32 := constant S_ .f32 0x7F800000#32
  let main_v45 : FVec F S200 .f32 := broadcastInDim S200 ![] bcast_S_S200 main_cst_16
  let main_v46 : IVec S200 1 := cmpf .olt main_v44 main_v45
  let main_c_17 : IVec S_ 1 := constantI S_ 1 1#1
  let main_v47 : IVec S_ 1 := (fun x v => Host.reduce IntOp.andi x v reducesTo_S200_S_d0 h_S_) main_v46 main_c_17
  let main_v48 : IVec S_ 1 := andi main_v43 main_v47
  main_v48

def fn_part1 {F : FTy → Type} [FloatOps F] (main_arg7 : FVec F S200x200 .f32) (main_arg8 : FVec F S200x200 .f32) (main_arg9 : FVec F S200x200 .f32) (main_arg10 : FVec F S1x200 .f32) (main_arg11 : FVec F S200 .f32) (main_arg12 : FVec F S200 .f32) (main_v13 : IVec S_ 1) (main_v16 : IVec S200x200 1) : IVec S_ 1 :=
  let main_c_5 : IVec S_ 1 := constantI S_ 1 1#1
  let main_v17 : IVec S_ 1 := (fun x v => Host.reduce IntOp.andi x v reducesTo_S200x200_S_d0_1 h_S_) main_v16 main_c_5
  let main_v18 : IVec S_ 1 := andi main_v13 main_v17
  let main_v19 : FVec F S200x200 .f32 := Host.absf main_arg7
  let main_cst_6 : FVec F S_ .f32 := constant S_ .f32 0x7F800000#32
  let main_v20 : FVec F S200x200 .f32 := broadcastInDim S200x200 ![] bcast_S_S200x200 main_cst_6
  let main_v21 : IVec S200x200 1 := cmpf .olt main_v19 main_v20
  let main_c_7 : IVec S_ 1 := constantI S_ 1 1#1
  let main_v22 : IVec S_ 1 := (fun x v => Host.reduce IntOp.andi x v reducesTo_S200x200_S_d0_1 h_S_) main_v21 main_c_7
  let main_v23 : IVec S_ 1 := andi main_v18 main_v22
  let main_v24 : FVec F S200x200 .f32 := Host.absf main_arg8
  let main_cst_8 : FVec F S_ .f32 := constant S_ .f32 0x7F800000#32
  let main_v25 : FVec F S200x200 .f32 := broadcastInDim S200x200 ![] bcast_S_S200x200 main_cst_8
  let main_v26 : IVec S200x200 1 := cmpf .olt main_v24 main_v25
  let main_c_9 : IVec S_ 1 := constantI S_ 1 1#1
  let main_v27 : IVec S_ 1 := (fun x v => Host.reduce IntOp.andi x v reducesTo_S200x200_S_d0_1 h_S_) main_v26 main_c_9
  let main_v28 : IVec S_ 1 := andi main_v23 main_v27
  let main_v29 : FVec F S200x200 .f32 := Host.absf main_arg9
  let main_cst_10 : FVec F S_ .f32 := constant S_ .f32 0x7F800000#32
  let main_v30 : FVec F S200x200 .f32 := broadcastInDim S200x200 ![] bcast_S_S200x200 main_cst_10
  let main_v31 : IVec S200x200 1 := cmpf .olt main_v29 main_v30
  let main_c_11 : IVec S_ 1 := constantI S_ 1 1#1
  let main_v32 : IVec S_ 1 := (fun x v => Host.reduce IntOp.andi x v reducesTo_S200x200_S_d0_1 h_S_) main_v31 main_c_11
  let main_v33 : IVec S_ 1 := andi main_v28 main_v32
  fn_part2 (F := F) main_arg10 main_arg11 main_arg12 main_v33

def fn {F : FTy → Type} [FloatOps F] (main_arg0 : FVec F S50000x200 .f32) (main_arg1 : IVec S2x400000 32) (main_arg2 : IVec S400000 32) (main_arg3 : FVec F S400x200 .f32) (main_arg4 : IVec S3x200000 32) (main_arg5 : FVec F S200x200 .f32) (main_arg6 : FVec F S200x200 .f32) (main_arg7 : FVec F S200x200 .f32) (main_arg8 : FVec F S200x200 .f32) (main_arg9 : FVec F S200x200 .f32) (main_arg10 : FVec F S1x200 .f32) (main_arg11 : FVec F S200 .f32) (main_arg12 : FVec F S200 .f32) : IVec S_ 1 :=
  let main_v0 : FVec F S50000x200 .f32 := Host.absf main_arg0
  let main_cst : FVec F S_ .f32 := constant S_ .f32 0x7F800000#32
  let main_v1 : FVec F S50000x200 .f32 := broadcastInDim S50000x200 ![] bcast_S_S50000x200 main_cst
  let main_v2 : IVec S50000x200 1 := cmpf .olt main_v0 main_v1
  let main_c : IVec S_ 1 := constantI S_ 1 1#1
  let main_v3 : IVec S_ 1 := (fun x v => Host.reduce IntOp.andi x v reducesTo_S50000x200_S_d0_1 h_S_) main_v2 main_c
  let main_v4 : FVec F S400x200 .f32 := Host.absf main_arg3
  let main_cst_0 : FVec F S_ .f32 := constant S_ .f32 0x7F800000#32
  let main_v5 : FVec F S400x200 .f32 := broadcastInDim S400x200 ![] bcast_S_S400x200 main_cst_0
  let main_v6 : IVec S400x200 1 := cmpf .olt main_v4 main_v5
  let main_c_1 : IVec S_ 1 := constantI S_ 1 1#1
  let main_v7 : IVec S_ 1 := (fun x v => Host.reduce IntOp.andi x v reducesTo_S400x200_S_d0_1 h_S_) main_v6 main_c_1
  let main_v8 : IVec S_ 1 := andi main_v3 main_v7
  let main_v9 : FVec F S200x200 .f32 := Host.absf main_arg5
  let main_cst_2 : FVec F S_ .f32 := constant S_ .f32 0x7F800000#32
  let main_v10 : FVec F S200x200 .f32 := broadcastInDim S200x200 ![] bcast_S_S200x200 main_cst_2
  let main_v11 : IVec S200x200 1 := cmpf .olt main_v9 main_v10
  let main_c_3 : IVec S_ 1 := constantI S_ 1 1#1
  let main_v12 : IVec S_ 1 := (fun x v => Host.reduce IntOp.andi x v reducesTo_S200x200_S_d0_1 h_S_) main_v11 main_c_3
  let main_v13 : IVec S_ 1 := andi main_v8 main_v12
  let main_v14 : FVec F S200x200 .f32 := Host.absf main_arg6
  let main_cst_4 : FVec F S_ .f32 := constant S_ .f32 0x7F800000#32
  let main_v15 : FVec F S200x200 .f32 := broadcastInDim S200x200 ![] bcast_S_S200x200 main_cst_4
  let main_v16 : IVec S200x200 1 := cmpf .olt main_v14 main_v15
  fn_part1 (F := F) main_arg7 main_arg8 main_arg9 main_arg10 main_arg11 main_arg12 main_v13 main_v16
-- ==== Kernel.lean ====
abbrev S50000x200 : Shape := ⟨2, ![50000, 200]⟩
abbrev S2x400000 : Shape := ⟨2, ![2, 400000]⟩
abbrev S400000 : Shape := ⟨1, ![400000]⟩
abbrev S400x200 : Shape := ⟨2, ![400, 200]⟩
abbrev S3x200000 : Shape := ⟨2, ![3, 200000]⟩
abbrev S200x200 : Shape := ⟨2, ![200, 200]⟩
abbrev S1x200 : Shape := ⟨2, ![1, 200]⟩
abbrev S200 : Shape := ⟨1, ![200]⟩
abbrev S401x200 : Shape := ⟨2, ![401, 200]⟩
abbrev S2x200000 : Shape := ⟨2, ![2, 200000]⟩
abbrev S200000 : Shape := ⟨1, ![200000]⟩
abbrev S1x200000 : Shape := ⟨2, ![1, 200000]⟩
abbrev S_ : Shape := ⟨0, ![]⟩
abbrev S200000x1 : Shape := ⟨2, ![200000, 1]⟩
abbrev S200000x200 : Shape := ⟨2, ![200000, 200]⟩
abbrev S5000x200 : Shape := ⟨2, ![5000, 200]⟩
abbrev S5000x100 : Shape := ⟨2, ![5000, 100]⟩
abbrev S100000 : Shape := ⟨1, ![100000]⟩
abbrev S100000x200 : Shape := ⟨2, ![100000, 200]⟩
abbrev S100000x1 : Shape := ⟨2, ![100000, 1]⟩
abbrev S50000 : Shape := ⟨1, ![50000]⟩
abbrev S2000x200 : Shape := ⟨2, ![2000, 200]⟩
abbrev S2000x1 : Shape := ⟨2, ![2000, 1]⟩
abbrev S2000x100 : Shape := ⟨2, ![2000, 100]⟩

abbrev nBuf : Space → Nat
  | .hbm => 280
  | .vmem => 36
  | .smem => 0
  | _ => 0

abbrev hbmTy0_0 (i : Nat) : BufTy := match i % 128 with
  | 0 => ⟨S50000x200, .f32⟩
  | 1 => ⟨S2x400000, .i32⟩
  | 2 => ⟨S400000, .i32⟩
  | 3 => ⟨S400x200, .f32⟩
  | 4 => ⟨S3x200000, .i32⟩
  | 5 => ⟨S200x200, .f32⟩
  | 6 => ⟨S200x200, .f32⟩
  | 7 => ⟨S200x200, .f32⟩
  | 8 => ⟨S200x200, .f32⟩
  | 9 => ⟨S200x200, .f32⟩
  | 10 => ⟨S1x200, .f32⟩
  | 11 => ⟨S200, .f32⟩
  | 12 => ⟨S200, .f32⟩
  | 13 => ⟨S401x200, .f32⟩
  | 14 => ⟨S2x200000, .i32⟩
  | 15 => ⟨S2x200000, .i32⟩
  | 16 => ⟨S200000, .i32⟩
  | 17 => ⟨S200000, .i32⟩
  | 18 => ⟨S1x200000, .i32⟩
  | 19 => ⟨S200000, .i32⟩
  | 20 => ⟨S1x200000, .i32⟩
  | 21 => ⟨S200000, .i32⟩
  | 22 => ⟨S1x200000, .i32⟩
  | 23 => ⟨S200000, .i32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x200, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x200, .f32⟩
  | 42 => ⟨S200000x200, .f32⟩
  | 43 => ⟨S100000, .i32⟩
  | 44 => ⟨S100000, .i32⟩
  | 45 => ⟨S100000x200, .f32⟩
  | 46 => ⟨S100000x200, .f32⟩
  | 47 => ⟨S_, .f32⟩
  | 48 => ⟨S200000x200, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S200000x200, .f32⟩
  | 58 => ⟨S_, .f32⟩
  | 59 => ⟨S200000x200, .f32⟩
  | 60 => ⟨S_, .i32⟩
  | 61 => ⟨S100000, .i32⟩
  | 62 => ⟨S100000, .i1⟩
  | 63 => ⟨S_, .i32⟩
  | 64 => ⟨S100000, .i32⟩
  | 65 => ⟨S100000, .i32⟩
  | 66 => ⟨S100000, .i32⟩
  | 67 => ⟨S100000x1, .i32⟩
  | 68 => ⟨S200000x200, .f32⟩
  | 69 => ⟨S200x200, .bf16⟩
  | 70 => ⟨S200x200, .bf16⟩
  | 71 => ⟨S200x200, .bf16⟩
  | 72 => ⟨S200x200, .bf16⟩
  | 73 => ⟨S1x200000, .i32⟩
  | 74 => ⟨S200000, .i32⟩
  | 75 => ⟨S1x200000, .i32⟩
  | 76 => ⟨S200000, .i32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x200, .f32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S200000x200, .f32⟩
  | 95 => ⟨S_, .f32⟩
  | 96 => ⟨S50000, .f32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S_, .f32⟩
  | 106 => ⟨S200000, .f32⟩
  | 107 => ⟨S50000, .f32⟩
  | 108 => ⟨S_, .f32⟩
  | 109 => ⟨S50000, .f32⟩
  | 110 => ⟨S50000, .i1⟩
  | 111 => ⟨S_, .f32⟩
  | 112 => ⟨S50000, .f32⟩
  | 113 => ⟨S50000, .f32⟩
  | 114 => ⟨S_, .f32⟩
  | 115 => ⟨S_, .f32⟩
  | 116 => ⟨S50000, .f32⟩
  | 117 => ⟨S50000, .f32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S200000, .f32⟩
  | 127 => ⟨S_, .i32⟩
  | _ => ⟨S50000x200, .f32⟩

abbrev hbmTy0_1 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000, .f32⟩
  | 8 => ⟨S200000, .f32⟩
  | 9 => ⟨S200000x1, .f32⟩
  | 10 => ⟨S200000x200, .f32⟩
  | 11 => ⟨S_, .f32⟩
  | 12 => ⟨S50000x200, .f32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S50000x200, .f32⟩
  | 22 => ⟨S1x200000, .i32⟩
  | 23 => ⟨S200000, .i32⟩
  | 24 => ⟨S1x200000, .i32⟩
  | 25 => ⟨S200000, .i32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x200, .f32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S200000x200, .f32⟩
  | 44 => ⟨S_, .f32⟩
  | 45 => ⟨S50000, .f32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S200000x1, .i32⟩
  | 54 => ⟨S_, .f32⟩
  | 55 => ⟨S200000, .f32⟩
  | 56 => ⟨S50000, .f32⟩
  | 57 => ⟨S_, .f32⟩
  | 58 => ⟨S50000, .f32⟩
  | 59 => ⟨S50000, .i1⟩
  | 60 => ⟨S_, .f32⟩
  | 61 => ⟨S50000, .f32⟩
  | 62 => ⟨S50000, .f32⟩
  | 63 => ⟨S_, .f32⟩
  | 64 => ⟨S_, .f32⟩
  | 65 => ⟨S50000, .f32⟩
  | 66 => ⟨S50000, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S200000, .f32⟩
  | 85 => ⟨S200000, .f32⟩
  | 86 => ⟨S200000x1, .f32⟩
  | 87 => ⟨S200000x200, .f32⟩
  | 88 => ⟨S_, .f32⟩
  | 89 => ⟨S50000x200, .f32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S50000x200, .f32⟩
  | 99 => ⟨S50000x200, .f32⟩
  | 100 => ⟨S50000x200, .f32⟩
  | 101 => ⟨S50000x200, .f32⟩
  | 102 => ⟨S_, .f32⟩
  | 103 => ⟨S50000x200, .f32⟩
  | 104 => ⟨S50000x200, .f32⟩
  | 105 => ⟨S_, .f32⟩
  | 106 => ⟨S200, .f32⟩
  | 107 => ⟨S_, .f32⟩
  | 108 => ⟨S200, .f32⟩
  | 109 => ⟨S200, .f32⟩
  | 110 => ⟨S_, .i32⟩
  | 111 => ⟨S_, .f32⟩
  | 112 => ⟨S200, .f32⟩
  | 113 => ⟨S1x200, .f32⟩
  | 114 => ⟨S_, .f32⟩
  | 115 => ⟨S1x200, .f32⟩
  | 116 => ⟨S1x200, .f32⟩
  | 117 => ⟨S50000x200, .f32⟩
  | 118 => ⟨S50000x200, .f32⟩
  | 119 => ⟨S50000x200, .f32⟩
  | 120 => ⟨S_, .f32⟩
  | 121 => ⟨S_, .f32⟩
  | 122 => ⟨S_, .f32⟩
  | 123 => ⟨S_, .f32⟩
  | 124 => ⟨S200, .f32⟩
  | 125 => ⟨S200, .f32⟩
  | 126 => ⟨S200, .f32⟩
  | 127 => ⟨S_, .f32⟩
  | _ => ⟨S50000x200, .f32⟩

abbrev hbmTy0_2 (i : Nat) : BufTy := match i % 128 with
  | 0 => ⟨S_, .i1⟩
  | 1 => ⟨S_, .f32⟩
  | 2 => ⟨S_, .f32⟩
  | 3 => ⟨S200, .f32⟩
  | 4 => ⟨S200, .f32⟩
  | 5 => ⟨S1x200, .f32⟩
  | 6 => ⟨S50000x200, .f32⟩
  | 7 => ⟨S50000x200, .f32⟩
  | 8 => ⟨S_, .f32⟩
  | 9 => ⟨S200, .f32⟩
  | 10 => ⟨S200, .f32⟩
  | 11 => ⟨S200, .f32⟩
  | 12 => ⟨S1x200, .f32⟩
  | 13 => ⟨S50000x200, .f32⟩
  | 14 => ⟨S50000x200, .f32⟩
  | 15 => ⟨S1x200, .f32⟩
  | 16 => ⟨S50000x200, .f32⟩
  | 17 => ⟨S50000x200, .f32⟩
  | 18 => ⟨S1x200, .f32⟩
  | 19 => ⟨S50000x200, .f32⟩
  | 20 => ⟨S50000x200, .f32⟩
  | 21 => ⟨S50000x200, .f32⟩
  | 22 => ⟨S401x200, .f32⟩
  | 23 => ⟨S400x200, .f32⟩
  | _ => ⟨S50000x200, .f32⟩

abbrev hbmTy (i : Nat) : BufTy := match i / 128 with
  | 0 => hbmTy0_0 i
  | 1 => hbmTy0_1 i
  | 2 => hbmTy0_2 i
  | _ => ⟨S50000x200, .f32⟩

abbrev bufTy : (tb : Table) → Fin (tcTables nBuf tb) → BufTy
  | .hbm, ⟨i, _⟩ => hbmTy i
  | .local _ .vmem, ⟨0, _⟩ => ⟨S5000x200, .f32⟩
  | .local _ .vmem, ⟨1, _⟩ => ⟨S5000x200, .f32⟩
  | .local _ .vmem, ⟨2, _⟩ => ⟨S5000x200, .f32⟩
  | .local _ .vmem, ⟨3, _⟩ => ⟨S5000x200, .f32⟩
  | .local _ .vmem, ⟨4, _⟩ => ⟨S5000x200, .f32⟩
  | .local _ .vmem, ⟨5, _⟩ => ⟨S5000x200, .f32⟩
  | .local _ .vmem, ⟨6, _⟩ => ⟨S2000x200, .f32⟩
  | .local _ .vmem, ⟨7, _⟩ => ⟨S2000x200, .f32⟩
  | .local _ .vmem, ⟨8, _⟩ => ⟨S2000x200, .f32⟩
  | .local _ .vmem, ⟨9, _⟩ => ⟨S2000x200, .f32⟩
  | .local _ .vmem, ⟨10, _⟩ => ⟨S2000x200, .f32⟩
  | .local _ .vmem, ⟨11, _⟩ => ⟨S2000x200, .f32⟩
  | .local _ .vmem, ⟨12, _⟩ => ⟨S2000x1, .f32⟩
  | .local _ .vmem, ⟨13, _⟩ => ⟨S2000x1, .f32⟩
  | .local _ .vmem, ⟨14, _⟩ => ⟨S200x200, .bf16⟩
  | .local _ .vmem, ⟨15, _⟩ => ⟨S200x200, .bf16⟩
  | .local _ .vmem, ⟨16, _⟩ => ⟨S2000x200, .f32⟩
  | .local _ .vmem, ⟨17, _⟩ => ⟨S2000x200, .f32⟩
  | .local _ .vmem, ⟨18, _⟩ => ⟨S2000x200, .f32⟩
  | .local _ .vmem, ⟨19, _⟩ => ⟨S2000x200, .f32⟩
  | .local _ .vmem, ⟨20, _⟩ => ⟨S2000x200, .f32⟩
  | .local _ .vmem, ⟨21, _⟩ => ⟨S2000x200, .f32⟩
  | .local _ .vmem, ⟨22, _⟩ => ⟨S2000x200, .f32⟩
  | .local _ .vmem, ⟨23, _⟩ => ⟨S2000x200, .f32⟩
  | .local _ .vmem, ⟨24, _⟩ => ⟨S2000x1, .f32⟩
  | .local _ .vmem, ⟨25, _⟩ => ⟨S2000x1, .f32⟩
  | .local _ .vmem, ⟨26, _⟩ => ⟨S200x200, .bf16⟩
  | .local _ .vmem, ⟨27, _⟩ => ⟨S200x200, .bf16⟩
  | .local _ .vmem, ⟨28, _⟩ => ⟨S2000x200, .f32⟩
  | .local _ .vmem, ⟨29, _⟩ => ⟨S2000x200, .f32⟩
  | .local _ .vmem, ⟨30, _⟩ => ⟨S2000x200, .f32⟩
  | .local _ .vmem, ⟨31, _⟩ => ⟨S2000x200, .f32⟩
  | .local _ .vmem, ⟨32, _⟩ => ⟨S1x200, .f32⟩
  | .local _ .vmem, ⟨33, _⟩ => ⟨S200x200, .bf16⟩
  | .local _ .vmem, ⟨34, _⟩ => ⟨S2000x200, .f32⟩
  | .local _ .vmem, ⟨35, _⟩ => ⟨S2000x200, .f32⟩
  | _, _ => ⟨S50000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_c_3 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_8 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_c_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_cst_18 : Ref sig .tc := ⟨.hbm, 114, rfl⟩
abbrev main_call0_v0 : Ref sig .tc := ⟨.hbm, 115, rfl⟩
abbrev main_call0_v1 : Ref sig .tc := ⟨.hbm, 116, rfl⟩
abbrev main_v81 : Ref sig .tc := ⟨.hbm, 117, rfl⟩
abbrev main_c_19 : Ref sig .tc := ⟨.hbm, 118, rfl⟩
abbrev main_v82 : Ref sig .tc := ⟨.hbm, 119, rfl⟩
abbrev main_v83 : Ref sig .tc := ⟨.hbm, 120, rfl⟩
abbrev main_c_20 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_21 : Ref sig .tc := ⟨.hbm, 127, rfl⟩
abbrev main_v89 : Ref sig .tc := ⟨.hbm, 128, rfl⟩
abbrev main_v90 : Ref sig .tc := ⟨.hbm, 129, rfl⟩
abbrev main_c_22 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_23 : Ref sig .tc := ⟨.hbm, 139, rfl⟩
abbrev main_v99 : Ref sig .tc := ⟨.hbm, 140, rfl⟩
abbrev main_c_24 : Ref sig .tc := ⟨.hbm, 141, rfl⟩
abbrev main_v100 : Ref sig .tc := ⟨.hbm, 142, rfl⟩
abbrev main_v101 : Ref sig .tc := ⟨.hbm, 143, rfl⟩
abbrev main_c_25 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_c_26 : Ref sig .tc := ⟨.hbm, 154, rfl⟩
abbrev main_v111 : Ref sig .tc := ⟨.hbm, 155, rfl⟩
abbrev main_v112 : Ref sig .tc := ⟨.hbm, 156, rfl⟩
abbrev main_c_27 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_c_28 : Ref sig .tc := ⟨.hbm, 163, rfl⟩
abbrev main_v118 : Ref sig .tc := ⟨.hbm, 164, rfl⟩
abbrev main_v119 : Ref sig .tc := ⟨.hbm, 165, rfl⟩
abbrev main_c_29 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_30 : Ref sig .tc := ⟨.hbm, 172, rfl⟩
abbrev main_v125 : Ref sig .tc := ⟨.hbm, 173, rfl⟩
abbrev main_c_31 : Ref sig .tc := ⟨.hbm, 174, rfl⟩
abbrev main_v126 : Ref sig .tc := ⟨.hbm, 175, rfl⟩
abbrev main_v127 : Ref sig .tc := ⟨.hbm, 176, rfl⟩
abbrev main_c_32 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_33 : Ref sig .tc := ⟨.hbm, 182, rfl⟩
abbrev main_v132 : Ref sig .tc := ⟨.hbm, 183, rfl⟩
abbrev main_v133 : Ref sig .tc := ⟨.hbm, 184, rfl⟩
abbrev main_cst_34 : Ref sig .tc := ⟨.hbm, 185, rfl⟩
abbrev main_v134 : Ref sig .tc := ⟨.hbm, 186, rfl⟩
abbrev main_v135 : Ref sig .tc := ⟨.hbm, 187, rfl⟩
abbrev main_cst_35 : Ref sig .tc := ⟨.hbm, 188, rfl⟩
abbrev main_v136 : Ref sig .tc := ⟨.hbm, 189, rfl⟩
abbrev main_v137 : Ref sig .tc := ⟨.hbm, 190, rfl⟩
abbrev main_cst_36 : Ref sig .tc := ⟨.hbm, 191, rfl⟩
abbrev main_call1_v0 : Ref sig .tc := ⟨.hbm, 192, rfl⟩
abbrev main_call1_v1 : Ref sig .tc := ⟨.hbm, 193, rfl⟩
abbrev main_v138 : Ref sig .tc := ⟨.hbm, 194, rfl⟩
abbrev main_c_37 : Ref sig .tc := ⟨.hbm, 195, rfl⟩
abbrev main_v139 : Ref sig .tc := ⟨.hbm, 196, rfl⟩
abbrev main_v140 : Ref sig .tc := ⟨.hbm, 197, rfl⟩
abbrev main_c_38 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_c_39 : Ref sig .tc := ⟨.hbm, 204, rfl⟩
abbrev main_v146 : Ref sig .tc := ⟨.hbm, 205, rfl⟩
abbrev main_v147 : Ref sig .tc := ⟨.hbm, 206, rfl⟩
abbrev main_c_40 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_cst_41 : Ref sig .tc := ⟨.hbm, 216, rfl⟩
abbrev main_v156 : Ref sig .tc := ⟨.hbm, 217, rfl⟩
abbrev main_c_42 : Ref sig .tc := ⟨.hbm, 218, rfl⟩
abbrev main_v157 : Ref sig .tc := ⟨.hbm, 219, rfl⟩
abbrev main_v158 : Ref sig .tc := ⟨.hbm, 220, rfl⟩
abbrev main_c_43 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_44 : Ref sig .tc := ⟨.hbm, 230, rfl⟩
abbrev main_v167 : Ref sig .tc := ⟨.hbm, 231, rfl⟩
abbrev main_v168 : Ref sig .tc := ⟨.hbm, 232, rfl⟩
abbrev main_cst_45 : Ref sig .tc := ⟨.hbm, 233, rfl⟩
abbrev main_v169 : Ref sig .tc := ⟨.hbm, 234, rfl⟩
abbrev main_cst_46 : Ref sig .tc := ⟨.hbm, 235, rfl⟩
abbrev main_v170 : Ref sig .tc := ⟨.hbm, 236, rfl⟩
abbrev main_v171 : Ref sig .tc := ⟨.hbm, 237, rfl⟩
abbrev main_c_47 : Ref sig .tc := ⟨.hbm, 238, rfl⟩
abbrev main_call2_cst : Ref sig .tc := ⟨.hbm, 239, rfl⟩
abbrev main_call2_v0 : Ref sig .tc := ⟨.hbm, 240, rfl⟩
abbrev main_call2_v1 : Ref sig .tc := ⟨.hbm, 241, rfl⟩
abbrev main_call2_cst_0 : Ref sig .tc := ⟨.hbm, 242, rfl⟩
abbrev main_call2_v2 : Ref sig .tc := ⟨.hbm, 243, rfl⟩
abbrev main_call2_v3 : Ref sig .tc := ⟨.hbm, 244, rfl⟩
abbrev main_call2_v4 : Ref sig .tc := ⟨.hbm, 245, rfl⟩
abbrev main_call2_v5 : Ref sig .tc := ⟨.hbm, 246, rfl⟩
abbrev main_call2_v6 : Ref sig .tc := ⟨.hbm, 247, rfl⟩
abbrev main_call2_v7 : Ref sig .tc := ⟨.hbm, 248, rfl⟩
abbrev main_call2_cst_1 : Ref sig .tc := ⟨.hbm, 249, rfl⟩
abbrev main_call2_v8 : Ref sig .tc := ⟨.hbm, 250, rfl⟩
abbrev main_call2_cst_2 : Ref sig .tc := ⟨.hbm, 251, rfl⟩
abbrev main_call2_v9 : Ref sig .tc := ⟨.hbm, 252, rfl⟩
abbrev main_call2_v10 : Ref sig .tc := ⟨.hbm, 253, rfl⟩
abbrev main_call2_v11 : Ref sig .tc := ⟨.hbm, 254, rfl⟩
abbrev main_call2_cst_3 : Ref sig .tc := ⟨.hbm, 255, rfl⟩
abbrev main_call2_v12 : Ref sig .tc := ⟨.hbm, 256, rfl⟩
abbrev main_call2_cst_4 : Ref sig .tc := ⟨.hbm, 257, rfl⟩
abbrev main_call2_call0_v0 : Ref sig .tc := ⟨.hbm, 258, rfl⟩
abbrev main_call2_call0_v1 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_cst_48 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S200x200 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S200x200 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x200 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x200 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S200x200 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S200x200 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x200 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x200 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x200 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S200x200 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x200 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S400x200_S1x200_S401x200_d0 : Shape.Concatenates [S400x200, S1x200] S401x200 0
  slices_S2x400000_S2x200000_0_0 : S2x400000.Slices ![0, 0] S2x200000
  slices_S2x400000_S2x200000_0_200000 : S2x400000.Slices ![0, 200000] S2x200000
  slices_S400000_S200000_0 : S400000.Slices ![0] S200000
  slices_S400000_S200000_200000 : S400000.Slices ![200000] S200000
  slices_S3x200000_S1x200000_0_0 : S3x200000.Slices ![0, 0] S1x200000
  shapeCasts_S1x200000_S200000 : S1x200000.ShapeCasts S200000
  slices_S3x200000_S1x200000_1_0 : S3x200000.Slices ![1, 0] S1x200000
  slices_S3x200000_S1x200000_2_0 : S3x200000.Slices ![2, 0] S1x200000
  bcast_S_S200000 : S_.BroadcastsInDim S200000 (![] : Fin 0 → Fin S200000.rank)
  bcast_S200000_S200000x1_0 : S200000.BroadcastsInDim S200000x1 (![0] : Fin 1 → Fin S200000x1.rank)
  inb_S5000x200_S5000x200_0_0 : ∀ a, (![0, 0] : Fin 2 → Nat) a + S5000x200.size a ≤ S5000x200.size a
  h_S5000x200 : 0 < S5000x200.numel
  shapeCasts_S5000x200_S5000x200 : S5000x200.ShapeCasts S5000x200
  slices_S5000x200_o0_0_S5000x100 : S5000x200.Slices ![0, 0] S5000x100
  slices_S5000x200_o0_100_S5000x100 : S5000x200.Slices ![0, 100] S5000x100
  concatenates_S5000x100_S5000x100_S5000x200_d1 : Shape.Concatenates [S5000x100, S5000x100] S5000x200 1
  slices_S200000_S100000_0 : S200000.Slices ![0] S100000
  slices_S200000_S100000_100000 : S200000.Slices ![100000] S100000
  slices_S200000x200_S100000x200_0_0 : S200000x200.Slices ![0, 0] S100000x200
  slices_S200000x200_S100000x200_100000_0 : S200000x200.Slices ![100000, 0] S100000x200
  bcast_S_S200000x200 : S_.BroadcastsInDim S200000x200 (![] : Fin 0 → Fin S200000x200.rank)
  bcast_S_S100000 : S_.BroadcastsInDim S100000 (![] : Fin 0 → Fin S100000.rank)
  bcast_S100000_S100000x1_0 : S100000.BroadcastsInDim S100000x1 (![0] : Fin 1 → Fin S100000x1.rank)
  bitsLt_bf16_f32 : FTy.bits .bf16 < FTy.bits .f32
  slices_S2x200000_S1x200000_0_0 : S2x200000.Slices ![0, 0] S1x200000
  slices_S2x200000_S1x200000_1_0 : S2x200000.Slices ![1, 0] S1x200000
  bcast_S_S50000 : S_.BroadcastsInDim S50000 (![] : Fin 0 → Fin S50000.rank)
  inb_S2000x200_S2000x200_0_0 : ∀ a, (![0, 0] : Fin 2 → Nat) a + S2000x200.size a ≤ S2000x200.size a
  h_S2000x200 : 0 < S2000x200.numel
  shapeCasts_S2000x200_S2000x200 : S2000x200.ShapeCasts S2000x200
  inb_S200x200_S200x200_0_0 : ∀ a, (![0, 0] : Fin 2 → Nat) a + S200x200.size a ≤ S200x200.size a
  h_S200x200 : 0 < S200x200.numel
  shapeCasts_S200x200_S200x200 : S200x200.ShapeCasts S200x200
  slices_S2000x200_o0_0_S2000x100 : S2000x200.Slices ![0, 0] S2000x100
  slices_S2000x200_o0_100_S2000x100 : S2000x200.Slices ![0, 100] S2000x100
  concatenates_S2000x100_S2000x100_S2000x200_d1 : Shape.Concatenates [S2000x100, S2000x100] S2000x200 1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x200 : S2000x1.Broadcasts S2000x200
  bcast_S_S50000x200 : S_.BroadcastsInDim S50000x200 (![] : Fin 0 → Fin S50000x200.rank)
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2000x200 : S1x200.Broadcasts S2000x200
  reducesTo_S50000x200_S200_d0 : S50000x200.ReducesTo [0] S200
  h_S_ : 0 < S_.numel
  bcast_S_S200 : S_.BroadcastsInDim S200 (![] : Fin 0 → Fin S200.rank)
  bcast_S200_S1x200_1 : S200.BroadcastsInDim S1x200 (![1] : Fin 1 → Fin S1x200.rank)
  bcast_S_S1x200 : S_.BroadcastsInDim S1x200 (![] : Fin 0 → Fin S1x200.rank)
  bcast_S1x200_S50000x200_0_1 : S1x200.BroadcastsInDim S50000x200 (![0, 1] : Fin 2 → Fin S50000x200.rank)
  slices_S401x200_S400x200_0_0 : S401x200.Slices ![0, 0] S400x200
  gather_S50000x200_S200000x1_S200000x200_1_0_n_n_0_1_1200_wf : GatherDims.WF S50000x200 S200000x1 S200000x200 [1] [0] [] [0] [] 1 ![1, 200]
  gather_S401x200_S200000x1_S200000x200_1_0_n_n_0_1_1200_wf : GatherDims.WF S401x200 S200000x1 S200000x200 [1] [0] [] [0] [] 1 ![1, 200]
  scatter_S200000x200_S100000x1_S100000x200_1_0_0_1_wf : ScatterDims.WF S200000x200 S100000x1 S100000x200 [1] [0] [0] 1
  scatter_S50000_S200000x1_S200000_n_0_0_1_wf : ScatterDims.WF S50000 S200000x1 S200000 [] [0] [0] 1
  gather_S50000_S200000x1_S200000_n_0_n_n_0_1_1_wf : GatherDims.WF S50000 S200000x1 S200000 [] [0] [] [0] [] 1 ![1]
  dot_S2000x200_S200x200_S2000x200_1_0_0_1_n_n_wf : DotDims.WF S2000x200 S200x200 S2000x200 [1] [0] [0] [1] [] []
  scatter_S50000x200_S200000x1_S200000x200_1_0_0_1_wf : ScatterDims.WF S50000x200 S200000x1 S200000x200 [1] [0] [0] 1
  dot_S401x200_S200x200_S401x200_1_0_0_1_n_n_wf : DotDims.WF S401x200 S200x200 S401x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x200.size a ≤ S200000x200.size a
  hwx0_0 : ∀ i : grid0.Coords, EltTy.bits .f32 = 32 ∨ (Rect.block (s := S200000x200) S5000x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x200.size a ≤ S200000x200.size a
  hwx0_1 : ∀ i : grid0.Coords, EltTy.bits .f32 = 32 ∨ (Rect.block (s := S200000x200) S5000x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x200.size a ≤ S200000x200.size a
  hwx0_2 : ∀ i : grid0.Coords, EltTy.bits .f32 = 32 ∨ (Rect.block (s := S200000x200) S5000x200.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x200.size a ≤ S200000x200.size a
  hwx1_0 : ∀ i : grid1.Coords, EltTy.bits .f32 = 32 ∨ (Rect.block (s := S200000x200) S2000x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x200.size a ≤ S200000x200.size a
  hwx1_1 : ∀ i : grid1.Coords, EltTy.bits .f32 = 32 ∨ (Rect.block (s := S200000x200) S2000x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x200.size a ≤ S200000x200.size a
  hwx1_2 : ∀ i : grid1.Coords, EltTy.bits .f32 = 32 ∨ (Rect.block (s := S200000x200) S2000x200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S200000x1.size a
  hwx1_3 : ∀ i : grid1.Coords, EltTy.bits .f32 = 32 ∨ (Rect.block (s := S200000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S200x200.size a ≤ S200x200.size a
  hwx1_4 : ∀ i : grid1.Coords, EltTy.bits .bf16 = 32 ∨ (Rect.block (s := S200x200) S200x200.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S200x200.size a ≤ S200x200.size a
  hwx1_5 : ∀ i : grid1.Coords, EltTy.bits .bf16 = 32 ∨ (Rect.block (s := S200x200) S200x200.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x200.size a ≤ S200000x200.size a
  hwx1_6 : ∀ i : grid1.Coords, EltTy.bits .f32 = 32 ∨ (Rect.block (s := S200000x200) S2000x200.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x200.size a ≤ S200000x200.size a
  hwx2_0 : ∀ i : grid2.Coords, EltTy.bits .f32 = 32 ∨ (Rect.block (s := S200000x200) S2000x200.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x200.size a ≤ S200000x200.size a
  hwx2_1 : ∀ i : grid2.Coords, EltTy.bits .f32 = 32 ∨ (Rect.block (s := S200000x200) S2000x200.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x200.size a ≤ S200000x200.size a
  hwx2_2 : ∀ i : grid2.Coords, EltTy.bits .f32 = 32 ∨ (Rect.block (s := S200000x200) S2000x200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S200000x1.size a
  hwx2_3 : ∀ i : grid2.Coords, EltTy.bits .f32 = 32 ∨ (Rect.block (s := S200000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S200x200.size a ≤ S200x200.size a
  hwx2_4 : ∀ i : grid2.Coords, EltTy.bits .bf16 = 32 ∨ (Rect.block (s := S200x200) S200x200.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S200x200.size a ≤ S200x200.size a
  hwx2_5 : ∀ i : grid2.Coords, EltTy.bits .bf16 = 32 ∨ (Rect.block (s := S200x200) S200x200.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x200.size a ≤ S200000x200.size a
  hwx2_6 : ∀ i : grid2.Coords, EltTy.bits .f32 = 32 ∨ (Rect.block (s := S200000x200) S2000x200.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x200.size a ≤ S50000x200.size a
  hwx3_0 : ∀ i : grid3.Coords, EltTy.bits .f32 = 32 ∨ (Rect.block (s := S50000x200) S2000x200.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x200.size a ≤ S1x200.size a
  hwx3_1 : ∀ i : grid3.Coords, EltTy.bits .f32 = 32 ∨ (Rect.block (s := S1x200) S1x200.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S200x200.size a ≤ S200x200.size a
  hwx3_2 : ∀ i : grid3.Coords, EltTy.bits .bf16 = 32 ∨ (Rect.block (s := S200x200) S200x200.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x200.size a ≤ S50000x200.size a
  hwx3_3 : ∀ i : grid3.Coords, EltTy.bits .f32 = 32 ∨ (Rect.block (s := S50000x200) S2000x200.size (cc3_transform_3 i) (hinb3_3 i)).WholeWords (EltTy.packing .f32)

variable [Facts₀]

def gather_S50000x200_S200000x1_S200000x200_1_0_n_n_0_1_1200 : GatherDims S50000x200 S200000x1 S200000x200 where
  offsetDims := [1]
  collapsedSliceDims := [0]
  operandBatchingDims := []
  startIndicesBatchingDims := []
  startIndexMap := [0]
  indexVectorDim := 1
  sliceSizes := ![1, 200]
  wf := gather_S50000x200_S200000x1_S200000x200_1_0_n_n_0_1_1200_wf
def gather_S401x200_S200000x1_S200000x200_1_0_n_n_0_1_1200 : GatherDims S401x200 S200000x1 S200000x200 where
  offsetDims := [1]
  collapsedSliceDims := [0]
  operandBatchingDims := []
  startIndicesBatchingDims := []
  startIndexMap := [0]
  indexVectorDim := 1
  sliceSizes := ![1, 200]
  wf := gather_S401x200_S200000x1_S200000x200_1_0_n_n_0_1_1200_wf
def scatter_S200000x200_S100000x1_S100000x200_1_0_0_1 : ScatterDims S200000x200 S100000x1 S100000x200 where
  updateWindowDims := [1]
  insertedWindowDims := [0]
  scatterDimsToOperandDims := [0]
  indexVectorDim := 1
  wf := scatter_S200000x200_S100000x1_S100000x200_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000_S200000x1_S200000_n_0_n_n_0_1_1 : GatherDims S50000 S200000x1 S200000 where
  offsetDims := []
  collapsedSliceDims := [0]
  operandBatchingDims := []
  startIndicesBatchingDims := []
  startIndexMap := [0]
  indexVectorDim := 1
  sliceSizes := ![1]
  wf := gather_S50000_S200000x1_S200000_n_0_n_n_0_1_1_wf
def dot_S2000x200_S200x200_S2000x200_1_0_0_1_n_n : DotDims S2000x200 S200x200 S2000x200 where
  lhsContracting := [1]
  rhsContracting := [0]
  lhsNonContracting := [0]
  rhsNonContracting := [1]
  lhsBatch := []
  rhsBatch := []
  wf := dot_S2000x200_S200x200_S2000x200_1_0_0_1_n_n_wf
def scatter_S50000x200_S200000x1_S200000x200_1_0_0_1 : ScatterDims S50000x200 S200000x1 S200000x200 where
  updateWindowDims := [1]
  insertedWindowDims := [0]
  scatterDimsToOperandDims := [0]
  indexVectorDim := 1
  wf := scatter_S50000x200_S200000x1_S200000x200_1_0_0_1_wf
def dot_S401x200_S200x200_S401x200_1_0_0_1_n_n : DotDims S401x200 S200x200 S401x200 where
  lhsContracting := [1]
  rhsContracting := [0]
  lhsNonContracting := [0]
  rhsNonContracting := [1]
  lhsBatch := []
  rhsBatch := []
  wf := dot_S401x200_S200x200_S401x200_1_0_0_1_n_n_wf

abbrev win0_0 : Pipeline.Window sig grid0 :=
  Pipeline.Window.ofSpec (Memref.whole main_v17) S5000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v60) S2000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S2000x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S2000x200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v97) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v46) S200x200.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S200x200.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v98) S2000x200.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v117) S2000x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v124) S2000x200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v154) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v46) S200x200.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S200x200.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v155) S2000x200.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg0) S2000x200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S1x200.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S200x200.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v164) S2000x200.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x200 : Shape := ⟨2, ![50000, 200]⟩
abbrev S2x400000 : Shape := ⟨2, ![2, 400000]⟩
abbrev S400000 : Shape := ⟨1, ![400000]⟩
abbrev S400x200 : Shape := ⟨2, ![400, 200]⟩
abbrev S3x200000 : Shape := ⟨2, ![3, 200000]⟩
abbrev S200x200 : Shape := ⟨2, ![200, 200]⟩
abbrev S1x200 : Shape := ⟨2, ![1, 200]⟩
abbrev S200 : Shape := ⟨1, ![200]⟩
abbrev S401x200 : Shape := ⟨2, ![401, 200]⟩
abbrev S2x200000 : Shape := ⟨2, ![2, 200000]⟩
abbrev S200000 : Shape := ⟨1, ![200000]⟩
abbrev S1x100000 : Shape := ⟨2, ![1, 100000]⟩
abbrev S100000 : Shape := ⟨1, ![100000]⟩
abbrev S1x200000 : Shape := ⟨2, ![1, 200000]⟩
abbrev S_ : Shape := ⟨0, ![]⟩
abbrev S200000x1 : Shape := ⟨2, ![200000, 1]⟩
abbrev S200000x200 : Shape := ⟨2, ![200000, 200]⟩
abbrev S100000x1 : Shape := ⟨2, ![100000, 1]⟩
abbrev S100000x200 : Shape := ⟨2, ![100000, 200]⟩
abbrev S100000x100 : Shape := ⟨2, ![100000, 100]⟩
abbrev S200000x100 : Shape := ⟨2, ![200000, 100]⟩
abbrev S50000 : Shape := ⟨1, ![50000]⟩
abbrev S50000x100 : Shape := ⟨2, ![50000, 100]⟩

abbrev nBuf : Space → Nat
  | .hbm => 371
  | .vmem => 0
  | .smem => 0
  | _ => 0

abbrev hbmTy0_0 (i : Nat) : BufTy := match i % 128 with
  | 0 => ⟨S50000x200, .f32⟩
  | 1 => ⟨S2x400000, .i32⟩
  | 2 => ⟨S400000, .i32⟩
  | 3 => ⟨S400x200, .f32⟩
  | 4 => ⟨S3x200000, .i32⟩
  | 5 => ⟨S200x200, .f32⟩
  | 6 => ⟨S200x200, .f32⟩
  | 7 => ⟨S200x200, .f32⟩
  | 8 => ⟨S200x200, .f32⟩
  | 9 => ⟨S200x200, .f32⟩
  | 10 => ⟨S1x200, .f32⟩
  | 11 => ⟨S200, .f32⟩
  | 12 => ⟨S200, .f32⟩
  | 13 => ⟨S401x200, .f32⟩
  | 14 => ⟨S2x200000, .i32⟩
  | 15 => ⟨S2x200000, .i32⟩
  | 16 => ⟨S200000, .i32⟩
  | 17 => ⟨S200000, .i32⟩
  | 18 => ⟨S1x100000, .i32⟩
  | 19 => ⟨S100000, .i32⟩
  | 20 => ⟨S1x100000, .i32⟩
  | 21 => ⟨S100000, .i32⟩
  | 22 => ⟨S1x100000, .i32⟩
  | 23 => ⟨S100000, .i32⟩
  | 24 => ⟨S1x100000, .i32⟩
  | 25 => ⟨S100000, .i32⟩
  | 26 => ⟨S1x100000, .i32⟩
  | 27 => ⟨S100000, .i32⟩
  | 28 => ⟨S1x100000, .i32⟩
  | 29 => ⟨S100000, .i32⟩
  | 30 => ⟨S1x200000, .i32⟩
  | 31 => ⟨S200000, .i32⟩
  | 32 => ⟨S1x200000, .i32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x200, .f32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x200, .f32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000x200, .f32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x200, .f32⟩
  | 70 => ⟨S100000x100, .f32⟩
  | 71 => ⟨S100000x100, .f32⟩
  | 72 => ⟨S100000x100, .f32⟩
  | 73 => ⟨S100000x100, .f32⟩
  | 74 => ⟨S100000x100, .f32⟩
  | 75 => ⟨S100000x100, .f32⟩
  | 76 => ⟨S100000x100, .f32⟩
  | 77 => ⟨S100000x100, .f32⟩
  | 78 => ⟨S100000x100, .f32⟩
  | 79 => ⟨S100000x100, .f32⟩
  | 80 => ⟨S100000x200, .f32⟩
  | 81 => ⟨S_, .f32⟩
  | 82 => ⟨S200000x200, .f32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S200000x200, .f32⟩
  | 92 => ⟨S_, .f32⟩
  | 93 => ⟨S200000x200, .f32⟩
  | 94 => ⟨S200000x200, .f32⟩
  | 95 => ⟨S200000x200, .f32⟩
  | 96 => ⟨S_, .f32⟩
  | 97 => ⟨S200000x200, .f32⟩
  | 98 => ⟨S200000x200, .f32⟩
  | 99 => ⟨S200000x200, .f32⟩
  | 100 => ⟨S200000x100, .f32⟩
  | 101 => ⟨S200000x100, .f32⟩
  | 102 => ⟨S200000x100, .f32⟩
  | 103 => ⟨S200000x100, .f32⟩
  | 104 => ⟨S200000x100, .f32⟩
  | 105 => ⟨S200000x100, .f32⟩
  | 106 => ⟨S200000x100, .f32⟩
  | 107 => ⟨S200000x100, .f32⟩
  | 108 => ⟨S200000x100, .f32⟩
  | 109 => ⟨S200000x100, .f32⟩
  | 110 => ⟨S200000x200, .f32⟩
  | 111 => ⟨S200000x200, .f32⟩
  | 112 => ⟨S_, .f32⟩
  | 113 => ⟨S50000, .f32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S_, .f32⟩
  | 123 => ⟨S200000, .f32⟩
  | 124 => ⟨S50000, .f32⟩
  | 125 => ⟨S_, .f32⟩
  | 126 => ⟨S50000, .f32⟩
  | 127 => ⟨S50000, .i1⟩
  | _ => ⟨S50000x200, .f32⟩

abbrev hbmTy0_1 (i : Nat) : BufTy := match i % 128 with
  | 0 => ⟨S_, .f32⟩
  | 1 => ⟨S50000, .f32⟩
  | 2 => ⟨S50000, .f32⟩
  | 3 => ⟨S_, .f32⟩
  | 4 => ⟨S_, .f32⟩
  | 5 => ⟨S50000, .f32⟩
  | 6 => ⟨S50000, .f32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000, .f32⟩
  | 16 => ⟨S_, .i32⟩
  | 17 => ⟨S200000, .i32⟩
  | 18 => ⟨S200000, .i1⟩
  | 19 => ⟨S_, .i32⟩
  | 20 => ⟨S200000, .i32⟩
  | 21 => ⟨S200000, .i32⟩
  | 22 => ⟨S200000, .i32⟩
  | 23 => ⟨S200000x1, .i32⟩
  | 24 => ⟨S200000, .f32⟩
  | 25 => ⟨S200000, .f32⟩
  | 26 => ⟨S200000x1, .f32⟩
  | 27 => ⟨S200000x200, .f32⟩
  | 28 => ⟨S200000x200, .f32⟩
  | 29 => ⟨S_, .f32⟩
  | 30 => ⟨S50000x200, .f32⟩
  | 31 => ⟨S_, .i32⟩
  | 32 => ⟨S200000, .i32⟩
  | 33 => ⟨S200000, .i1⟩
  | 34 => ⟨S_, .i32⟩
  | 35 => ⟨S200000, .i32⟩
  | 36 => ⟨S200000, .i32⟩
  | 37 => ⟨S200000, .i32⟩
  | 38 => ⟨S200000x1, .i32⟩
  | 39 => ⟨S50000x200, .f32⟩
  | 40 => ⟨S1x200000, .i32⟩
  | 41 => ⟨S200000, .i32⟩
  | 42 => ⟨S1x200000, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000x200, .f32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x200, .f32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S100000x1, .i32⟩
  | 70 => ⟨S100000x200, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x200, .f32⟩
  | 80 => ⟨S100000x100, .f32⟩
  | 81 => ⟨S100000x100, .f32⟩
  | 82 => ⟨S100000x100, .f32⟩
  | 83 => ⟨S100000x100, .f32⟩
  | 84 => ⟨S100000x100, .f32⟩
  | 85 => ⟨S100000x100, .f32⟩
  | 86 => ⟨S100000x100, .f32⟩
  | 87 => ⟨S100000x100, .f32⟩
  | 88 => ⟨S100000x100, .f32⟩
  | 89 => ⟨S100000x100, .f32⟩
  | 90 => ⟨S100000x200, .f32⟩
  | 91 => ⟨S_, .f32⟩
  | 92 => ⟨S200000x200, .f32⟩
  | 93 => ⟨S_, .i32⟩
  | 94 => ⟨S100000, .i32⟩
  | 95 => ⟨S100000, .i1⟩
  | 96 => ⟨S_, .i32⟩
  | 97 => ⟨S100000, .i32⟩
  | 98 => ⟨S100000, .i32⟩
  | 99 => ⟨S100000, .i32⟩
  | 100 => ⟨S100000x1, .i32⟩
  | 101 => ⟨S200000x200, .f32⟩
  | 102 => ⟨S_, .f32⟩
  | 103 => ⟨S200000x200, .f32⟩
  | 104 => ⟨S200000x200, .f32⟩
  | 105 => ⟨S200000x200, .f32⟩
  | 106 => ⟨S_, .f32⟩
  | 107 => ⟨S200000x200, .f32⟩
  | 108 => ⟨S200000x200, .f32⟩
  | 109 => ⟨S200000x200, .f32⟩
  | 110 => ⟨S200000x100, .f32⟩
  | 111 => ⟨S200000x100, .f32⟩
  | 112 => ⟨S200000x100, .f32⟩
  | 113 => ⟨S200000x100, .f32⟩
  | 114 => ⟨S200000x100, .f32⟩
  | 115 => ⟨S200000x100, .f32⟩
  | 116 => ⟨S200000x100, .f32⟩
  | 117 => ⟨S200000x100, .f32⟩
  | 118 => ⟨S200000x100, .f32⟩
  | 119 => ⟨S200000x100, .f32⟩
  | 120 => ⟨S200000x200, .f32⟩
  | 121 => ⟨S200000x200, .f32⟩
  | 122 => ⟨S_, .f32⟩
  | 123 => ⟨S50000, .f32⟩
  | 124 => ⟨S_, .i32⟩
  | 125 => ⟨S200000, .i32⟩
  | 126 => ⟨S200000, .i1⟩
  | 127 => ⟨S_, .i32⟩
  | _ => ⟨S50000x200, .f32⟩

abbrev hbmTy0_2 (i : Nat) : BufTy := match i % 128 with
  | 0 => ⟨S200000, .i32⟩
  | 1 => ⟨S200000, .i32⟩
  | 2 => ⟨S200000, .i32⟩
  | 3 => ⟨S200000x1, .i32⟩
  | 4 => ⟨S_, .f32⟩
  | 5 => ⟨S200000, .f32⟩
  | 6 => ⟨S50000, .f32⟩
  | 7 => ⟨S_, .f32⟩
  | 8 => ⟨S50000, .f32⟩
  | 9 => ⟨S50000, .i1⟩
  | 10 => ⟨S_, .f32⟩
  | 11 => ⟨S50000, .f32⟩
  | 12 => ⟨S50000, .f32⟩
  | 13 => ⟨S_, .f32⟩
  | 14 => ⟨S_, .f32⟩
  | 15 => ⟨S50000, .f32⟩
  | 16 => ⟨S50000, .f32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000, .f32⟩
  | 35 => ⟨S200000, .f32⟩
  | 36 => ⟨S200000x1, .f32⟩
  | 37 => ⟨S200000x200, .f32⟩
  | 38 => ⟨S200000x200, .f32⟩
  | 39 => ⟨S_, .f32⟩
  | 40 => ⟨S50000x200, .f32⟩
  | 41 => ⟨S_, .i32⟩
  | 42 => ⟨S200000, .i32⟩
  | 43 => ⟨S200000, .i1⟩
  | 44 => ⟨S_, .i32⟩
  | 45 => ⟨S200000, .i32⟩
  | 46 => ⟨S200000, .i32⟩
  | 47 => ⟨S200000, .i32⟩
  | 48 => ⟨S200000x1, .i32⟩
  | 49 => ⟨S50000x200, .f32⟩
  | 50 => ⟨S50000x200, .f32⟩
  | 51 => ⟨S50000x100, .f32⟩
  | 52 => ⟨S50000x100, .f32⟩
  | 53 => ⟨S50000x100, .f32⟩
  | 54 => ⟨S50000x100, .f32⟩
  | 55 => ⟨S50000x100, .f32⟩
  | 56 => ⟨S50000x100, .f32⟩
  | 57 => ⟨S50000x100, .f32⟩
  | 58 => ⟨S50000x100, .f32⟩
  | 59 => ⟨S50000x100, .f32⟩
  | 60 => ⟨S50000x100, .f32⟩
  | 61 => ⟨S50000x200, .f32⟩
  | 62 => ⟨S50000x200, .f32⟩
  | 63 => ⟨S50000x200, .f32⟩
  | 64 => ⟨S50000x200, .f32⟩
  | 65 => ⟨S_, .f32⟩
  | 66 => ⟨S50000x200, .f32⟩
  | 67 => ⟨S50000x200, .f32⟩
  | 68 => ⟨S_, .f32⟩
  | 69 => ⟨S200, .f32⟩
  | 70 => ⟨S_, .f32⟩
  | 71 => ⟨S200, .f32⟩
  | 72 => ⟨S200, .f32⟩
  | 73 => ⟨S_, .i32⟩
  | 74 => ⟨S_, .f32⟩
  | 75 => ⟨S200, .f32⟩
  | 76 => ⟨S1x200, .f32⟩
  | 77 => ⟨S_, .f32⟩
  | 78 => ⟨S1x200, .f32⟩
  | 79 => ⟨S1x200, .f32⟩
  | 80 => ⟨S50000x200, .f32⟩
  | 81 => ⟨S50000x200, .f32⟩
  | 82 => ⟨S50000x200, .f32⟩
  | 83 => ⟨S_, .f32⟩
  | 84 => ⟨S_, .f32⟩
  | 85 => ⟨S_, .f32⟩
  | 86 => ⟨S_, .f32⟩
  | 87 => ⟨S200, .f32⟩
  | 88 => ⟨S200, .f32⟩
  | 89 => ⟨S200, .f32⟩
  | 90 => ⟨S_, .f32⟩
  | 91 => ⟨S_, .i1⟩
  | 92 => ⟨S_, .f32⟩
  | 93 => ⟨S_, .f32⟩
  | 94 => ⟨S200, .f32⟩
  | 95 => ⟨S200, .f32⟩
  | 96 => ⟨S1x200, .f32⟩
  | 97 => ⟨S50000x200, .f32⟩
  | 98 => ⟨S50000x200, .f32⟩
  | 99 => ⟨S_, .f32⟩
  | 100 => ⟨S200, .f32⟩
  | 101 => ⟨S200, .f32⟩
  | 102 => ⟨S200, .f32⟩
  | 103 => ⟨S1x200, .f32⟩
  | 104 => ⟨S50000x200, .f32⟩
  | 105 => ⟨S50000x200, .f32⟩
  | 106 => ⟨S1x200, .f32⟩
  | 107 => ⟨S50000x200, .f32⟩
  | 108 => ⟨S50000x200, .f32⟩
  | 109 => ⟨S1x200, .f32⟩
  | 110 => ⟨S50000x200, .f32⟩
  | 111 => ⟨S50000x200, .f32⟩
  | 112 => ⟨S50000x200, .f32⟩
  | 113 => ⟨S401x200, .f32⟩
  | 114 => ⟨S400x200, .f32⟩
  | _ => ⟨S50000x200, .f32⟩

abbrev hbmTy (i : Nat) : BufTy := match i / 128 with
  | 0 => hbmTy0_0 i
  | 1 => hbmTy0_1 i
  | 2 => hbmTy0_2 i
  | _ => ⟨S50000x200, .f32⟩

abbrev bufTy : (tb : Table) → Fin (tcTables nBuf tb) → BufTy
  | .hbm, ⟨i, _⟩ => hbmTy i
  | _, _ => ⟨S50000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_1 : Ref sig .tc := ⟨.hbm, 43, rfl⟩
abbrev main_v28 : Ref sig .tc := ⟨.hbm, 44, rfl⟩
abbrev main_v29 : Ref sig .tc := ⟨.hbm, 45, rfl⟩
abbrev main_c_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_3 : Ref sig .tc := ⟨.hbm, 52, rfl⟩
abbrev main_v35 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_5 : Ref sig .tc := ⟨.hbm, 61, rfl⟩
abbrev main_v42 : Ref sig .tc := ⟨.hbm, 62, rfl⟩
abbrev main_v43 : Ref sig .tc := ⟨.hbm, 63, rfl⟩
abbrev main_c_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst : Ref sig .tc := ⟨.hbm, 81, rfl⟩
abbrev main_v60 : Ref sig .tc := ⟨.hbm, 82, rfl⟩
abbrev main_c_7 : Ref sig .tc := ⟨.hbm, 83, rfl⟩
abbrev main_v61 : Ref sig .tc := ⟨.hbm, 84, rfl⟩
abbrev main_v62 : Ref sig .tc := ⟨.hbm, 85, rfl⟩
abbrev main_c_8 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_9 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_11 : Ref sig .tc := ⟨.hbm, 112, rfl⟩
abbrev main_v86 : Ref sig .tc := ⟨.hbm, 113, rfl⟩
abbrev main_c_12 : Ref sig .tc := ⟨.hbm, 114, rfl⟩
abbrev main_v87 : Ref sig .tc := ⟨.hbm, 115, rfl⟩
abbrev main_v88 : Ref sig .tc := ⟨.hbm, 116, rfl⟩
abbrev main_c_13 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_14 : Ref sig .tc := ⟨.hbm, 122, rfl⟩
abbrev main_v93 : Ref sig .tc := ⟨.hbm, 123, rfl⟩
abbrev main_v94 : Ref sig .tc := ⟨.hbm, 124, rfl⟩
abbrev main_cst_15 : Ref sig .tc := ⟨.hbm, 125, rfl⟩
abbrev main_v95 : Ref sig .tc := ⟨.hbm, 126, rfl⟩
abbrev main_v96 : Ref sig .tc := ⟨.hbm, 127, rfl⟩
abbrev main_cst_16 : Ref sig .tc := ⟨.hbm, 128, rfl⟩
abbrev main_v97 : Ref sig .tc := ⟨.hbm, 129, rfl⟩
abbrev main_v98 : Ref sig .tc := ⟨.hbm, 130, rfl⟩
abbrev main_cst_17 : Ref sig .tc := ⟨.hbm, 131, rfl⟩
abbrev main_call0_v0 : Ref sig .tc := ⟨.hbm, 132, rfl⟩
abbrev main_call0_v1 : Ref sig .tc := ⟨.hbm, 133, rfl⟩
abbrev main_v99 : Ref sig .tc := ⟨.hbm, 134, rfl⟩
abbrev main_c_18 : Ref sig .tc := ⟨.hbm, 135, rfl⟩
abbrev main_v100 : Ref sig .tc := ⟨.hbm, 136, rfl⟩
abbrev main_v101 : Ref sig .tc := ⟨.hbm, 137, rfl⟩
abbrev main_c_19 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_20 : Ref sig .tc := ⟨.hbm, 144, rfl⟩
abbrev main_v107 : Ref sig .tc := ⟨.hbm, 145, rfl⟩
abbrev main_v108 : Ref sig .tc := ⟨.hbm, 146, rfl⟩
abbrev main_c_21 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_22 : Ref sig .tc := ⟨.hbm, 157, rfl⟩
abbrev main_v118 : Ref sig .tc := ⟨.hbm, 158, rfl⟩
abbrev main_c_23 : Ref sig .tc := ⟨.hbm, 159, rfl⟩
abbrev main_v119 : Ref sig .tc := ⟨.hbm, 160, rfl⟩
abbrev main_v120 : Ref sig .tc := ⟨.hbm, 161, rfl⟩
abbrev main_c_24 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_c_25 : Ref sig .tc := ⟨.hbm, 172, rfl⟩
abbrev main_v130 : Ref sig .tc := ⟨.hbm, 173, rfl⟩
abbrev main_v131 : Ref sig .tc := ⟨.hbm, 174, rfl⟩
abbrev main_c_26 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_c_27 : Ref sig .tc := ⟨.hbm, 181, rfl⟩
abbrev main_v137 : Ref sig .tc := ⟨.hbm, 182, rfl⟩
abbrev main_v138 : Ref sig .tc := ⟨.hbm, 183, rfl⟩
abbrev main_c_28 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_c_29 : Ref sig .tc := ⟨.hbm, 190, rfl⟩
abbrev main_v144 : Ref sig .tc := ⟨.hbm, 191, rfl⟩
abbrev main_v145 : Ref sig .tc := ⟨.hbm, 192, rfl⟩
abbrev main_c_30 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_c_31 : Ref sig .tc := ⟨.hbm, 199, rfl⟩
abbrev main_v151 : Ref sig .tc := ⟨.hbm, 200, rfl⟩
abbrev main_v152 : Ref sig .tc := ⟨.hbm, 201, rfl⟩
abbrev main_c_32 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_cst_33 : Ref sig .tc := ⟨.hbm, 219, rfl⟩
abbrev main_v169 : Ref sig .tc := ⟨.hbm, 220, rfl⟩
abbrev main_c_34 : Ref sig .tc := ⟨.hbm, 221, rfl⟩
abbrev main_v170 : Ref sig .tc := ⟨.hbm, 222, rfl⟩
abbrev main_v171 : Ref sig .tc := ⟨.hbm, 223, rfl⟩
abbrev main_c_35 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_cst_36 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_cst_37 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_cst_38 : Ref sig .tc := ⟨.hbm, 250, rfl⟩
abbrev main_v195 : Ref sig .tc := ⟨.hbm, 251, rfl⟩
abbrev main_c_39 : Ref sig .tc := ⟨.hbm, 252, rfl⟩
abbrev main_v196 : Ref sig .tc := ⟨.hbm, 253, rfl⟩
abbrev main_v197 : Ref sig .tc := ⟨.hbm, 254, rfl⟩
abbrev main_c_40 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_cst_41 : Ref sig .tc := ⟨.hbm, 260, rfl⟩
abbrev main_v202 : Ref sig .tc := ⟨.hbm, 261, rfl⟩
abbrev main_v203 : Ref sig .tc := ⟨.hbm, 262, rfl⟩
abbrev main_cst_42 : Ref sig .tc := ⟨.hbm, 263, rfl⟩
abbrev main_v204 : Ref sig .tc := ⟨.hbm, 264, rfl⟩
abbrev main_v205 : Ref sig .tc := ⟨.hbm, 265, rfl⟩
abbrev main_cst_43 : Ref sig .tc := ⟨.hbm, 266, rfl⟩
abbrev main_v206 : Ref sig .tc := ⟨.hbm, 267, rfl⟩
abbrev main_v207 : Ref sig .tc := ⟨.hbm, 268, rfl⟩
abbrev main_cst_44 : Ref sig .tc := ⟨.hbm, 269, rfl⟩
abbrev main_call1_v0 : Ref sig .tc := ⟨.hbm, 270, rfl⟩
abbrev main_call1_v1 : Ref sig .tc := ⟨.hbm, 271, rfl⟩
abbrev main_v208 : Ref sig .tc := ⟨.hbm, 272, rfl⟩
abbrev main_c_45 : Ref sig .tc := ⟨.hbm, 273, rfl⟩
abbrev main_v209 : Ref sig .tc := ⟨.hbm, 274, rfl⟩
abbrev main_v210 : Ref sig .tc := ⟨.hbm, 275, rfl⟩
abbrev main_c_46 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_c_47 : Ref sig .tc := ⟨.hbm, 282, rfl⟩
abbrev main_v216 : Ref sig .tc := ⟨.hbm, 283, rfl⟩
abbrev main_v217 : Ref sig .tc := ⟨.hbm, 284, rfl⟩
abbrev main_c_48 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_cst_49 : Ref sig .tc := ⟨.hbm, 295, rfl⟩
abbrev main_v227 : Ref sig .tc := ⟨.hbm, 296, rfl⟩
abbrev main_c_50 : Ref sig .tc := ⟨.hbm, 297, rfl⟩
abbrev main_v228 : Ref sig .tc := ⟨.hbm, 298, rfl⟩
abbrev main_v229 : Ref sig .tc := ⟨.hbm, 299, rfl⟩
abbrev main_c_51 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_cst_52 : Ref sig .tc := ⟨.hbm, 321, rfl⟩
abbrev main_v250 : Ref sig .tc := ⟨.hbm, 322, rfl⟩
abbrev main_v251 : Ref sig .tc := ⟨.hbm, 323, rfl⟩
abbrev main_cst_53 : Ref sig .tc := ⟨.hbm, 324, rfl⟩
abbrev main_v252 : Ref sig .tc := ⟨.hbm, 325, rfl⟩
abbrev main_cst_54 : Ref sig .tc := ⟨.hbm, 326, rfl⟩
abbrev main_v253 : Ref sig .tc := ⟨.hbm, 327, rfl⟩
abbrev main_v254 : Ref sig .tc := ⟨.hbm, 328, rfl⟩
abbrev main_c_55 : Ref sig .tc := ⟨.hbm, 329, rfl⟩
abbrev main_call2_cst : Ref sig .tc := ⟨.hbm, 330, rfl⟩
abbrev main_call2_v0 : Ref sig .tc := ⟨.hbm, 331, rfl⟩
abbrev main_call2_v1 : Ref sig .tc := ⟨.hbm, 332, rfl⟩
abbrev main_call2_cst_0 : Ref sig .tc := ⟨.hbm, 333, rfl⟩
abbrev main_call2_v2 : Ref sig .tc := ⟨.hbm, 334, rfl⟩
abbrev main_call2_v3 : Ref sig .tc := ⟨.hbm, 335, rfl⟩
abbrev main_call2_v4 : Ref sig .tc := ⟨.hbm, 336, rfl⟩
abbrev main_call2_v5 : Ref sig .tc := ⟨.hbm, 337, rfl⟩
abbrev main_call2_v6 : Ref sig .tc := ⟨.hbm, 338, rfl⟩
abbrev main_call2_v7 : Ref sig .tc := ⟨.hbm, 339, rfl⟩
abbrev main_call2_cst_1 : Ref sig .tc := ⟨.hbm, 340, rfl⟩
abbrev main_call2_v8 : Ref sig .tc := ⟨.hbm, 341, rfl⟩
abbrev main_call2_cst_2 : Ref sig .tc := ⟨.hbm, 342, rfl⟩
abbrev main_call2_v9 : Ref sig .tc := ⟨.hbm, 343, rfl⟩
abbrev main_call2_v10 : Ref sig .tc := ⟨.hbm, 344, rfl⟩
abbrev main_call2_v11 : Ref sig .tc := ⟨.hbm, 345, rfl⟩
abbrev main_call2_cst_3 : Ref sig .tc := ⟨.hbm, 346, rfl⟩
abbrev main_call2_v12 : Ref sig .tc := ⟨.hbm, 347, rfl⟩
abbrev main_call2_cst_4 : Ref sig .tc := ⟨.hbm, 348, rfl⟩
abbrev main_call2_call0_v0 : Ref sig .tc := ⟨.hbm, 349, rfl⟩
abbrev main_call2_call0_v1 : Ref sig .tc := ⟨.hbm, 350, rfl⟩
abbrev main_v255 : Ref sig .tc := ⟨.hbm, 351, rfl⟩
abbrev main_v256 : Ref sig .tc := ⟨.hbm, 352, rfl⟩
abbrev main_v257 : Ref sig .tc := ⟨.hbm, 353, rfl⟩
abbrev main_v258 : Ref sig .tc := ⟨.hbm, 354, rfl⟩
abbrev main_cst_56 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_v264 : Ref sig .tc := ⟨.hbm, 361, rfl⟩
abbrev main_v265 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_v272 : Ref sig .tc := ⟨.hbm, 369, rfl⟩
abbrev main_v273 : Ref sig .tc := ⟨.hbm, 370, rfl⟩

abbrev nD : Nat := 1
abbrev τ : Topo := Topo.v7x

variable {F : FTy → Type} [FloatOps F]

class Facts₀ : Prop where
  concatenates_S400x200_S1x200_S401x200_d0 : Shape.Concatenates [S400x200, S1x200] S401x200 0
  slices_S2x400000_S2x200000_0_0 : S2x400000.Slices ![0, 0] S2x200000
  slices_S2x400000_S2x200000_0_200000 : S2x400000.Slices ![0, 200000] S2x200000
  slices_S400000_S200000_0 : S400000.Slices ![0] S200000
  slices_S400000_S200000_200000 : S400000.Slices ![200000] S200000
  slices_S3x200000_S1x100000_0_0 : S3x200000.Slices ![0, 0] S1x100000
  shapeCasts_S1x100000_S100000 : S1x100000.ShapeCasts S100000
  slices_S3x200000_S1x100000_0_100000 : S3x200000.Slices ![0, 100000] S1x100000
  slices_S3x200000_S1x100000_1_0 : S3x200000.Slices ![1, 0] S1x100000
  slices_S3x200000_S1x100000_1_100000 : S3x200000.Slices ![1, 100000] S1x100000
  slices_S3x200000_S1x100000_2_0 : S3x200000.Slices ![2, 0] S1x100000
  slices_S3x200000_S1x100000_2_100000 : S3x200000.Slices ![2, 100000] S1x100000
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S100000 : S_.BroadcastsInDim S100000 (![] : Fin 0 → Fin S100000.rank)
  bcast_S100000_S100000x1_0 : S100000.BroadcastsInDim S100000x1 (![0] : Fin 1 → Fin S100000x1.rank)
  slices_S100000x200_S100000x100_0_0 : S100000x200.Slices ![0, 0] S100000x100
  slices_S100000x200_S100000x100_0_100 : S100000x200.Slices ![0, 100] S100000x100
  concatenates_S100000x100_S100000x100_S100000x200_d1 : Shape.Concatenates [S100000x100, S100000x100] S100000x200 1
  bcast_S_S200000x200 : S_.BroadcastsInDim S200000x200 (![] : Fin 0 → Fin S200000x200.rank)
  slices_S200000x200_S200000x100_0_0 : S200000x200.Slices ![0, 0] S200000x100
  slices_S200000x200_S200000x100_0_100 : S200000x200.Slices ![0, 100] S200000x100
  concatenates_S200000x100_S200000x100_S200000x200_d1 : Shape.Concatenates [S200000x100, S200000x100] S200000x200 1
  bcast_S_S50000 : S_.BroadcastsInDim S50000 (![] : Fin 0 → Fin S50000.rank)
  bcast_S200000x1_S200000x200_0_1 : S200000x1.BroadcastsInDim S200000x200 (![0, 1] : Fin 2 → Fin S200000x200.rank)
  bcast_S_S50000x200 : S_.BroadcastsInDim S50000x200 (![] : Fin 0 → Fin S50000x200.rank)
  bcast_S1x200_S50000x200_0_1 : S1x200.BroadcastsInDim S50000x200 (![0, 1] : Fin 2 → Fin S50000x200.rank)
  slices_S50000x200_S50000x100_0_0 : S50000x200.Slices ![0, 0] S50000x100
  slices_S50000x200_S50000x100_0_100 : S50000x200.Slices ![0, 100] S50000x100
  concatenates_S50000x100_S50000x100_S50000x200_d1 : Shape.Concatenates [S50000x100, S50000x100] S50000x200 1
  reducesTo_S50000x200_S200_d0 : S50000x200.ReducesTo [0] S200
  h_S_ : 0 < S_.numel
  bcast_S_S200 : S_.BroadcastsInDim S200 (![] : Fin 0 → Fin S200.rank)
  bcast_S200_S1x200_1 : S200.BroadcastsInDim S1x200 (![1] : Fin 1 → Fin S1x200.rank)
  bcast_S_S1x200 : S_.BroadcastsInDim S1x200 (![] : Fin 0 → Fin S1x200.rank)
  slices_S401x200_S400x200_0_0 : S401x200.Slices ![0, 0] S400x200
  gather_S50000x200_S200000x1_S200000x200_1_0_n_n_0_1_1200_wf : GatherDims.WF S50000x200 S200000x1 S200000x200 [1] [0] [] [0] [] 1 ![1, 200]
  gather_S401x200_S200000x1_S200000x200_1_0_n_n_0_1_1200_wf : GatherDims.WF S401x200 S200000x1 S200000x200 [1] [0] [] [0] [] 1 ![1, 200]
  gather_S50000x200_S100000x1_S100000x200_1_0_n_n_0_1_1200_wf : GatherDims.WF S50000x200 S100000x1 S100000x200 [1] [0] [] [0] [] 1 ![1, 200]
  gather_S401x200_S100000x1_S100000x200_1_0_n_n_0_1_1200_wf : GatherDims.WF S401x200 S100000x1 S100000x200 [1] [0] [] [0] [] 1 ![1, 200]
  scatter_S200000x200_S100000x1_S100000x200_1_0_0_1_wf : ScatterDims.WF S200000x200 S100000x1 S100000x200 [1] [0] [0] 1
  dot_S200000x200_S200x200_S200000x200_1_0_0_1_n_n_wf : DotDims.WF S200000x200 S200x200 S200000x200 [1] [0] [0] [1] [] []
  scatter_S50000_S200000x1_S200000_n_0_0_1_wf : ScatterDims.WF S50000 S200000x1 S200000 [] [0] [0] 1
  gather_S50000_S200000x1_S200000_n_0_n_n_0_1_1_wf : GatherDims.WF S50000 S200000x1 S200000 [] [0] [] [0] [] 1 ![1]
  scatter_S50000x200_S200000x1_S200000x200_1_0_0_1_wf : ScatterDims.WF S50000x200 S200000x1 S200000x200 [1] [0] [0] 1
  dot_S50000x200_S200x200_S50000x200_1_0_0_1_n_n_wf : DotDims.WF S50000x200 S200x200 S50000x200 [1] [0] [0] [1] [] []
  dot_S401x200_S200x200_S401x200_1_0_0_1_n_n_wf : DotDims.WF S401x200 S200x200 S401x200 [1] [0] [0] [1] [] []

variable [Facts₀]

def gather_S50000x200_S200000x1_S200000x200_1_0_n_n_0_1_1200 : GatherDims S50000x200 S200000x1 S200000x200 where
  offsetDims := [1]
  collapsedSliceDims := [0]
  operandBatchingDims := []
  startIndicesBatchingDims := []
  startIndexMap := [0]
  indexVectorDim := 1
  sliceSizes := ![1, 200]
  wf := gather_S50000x200_S200000x1_S200000x200_1_0_n_n_0_1_1200_wf
def gather_S401x200_S200000x1_S200000x200_1_0_n_n_0_1_1200 : GatherDims S401x200 S200000x1 S200000x200 where
  offsetDims := [1]
  collapsedSliceDims := [0]
  operandBatchingDims := []
  startIndicesBatchingDims := []
  startIndexMap := [0]
  indexVectorDim := 1
  sliceSizes := ![1, 200]
  wf := gather_S401x200_S200000x1_S200000x200_1_0_n_n_0_1_1200_wf
def gather_S50000x200_S100000x1_S100000x200_1_0_n_n_0_1_1200 : GatherDims S50000x200 S100000x1 S100000x200 where
  offsetDims := [1]
  collapsedSliceDims := [0]
  operandBatchingDims := []
  startIndicesBatchingDims := []
  startIndexMap := [0]
  indexVectorDim := 1
  sliceSizes := ![1, 200]
  wf := gather_S50000x200_S100000x1_S100000x200_1_0_n_n_0_1_1200_wf
def gather_S401x200_S100000x1_S100000x200_1_0_n_n_0_1_1200 : GatherDims S401x200 S100000x1 S100000x200 where
  offsetDims := [1]
  collapsedSliceDims := [0]
  operandBatchingDims := []
  startIndicesBatchingDims := []
  startIndexMap := [0]
  indexVectorDim := 1
  sliceSizes := ![1, 200]
  wf := gather_S401x200_S100000x1_S100000x200_1_0_n_n_0_1_1200_wf
def scatter_S200000x200_S100000x1_S100000x200_1_0_0_1 : ScatterDims S200000x200 S100000x1 S100000x200 where
  updateWindowDims := [1]
  insertedWindowDims := [0]
  scatterDimsToOperandDims := [0]
  indexVectorDim := 1
  wf := scatter_S200000x200_S100000x1_S100000x200_1_0_0_1_wf
def dot_S200000x200_S200x200_S200000x200_1_0_0_1_n_n : DotDims S200000x200 S200x200 S200000x200 where
  lhsContracting := [1]
  rhsContracting := [0]
  lhsNonContracting := [0]
  rhsNonContracting := [1]
  lhsBatch := []
  rhsBatch := []
  wf := dot_S200000x200_S200x200_S200000x200_1_0_0_1_n_n_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000_S200000x1_S200000_n_0_n_n_0_1_1 : GatherDims S50000 S200000x1 S200000 where
  offsetDims := []
  collapsedSliceDims := [0]
  operandBatchingDims := []
  startIndicesBatchingDims := []
  startIndexMap := [0]
  indexVectorDim := 1
  sliceSizes := ![1]
  wf := gather_S50000_S200000x1_S200000_n_0_n_n_0_1_1_wf
def scatter_S50000x200_S200000x1_S200000x200_1_0_0_1 : ScatterDims S50000x200 S200000x1 S200000x200 where
  updateWindowDims := [1]
  insertedWindowDims := [0]
  scatterDimsToOperandDims := [0]
  indexVectorDim := 1
  wf := scatter_S50000x200_S200000x1_S200000x200_1_0_0_1_wf
def dot_S50000x200_S200x200_S50000x200_1_0_0_1_n_n : DotDims S50000x200 S200x200 S50000x200 where
  lhsContracting := [1]
  rhsContracting := [0]
  lhsNonContracting := [0]
  rhsNonContracting := [1]
  lhsBatch := []
  rhsBatch := []
  wf := dot_S50000x200_S200x200_S50000x200_1_0_0_1_n_n_wf
def dot_S401x200_S200x200_S401x200_1_0_0_1_n_n : DotDims S401x200 S200x200 S401x200 where
  lhsContracting := [1]
  rhsContracting := [0]
  lhsNonContracting := [0]
  rhsNonContracting := [1]
  lhsBatch := []
  rhsBatch := []
  wf := dot_S401x200_S200x200_S401x200_1_0_0_1_n_n_wf

class Facts : Prop extends Facts₀ where

variable [Facts]
-- ==== Proof.KerRun.lean ====
/-
  The idealized kernel program's run with its two results named: every weakly fair execution of @main terminates, nothing
  faulting, the two result buffers hold what the last segment boundary's contents hold there — the fold of the host stretches
  and the regions' write-backs from the launch memory — and the argument arrays end as launched. The frame's own argument over
  the fifteen segments, read at two more buffers of the final state.
-/
import proofs.«143578_j52467320487979_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the two results at the last boundary's contents and the arguments unchanged. -/
theorem run_fold : θ_run defs (onTc (τ := τ) (main (F := F))) ⟨m, fun _ => 0, ρ⟩ (fun r => ∀ c : Dev nD,
      r.2.mem ((c.tc : Thread nD τ).loc main_v188) = W15 m ρ c (Proc.devRef .tc main_v188)
      ∧ r.2.mem ((c.tc : Thread nD τ).loc main_v190) = W15 m ρ c (Proc.devRef .tc main_v190)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v188 (by decide)),
       h c _ (mem_uc main_v190 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

end Cert.KernelIdeal.KerRun

end
-- ==== Proof.Stages.lean ====
/-
  The computation both programs perform, cut into named stages, each stage one pure function of arrays: the relation table,
  the two halves of the edge list and of the qualifiers, the gathers, the complex rotation, the qualifiers' scatter-add, the
  relation embedding, the two matrix products, the degree normalisation, the aggregation, the self-loop term and the closing
  batch normalisation. Each definition is the composition of the host operations that compute that stage, in the order the
  reference program applies them, so that a run of either program reads its buffers back as these functions of its arguments.
-/
import proofs.«143578_j52467320487979_1_alg».proof.Proof.Gen.ReferenceIdeal

set_option maxRecDepth 8192

noncomputable section

namespace Cert.Stage

open Idealize.ShloMosaic Cert.ReferenceIdeal Cert.ReferenceIdeal.Facts₀

variable {F : FTy → Type} [FloatOps F]

/-- The relation table with the loop relation appended as its last row. -/
def relAll (a3 : FVec F S400x200 .f32) (a10 : FVec F S1x200 .f32) : FVec F S401x200 .f32 :=
  concatenate S401x200 0 [⟨S400x200, (a3)⟩, ⟨S1x200, (a10)⟩] concatenates_S400x200_S1x200_S401x200_d0

/-- The first half of the edge list (the incoming direction's rows and columns). -/
def edgeIn (a1 : IVec S2x400000 32) : IVec S2x200000 32 :=
  extractStridedSlice S2x200000 ![0, 0] (a1) slices_S2x400000_S2x200000_0_0

/-- The second half of the edge list. -/
def edgeOut (a1 : IVec S2x400000 32) : IVec S2x200000 32 :=
  extractStridedSlice S2x200000 ![0, 200000] (a1) slices_S2x400000_S2x200000_0_200000

/-- The first half of the edge types. -/
def typeIn (a2 : IVec S400000 32) : IVec S200000 32 :=
  extractStridedSlice S200000 ![0] (a2) slices_S400000_S200000_0

/-- The second half of the edge types. -/
def typeOut (a2 : IVec S400000 32) : IVec S200000 32 :=
  extractStridedSlice S200000 ![200000] (a2) slices_S400000_S200000_200000

/-- The qualifier relations of the first direction. -/
def qRel0 (a4 : IVec S3x200000 32) : IVec S100000 32 :=
  shapeCast _ (extractStridedSlice S1x100000 ![0, 0] (a4) slices_S3x200000_S1x100000_0_0) shapeCasts_S1x100000_S100000

/-- The qualifier relations of the second direction. -/
def qRel1 (a4 : IVec S3x200000 32) : IVec S100000 32 :=
  shapeCast _ (extractStridedSlice S1x100000 ![0, 100000] (a4) slices_S3x200000_S1x100000_0_100000) shapeCasts_S1x100000_S100000

/-- The qualifier entities of the first direction. -/
def qEnt0 (a4 : IVec S3x200000 32) : IVec S100000 32 :=
  shapeCast _ (extractStridedSlice S1x100000 ![1, 0] (a4) slices_S3x200000_S1x100000_1_0) shapeCasts_S1x100000_S100000

/-- The qualifier entities of the second direction. -/
def qEnt1 (a4 : IVec S3x200000 32) : IVec S100000 32 :=
  shapeCast _ (extractStridedSlice S1x100000 ![1, 100000] (a4) slices_S3x200000_S1x100000_1_100000) shapeCasts_S1x100000_S100000

/-- The edge each qualifier of the first direction belongs to. -/
def qIdx0 (a4 : IVec S3x200000 32) : IVec S100000 32 :=
  shapeCast _ (extractStridedSlice S1x100000 ![2, 0] (a4) slices_S3x200000_S1x100000_2_0) shapeCasts_S1x100000_S100000

/-- The edge each qualifier of the second direction belongs to. -/
def qIdx1 (a4 : IVec S3x200000 32) : IVec S100000 32 :=
  shapeCast _ (extractStridedSlice S1x100000 ![2, 100000] (a4) slices_S3x200000_S1x100000_2_100000) shapeCasts_S1x100000_S100000

/-- The target node of each edge of a direction. -/
def edgeRow (e : IVec S2x200000 32) : IVec S200000 32 :=
  shapeCast _ (extractStridedSlice S1x200000 ![0, 0] (e) slices_S2x200000_S1x200000_0_0) shapeCasts_S1x200000_S200000

/-- The source node of each edge of a direction. -/
def edgeCol (e : IVec S2x200000 32) : IVec S200000 32 :=
  shapeCast _ (extractStridedSlice S1x200000 ![1, 0] (e) slices_S2x200000_S1x200000_1_0) shapeCasts_S1x200000_S200000

/-- One entity row per edge: row `col e` of `x` (a negative index counted from the end, jnp's convention). -/
def gatherEnt (x : FVec F S50000x200 .f32) (col : IVec S200000 32) : FVec F S200000x200 .f32 :=
  Host.gather gather_S50000x200_S200000x1_S200000x200_1_0_n_n_0_1_1200 (x) (broadcastInDim S200000x1 ![0] bcast_S200000_S200000x1_0 (select (cmpi .slt (col) (broadcastInDim S200000 ![] bcast_S_S200000 (constantI S_ 32 0#32))) (addi (col) (broadcastInDim S200000 ![] bcast_S_S200000 (constantI S_ 32 50000#32))) (col)))

/-- One relation row per edge: row `ty e` of the relation table. -/
def gatherRel (rel : FVec F S401x200 .f32) (ty : IVec S200000 32) : FVec F S200000x200 .f32 :=
  Host.gather gather_S401x200_S200000x1_S200000x200_1_0_n_n_0_1_1200 (rel) (broadcastInDim S200000x1 ![0] bcast_S200000_S200000x1_0 (select (cmpi .slt (ty) (broadcastInDim S200000 ![] bcast_S_S200000 (constantI S_ 32 0#32))) (addi (ty) (broadcastInDim S200000 ![] bcast_S_S200000 (constantI S_ 32 401#32))) (ty)))

/-- One entity row per qualifier. -/
def gatherEntQ (x : FVec F S50000x200 .f32) (qent : IVec S100000 32) : FVec F S100000x200 .f32 :=
  Host.gather gather_S50000x200_S100000x1_S100000x200_1_0_n_n_0_1_1200 (x) (broadcastInDim S100000x1 ![0] bcast_S100000_S100000x1_0 (select (cmpi .slt (qent) (broadcastInDim S100000 ![] bcast_S_S100000 (constantI S_ 32 0#32))) (addi (qent) (broadcastInDim S100000 ![] bcast_S_S100000 (constantI S_ 32 50000#32))) (qent)))

/-- One relation row per qualifier. -/
def gatherRelQ (rel : FVec F S401x200 .f32) (qrel : IVec S100000 32) : FVec F S100000x200 .f32 :=
  Host.gather gather_S401x200_S100000x1_S100000x200_1_0_n_n_0_1_1200 (rel) (broadcastInDim S100000x1 ![0] bcast_S100000_S100000x1_0 (select (cmpi .slt (qrel) (broadcastInDim S100000 ![] bcast_S_S100000 (constantI S_ 32 0#32))) (addi (qrel) (broadcastInDim S100000 ![] bcast_S_S100000 (constantI S_ 32 401#32))) (qrel)))

/-- The complex rotation of each row of `h` by the same row of `r`, the first hundred columns the real parts and the last hundred the imaginary parts: `(h_re r_re − h_im r_im, h_re r_im + h_im r_re)`. -/
def rot100k (h : FVec F S100000x200 .f32) (r : FVec F S100000x200 .f32) : FVec F S100000x200 .f32 :=
  concatenate S100000x200 1 [⟨S100000x100, (subf (mulf (extractStridedSlice S100000x100 ![0, 0] (h) slices_S100000x200_S100000x100_0_0) (extractStridedSlice S100000x100 ![0, 0] (r) slices_S100000x200_S100000x100_0_0)) (mulf (extractStridedSlice S100000x100 ![0, 100] (h) slices_S100000x200_S100000x100_0_100) (extractStridedSlice S100000x100 ![0, 100] (r) slices_S100000x200_S100000x100_0_100)))⟩, ⟨S100000x100, (addf (mulf (extractStridedSlice S100000x100 ![0, 0] (h) slices_S100000x200_S100000x100_0_0) (extractStridedSlice S100000x100 ![0, 100] (r) slices_S100000x200_S100000x100_0_100)) (mulf (extractStridedSlice S100000x100 ![0, 100] (h) slices_S100000x200_S100000x100_0_100) (extractStridedSlice S100000x100 ![0, 0] (r) slices_S100000x200_S100000x100_0_0)))⟩] concatenates_S100000x100_S100000x100_S100000x200_d1

/-- The qualifier embeddings of a direction: each qualifier's entity row rotated by its relation row. -/
def qEmb (x : FVec F S50000x200 .f32) (rel : FVec F S401x200 .f32) (qent : IVec S100000 32) (qrel : IVec S100000 32) : FVec F S100000x200 .f32 :=
  rot100k (gatherEntQ x qent) (gatherRelQ rel qrel)

/-- The qualifier embeddings summed per edge (a scatter-add into zeros at the qualifiers' edges). -/
def coalesce (qidx : IVec S100000 32) (qemb : FVec F S100000x200 .f32) : FVec F S200000x200 .f32 :=
  Host.scatterAdd scatter_S200000x200_S100000x1_S100000x200_1_0_0_1 (broadcastInDim S200000x200 ![] bcast_S_S200000x200 (constant (F := F) S_ .f32 0x00000000#32)) (broadcastInDim S100000x1 ![0] bcast_S100000_S100000x1_0 (select (cmpi .slt (qidx) (broadcastInDim S100000 ![] bcast_S_S100000 (constantI S_ 32 0#32))) (addi (qidx) (broadcastInDim S100000 ![] bcast_S_S100000 (constantI S_ 32 200000#32))) (qidx))) (qemb)

/-- The relation embedding of each edge: `4/5` of its relation row plus `1/5` of its coalesced qualifiers times `wq` (the two constants as the f32 words the program holds). -/
def relEmb (relpart : FVec F S200000x200 .f32) (coal : FVec F S200000x200 .f32) (wq : FVec F S200x200 .f32) : FVec F S200000x200 .f32 :=
  addf (mulf (broadcastInDim S200000x200 ![] bcast_S_S200000x200 (constant (F := F) S_ .f32 0x3F4CCCCD#32)) (relpart)) (mulf (broadcastInDim S200000x200 ![] bcast_S_S200000x200 (constant (F := F) S_ .f32 0x3E4CCCCD#32)) (Host.dotGeneral dot_S200000x200_S200x200_S200000x200_1_0_0_1_n_n none (coal) (wq)))

/-- The complex rotation, row by row, at the edges' extent. -/
def rot200k (h : FVec F S200000x200 .f32) (r : FVec F S200000x200 .f32) : FVec F S200000x200 .f32 :=
  concatenate S200000x200 1 [⟨S200000x100, (subf (mulf (extractStridedSlice S200000x100 ![0, 0] (h) slices_S200000x200_S200000x100_0_0) (extractStridedSlice S200000x100 ![0, 0] (r) slices_S200000x200_S200000x100_0_0)) (mulf (extractStridedSlice S200000x100 ![0, 100] (h) slices_S200000x200_S200000x100_0_100) (extractStridedSlice S200000x100 ![0, 100] (r) slices_S200000x200_S200000x100_0_100)))⟩, ⟨S200000x100, (addf (mulf (extractStridedSlice S200000x100 ![0, 0] (h) slices_S200000x200_S200000x100_0_0) (extractStridedSlice S200000x100 ![0, 100] (r) slices_S200000x200_S200000x100_0_100)) (mulf (extractStridedSlice S200000x100 ![0, 100] (h) slices_S200000x200_S200000x100_0_100) (extractStridedSlice S200000x100 ![0, 0] (r) slices_S200000x200_S200000x100_0_0)))⟩] concatenates_S200000x100_S200000x100_S200000x200_d1

/-- A row-by-row product with a 200 × 200 matrix at the edges' extent. -/
def dot200k (a : FVec F S200000x200 .f32) (w : FVec F S200x200 .f32) : FVec F S200000x200 .f32 :=
  Host.dotGeneral dot_S200000x200_S200x200_S200000x200_1_0_0_1_n_n none (a) (w)

/-- Each edge's message before normalisation: its source row rotated by its relation embedding, times `w`. -/
def msgPre (relpart : FVec F S200000x200 .f32) (coal : FVec F S200000x200 .f32) (wq : FVec F S200x200 .f32) (xj : FVec F S200000x200 .f32) (w : FVec F S200x200 .f32) : FVec F S200000x200 .f32 :=
  dot200k (rot200k xj (relEmb relpart coal wq)) w

/-- The symmetric normalisation of each edge, as a column: `deg(row)^(-1/2) · deg(col)^(-1/2)` with `deg` the in-degree counted from `row` and the inverse root read as zero where the degree is zero. -/
def norm (row : IVec S200000 32) (col : IVec S200000 32) : FVec F S200000x1 .f32 :=
  broadcastInDim S200000x1 ![0] bcast_S200000_S200000x1_0 (mulf (Host.gather gather_S50000_S200000x1_S200000_n_0_n_n_0_1_1 (select (cmpf .ogt (Host.scatterAdd scatter_S50000_S200000x1_S200000_n_0_0_1 (broadcastInDim S50000 ![] bcast_S_S50000 (constant (F := F) S_ .f32 0x00000000#32)) (broadcastInDim S200000x1 ![0] bcast_S200000_S200000x1_0 (select (cmpi .slt (row) (broadcastInDim S200000 ![] bcast_S_S200000 (constantI S_ 32 0#32))) (addi (row) (broadcastInDim S200000 ![] bcast_S_S200000 (constantI S_ 32 50000#32))) (row))) (broadcastInDim S200000 ![] bcast_S_S200000 (constant (F := F) S_ .f32 0x3F800000#32))) (broadcastInDim S50000 ![] bcast_S_S50000 (constant (F := F) S_ .f32 0x00000000#32))) (Host.powf (Host.scatterAdd scatter_S50000_S200000x1_S200000_n_0_0_1 (broadcastInDim S50000 ![] bcast_S_S50000 (constant (F := F) S_ .f32 0x00000000#32)) (broadcastInDim S200000x1 ![0] bcast_S200000_S200000x1_0 (select (cmpi .slt (row) (broadcastInDim S200000 ![] bcast_S_S200000 (constantI S_ 32 0#32))) (addi (row) (broadcastInDim S200000 ![] bcast_S_S200000 (constantI S_ 32 50000#32))) (row))) (broadcastInDim S200000 ![] bcast_S_S200000 (constant (F := F) S_ .f32 0x3F800000#32))) (broadcastInDim S50000 ![] bcast_S_S50000 (constant (F := F) S_ .f32 0xBF000000#32))) (broadcastInDim S50000 ![] bcast_S_S50000 (id (constant (F := F) S_ .f32 0x00000000#32)))) (broadcastInDim S200000x1 ![0] bcast_S200000_S200000x1_0 (select (cmpi .slt (row) (broadcastInDim S200000 ![] bcast_S_S200000 (constantI S_ 32 0#32))) (addi (row) (broadcastInDim S200000 ![] bcast_S_S200000 (constantI S_ 32 50000#32))) (row)))) (Host.gather gather_S50000_S200000x1_S200000_n_0_n_n_0_1_1 (select (cmpf .ogt (Host.scatterAdd scatter_S50000_S200000x1_S200000_n_0_0_1 (broadcastInDim S50000 ![] bcast_S_S50000 (constant (F := F) S_ .f32 0x00000000#32)) (broadcastInDim S200000x1 ![0] bcast_S200000_S200000x1_0 (select (cmpi .slt (row) (broadcastInDim S200000 ![] bcast_S_S200000 (constantI S_ 32 0#32))) (addi (row) (broadcastInDim S200000 ![] bcast_S_S200000 (constantI S_ 32 50000#32))) (row))) (broadcastInDim S200000 ![] bcast_S_S200000 (constant (F := F) S_ .f32 0x3F800000#32))) (broadcastInDim S50000 ![] bcast_S_S50000 (constant (F := F) S_ .f32 0x00000000#32))) (Host.powf (Host.scatterAdd scatter_S50000_S200000x1_S200000_n_0_0_1 (broadcastInDim S50000 ![] bcast_S_S50000 (constant (F := F) S_ .f32 0x00000000#32)) (broadcastInDim S200000x1 ![0] bcast_S200000_S200000x1_0 (select (cmpi .slt (row) (broadcastInDim S200000 ![] bcast_S_S200000 (constantI S_ 32 0#32))) (addi (row) (broadcastInDim S200000 ![] bcast_S_S200000 (constantI S_ 32 50000#32))) (row))) (broadcastInDim S200000 ![] bcast_S_S200000 (constant (F := F) S_ .f32 0x3F800000#32))) (broadcastInDim S50000 ![] bcast_S_S50000 (constant (F := F) S_ .f32 0xBF000000#32))) (broadcastInDim S50000 ![] bcast_S_S50000 (id (constant (F := F) S_ .f32 0x00000000#32)))) (broadcastInDim S200000x1 ![0] bcast_S200000_S200000x1_0 (select (cmpi .slt (col) (broadcastInDim S200000 ![] bcast_S_S200000 (constantI S_ 32 0#32))) (addi (col) (broadcastInDim S200000 ![] bcast_S_S200000 (constantI S_ 32 50000#32))) (col)))))

/-- Each edge's message times its normalisation. -/
def scale (pre : FVec F S200000x200 .f32) (nrm : FVec F S200000x1 .f32) : FVec F S200000x200 .f32 :=
  mulf (pre) (broadcastInDim S200000x200 ![0, 1] bcast_S200000x1_S200000x200_0_1 (nrm))

/-- The messages summed per target node (a scatter-add into zeros). -/
def aggr (row : IVec S200000 32) (msg : FVec F S200000x200 .f32) : FVec F S50000x200 .f32 :=
  Host.scatterAdd scatter_S50000x200_S200000x1_S200000x200_1_0_0_1 (broadcastInDim S50000x200 ![] bcast_S_S50000x200 (constant (F := F) S_ .f32 0x00000000#32)) (broadcastInDim S200000x1 ![0] bcast_S200000_S200000x1_0 (select (cmpi .slt (row) (broadcastInDim S200000 ![] bcast_S_S200000 (constantI S_ 32 0#32))) (addi (row) (broadcastInDim S200000 ![] bcast_S_S200000 (constantI S_ 32 50000#32))) (row))) (msg)

/-- The loop relation repeated over all nodes. -/
def bcastLoop (lr : FVec F S1x200 .f32) : FVec F S50000x200 .f32 :=
  broadcastInDim S50000x200 ![0, 1] bcast_S1x200_S50000x200_0_1 (lr)

/-- The complex rotation, row by row, at the nodes' extent. -/
def rot50k (h : FVec F S50000x200 .f32) (r : FVec F S50000x200 .f32) : FVec F S50000x200 .f32 :=
  concatenate S50000x200 1 [⟨S50000x100, (subf (mulf (extractStridedSlice S50000x100 ![0, 0] (h) slices_S50000x200_S50000x100_0_0) (extractStridedSlice S50000x100 ![0, 0] (r) slices_S50000x200_S50000x100_0_0)) (mulf (extractStridedSlice S50000x100 ![0, 100] (h) slices_S50000x200_S50000x100_0_100) (extractStridedSlice S50000x100 ![0, 100] (r) slices_S50000x200_S50000x100_0_100)))⟩, ⟨S50000x100, (addf (mulf (extractStridedSlice S50000x100 ![0, 0] (h) slices_S50000x200_S50000x100_0_0) (extractStridedSlice S50000x100 ![0, 100] (r) slices_S50000x200_S50000x100_0_100)) (mulf (extractStridedSlice S50000x100 ![0, 100] (h) slices_S50000x200_S50000x100_0_100) (extractStridedSlice S50000x100 ![0, 0] (r) slices_S50000x200_S50000x100_0_0)))⟩] concatenates_S50000x100_S50000x100_S50000x200_d1

/-- A row-by-row product with a 200 × 200 matrix at the nodes' extent. -/
def dot50k (a : FVec F S50000x200 .f32) (w : FVec F S200x200 .f32) : FVec F S50000x200 .f32 :=
  Host.dotGeneral dot_S50000x200_S200x200_S50000x200_1_0_0_1_n_n none (a) (w)

/-- The self-loop term: every node's row rotated by the loop relation, times `w`. -/
def loopRes (lr : FVec F S1x200 .f32) (x : FVec F S50000x200 .f32) (w : FVec F S200x200 .f32) : FVec F S50000x200 .f32 :=
  dot50k (rot50k x (bcastLoop lr)) w

/-- The closing chain: a third of the three terms' sum, batch-normalised over the nodes (mean and biased variance per column), scaled by `g`, shifted by `b`, through tanh. -/
def tail (rin : FVec F S50000x200 .f32) (rout : FVec F S50000x200 .f32) (rloop : FVec F S50000x200 .f32) (g : FVec F S200 .f32) (b : FVec F S200 .f32) : FVec F S50000x200 .f32 :=
  Host.tanh (addf (mulf (Host.divf (subf (mulf (addf (addf (rin) (rout)) (rloop)) (broadcastInDim S50000x200 ![] bcast_S_S50000x200 (constant (F := F) S_ .f32 0x3EAAAAAB#32))) (broadcastInDim S50000x200 ![0, 1] bcast_S1x200_S50000x200_0_1 (broadcastInDim S1x200 ![1] bcast_S200_S1x200_1 (Host.divf (Host.reduceAdd (mulf (addf (addf (rin) (rout)) (rloop)) (broadcastInDim S50000x200 ![] bcast_S_S50000x200 (constant (F := F) S_ .f32 0x3EAAAAAB#32))) (constant (F := F) S_ .f32 0x00000000#32) reducesTo_S50000x200_S200_d0 h_S_) (broadcastInDim S200 ![] bcast_S_S200 (constant (F := F) S_ .f32 0x47435000#32)))))) (broadcastInDim S50000x200 ![0, 1] bcast_S1x200_S50000x200_0_1 (broadcastInDim S1x200 ![1] bcast_S200_S1x200_1 (Host.sqrt (addf (select (broadcastInDim S200 ![] bcast_S_S200 (cmpf .ogt (subf (constant (F := F) S_ .f32 0x47435000#32) (sitofp .f32 (constantI S_ 32 0#32))) (constant (F := F) S_ .f32 0x00000000#32))) (Host.divf (Host.reduceAdd (mulf (subf (mulf (addf (addf (rin) (rout)) (rloop)) (broadcastInDim S50000x200 ![] bcast_S_S50000x200 (constant (F := F) S_ .f32 0x3EAAAAAB#32))) (broadcastInDim S50000x200 ![0, 1] bcast_S1x200_S50000x200_0_1 (Host.divf (broadcastInDim S1x200 ![1] bcast_S200_S1x200_1 (Host.reduceAdd (mulf (addf (addf (rin) (rout)) (rloop)) (broadcastInDim S50000x200 ![] bcast_S_S50000x200 (constant (F := F) S_ .f32 0x3EAAAAAB#32))) (constant (F := F) S_ .f32 0x00000000#32) reducesTo_S50000x200_S200_d0 h_S_)) (broadcastInDim S1x200 ![] bcast_S_S1x200 (constant (F := F) S_ .f32 0x47435000#32))))) (subf (mulf (addf (addf (rin) (rout)) (rloop)) (broadcastInDim S50000x200 ![] bcast_S_S50000x200 (constant (F := F) S_ .f32 0x3EAAAAAB#32))) (broadcastInDim S50000x200 ![0, 1] bcast_S1x200_S50000x200_0_1 (Host.divf (broadcastInDim S1x200 ![1] bcast_S200_S1x200_1 (Host.reduceAdd (mulf (addf (addf (rin) (rout)) (rloop)) (broadcastInDim S50000x200 ![] bcast_S_S50000x200 (constant (F := F) S_ .f32 0x3EAAAAAB#32))) (constant (F := F) S_ .f32 0x00000000#32) reducesTo_S50000x200_S200_d0 h_S_)) (broadcastInDim S1x200 ![] bcast_S_S1x200 (constant (F := F) S_ .f32 0x47435000#32)))))) (constant (F := F) S_ .f32 0x00000000#32) reducesTo_S50000x200_S200_d0 h_S_) (broadcastInDim S200 ![] bcast_S_S200 (subf (constant (F := F) S_ .f32 0x47435000#32) (sitofp .f32 (constantI S_ 32 0#32))))) (broadcastInDim S200 ![] bcast_S_S200 (id (constant (F := F) S_ .f32 0x7FC00000#32)))) (broadcastInDim S200 ![] bcast_S_S200 (constant (F := F) S_ .f32 0x3727C5AC#32))))))) (broadcastInDim S50000x200 ![0, 1] bcast_S1x200_S50000x200_0_1 (broadcastInDim S1x200 ![1] bcast_S200_S1x200_1 (g)))) (broadcastInDim S50000x200 ![0, 1] bcast_S1x200_S50000x200_0_1 (broadcastInDim S1x200 ![1] bcast_S200_S1x200_1 (b))))

/-- The relation table times `w`, without the appended loop row. -/
def relOut (rel : FVec F S401x200 .f32) (w : FVec F S200x200 .f32) : FVec F S400x200 .f32 :=
  extractStridedSlice S400x200 ![0, 0] (Host.dotGeneral dot_S401x200_S200x200_S401x200_1_0_0_1_n_n none (rel) (w)) slices_S401x200_S400x200_0_0

/-- One direction's aggregated messages, from the node features, the relation table and that direction's edges, types and qualifiers. -/
def dirRes (x : FVec F S50000x200 .f32) (rel : FVec F S401x200 .f32) (e : IVec S2x200000 32) (ty : IVec S200000 32) (qrel : IVec S100000 32) (qent : IVec S100000 32) (qidx : IVec S100000 32) (w : FVec F S200x200 .f32) (wq : FVec F S200x200 .f32) : FVec F S50000x200 .f32 :=
  aggr (edgeRow e) (scale (msgPre (gatherRel rel ty) (coalesce qidx (qEmb x rel qent qrel)) wq (gatherEnt x (edgeCol e)) w) (norm (edgeRow e) (edgeCol e)))

/-- The node output as a function of the thirteen arguments. -/
def resEnt (a0 : FVec F S50000x200 .f32) (a1 : IVec S2x400000 32) (a2 : IVec S400000 32) (a3 : FVec F S400x200 .f32) (a4 : IVec S3x200000 32) (a5 : FVec F S200x200 .f32) (a6 : FVec F S200x200 .f32) (a7 : FVec F S200x200 .f32) (a8 : FVec F S200x200 .f32) (a9 : FVec F S200x200 .f32) (a10 : FVec F S1x200 .f32) (a11 : FVec F S200 .f32) (a12 : FVec F S200 .f32) : FVec F S50000x200 .f32 :=
  tail (dirRes a0 (relAll a3 a10) (edgeIn a1) (typeIn a2) (qRel0 a4) (qEnt0 a4) (qIdx0 a4) a5 a9) (dirRes a0 (relAll a3 a10) (edgeOut a1) (typeOut a2) (qRel1 a4) (qEnt1 a4) (qIdx1 a4) a6 a9) (loopRes a10 a0 a7) a11 a12

/-- The relation output as a function of the thirteen arguments. -/
def resRel (a0 : FVec F S50000x200 .f32) (a1 : IVec S2x400000 32) (a2 : IVec S400000 32) (a3 : FVec F S400x200 .f32) (a4 : IVec S3x200000 32) (a5 : FVec F S200x200 .f32) (a6 : FVec F S200x200 .f32) (a7 : FVec F S200x200 .f32) (a8 : FVec F S200x200 .f32) (a9 : FVec F S200x200 .f32) (a10 : FVec F S1x200 .f32) (a11 : FVec F S200 .f32) (a12 : FVec F S200 .f32) : FVec F S400x200 .f32 :=
  relOut (relAll a3 a10) a8

end Cert.Stage

end
-- ==== Proof.KStages.lean ====
/-
  The stages only the kernel's program has: it gathers and rotates the qualifiers of both directions at once and takes each
  direction's half afterwards, and it rounds the weight matrices to bf16 before the products.
-/
import proofs.«143578_j52467320487979_1_alg».proof.Proof.Gen.KernelIdeal

noncomputable section

namespace Cert.KStage

open Idealize.ShloMosaic Cert.KernelIdeal Cert.KernelIdeal.Facts₀

variable {F : FTy → Type} [FloatOps F]

/-- The qualifier relations of both directions, one after the other. -/
def qRelAll (a4 : IVec S3x200000 32) : IVec S200000 32 :=
  shapeCast _ (extractStridedSlice S1x200000 ![0, 0] (a4) slices_S3x200000_S1x200000_0_0) shapeCasts_S1x200000_S200000

/-- The qualifier entities of both directions. -/
def qEntAll (a4 : IVec S3x200000 32) : IVec S200000 32 :=
  shapeCast _ (extractStridedSlice S1x200000 ![1, 0] (a4) slices_S3x200000_S1x200000_1_0) shapeCasts_S1x200000_S200000

/-- The qualifiers' edges, both directions. -/
def qIdxAll (a4 : IVec S3x200000 32) : IVec S200000 32 :=
  shapeCast _ (extractStridedSlice S1x200000 ![2, 0] (a4) slices_S3x200000_S1x200000_2_0) shapeCasts_S1x200000_S200000

/-- The first half of a vector of 200000 words. -/
def loI (v : IVec S200000 32) : IVec S100000 32 :=
  extractStridedSlice S100000 ![0] (v) slices_S200000_S100000_0

/-- The second half of a vector of 200000 words. -/
def hiI (v : IVec S200000 32) : IVec S100000 32 :=
  extractStridedSlice S100000 ![100000] (v) slices_S200000_S100000_100000

/-- The first 100000 rows. -/
def loF (x : FVec F S200000x200 .f32) : FVec F S100000x200 .f32 :=
  extractStridedSlice S100000x200 ![0, 0] (x) slices_S200000x200_S100000x200_0_0

/-- The last 100000 rows. -/
def hiF (x : FVec F S200000x200 .f32) : FVec F S100000x200 .f32 :=
  extractStridedSlice S100000x200 ![100000, 0] (x) slices_S200000x200_S100000x200_100000_0

/-- A weight matrix rounded to bf16 (the identity on extended reals). -/
def toBf16 (w : FVec F S200x200 .f32) : FVec F S200x200 .bf16 :=
  truncf .bf16 (w) bitsLt_bf16_f32

end Cert.KStage

end
-- ==== Proof.LibGatherRows.lean ====
/-
  jnp's row gather `x[idx]` read at an index. The gather takes whole rows of an `[N, C]` table at start indices `[R, 1]`:
  result row `r` is the table's row `idx[r, 0]`, read as a signed integer and clamped into `[0, N − 1]`; its column `q`
  is the row's column `q`. Stated over any extents, for the dimension numbers of that gather.
-/
import Idealize.ShloMosaic.Lib.ValueIdx

namespace Idealize.ShloMosaic.GatherRows

open Idealize.ShloMosaic Idealize.ShloMosaic.ValueIdx

variable {α : Type}

/-- The dimension numbers of a gather of whole rows: the result's axis 1 is the offset axis, the table's axis 0 is collapsed and
    indexed by the one component of the start index, which sits on axis 1 of the start indices. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(r, q)`: the table at row `idx[r, 0]` (signed, clamped into the table) and column `q`. -/
theorem gatherRows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowDims N C R wf) x idx (ix2 r q)
      = x (ix2 ⟨min (idx (ix2 r (0 : Fin 1))).toInt.toNat (N - 1), by omega⟩ q) := by
  unfold Host.gather
  congr 1
  funext a
  refine Fin.ext ?_
  show (rowDims N C R wf).start (ix2 r q) idx a + (rowDims N C R wf).batchCoord (ix2 r q) a
      + (rowDims N C R wf).offCoord (ix2 r q) a = _
  rw [GatherDims.batchCoord_eq_zero _ _ _ List.not_mem_nil, Nat.add_zero]
  match a with
  | ⟨0, _⟩ =>
    show (rowDims N C R wf).start (ix2 r q) idx (0 : Fin 2) + (rowDims N C R wf).offCoord (ix2 r q) (0 : Fin 2) = _
    rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C R wf).startIndexMap from List.mem_singleton.mpr rfl)]
    have hsi : (rowDims N C R wf).siIdx (ix2 r q) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C R wf).start (ix2 r q) idx (1 : Fin 2) + (rowDims N C R wf).offCoord (ix2 r q) (1 : Fin 2) = _
    unfold GatherDims.start
    rw [dif_neg (show (1 : Fin 2) ∉ (rowDims N C R wf).startIndexMap from by
      intro h; exact Nat.one_ne_zero (congrArg Fin.val (List.mem_singleton.mp h))), Nat.zero_add]
    rfl

end Idealize.ShloMosaic.GatherRows
-- ==== Proof.LibRotate.lean ====
/-
  The complex rotation of one row by another, read entry by entry.

  A row of `w = m + m` entries is a vector of `m` complex numbers: the first `m` entries are the real parts and the
  last `m` the imaginary parts. Rotating the row `h` by the row `r` multiplies them complex number by complex number:
  the real parts of the product are `h_re * r_re - h_im * r_im` and the imaginary parts `h_re * r_im + h_im * r_re`.
  Written with whole arrays this is a concatenation along the columns of two half-width arrays built from four column
  slices; `rot_apply` reads that concatenation at one entry `(p, q)`, giving `rotAt`: which half `q` falls in decides
  the formula, and only row `p` of either operand is read (`rotAt_congr`).
-/
import Idealize.ShloMosaic.Lib.ValueLayout
import Idealize.ShloMosaic.Lib.Pipeline.Value
import Idealize.ShloMosaic.Lib.ValueIdx

noncomputable section

namespace Cert.LibRotate

open Idealize.ShloMosaic Idealize.ShloMosaic.ValueIdx

/-- Entry `(p, q)` of the row-by-row complex product of `h` and `r`: a real part for `q` in the first half of the
    columns, an imaginary part for `q` in the second half. -/
def rotAt {n w m : Nat} (hw : m + m = w) (h r : (⟨2, ![n, w]⟩ : Shape).Idx → EReal) (p : Fin n) (q : Fin w) : EReal :=
  if hq : q.val < m then
    h (ix2 p q) * r (ix2 p q)
      - h (ix2 p ⟨q.val + m, by have := q.isLt; omega⟩) * r (ix2 p ⟨q.val + m, by have := q.isLt; omega⟩)
  else
    h (ix2 p ⟨q.val - m, by have := q.isLt; omega⟩) * r (ix2 p q)
      + h (ix2 p q) * r (ix2 p ⟨q.val - m, by have := q.isLt; omega⟩)

/-- The entry depends on row `p` of the two operands only: two pairs of arrays (of any numbers of rows) that agree on
    a row give the same rotated row. -/
theorem rotAt_congr {n n' w m : Nat} (hw : m + m = w) (h r : (⟨2, ![n, w]⟩ : Shape).Idx → EReal)
    (h' r' : (⟨2, ![n', w]⟩ : Shape).Idx → EReal) (p : Fin n) (p' : Fin n')
    (eh : ∀ q : Fin w, h (ix2 p q) = h' (ix2 p' q)) (er : ∀ q : Fin w, r (ix2 p q) = r' (ix2 p' q)) (q : Fin w) :
    rotAt hw h r p q = rotAt hw h' r' p' q := by
  unfold rotAt
  simp only [eh, er]

/-- The whole-array spelling of the rotation — the concatenation along the columns of `h_lo * r_lo - h_hi * r_hi` and
    `h_lo * r_hi + h_hi * r_lo`, `lo` the columns below `m` and `hi` the columns from `m` — read at entry `(p, q)`. -/
theorem rot_apply {n w m : Nat} {φ : FTy} (hw : m + m = w) (h r : FVec Ideal ⟨2, ![n, w]⟩ φ)
    (s0 : (⟨2, ![n, w]⟩ : Shape).Slices ![0, 0] ⟨2, ![n, m]⟩) (s1 : (⟨2, ![n, w]⟩ : Shape).Slices ![0, m] ⟨2, ![n, m]⟩)
    (hc : Shape.Concatenates [⟨2, ![n, m]⟩, ⟨2, ![n, m]⟩] ⟨2, ![n, w]⟩ 1) (p : Fin n) (q : Fin w) :
    concatenate ⟨2, ![n, w]⟩ 1
      [⟨⟨2, ![n, m]⟩, subf (mulf (extractStridedSlice ⟨2, ![n, m]⟩ ![0, 0] h s0) (extractStridedSlice ⟨2, ![n, m]⟩ ![0, 0] r s0))
          (mulf (extractStridedSlice ⟨2, ![n, m]⟩ ![0, m] h s1) (extractStridedSlice ⟨2, ![n, m]⟩ ![0, m] r s1))⟩,
       ⟨⟨2, ![n, m]⟩, addf (mulf (extractStridedSlice ⟨2, ![n, m]⟩ ![0, 0] h s0) (extractStridedSlice ⟨2, ![n, m]⟩ ![0, m] r s1))
          (mulf (extractStridedSlice ⟨2, ![n, m]⟩ ![0, m] h s1) (extractStridedSlice ⟨2, ![n, m]⟩ ![0, 0] r s0))⟩] hc (ix2 p q)
      = rotAt hw h r p q := by
  have hqw := q.isLt
  unfold rotAt
  by_cases hq : q.val < m
  · rw [dif_pos hq]
    refine (concatenate_pair_apply_left (t := ⟨2, ![n, w]⟩) (s₁ := ⟨2, ![n, m]⟩) (s₂ := ⟨2, ![n, m]⟩) (1 : Fin 2) _ _ hc (ix2 p q) rfl (ix2 p (⟨q.val, hq⟩ : Fin m)) (fun b => by
      match b with
      | ⟨0, _⟩ => rfl
      | ⟨1, _⟩ => rfl)).trans ?_
    rw [subf_apply, mulf_apply, mulf_apply,
      slice2_axis1_apply 0 h s0 p ⟨q.val, hq⟩ q (Nat.zero_add _).symm,
      slice2_axis1_apply 0 r s0 p ⟨q.val, hq⟩ q (Nat.zero_add _).symm,
      slice2_axis1_apply m h s1 p ⟨q.val, hq⟩ ⟨q.val + m, by omega⟩ (Nat.add_comm _ _),
      slice2_axis1_apply m r s1 p ⟨q.val, hq⟩ ⟨q.val + m, by omega⟩ (Nat.add_comm _ _)]
  · rw [dif_neg hq]
    have hqm : q.val - m < m := by omega
    refine (concatenate_pair_apply_right (t := ⟨2, ![n, w]⟩) (s₁ := ⟨2, ![n, m]⟩) (s₂ := ⟨2, ![n, m]⟩) (1 : Fin 2) _ _ hc (ix2 p q) rfl rfl (ix2 p (⟨q.val - m, hqm⟩ : Fin m)) (fun b hb => by
      match b with
      | ⟨0, _⟩ => rfl
      | ⟨1, _⟩ => exact absurd rfl hb) (by show q.val - m + m = q.val; omega)).trans ?_
    rw [addf_apply, mulf_apply, mulf_apply,
      slice2_axis1_apply 0 h s0 p ⟨q.val - m, hqm⟩ ⟨q.val - m, by omega⟩ (Nat.zero_add _).symm,
      slice2_axis1_apply 0 r s0 p ⟨q.val - m, hqm⟩ ⟨q.val - m, by omega⟩ (Nat.zero_add _).symm,
      slice2_axis1_apply m h s1 p ⟨q.val - m, hqm⟩ q (by show q.val = m + (q.val - m); omega),
      slice2_axis1_apply m r s1 p ⟨q.val - m, hqm⟩ q (by show q.val = m + (q.val - m); omega)]

end Cert.LibRotate

end
-- ==== Proof.Halves.lean ====
/-
  The kernel's program gathers and rotates the qualifiers of BOTH directions in one array of 200000 rows and takes each
  direction's 100000 rows afterwards; the reference takes each direction's qualifiers first and gathers and rotates 100000 rows.
  The two agree because every step is row by row: a half of the rotated rows is the rotation of the halves, a half of gathered
  rows is the gather at the half of the indices, and a half of a row of the qualifier table is that row cut to the half.
-/
import proofs.«143578_j52467320487979_1_alg».proof.Proof.Stages
import proofs.«143578_j52467320487979_1_alg».proof.Proof.KStages
import proofs.«143578_j52467320487979_1_alg».proof.Proof.LibGatherRows
import proofs.«143578_j52467320487979_1_alg».proof.Proof.LibRotate
import Idealize.ShloMosaic.Lib.ValueIdx
import Idealize.ShloMosaic.Lib.ValueLayout
import Idealize.ShloMosaic.Lib.Pipeline.Value

set_option maxRecDepth 8192

noncomputable section

namespace Cert.Halves

open Idealize.ShloMosaic Idealize.ShloMosaic.ValueIdx Idealize.ShloMosaic.GatherRows

/-- jnp's reading of a possibly negative index into an axis of extent `n`: a negative word counts from the end. -/
def wrapIdx (n w : BitVec 32) : BitVec 32 := Scalar.select (IntOp.cmpi .slt w 0#32) (IntOp.addi w n) w

/-- The index column the gathers and scatters read, at row `r`: the wrapped word of row `r`. -/
theorem wrapCol_apply {N : Nat} (hN : N ≠ 1) (n : BitVec 32) (v : IVec ⟨1, ![N]⟩ 32)
    (h1 : (⟨1, ![N]⟩ : Shape).BroadcastsInDim ⟨2, ![N, 1]⟩ ![0])
    (h2 : (⟨0, ![]⟩ : Shape).BroadcastsInDim ⟨1, ![N]⟩ ![]) (r : Fin N) :
    broadcastInDim ⟨2, ![N, 1]⟩ ![0] h1
        (select (cmpi .slt v (broadcastInDim ⟨1, ![N]⟩ ![] h2 (constantI ⟨0, ![]⟩ 32 0#32)))
          (addi v (broadcastInDim ⟨1, ![N]⟩ ![] h2 (constantI ⟨0, ![]⟩ 32 n))) v) (ix2 r (0 : Fin 1))
      = wrapIdx n (v (ix1 r)) := by
  refine (broadcastInDim_apply _ h1 _ (ix2 r (0 : Fin 1)) (ix1 r) (fun a => ?_)).trans rfl
  match a with
  | ⟨0, _⟩ => show r.val = if N = 1 then 0 else r.val; rw [if_neg hN]

/-- Row `k` of the qualifier table from column `o` on, as a vector, at `r`: the table at `(k, o + r)`. -/
theorem qualRow_apply {n : Nat} (a4 : IVec ⟨2, ![3, 200000]⟩ 32) (k o : Nat)
    (h1 : (⟨2, ![3, 200000]⟩ : Shape).Slices ![k, o] ⟨2, ![1, n]⟩) (h2 : (⟨2, ![1, n]⟩ : Shape).ShapeCasts ⟨1, ![n]⟩)
    (r : Fin n) (kk : Fin 3) (hk : kk.val = k) (c : Fin 200000) (hc : c.val = o + r.val) :
    shapeCast ⟨1, ![n]⟩ (extractStridedSlice ⟨2, ![1, n]⟩ ![k, o] a4 h1) h2 (ix1 r) = a4 (ix2 kk c) := by
  refine (shapeCast_apply _ h2 (ix1 r) (ix2 (0 : Fin 1) r) ?_).trans ?_
  · rw [Shape.rowMajor_val_two, Shape.rowMajor_val_one]
    show 0 * n + r.val = r.val
    omega
  · exact extractStridedSlice_apply _ _ h1 _ _ (fun a => by
      match a with
      | ⟨0, _⟩ => show kk.val = k + 0; omega
      | ⟨1, _⟩ => exact hc)

/-- A half of a vector of 200000 words at `r`. -/
theorem half_apply (o : Nat) (v : IVec ⟨1, ![200000]⟩ 32) (h : (⟨1, ![200000]⟩ : Shape).Slices ![o] ⟨1, ![100000]⟩)
    (r : Fin 100000) (c : Fin 200000) (hc : c.val = o + r.val) :
    extractStridedSlice ⟨1, ![100000]⟩ ![o] v h (ix1 r) = v (ix1 c) :=
  extractStridedSlice_apply _ _ h _ _ (fun a => by match a with | ⟨0, _⟩ => exact hc)

open Cert.Stage Cert.KStage

/-! ## The qualifier rows -/

theorem qRel_lo (a4 : IVec ⟨2, ![3, 200000]⟩ 32) : loI (qRelAll a4) = qRel0 a4 := by
  funext i
  obtain ⟨r, rfl⟩ : ∃ r : Fin 100000, i = ix1 r := ⟨i 0, eq_ix1 i⟩
  unfold loI qRelAll qRel0
  refine (half_apply 0 _ _ r ⟨r.val, by have := r.isLt; omega⟩ (Nat.zero_add _).symm).trans ?_
  exact (qualRow_apply a4 0 0 _ _ _ 0 rfl ⟨r.val, by have := r.isLt; omega⟩ (Nat.zero_add _).symm).trans
    (qualRow_apply a4 0 0 _ _ r 0 rfl ⟨r.val, by have := r.isLt; omega⟩ (Nat.zero_add _).symm).symm
theorem qRel_hi (a4 : IVec ⟨2, ![3, 200000]⟩ 32) : hiI (qRelAll a4) = qRel1 a4 := by
  funext i
  obtain ⟨r, rfl⟩ : ∃ r : Fin 100000, i = ix1 r := ⟨i 0, eq_ix1 i⟩
  unfold hiI qRelAll qRel1
  refine (half_apply 100000 _ _ r ⟨100000 + r.val, by have := r.isLt; omega⟩ rfl).trans ?_
  exact (qualRow_apply a4 0 0 _ _ _ 0 rfl ⟨100000 + r.val, by have := r.isLt; omega⟩ (Nat.zero_add _).symm).trans
    (qualRow_apply a4 0 100000 _ _ r 0 rfl ⟨100000 + r.val, by have := r.isLt; omega⟩ rfl).symm
theorem qEnt_lo (a4 : IVec ⟨2, ![3, 200000]⟩ 32) : loI (qEntAll a4) = qEnt0 a4 := by
  funext i
  obtain ⟨r, rfl⟩ : ∃ r : Fin 100000, i = ix1 r := ⟨i 0, eq_ix1 i⟩
  unfold loI qEntAll qEnt0
  refine (half_apply 0 _ _ r ⟨r.val, by have := r.isLt; omega⟩ (Nat.zero_add _).symm).trans ?_
  exact (qualRow_apply a4 1 0 _ _ _ 1 rfl ⟨r.val, by have := r.isLt; omega⟩ (Nat.zero_add _).symm).trans
    (qualRow_apply a4 1 0 _ _ r 1 rfl ⟨r.val, by have := r.isLt; omega⟩ (Nat.zero_add _).symm).symm
theorem qEnt_hi (a4 : IVec ⟨2, ![3, 200000]⟩ 32) : hiI (qEntAll a4) = qEnt1 a4 := by
  funext i
  obtain ⟨r, rfl⟩ : ∃ r : Fin 100000, i = ix1 r := ⟨i 0, eq_ix1 i⟩
  unfold hiI qEntAll qEnt1
  refine (half_apply 100000 _ _ r ⟨100000 + r.val, by have := r.isLt; omega⟩ rfl).trans ?_
  exact (qualRow_apply a4 1 0 _ _ _ 1 rfl ⟨100000 + r.val, by have := r.isLt; omega⟩ (Nat.zero_add _).symm).trans
    (qualRow_apply a4 1 100000 _ _ r 1 rfl ⟨100000 + r.val, by have := r.isLt; omega⟩ rfl).symm
theorem qIdx_lo (a4 : IVec ⟨2, ![3, 200000]⟩ 32) : loI (qIdxAll a4) = qIdx0 a4 := by
  funext i
  obtain ⟨r, rfl⟩ : ∃ r : Fin 100000, i = ix1 r := ⟨i 0, eq_ix1 i⟩
  unfold loI qIdxAll qIdx0
  refine (half_apply 0 _ _ r ⟨r.val, by have := r.isLt; omega⟩ (Nat.zero_add _).symm).trans ?_
  exact (qualRow_apply a4 2 0 _ _ _ 2 rfl ⟨r.val, by have := r.isLt; omega⟩ (Nat.zero_add _).symm).trans
    (qualRow_apply a4 2 0 _ _ r 2 rfl ⟨r.val, by have := r.isLt; omega⟩ (Nat.zero_add _).symm).symm
theorem qIdx_hi (a4 : IVec ⟨2, ![3, 200000]⟩ 32) : hiI (qIdxAll a4) = qIdx1 a4 := by
  funext i
  obtain ⟨r, rfl⟩ : ∃ r : Fin 100000, i = ix1 r := ⟨i 0, eq_ix1 i⟩
  unfold hiI qIdxAll qIdx1
  refine (half_apply 100000 _ _ r ⟨100000 + r.val, by have := r.isLt; omega⟩ rfl).trans ?_
  exact (qualRow_apply a4 2 0 _ _ _ 2 rfl ⟨100000 + r.val, by have := r.isLt; omega⟩ (Nat.zero_add _).symm).trans
    (qualRow_apply a4 2 100000 _ _ r 2 rfl ⟨100000 + r.val, by have := r.isLt; omega⟩ rfl).symm

/-! ## The gathers at an index -/

variable {F : FTy → Type} [FloatOps F]

theorem gatherEnt_apply (x : FVec F ⟨2, ![50000, 200]⟩ .f32) (col : IVec ⟨1, ![200000]⟩ 32) (r : Fin 200000) (q : Fin 200) :
    gatherEnt x col (ix2 r q) = x (ix2 ⟨min (wrapIdx 50000#32 (col (ix1 r))).toInt.toNat (50000 - 1), by omega⟩ q) := by
  unfold gatherEnt
  refine (gatherRows_apply (by decide) _ x _ r q).trans ?_
  exact congrArg (fun w : BitVec 32 => x (ix2 ⟨min w.toInt.toNat (50000 - 1), by omega⟩ q)) (wrapCol_apply (by decide) _ col _ _ r)
theorem gatherEntQ_apply (x : FVec F ⟨2, ![50000, 200]⟩ .f32) (col : IVec ⟨1, ![100000]⟩ 32) (r : Fin 100000) (q : Fin 200) :
    gatherEntQ x col (ix2 r q) = x (ix2 ⟨min (wrapIdx 50000#32 (col (ix1 r))).toInt.toNat (50000 - 1), by omega⟩ q) := by
  unfold gatherEntQ
  refine (gatherRows_apply (by decide) _ x _ r q).trans ?_
  exact congrArg (fun w : BitVec 32 => x (ix2 ⟨min w.toInt.toNat (50000 - 1), by omega⟩ q)) (wrapCol_apply (by decide) _ col _ _ r)
theorem gatherRel_apply (x : FVec F ⟨2, ![401, 200]⟩ .f32) (col : IVec ⟨1, ![200000]⟩ 32) (r : Fin 200000) (q : Fin 200) :
    gatherRel x col (ix2 r q) = x (ix2 ⟨min (wrapIdx 401#32 (col (ix1 r))).toInt.toNat (401 - 1), by omega⟩ q) := by
  unfold gatherRel
  refine (gatherRows_apply (by decide) _ x _ r q).trans ?_
  exact congrArg (fun w : BitVec 32 => x (ix2 ⟨min w.toInt.toNat (401 - 1), by omega⟩ q)) (wrapCol_apply (by decide) _ col _ _ r)
theorem gatherRelQ_apply (x : FVec F ⟨2, ![401, 200]⟩ .f32) (col : IVec ⟨1, ![100000]⟩ 32) (r : Fin 100000) (q : Fin 200) :
    gatherRelQ x col (ix2 r q) = x (ix2 ⟨min (wrapIdx 401#32 (col (ix1 r))).toInt.toNat (401 - 1), by omega⟩ q) := by
  unfold gatherRelQ
  refine (gatherRows_apply (by decide) _ x _ r q).trans ?_
  exact congrArg (fun w : BitVec 32 => x (ix2 ⟨min w.toInt.toNat (401 - 1), by omega⟩ q)) (wrapCol_apply (by decide) _ col _ _ r)

/-- A half of the gathered rows is the gather at that half of the indices. -/
theorem gatherEnt_lo (x : FVec F ⟨2, ![50000, 200]⟩ .f32) (v : IVec ⟨1, ![200000]⟩ 32) (r : Fin 100000) (q : Fin 200) :
    gatherEnt x v (ix2 (⟨r.val, by omega⟩ : Fin 200000) q) = gatherEntQ x (loI v) (ix2 r q) := by
  rw [gatherEnt_apply, gatherEntQ_apply]
  unfold loI
  exact congrArg (fun w : BitVec 32 => x (ix2 ⟨min (wrapIdx 50000#32 w).toInt.toNat (50000 - 1), by omega⟩ q))
    (half_apply 0 v _ r ⟨r.val, by omega⟩ (Nat.zero_add _).symm).symm
theorem gatherEnt_hi (x : FVec F ⟨2, ![50000, 200]⟩ .f32) (v : IVec ⟨1, ![200000]⟩ 32) (r : Fin 100000) (q : Fin 200) :
    gatherEnt x v (ix2 (⟨100000 + r.val, by omega⟩ : Fin 200000) q) = gatherEntQ x (hiI v) (ix2 r q) := by
  rw [gatherEnt_apply, gatherEntQ_apply]
  unfold hiI
  exact congrArg (fun w : BitVec 32 => x (ix2 ⟨min (wrapIdx 50000#32 w).toInt.toNat (50000 - 1), by omega⟩ q))
    (half_apply 100000 v _ r ⟨100000 + r.val, by omega⟩ rfl).symm
theorem gatherRel_lo (x : FVec F ⟨2, ![401, 200]⟩ .f32) (v : IVec ⟨1, ![200000]⟩ 32) (r : Fin 100000) (q : Fin 200) :
    gatherRel x v (ix2 (⟨r.val, by omega⟩ : Fin 200000) q) = gatherRelQ x (loI v) (ix2 r q) := by
  rw [gatherRel_apply, gatherRelQ_apply]
  unfold loI
  exact congrArg (fun w : BitVec 32 => x (ix2 ⟨min (wrapIdx 401#32 w).toInt.toNat (401 - 1), by omega⟩ q))
    (half_apply 0 v _ r ⟨r.val, by omega⟩ (Nat.zero_add _).symm).symm
theorem gatherRel_hi (x : FVec F ⟨2, ![401, 200]⟩ .f32) (v : IVec ⟨1, ![200000]⟩ 32) (r : Fin 100000) (q : Fin 200) :
    gatherRel x v (ix2 (⟨100000 + r.val, by omega⟩ : Fin 200000) q) = gatherRelQ x (hiI v) (ix2 r q) := by
  rw [gatherRel_apply, gatherRelQ_apply]
  unfold hiI
  exact congrArg (fun w : BitVec 32 => x (ix2 ⟨min (wrapIdx 401#32 w).toInt.toNat (401 - 1), by omega⟩ q))
    (half_apply 100000 v _ r ⟨100000 + r.val, by omega⟩ rfl).symm

/-! ## The halves of the rotated rows -/

/-- The first direction's qualifier embeddings are the first 100000 rows of the rotation of all the gathered rows. -/
theorem qEmb_lo (x : FVec Ideal ⟨2, ![50000, 200]⟩ .f32) (rel : FVec Ideal ⟨2, ![401, 200]⟩ .f32) (a4 : IVec ⟨2, ![3, 200000]⟩ 32) :
    qEmb x rel (qEnt0 a4) (qRel0 a4) = loF (rot200k (gatherEnt x (qEntAll a4)) (gatherRel rel (qRelAll a4))) := by
  rw [← qEnt_lo, ← qRel_lo]
  funext i
  obtain ⟨r, q, rfl⟩ : ∃ (r : Fin 100000) (q : Fin 200), i = ix2 r q := ⟨i 0, i 1, eq_ix2 i⟩
  unfold qEmb loF
  refine Eq.trans ?_ (slice2_axis0_apply (n0 := 200000) (n1 := 200) (m := 100000) 0 _ _ r q (⟨r.val, by have := r.isLt; omega⟩ : Fin 200000) (Nat.zero_add _).symm).symm
  unfold rot100k rot200k
  rw [Cert.LibRotate.rot_apply (m := 100) rfl, Cert.LibRotate.rot_apply (m := 100) rfl]
  exact Cert.LibRotate.rotAt_congr rfl _ _ _ _ _ _ (fun q' => (gatherEnt_lo x _ r q').symm) (fun q' => (gatherRel_lo rel _ r q').symm) _
/-- The second direction's are the last 100000 rows. -/
theorem qEmb_hi (x : FVec Ideal ⟨2, ![50000, 200]⟩ .f32) (rel : FVec Ideal ⟨2, ![401, 200]⟩ .f32) (a4 : IVec ⟨2, ![3, 200000]⟩ 32) :
    qEmb x rel (qEnt1 a4) (qRel1 a4) = hiF (rot200k (gatherEnt x (qEntAll a4)) (gatherRel rel (qRelAll a4))) := by
  rw [← qEnt_hi, ← qRel_hi]
  funext i
  obtain ⟨r, q, rfl⟩ : ∃ (r : Fin 100000) (q : Fin 200), i = ix2 r q := ⟨i 0, i 1, eq_ix2 i⟩
  unfold qEmb hiF
  refine Eq.trans ?_ (slice2_axis0_apply (n0 := 200000) (n1 := 200) (m := 100000) 100000 _ _ r q (⟨100000 + r.val, by have := r.isLt; omega⟩ : Fin 200000) rfl).symm
  unfold rot100k rot200k
  rw [Cert.LibRotate.rot_apply (m := 100) rfl, Cert.LibRotate.rot_apply (m := 100) rfl]
  exact Cert.LibRotate.rotAt_congr rfl _ _ _ _ _ _ (fun q' => (gatherEnt_hi x _ r q').symm) (fun q' => (gatherRel_hi rel _ r q').symm) _

/-- Rounding a weight matrix to bf16 changes nothing on extended reals. -/
theorem toBf16_eq (w : FVec Ideal ⟨2, ![200, 200]⟩ .f32) : toBf16 (F := Ideal) w = w := rfl

end Cert.Halves

end
-- ==== Proof.KerEntry0.lean ====
/-
  The kernel program's first host stretch, read back as stage functions: from any buffer contents, after the stretch the
  relation table with the loop row appended, the first halves of the edge list and of the edge types, the three qualifier
  rows at all 200000 columns, and the two gathers the first region reads (one entity row and one relation row per qualifier)
  are the stage functions of the arguments the stretch reads; the arguments themselves are not written. Read at the launch
  memory this gives the contents the first region enters with.
-/
import proofs.«143578_j52467320487979_1_alg».proof.Proof.Gen.KernelIdeal.Frame
import proofs.«143578_j52467320487979_1_alg».proof.Proof.Stages
import proofs.«143578_j52467320487979_1_alg».proof.Proof.KStages
import Idealize.ShloMosaic.Lib.StableHlo.Run

set_option maxRecDepth 16384

noncomputable section

namespace Cert.KernelIdeal.KerValueA

open Cert.KernelIdeal Cert.KernelIdeal.Gen
open Idealize.ShloMosaic Idealize.ShloMosaic.TcCoe Idealize.ShloMosaic.StableHlo
open Idealize.SL.Sem

variable {F : FTy → Type} [FloatOps F]

section Stretch

variable (X : Valuation τ sig (Elt F))

attribute [local irreducible] Host.gather in
set_option maxHeartbeats 2000000 in
/-- One entity row per qualifier, both directions: the gather of the node features at the qualifiers' entity row. -/
theorem ops0_v17 :
    after hostOps0 X (Proc.devRef .tc main_v17)
      = Cert.Stage.gatherEnt (X (Proc.devRef .tc main_arg0)) (Cert.KStage.qEntAll (X (Proc.devRef .tc main_arg4))) := by
  simp only [hostOps0]
  after_results_simp
  rfl

attribute [local irreducible] Host.gather in
set_option maxHeartbeats 2000000 in
/-- One relation row per qualifier, both directions: the gather of the extended relation table at the qualifiers' relation row. -/
theorem ops0_v24 :
    after hostOps0 X (Proc.devRef .tc main_v24)
      = Cert.Stage.gatherRel (Cert.Stage.relAll (X (Proc.devRef .tc main_arg3)) (X (Proc.devRef .tc main_arg10))) (Cert.KStage.qRelAll (X (Proc.devRef .tc main_arg4))) := by
  simp only [hostOps0]
  after_results_simp
  rfl

set_option maxHeartbeats 2000000 in
/-- The relation table with the loop relation appended. -/
theorem ops0_v0 :
    after hostOps0 X (Proc.devRef .tc main_v0) = Cert.Stage.relAll (X (Proc.devRef .tc main_arg3)) (X (Proc.devRef .tc main_arg10)) := by
  simp only [hostOps0]
  after_results_simp
  rfl

set_option maxHeartbeats 2000000 in
/-- The first half of the edge list. -/
theorem ops0_v1 :
    after hostOps0 X (Proc.devRef .tc main_v1) = Cert.Stage.edgeIn (X (Proc.devRef .tc main_arg1)) := by
  simp only [hostOps0]
  after_results_simp
  rfl

set_option maxHeartbeats 2000000 in
/-- The first half of the edge types. -/
theorem ops0_v3 :
    after hostOps0 X (Proc.devRef .tc main_v3) = Cert.Stage.typeIn (X (Proc.devRef .tc main_arg2)) := by
  simp only [hostOps0]
  after_results_simp
  rfl

set_option maxHeartbeats 2000000 in
/-- The qualifiers' edges, both directions. -/
theorem ops0_v10 :
    after hostOps0 X (Proc.devRef .tc main_v10) = Cert.KStage.qIdxAll (X (Proc.devRef .tc main_arg4)) := by
  simp only [hostOps0]
  after_results_simp
  rfl

/-- The stretch writes none of the thirteen arguments. -/
theorem ops0_arg0 : after hostOps0 X (Proc.devRef .tc main_arg0) = (X (Proc.devRef .tc main_arg0)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem ops0_arg5 : after hostOps0 X (Proc.devRef .tc main_arg5) = (X (Proc.devRef .tc main_arg5)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem ops0_arg9 : after hostOps0 X (Proc.devRef .tc main_arg9) = (X (Proc.devRef .tc main_arg9)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

section Entry

variable (m : (ℓ : Loc nD τ sig) → Buf (Elt F) ℓ) (ρ : Dev nD → PrngReg)

/-- The first region enters with one entity row per qualifier. -/
theorem V1_v17 (c : Dev nD) :
    Gen.V1 m ρ c main_v17 = Cert.Stage.gatherEnt (m ((c : Thread nD τ).loc main_arg0)) (Cert.KStage.qEntAll (m ((c : Thread nD τ).loc main_arg4))) :=
  ops0_v17 (Gen.W0 m ρ c)

/-- The first region enters with one relation row per qualifier. -/
theorem V1_v24 (c : Dev nD) :
    Gen.V1 m ρ c main_v24
      = Cert.Stage.gatherRel (Cert.Stage.relAll (m ((c : Thread nD τ).loc main_arg3)) (m ((c : Thread nD τ).loc main_arg10))) (Cert.KStage.qRelAll (m ((c : Thread nD τ).loc main_arg4))) :=
  ops0_v24 (Gen.W0 m ρ c)

/-- What the later stretches read of the first stretch's results, at the launch memory. -/
theorem W1_v0 (c : Dev nD) :
    Gen.W1 m ρ c (Proc.devRef .tc main_v0) = Cert.Stage.relAll (m ((c : Thread nD τ).loc main_arg3)) (m ((c : Thread nD τ).loc main_arg10)) :=
  ops0_v0 (Gen.W0 m ρ c)
theorem W1_v1 (c : Dev nD) :
    Gen.W1 m ρ c (Proc.devRef .tc main_v1) = Cert.Stage.edgeIn (m ((c : Thread nD τ).loc main_arg1)) :=
  ops0_v1 (Gen.W0 m ρ c)
theorem W1_v3 (c : Dev nD) :
    Gen.W1 m ρ c (Proc.devRef .tc main_v3) = Cert.Stage.typeIn (m ((c : Thread nD τ).loc main_arg2)) :=
  ops0_v3 (Gen.W0 m ρ c)
theorem W1_v10 (c : Dev nD) :
    Gen.W1 m ρ c (Proc.devRef .tc main_v10) = Cert.KStage.qIdxAll (m ((c : Thread nD τ).loc main_arg4)) :=
  ops0_v10 (Gen.W0 m ρ c)
theorem W1_arg0 (c : Dev nD) : Gen.W1 m ρ c (Proc.devRef .tc main_arg0) = (m ((c : Thread nD τ).loc main_arg0)) :=
  ops0_arg0 (Gen.W0 m ρ c)
theorem W1_arg5 (c : Dev nD) : Gen.W1 m ρ c (Proc.devRef .tc main_arg5) = (m ((c : Thread nD τ).loc main_arg5)) :=
  ops0_arg5 (Gen.W0 m ρ c)
theorem W1_arg9 (c : Dev nD) : Gen.W1 m ρ c (Proc.devRef .tc main_arg9) = (m ((c : Thread nD τ).loc main_arg9)) :=
  ops0_arg9 (Gen.W0 m ρ c)

end Entry

end Cert.KernelIdeal.KerValueA

end
-- ==== Proof.KerEntry1Ops.lean ====
/-
  The kernel program's second host stretch, read back as stage functions: from any buffer contents, after the stretch the
  first direction's coalesced qualifiers (the scatter-add of the first half of the rotated qualifier rows at the first half
  of the qualifiers' edges), two weight matrices rounded to bf16, and the two gathers of the first direction (the source
  node's row and the relation's row of each edge) are the stage functions of the buffers the stretch reads.
-/
import proofs.«143578_j52467320487979_1_alg».proof.Proof.Gen.KernelIdeal.Frame
import proofs.«143578_j52467320487979_1_alg».proof.Proof.Stages
import proofs.«143578_j52467320487979_1_alg».proof.Proof.KStages
import Idealize.ShloMosaic.Lib.StableHlo.Run

set_option maxRecDepth 16384

noncomputable section

namespace Cert.KernelIdeal.KerValueA

open Cert.KernelIdeal Cert.KernelIdeal.Gen
open Idealize.ShloMosaic Idealize.ShloMosaic.TcCoe Idealize.ShloMosaic.StableHlo
open Idealize.SL.Sem

variable {F : FTy → Type} [FloatOps F]

section Stretch

variable (X : Valuation τ sig (Elt F))

attribute [local irreducible] Host.gather Host.scatterAdd Host.powf in
set_option maxHeartbeats 2000000 in
/-- The first direction's qualifiers summed per edge: both operands are first halves. -/
theorem ops1_v37 :
    after hostOps1 X (Proc.devRef .tc main_v37)
      = Cert.Stage.coalesce (Cert.KStage.loI (X (Proc.devRef .tc main_v10))) (Cert.KStage.loF (X (Proc.devRef .tc main_v25))) := by
  simp only [hostOps1]
  after_results_simp
  rfl

attribute [local irreducible] Host.gather Host.scatterAdd Host.powf in
set_option maxHeartbeats 2000000 in
/-- The qualifier weight rounded to bf16. -/
theorem ops1_v46 :
    after hostOps1 X (Proc.devRef .tc main_v46) = Cert.KStage.toBf16 (X (Proc.devRef .tc main_arg9)) := by
  simp only [hostOps1]
  after_results_simp
  rfl

attribute [local irreducible] Host.gather Host.scatterAdd Host.powf in
set_option maxHeartbeats 2000000 in
/-- The first direction's weight rounded to bf16. -/
theorem ops1_v47 :
    after hostOps1 X (Proc.devRef .tc main_v47) = Cert.KStage.toBf16 (X (Proc.devRef .tc main_arg5)) := by
  simp only [hostOps1]
  after_results_simp
  rfl

attribute [local irreducible] Host.gather Host.scatterAdd Host.powf in
set_option maxHeartbeats 2000000 in
/-- The source node's row of each edge of the first direction. -/
theorem ops1_v60 :
    after hostOps1 X (Proc.devRef .tc main_v60)
      = Cert.Stage.gatherEnt (X (Proc.devRef .tc main_arg0)) (Cert.Stage.edgeCol (X (Proc.devRef .tc main_v1))) := by
  simp only [hostOps1]
  after_results_simp
  rfl

attribute [local irreducible] Host.gather Host.scatterAdd Host.powf in
set_option maxHeartbeats 2000000 in
/-- The relation's row of each edge of the first direction. -/
theorem ops1_v67 :
    after hostOps1 X (Proc.devRef .tc main_v67)
      = Cert.Stage.gatherRel (X (Proc.devRef .tc main_v0)) (X (Proc.devRef .tc main_v3)) := by
  simp only [hostOps1]
  after_results_simp
  rfl

end Stretch

end Cert.KernelIdeal.KerValueA

end
-- ==== Proof.KerEntry1Norm.lean ====
/-
  The degree normalisation of the first direction, read back from the kernel program's host code: the in-degree count, its
  inverse square root read as zero where the degree is zero (the inlined where-call), the two gathers at each edge's target and
  source node, their product and its broadcast to a column run through three consecutive host stretches; from any buffer
  contents, after the three the column is the stage function of the first direction's edge rows and edge columns.
-/
import proofs.«143578_j52467320487979_1_alg».proof.Proof.Gen.KernelIdeal.Frame
import proofs.«143578_j52467320487979_1_alg».proof.Proof.Stages
import proofs.«143578_j52467320487979_1_alg».proof.Proof.KStages
import Idealize.ShloMosaic.Lib.StableHlo.Run

set_option maxRecDepth 16384

noncomputable section

namespace Cert.KernelIdeal.KerValueA

open Cert.KernelIdeal Cert.KernelIdeal.Gen
open Idealize.ShloMosaic Idealize.ShloMosaic.TcCoe Idealize.ShloMosaic.StableHlo
open Idealize.SL.Sem

variable {F : FTy → Type} [FloatOps F]

section Stretch

variable (X : Valuation τ sig (Elt F))

attribute [local irreducible] Host.gather Host.scatterAdd Host.powf in
set_option maxHeartbeats 2000000 in
/-- The normalisation column after the three stretches, from the first half of the edge list. -/
theorem ops1n_v97 :
    after hostOps1_2 (after hostOps1_1 (after hostOps1 X)) (Proc.devRef .tc main_v97)
      = Cert.Stage.norm (Cert.Stage.edgeRow (X (Proc.devRef .tc main_v1))) (Cert.Stage.edgeCol (X (Proc.devRef .tc main_v1))) := by
  simp only [hostOps1_2, hostOps1_1, hostOps1]
  after_results_simp
  first | rfl | fail "rfl failed"

end Stretch

end Cert.KernelIdeal.KerValueA

end
-- ==== Proof.KerEntry1.lean ====
/-
  The contents the second region enters with, as stage functions of the launch memory. The first region's exit keeps every
  buffer that is not one of its arrays and holds its output array at the write-backs' fold; the second host stretch then
  computes the first direction's coalesced qualifiers (from the first halves of the qualifiers' edges and of that output),
  the rounded weights and the two gathers, which the two following stretches do not write; the normalisation column runs
  through all three stretches.
-/
import proofs.«143578_j52467320487979_1_alg».proof.Proof.Gen.KernelIdeal.Frame
import proofs.«143578_j52467320487979_1_alg».proof.Proof.Stages
import proofs.«143578_j52467320487979_1_alg».proof.Proof.KStages
import Idealize.ShloMosaic.Lib.StableHlo.Run
import proofs.«143578_j52467320487979_1_alg».proof.Proof.KerEntry0
import proofs.«143578_j52467320487979_1_alg».proof.Proof.KerEntry1Ops
import proofs.«143578_j52467320487979_1_alg».proof.Proof.KerEntry1Norm

set_option maxRecDepth 16384

noncomputable section

namespace Cert.KernelIdeal.KerValueA

open Cert.KernelIdeal Cert.KernelIdeal.Gen
open Idealize.ShloMosaic Idealize.ShloMosaic.TcCoe Idealize.ShloMosaic.StableHlo
open Idealize.SL.Sem

variable {F : FTy → Type} [FloatOps F]

section Keep

variable (X : Valuation τ sig (Elt F))

/-- The where-call's stretch and the stretch after it write none of the second stretch's results the region reads. -/
theorem ops11_v37 : after hostOps1_1 X (Proc.devRef .tc main_v37) = (X (Proc.devRef .tc main_v37)) :=
  StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem ops11_v46 : after hostOps1_1 X (Proc.devRef .tc main_v46) = (X (Proc.devRef .tc main_v46)) :=
  StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem ops11_v47 : after hostOps1_1 X (Proc.devRef .tc main_v47) = (X (Proc.devRef .tc main_v47)) :=
  StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem ops11_v60 : after hostOps1_1 X (Proc.devRef .tc main_v60) = (X (Proc.devRef .tc main_v60)) :=
  StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem ops11_v67 : after hostOps1_1 X (Proc.devRef .tc main_v67) = (X (Proc.devRef .tc main_v67)) :=
  StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem ops12_v37 : after hostOps1_2 X (Proc.devRef .tc main_v37) = (X (Proc.devRef .tc main_v37)) :=
  StableHlo.after_of_forall_not_mem _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem ops12_v46 : after hostOps1_2 X (Proc.devRef .tc main_v46) = (X (Proc.devRef .tc main_v46)) :=
  StableHlo.after_of_forall_not_mem _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem ops12_v47 : after hostOps1_2 X (Proc.devRef .tc main_v47) = (X (Proc.devRef .tc main_v47)) :=
  StableHlo.after_of_forall_not_mem _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem ops12_v60 : after hostOps1_2 X (Proc.devRef .tc main_v60) = (X (Proc.devRef .tc main_v60)) :=
  StableHlo.after_of_forall_not_mem _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem ops12_v67 : after hostOps1_2 X (Proc.devRef .tc main_v67) = (X (Proc.devRef .tc main_v67)) :=
  StableHlo.after_of_forall_not_mem _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Keep

section Entry

variable (m : (ℓ : Loc nD τ sig) → Buf (Elt F) ℓ) (ρ : Dev nD → PrngReg)

/-- The first region's exit holds its output array at the write-backs' fold and keeps every other buffer. -/
theorem W2_v25 (c : Dev nD) : Gen.W2 m ρ c (Proc.devRef .tc main_v25) = ((Gen.dat0 (Gen.V1 m ρ) c).arrAt 2 cfg0.N) :=
  Gen.W2_arr m ρ c 2
theorem W2_arg0 (c : Dev nD) : Gen.W2 m ρ c (Proc.devRef .tc main_arg0) = Gen.W1 m ρ c (Proc.devRef .tc main_arg0) :=
  Gen.W2_of_ne m ρ c main_arg0 (by decide)
theorem W2_arg5 (c : Dev nD) : Gen.W2 m ρ c (Proc.devRef .tc main_arg5) = Gen.W1 m ρ c (Proc.devRef .tc main_arg5) :=
  Gen.W2_of_ne m ρ c main_arg5 (by decide)
theorem W2_arg9 (c : Dev nD) : Gen.W2 m ρ c (Proc.devRef .tc main_arg9) = Gen.W1 m ρ c (Proc.devRef .tc main_arg9) :=
  Gen.W2_of_ne m ρ c main_arg9 (by decide)
theorem W2_v0 (c : Dev nD) : Gen.W2 m ρ c (Proc.devRef .tc main_v0) = Gen.W1 m ρ c (Proc.devRef .tc main_v0) :=
  Gen.W2_of_ne m ρ c main_v0 (by decide)
theorem W2_v1 (c : Dev nD) : Gen.W2 m ρ c (Proc.devRef .tc main_v1) = Gen.W1 m ρ c (Proc.devRef .tc main_v1) :=
  Gen.W2_of_ne m ρ c main_v1 (by decide)
theorem W2_v3 (c : Dev nD) : Gen.W2 m ρ c (Proc.devRef .tc main_v3) = Gen.W1 m ρ c (Proc.devRef .tc main_v3) :=
  Gen.W2_of_ne m ρ c main_v3 (by decide)
theorem W2_v10 (c : Dev nD) : Gen.W2 m ρ c (Proc.devRef .tc main_v10) = Gen.W1 m ρ c (Proc.devRef .tc main_v10) :=
  Gen.W2_of_ne m ρ c main_v10 (by decide)

/-- The second region's entry at a result of the second stretch is that stretch's result at the first region's exit. -/
theorem W5_v37 (c : Dev nD) :
    Gen.W5 m ρ c (Proc.devRef .tc main_v37) = after hostOps1 (Gen.W2 m ρ c) (Proc.devRef .tc main_v37) :=
  (ops12_v37 (Gen.W4 m ρ c)).trans (ops11_v37 (Gen.W3 m ρ c))
theorem W5_v46 (c : Dev nD) :
    Gen.W5 m ρ c (Proc.devRef .tc main_v46) = after hostOps1 (Gen.W2 m ρ c) (Proc.devRef .tc main_v46) :=
  (ops12_v46 (Gen.W4 m ρ c)).trans (ops11_v46 (Gen.W3 m ρ c))
theorem W5_v47 (c : Dev nD) :
    Gen.W5 m ρ c (Proc.devRef .tc main_v47) = after hostOps1 (Gen.W2 m ρ c) (Proc.devRef .tc main_v47) :=
  (ops12_v47 (Gen.W4 m ρ c)).trans (ops11_v47 (Gen.W3 m ρ c))
theorem W5_v60 (c : Dev nD) :
    Gen.W5 m ρ c (Proc.devRef .tc main_v60) = after hostOps1 (Gen.W2 m ρ c) (Proc.devRef .tc main_v60) :=
  (ops12_v60 (Gen.W4 m ρ c)).trans (ops11_v60 (Gen.W3 m ρ c))
theorem W5_v67 (c : Dev nD) :
    Gen.W5 m ρ c (Proc.devRef .tc main_v67) = after hostOps1 (Gen.W2 m ρ c) (Proc.devRef .tc main_v67) :=
  (ops12_v67 (Gen.W4 m ρ c)).trans (ops11_v67 (Gen.W3 m ρ c))

/-- The source node's row of each edge of the first direction. -/
theorem V5_v60 (c : Dev nD) :
    Gen.V5 m ρ c main_v60 = Cert.Stage.gatherEnt (m ((c : Thread nD τ).loc main_arg0)) (Cert.Stage.edgeCol (Cert.Stage.edgeIn (m ((c : Thread nD τ).loc main_arg1)))) :=
  (W5_v60 m ρ c).trans ((ops1_v60 (Gen.W2 m ρ c)).trans (by
    rw [W2_arg0, W1_arg0, W2_v1, W1_v1]))

/-- The relation's row of each edge of the first direction. -/
theorem V5_v67 (c : Dev nD) :
    Gen.V5 m ρ c main_v67
      = Cert.Stage.gatherRel (Cert.Stage.relAll (m ((c : Thread nD τ).loc main_arg3)) (m ((c : Thread nD τ).loc main_arg10))) (Cert.Stage.typeIn (m ((c : Thread nD τ).loc main_arg2))) :=
  (W5_v67 m ρ c).trans ((ops1_v67 (Gen.W2 m ρ c)).trans (by
    rw [W2_v0, W1_v0, W2_v3, W1_v3]))

/-- The first direction's coalesced qualifiers: the first half of the first region's output summed at the first half of the
    qualifiers' edges. -/
theorem V5_v37 (c : Dev nD) :
    Gen.V5 m ρ c main_v37
      = Cert.Stage.coalesce (Cert.KStage.loI (Cert.KStage.qIdxAll (m ((c : Thread nD τ).loc main_arg4)))) (Cert.KStage.loF ((Gen.dat0 (Gen.V1 m ρ) c).arrAt 2 cfg0.N)) :=
  (W5_v37 m ρ c).trans ((ops1_v37 (Gen.W2 m ρ c)).trans (by
    rw [W2_v10, W1_v10, W2_v25]))

/-- The normalisation column of the first direction. -/
theorem V5_v97 (c : Dev nD) :
    Gen.V5 m ρ c main_v97
      = Cert.Stage.norm (Cert.Stage.edgeRow (Cert.Stage.edgeIn (m ((c : Thread nD τ).loc main_arg1)))) (Cert.Stage.edgeCol (Cert.Stage.edgeIn (m ((c : Thread nD τ).loc main_arg1)))) :=
  (ops1n_v97 (Gen.W2 m ρ c)).trans (by
    rw [W2_v1, W1_v1])

/-- The qualifier weight rounded to bf16. -/
theorem V5_v46 (c : Dev nD) : Gen.V5 m ρ c main_v46 = Cert.KStage.toBf16 (m ((c : Thread nD τ).loc main_arg9)) :=
  (W5_v46 m ρ c).trans ((ops1_v46 (Gen.W2 m ρ c)).trans (by
    rw [W2_arg9, W1_arg9]))

/-- The first direction's weight rounded to bf16. -/
theorem V5_v47 (c : Dev nD) : Gen.V5 m ρ c main_v47 = Cert.KStage.toBf16 (m ((c : Thread nD τ).loc main_arg5)) :=
  (W5_v47 m ρ c).trans ((ops1_v47 (Gen.W2 m ρ c)).trans (by
    rw [W2_arg5, W1_arg5]))

end Entry

end Cert.KernelIdeal.KerValueA

end
-- ==== Proof.KerEntry2Keep.lean ====
/-
  Which buffers each stretch of host operations of the kernel's program writes, and that every other buffer keeps its
  contents across the stretch: per stretch the list of the result references of its operations, the inclusion of every
  operation's written set in that list (the k-th operation writes the k-th reference), and the resulting frame lemma
  at any valuation.
-/
import proofs.«143578_j52467320487979_1_alg».proof.Proof.Gen.KernelIdeal.Frame

set_option maxRecDepth 16384

noncomputable section

namespace Cert.KernelIdeal.KerValue

open Idealize.ShloMosaic Idealize.ShloMosaic.TcCoe
open Cert.KernelIdeal Cert.KernelIdeal.Gen

variable {F : FTy → Type} [FloatOps F]

/-- An operation whose written set is one reference of a list writes within the list. -/
theorem sub_of_mem {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]; exact List.mem_map_of_mem hy

/-- The references the stretch `hostOps0` writes, in order. -/
abbrev wr0 : List (Ref sig .tc) := [main_v0, main_v1, main_v2, main_v3, main_v4, main_v5, main_v6, main_v7, main_v8, main_v9, main_v10, main_c, main_v11, main_v12, main_c_0, main_v13, main_v14, main_v15, main_v16, main_v17, main_c_1, main_v18, main_v19, main_c_2, main_v20, main_v21, main_v22, main_v23, main_v24]

theorem wr0_sub : (hostOps0 : List (HloOp τ sig (Elt F))).Forall fun op => op.writes ⊆ (wr0.map (Proc.devRef (τ := τ) .tc)).toFinset :=
  ⟨sub_of_mem (StableHlo.binary_writes ..) (.head _),
   sub_of_mem (StableHlo.unary_writes ..) (.tail _ (.head _)),
   sub_of_mem (StableHlo.unary_writes ..) (.tail _ (.tail _ (.head _))),
   sub_of_mem (StableHlo.unary_writes ..) (.tail _ (.tail _ (.tail _ (.head _)))),
   sub_of_mem (StableHlo.unary_writes ..) (.tail _ (.tail _ (.tail _ (.tail _ (.head _))))),
   sub_of_mem (StableHlo.unary_writes ..) (.tail _ (.tail _ (.tail _ (.tail _ (.tail _ (.head _)))))),
   sub_of_mem (StableHlo.reshape_writes ..) (.tail _ (.tail _ (.tail _ (.tail _ (.tail _ (.tail _ (.head _))))))),
   sub_of_mem (StableHlo.unary_writes ..) (.tail _ (.tail _ (.tail _ (.tail _ (.tail _ (.tail _ (.tail _ (.head _)))))))),
   sub_of_mem (StableHlo.reshape_writes ..) (.tail _ (.tail _ (.tail _ (.tail _ (.tail _ (.tail _ (.tail _ (.tail _ (.head _))))))))),
   sub_of_mem (StableHlo.unary_writes ..) (.tail _ (.tail _ (.tail _ (.tail _ (.tail _ (.tail _ (.tail _ (.tail _ (.tail _ (.head _)))))))))),
   sub_of_mem (StableHlo.reshape_writes ..) (.tail _ (.tail _ (.tail _ (.tail _ (.tail _ (.tail _ (.tail _ (.tail _ (.tail _ (.tail _ (.head _))))))))))),
   sub_of_mem (StableHlo.nullary_writes ..) (.tail _ (.tail _ (.tail _ (.tail _ (.tail _ (.tail _ (.tail _ (.tail _ (.tail _ (.tail _ (.tail _ (.head _)))))))))))),
   sub_of_mem (StableHlo.unary_writes ..) (.tail _ (.tail _ (.tail _ (.tail _ (.tail _ (.tail _ (.tail _ (.tail _ (.tail _ (.tail _ (.tail _ (.tail _ (.head _))))))))))))),
   sub_of_mem (StableHlo.binary_writes ..) (.tail _ (.tail _ (.tail _ (.tail _ (.tail _ (.tail _ (.tail _ (.tail _ (.tail _ (.tail _ (.tail _ (.tail _ (.tail _ (.head _)))))))))))))),
   sub_of_mem (StableHlo.nullary_writes ..) (.tail _ (.tail _ (.tail _ (.tail _ (.tail _ (.tail _ (.tail _ (.tail _ (.tail _ (.tail _ (.tail _ (.tail _ (.tail _ (.tail _ (.head _))))))))))))))),
   sub_of_mem (StableHlo.unary_writes ..) (.tail _ (.tail _ (.tail _ (.tail _ (.tail _ (.tail _ (.tail _ (.tail _ (.tail _ (.tail _ (.tail _ (.tail _ (.tail _ (.tail _ (.tail _ (.head _)))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.head _))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.head _)))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.head _))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩

/-- A reference the stretch `hostOps0` does not write keeps its contents. -/
theorem keep0 (X : Valuation τ sig (Elt F)) (r : Ref sig .tc) (hr : r ∉ wr0) :
    StableHlo.after hostOps0 X (Proc.devRef .tc r) = X (Proc.devRef .tc r) :=
  StableHlo.after_of_writes_sub _ _ wr0_sub hr

/-- The references the stretch `hostOps1` writes, in order. -/
abbrev wr1 : List (Ref sig .tc) := [main_v26, main_v27, main_v28, main_v29, main_cst, main_v30, main_c_3, main_v31, main_v32, main_c_4, main_v33, main_v34, main_v35, main_v36, main_v37, main_cst_5, main_v38, main_c_6, main_v39, main_v40, main_c_7, main_v41, main_v42, main_v43, main_v44, main_v45, main_v46, main_v47, main_v48, main_v49, main_v50, main_v51, main_v52, main_v53, main_c_8, main_v54, main_v55, main_c_9, main_v56, main_v57, main_v58, main_v59, main_v60, main_c_10, main_v61, main_v62, main_c_11, main_v63, main_v64, main_v65, main_v66, main_v67, main_cst_12, main_v68, main_c_13, main_v69, main_v70, main_c_14, main_v71, main_v72, main_v73, main_v74, main_cst_15, main_v75, main_v76, main_cst_16, main_v77, main_v78, main_cst_17, main_v79, main_v80, main_cst_18]

theorem wr1_sub : (hostOps1 : List (HloOp τ sig (Elt F))).Forall fun op => op.writes ⊆ (wr1.map (Proc.devRef (τ := τ) .tc)).toFinset :=
  ⟨sub_of_mem (StableHlo.unary_writes ..) (.head _),
   sub_of_mem (StableHlo.unary_writes ..) (.tail _ (.head _)),
   sub_of_mem (StableHlo.unary_writes ..) (.tail _ (.tail _ (.head _))),
   sub_of_mem (StableHlo.unary_writes ..) (.tail _ (.tail _ (.tail _ (.head _)))),
   sub_of_mem (StableHlo.nullary_writes ..) (.tail _ (.tail _ (.tail _ (.tail _ (.head _))))),
   sub_of_mem (StableHlo.unary_writes ..) (.tail _ (.tail _ (.tail _ (.tail _ (.tail _ (.head _)))))),
   sub_of_mem (StableHlo.nullary_writes ..) (.tail _ (.tail _ (.tail _ (.tail _ (.tail _ (.tail _ (.head _))))))),
   sub_of_mem (StableHlo.unary_writes ..) (.tail _ (.tail _ (.tail _ (.tail _ (.tail _ (.tail _ (.tail _ (.head _)))))))),
   sub_of_mem (StableHlo.binary_writes ..) (.tail _ (.tail _ (.tail _ (.tail _ (.tail _ (.tail _ (.tail _ (.tail _ (.head _))))))))),
   sub_of_mem (StableHlo.nullary_writes ..) (.tail _ (.tail _ (.tail _ (.tail _ (.tail _ (.tail _ (.tail _ (.tail _ (.tail _ (.head _)))))))))),
   sub_of_mem (StableHlo.unary_writes ..) (.tail _ (.tail _ (.tail _ (.tail _ (.tail _ (.tail _ (.tail _ (.tail _ (.tail _ (.tail _ (.head _))))))))))),
   sub_of_mem (StableHlo.binary_writes ..) (.tail _ (.tail _ (.tail _ (.tail _ (.tail _ (.tail _ (.tail _ (.tail _ (.tail _ (.tail _ (.tail _ (.head _)))))))))))),
   sub_of_mem (StableHlo.ternary_writes ..) (.tail _ (.tail _ (.tail _ (.tail _ (.tail _ (.tail _ (.tail _ (.tail _ (.tail _ (.tail _ (.tail _ (.tail _ (.head _))))))))))))),
   sub_of_mem (StableHlo.unary_writes ..) (.tail _ (.tail _ (.tail _ (.tail _ (.tail _ (.tail _ (.tail _ (.tail _ (.tail _ (.tail _ (.tail _ (.tail _ (.tail _ (.head _)))))))))))))),
   sub_of_mem (StableHlo.ternary_writes ..) (.tail _ (.tail _ (.tail _ (.tail _ (.tail _ (.tail _ (.tail _ (.tail _ (.tail _ (.tail _ (.tail _ (.tail _ (.tail _ (.tail _ (.head _))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.head _)))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.head _))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.head _)))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.head _))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))),
   sub_of_mem (StableHlo.reshape_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))),
   sub_of_mem (StableHlo.reshape_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))))))⟩

/-- A reference the stretch `hostOps1` does not write keeps its contents. -/
theorem keep1 (X : Valuation τ sig (Elt F)) (r : Ref sig .tc) (hr : r ∉ wr1) :
    StableHlo.after hostOps1 X (Proc.devRef .tc r) = X (Proc.devRef .tc r) :=
  StableHlo.after_of_writes_sub _ _ wr1_sub hr

/-- The references the stretch `hostOps1_1` writes, in order. -/
abbrev wr1_1 : List (Ref sig .tc) := [main_call0_v0, main_call0_v1, main_v81]

theorem wr1_1_sub : (hostOps1_1 : List (HloOp τ sig (Elt F))).Forall fun op => op.writes ⊆ (wr1_1.map (Proc.devRef (τ := τ) .tc)).toFinset :=
  ⟨sub_of_mem (StableHlo.unary_writes ..) (.head _),
   sub_of_mem (StableHlo.unary_writes ..) (.tail _ (.head _)),
   sub_of_mem (StableHlo.ternary_writes ..) (.tail _ (.tail _ (.head _)))⟩

/-- A reference the stretch `hostOps1_1` does not write keeps its contents. -/
theorem keep1_1 (X : Valuation τ sig (Elt F)) (r : Ref sig .tc) (hr : r ∉ wr1_1) :
    StableHlo.after hostOps1_1 X (Proc.devRef .tc r) = X (Proc.devRef .tc r) :=
  StableHlo.after_of_writes_sub _ _ wr1_1_sub hr

/-- The references the stretch `hostOps1_2` writes, in order. -/
abbrev wr1_2 : List (Ref sig .tc) := [main_c_19, main_v82, main_v83, main_c_20, main_v84, main_v85, main_v86, main_v87, main_v88, main_c_21, main_v89, main_v90, main_c_22, main_v91, main_v92, main_v93, main_v94, main_v95, main_v96, main_v97]

theorem wr1_2_sub : (hostOps1_2 : List (HloOp τ sig (Elt F))).Forall fun op => op.writes ⊆ (wr1_2.map (Proc.devRef (τ := τ) .tc)).toFinset :=
  ⟨sub_of_mem (StableHlo.nullary_writes ..) (.head _),
   sub_of_mem (StableHlo.unary_writes ..) (.tail _ (.head _)),
   sub_of_mem (StableHlo.binary_writes ..) (.tail _ (.tail _ (.head _))),
   sub_of_mem (StableHlo.nullary_writes ..) (.tail _ (.tail _ (.tail _ (.head _)))),
   sub_of_mem (StableHlo.unary_writes ..) (.tail _ (.tail _ (.tail _ (.tail _ (.head _))))),
   sub_of_mem (StableHlo.binary_writes ..) (.tail _ (.tail _ (.tail _ (.tail _ (.tail _ (.head _)))))),
   sub_of_mem (StableHlo.ternary_writes ..) (.tail _ (.tail _ (.tail _ (.tail _ (.tail _ (.tail _ (.head _))))))),
   sub_of_mem (StableHlo.unary_writes ..) (.tail _ (.tail _ (.tail _ (.tail _ (.tail _ (.tail _ (.tail _ (.head _)))))))),
   sub_of_mem (StableHlo.binary_writes ..) (.tail _ (.tail _ (.tail _ (.tail _ (.tail _ (.tail _ (.tail _ (.tail _ (.head _))))))))),
   sub_of_mem (StableHlo.nullary_writes ..) (.tail _ (.tail _ (.tail _ (.tail _ (.tail _ (.tail _ (.tail _ (.tail _ (.tail _ (.head _)))))))))),
   sub_of_mem (StableHlo.unary_writes ..) (.tail _ (.tail _ (.tail _ (.tail _ (.tail _ (.tail _ (.tail _ (.tail _ (.tail _ (.tail _ (.head _))))))))))),
   sub_of_mem (StableHlo.binary_writes ..) (.tail _ (.tail _ (.tail _ (.tail _ (.tail _ (.tail _ (.tail _ (.tail _ (.tail _ (.tail _ (.tail _ (.head _)))))))))))),
   sub_of_mem (StableHlo.nullary_writes ..) (.tail _ (.tail _ (.tail _ (.tail _ (.tail _ (.tail _ (.tail _ (.tail _ (.tail _ (.tail _ (.tail _ (.tail _ (.head _))))))))))))),
   sub_of_mem (StableHlo.unary_writes ..) (.tail _ (.tail _ (.tail _ (.tail _ (.tail _ (.tail _ (.tail _ (.tail _ (.tail _ (.tail _ (.tail _ (.tail _ (.tail _ (.head _)))))))))))))),
   sub_of_mem (StableHlo.binary_writes ..) (.tail _ (.tail _ (.tail _ (.tail _ (.tail _ (.tail _ (.tail _ (.tail _ (.tail _ (.tail _ (.tail _ (.tail _ (.tail _ (.tail _ (.head _))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.head _)))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.head _))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.head _)))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.head _))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))⟩

/-- A reference the stretch `hostOps1_2` does not write keeps its contents. -/
theorem keep1_2 (X : Valuation τ sig (Elt F)) (r : Ref sig .tc) (hr : r ∉ wr1_2) :
    StableHlo.after hostOps1_2 X (Proc.devRef .tc r) = X (Proc.devRef .tc r) :=
  StableHlo.after_of_writes_sub _ _ wr1_2_sub hr

/-- The references the stretch `hostOps2` writes, in order. -/
abbrev wr2 : List (Ref sig .tc) := [main_cst_23, main_v99, main_c_24, main_v100, main_v101, main_c_25, main_v102, main_v103, main_v104, main_v105, main_v106, main_v107, main_v108, main_v109, main_v110, main_c_26, main_v111, main_v112, main_c_27, main_v113, main_v114, main_v115, main_v116, main_v117, main_c_28, main_v118, main_v119, main_c_29, main_v120, main_v121, main_v122, main_v123, main_v124, main_cst_30, main_v125, main_c_31, main_v126, main_v127, main_c_32, main_v128, main_v129, main_v130, main_v131, main_cst_33, main_v132, main_v133, main_cst_34, main_v134, main_v135, main_cst_35, main_v136, main_v137, main_cst_36]

theorem wr2_sub : (hostOps2 : List (HloOp τ sig (Elt F))).Forall fun op => op.writes ⊆ (wr2.map (Proc.devRef (τ := τ) .tc)).toFinset :=
  ⟨sub_of_mem (StableHlo.nullary_writes ..) (.head _),
   sub_of_mem (StableHlo.unary_writes ..) (.tail _ (.head _)),
   sub_of_mem (StableHlo.nullary_writes ..) (.tail _ (.tail _ (.head _))),
   sub_of_mem (StableHlo.unary_writes ..) (.tail _ (.tail _ (.tail _ (.head _)))),
   sub_of_mem (StableHlo.binary_writes ..) (.tail _ (.tail _ (.tail _ (.tail _ (.head _))))),
   sub_of_mem (StableHlo.nullary_writes ..) (.tail _ (.tail _ (.tail _ (.tail _ (.tail _ (.head _)))))),
   sub_of_mem (StableHlo.unary_writes ..) (.tail _ (.tail _ (.tail _ (.tail _ (.tail _ (.tail _ (.head _))))))),
   sub_of_mem (StableHlo.binary_writes ..) (.tail _ (.tail _ (.tail _ (.tail _ (.tail _ (.tail _ (.tail _ (.head _)))))))),
   sub_of_mem (StableHlo.ternary_writes ..) (.tail _ (.tail _ (.tail _ (.tail _ (.tail _ (.tail _ (.tail _ (.tail _ (.head _))))))))),
   sub_of_mem (StableHlo.unary_writes ..) (.tail _ (.tail _ (.tail _ (.tail _ (.tail _ (.tail _ (.tail _ (.tail _ (.tail _ (.head _)))))))))),
   sub_of_mem (StableHlo.ternary_writes ..) (.tail _ (.tail _ (.tail _ (.tail _ (.tail _ (.tail _ (.tail _ (.tail _ (.tail _ (.tail _ (.head _))))))))))),
   sub_of_mem (StableHlo.unary_writes ..) (.tail _ (.tail _ (.tail _ (.tail _ (.tail _ (.tail _ (.tail _ (.tail _ (.tail _ (.tail _ (.tail _ (.head _)))))))))))),
   sub_of_mem (StableHlo.reshape_writes ..) (.tail _ (.tail _ (.tail _ (.tail _ (.tail _ (.tail _ (.tail _ (.tail _ (.tail _ (.tail _ (.tail _ (.tail _ (.head _))))))))))))),
   sub_of_mem (StableHlo.unary_writes ..) (.tail _ (.tail _ (.tail _ (.tail _ (.tail _ (.tail _ (.tail _ (.tail _ (.tail _ (.tail _ (.tail _ (.tail _ (.tail _ (.head _)))))))))))))),
   sub_of_mem (StableHlo.reshape_writes ..) (.tail _ (.tail _ (.tail _ (.tail _ (.tail _ (.tail _ (.tail _ (.tail _ (.tail _ (.tail _ (.tail _ (.tail _ (.tail _ (.tail _ (.head _))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.head _)))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.head _))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.head _)))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.head _))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))⟩

/-- A reference the stretch `hostOps2` does not write keeps its contents. -/
theorem keep2 (X : Valuation τ sig (Elt F)) (r : Ref sig .tc) (hr : r ∉ wr2) :
    StableHlo.after hostOps2 X (Proc.devRef .tc r) = X (Proc.devRef .tc r) :=
  StableHlo.after_of_writes_sub _ _ wr2_sub hr

/-- The references the stretch `hostOps2_1` writes, in order. -/
abbrev wr2_1 : List (Ref sig .tc) := [main_call1_v0, main_call1_v1, main_v138]

theorem wr2_1_sub : (hostOps2_1 : List (HloOp τ sig (Elt F))).Forall fun op => op.writes ⊆ (wr2_1.map (Proc.devRef (τ := τ) .tc)).toFinset :=
  ⟨sub_of_mem (StableHlo.unary_writes ..) (.head _),
   sub_of_mem (StableHlo.unary_writes ..) (.tail _ (.head _)),
   sub_of_mem (StableHlo.ternary_writes ..) (.tail _ (.tail _ (.head _)))⟩

/-- A reference the stretch `hostOps2_1` does not write keeps its contents. -/
theorem keep2_1 (X : Valuation τ sig (Elt F)) (r : Ref sig .tc) (hr : r ∉ wr2_1) :
    StableHlo.after hostOps2_1 X (Proc.devRef .tc r) = X (Proc.devRef .tc r) :=
  StableHlo.after_of_writes_sub _ _ wr2_1_sub hr

/-- The references the stretch `hostOps2_2` writes, in order. -/
abbrev wr2_2 : List (Ref sig .tc) := [main_c_37, main_v139, main_v140, main_c_38, main_v141, main_v142, main_v143, main_v144, main_v145, main_c_39, main_v146, main_v147, main_c_40, main_v148, main_v149, main_v150, main_v151, main_v152, main_v153, main_v154]

theorem wr2_2_sub : (hostOps2_2 : List (HloOp τ sig (Elt F))).Forall fun op => op.writes ⊆ (wr2_2.map (Proc.devRef (τ := τ) .tc)).toFinset :=
  ⟨sub_of_mem (StableHlo.nullary_writes ..) (.head _),
   sub_of_mem (StableHlo.unary_writes ..) (.tail _ (.head _)),
   sub_of_mem (StableHlo.binary_writes ..) (.tail _ (.tail _ (.head _))),
   sub_of_mem (StableHlo.nullary_writes ..) (.tail _ (.tail _ (.tail _ (.head _)))),
   sub_of_mem (StableHlo.unary_writes ..) (.tail _ (.tail _ (.tail _ (.tail _ (.head _))))),
   sub_of_mem (StableHlo.binary_writes ..) (.tail _ (.tail _ (.tail _ (.tail _ (.tail _ (.head _)))))),
   sub_of_mem (StableHlo.ternary_writes ..) (.tail _ (.tail _ (.tail _ (.tail _ (.tail _ (.tail _ (.head _))))))),
   sub_of_mem (StableHlo.unary_writes ..) (.tail _ (.tail _ (.tail _ (.tail _ (.tail _ (.tail _ (.tail _ (.head _)))))))),
   sub_of_mem (StableHlo.binary_writes ..) (.tail _ (.tail _ (.tail _ (.tail _ (.tail _ (.tail _ (.tail _ (.tail _ (.head _))))))))),
   sub_of_mem (StableHlo.nullary_writes ..) (.tail _ (.tail _ (.tail _ (.tail _ (.tail _ (.tail _ (.tail _ (.tail _ (.tail _ (.head _)))))))))),
   sub_of_mem (StableHlo.unary_writes ..) (.tail _ (.tail _ (.tail _ (.tail _ (.tail _ (.tail _ (.tail _ (.tail _ (.tail _ (.tail _ (.head _))))))))))),
   sub_of_mem (StableHlo.binary_writes ..) (.tail _ (.tail _ (.tail _ (.tail _ (.tail _ (.tail _ (.tail _ (.tail _ (.tail _ (.tail _ (.tail _ (.head _)))))))))))),
   sub_of_mem (StableHlo.nullary_writes ..) (.tail _ (.tail _ (.tail _ (.tail _ (.tail _ (.tail _ (.tail _ (.tail _ (.tail _ (.tail _ (.tail _ (.tail _ (.head _))))))))))))),
   sub_of_mem (StableHlo.unary_writes ..) (.tail _ (.tail _ (.tail _ (.tail _ (.tail _ (.tail _ (.tail _ (.tail _ (.tail _ (.tail _ (.tail _ (.tail _ (.tail _ (.head _)))))))))))))),
   sub_of_mem (StableHlo.binary_writes ..) (.tail _ (.tail _ (.tail _ (.tail _ (.tail _ (.tail _ (.tail _ (.tail _ (.tail _ (.tail _ (.tail _ (.tail _ (.tail _ (.tail _ (.head _))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.head _)))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.head _))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.head _)))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.tail _ (.head _))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))⟩

/-- A reference the stretch `hostOps2_2` does not write keeps its contents. -/
theorem keep2_2 (X : Valuation τ sig (Elt F)) (r : Ref sig .tc) (hr : r ∉ wr2_2) :
    StableHlo.after hostOps2_2 X (Proc.devRef .tc r) = X (Proc.devRef .tc r) :=
  StableHlo.after_of_writes_sub _ _ wr2_2_sub hr

/-- The references the stretch `hostOps3` writes, in order. -/
abbrev wr3 : List (Ref sig .tc) := [main_cst_41, main_v156, main_c_42, main_v157, main_v158, main_c_43, main_v159, main_v160, main_v161, main_v162, main_v163]

theorem wr3_sub : (hostOps3 : List (HloOp τ sig (Elt F))).Forall fun op => op.writes ⊆ (wr3.map (Proc.devRef (τ := τ) .tc)).toFinset :=
  ⟨sub_of_mem (StableHlo.nullary_writes ..) (.head _),
   sub_of_mem (StableHlo.unary_writes ..) (.tail _ (.head _)),
   sub_of_mem (StableHlo.nullary_writes ..) (.tail _ (.tail _ (.head _))),
   sub_of_mem (StableHlo.unary_writes ..) (.tail _ (.tail _ (.tail _ (.head _)))),
   sub_of_mem (StableHlo.binary_writes ..) (.tail _ (.tail _ (.tail _ (.tail _ (.head _))))),
   sub_of_mem (StableHlo.nullary_writes ..) (.tail _ (.tail _ (.tail _ (.tail _ (.tail _ (.head _)))))),
   sub_of_mem (StableHlo.unary_writes ..) (.tail _ (.tail _ (.tail _ (.tail _ (.tail _ (.tail _ (.head _))))))),
   sub_of_mem (StableHlo.binary_writes ..) (.tail _ (.tail _ (.tail _ (.tail _ (.tail _ (.tail _ (.tail _ (.head _)))))))),
   sub_of_mem (StableHlo.ternary_writes ..) (.tail _ (.tail _ (.tail _ (.tail _ (.tail _ (.tail _ (.tail _ (.tail _ (.head _))))))))),
   sub_of_mem (StableHlo.unary_writes ..) (.tail _ (.tail _ (.tail _ (.tail _ (.tail _ (.tail _ (.tail _ (.tail _ (.tail _ (.head _)))))))))),
   sub_of_mem (StableHlo.ternary_writes ..) (.tail _ (.tail _ (.tail _ (.tail _ (.tail _ (.tail _ (.tail _ (.tail _ (.tail _ (.tail _ (.head _)))))))))))⟩

/-- A reference the stretch `hostOps3` does not write keeps its contents. -/
theorem keep3 (X : Valuation τ sig (Elt F)) (r : Ref sig .tc) (hr : r ∉ wr3) :
    StableHlo.after hostOps3 X (Proc.devRef .tc r) = X (Proc.devRef .tc r) :=
  StableHlo.after_of_writes_sub _ _ wr3_sub hr

/-- The references the stretch `hostOps4` writes, in order. -/
abbrev wr4 : List (Ref sig .tc) := [main_v165, main_v166, main_cst_44, main_v167, main_v168, main_cst_45, main_v169, main_cst_46, main_v170, main_v171, main_c_47]

theorem wr4_sub : (hostOps4 : List (HloOp τ sig (Elt F))).Forall fun op => op.writes ⊆ (wr4.map (Proc.devRef (τ := τ) .tc)).toFinset :=
  ⟨sub_of_mem (StableHlo.binary_writes ..) (.head _),
   sub_of_mem (StableHlo.binary_writes ..) (.tail _ (.head _)),
   sub_of_mem (StableHlo.nullary_writes ..) (.tail _ (.tail _ (.head _))),
   sub_of_mem (StableHlo.unary_writes ..) (.tail _ (.tail _ (.tail _ (.head _)))),
   sub_of_mem (StableHlo.binary_writes ..) (.tail _ (.tail _ (.tail _ (.tail _ (.head _))))),
   sub_of_mem (StableHlo.nullary_writes ..) (.tail _ (.tail _ (.tail _ (.tail _ (.tail _ (.head _)))))),
   sub_of_mem (StableHlo.binary_writes ..) (.tail _ (.tail _ (.tail _ (.tail _ (.tail _ (.tail _ (.head _))))))),
   sub_of_mem (StableHlo.nullary_writes ..) (.tail _ (.tail _ (.tail _ (.tail _ (.tail _ (.tail _ (.tail _ (.head _)))))))),
   sub_of_mem (StableHlo.unary_writes ..) (.tail _ (.tail _ (.tail _ (.tail _ (.tail _ (.tail _ (.tail _ (.tail _ (.head _))))))))),
   sub_of_mem (StableHlo.binary_writes ..) (.tail _ (.tail _ (.tail _ (.tail _ (.tail _ (.tail _ (.tail _ (.tail _ (.tail _ (.head _)))))))))),
   sub_of_mem (StableHlo.nullary_writes ..) (.tail _ (.tail _ (.tail _ (.tail _ (.tail _ (.tail _ (.tail _ (.tail _ (.tail _ (.tail _ (.head _)))))))))))⟩

/-- A reference the stretch `hostOps4` does not write keeps its contents. -/
theorem keep4 (X : Valuation τ sig (Elt F)) (r : Ref sig .tc) (hr : r ∉ wr4) :
    StableHlo.after hostOps4 X (Proc.devRef .tc r) = X (Proc.devRef .tc r) :=
  StableHlo.after_of_writes_sub _ _ wr4_sub hr

/-- The references the stretch `hostOps4_1` writes, in order. -/
abbrev wr4_1 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v172]

theorem wr4_1_sub : (hostOps4_1 : List (HloOp τ sig (Elt F))).Forall fun op => op.writes ⊆ (wr4_1.map (Proc.devRef (τ := τ) .tc)).toFinset :=
  ⟨sub_of_mem (StableHlo.nullary_writes ..) (.head _),
   sub_of_mem (StableHlo.binary_writes ..) (.tail _ (.head _)),
   sub_of_mem (StableHlo.unary_writes ..) (.tail _ (.tail _ (.head _))),
   sub_of_mem (StableHlo.nullary_writes ..) (.tail _ (.tail _ (.tail _ (.head _)))),
   sub_of_mem (StableHlo.unary_writes ..) (.tail _ (.tail _ (.tail _ (.tail _ (.head _))))),
   sub_of_mem (StableHlo.binary_writes ..) (.tail _ (.tail _ (.tail _ (.tail _ (.tail _ (.head _)))))),
   sub_of_mem (StableHlo.unary_writes ..) (.tail _ (.tail _ (.tail _ (.tail _ (.tail _ (.tail _ (.head _))))))),
   sub_of_mem (StableHlo.binary_writes ..) (.tail _ (.tail _ (.tail _ (.tail _ (.tail _ (.tail _ (.tail _ (.head _)))))))),
   sub_of_mem (StableHlo.binary_writes ..) (.tail _ (.tail _ (.tail _ (.tail _ (.tail _ (.tail _ (.tail _ (.tail _ (.head _))))))))),
   sub_of_mem (StableHlo.unary_writes ..) (.tail _ (.tail _ (.tail _ (.tail _ (.tail _ (.tail _ (.tail _ (.tail _ (.tail _ (.head _)))))))))),
   sub_of_mem (StableHlo.nullary_writes ..) (.tail _ (.tail _ (.tail _ (.tail _ (.tail _ (.tail _ (.tail _ (.tail _ (.tail _ (.tail _ (.head _))))))))))),
   sub_of_mem (StableHlo.binary_writes ..) (.tail _ (.tail _ (.tail _ (.tail _ (.tail _ (.tail _ (.tail _ (.tail _ (.tail _ (.tail _ (.tail _ (.head _)))))))))))),
   sub_of_mem (StableHlo.nullary_writes ..) (.tail _ (.tail _ (.tail _ (.tail _ (.tail _ (.tail _ (.tail _ (.tail _ (.tail _ (.tail _ (.tail _ (.tail _ (.head _))))))))))))),
   sub_of_mem (StableHlo.binary_writes ..) (.tail _ (.tail _ (.tail _ (.tail _ (.tail _ (.tail _ (.tail _ (.tail _ (.tail _ (.tail _ (.tail _ (.tail _ (.tail _ (.head _)))))))))))))),
   sub_of_mem (StableHlo.unary_writes ..) (.tail _ (.tail _ (.tail _ (.tail _ (.tail _ (.tail _ (.tail _ (.tail _ (.tail _ (.tail _ (.tail _ (.tail _ (.tail _ (.tail _ (.head _))))))))))))))),
   sub_of_mem (StableHlo.binary_writes ..) (.tail _ (.tail _ (.tail _ (.tail _ (.tail _ (.tail _ (.tail _ (.tail _ (.tail _ (.tail _ (.tail _ (.tail _ (.tail _ (.tail _ (.tail _ (.head _)))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.head _))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.head _)))))))))))))))))),
   sub_of_mem (StableHlo.nullary_writes ..) (.tail _ (.tail _ (.tail _ (.tail _ (.tail _ (.tail _ (.tail _ (.tail _ (.tail _ (.tail _ (.tail _ (.tail _ (.tail _ (.tail _ (.tail _ (.tail _ (.tail _ (.tail _ (.head _))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))),
   sub_of_mem (StableHlo.ternary_writes ..) (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩

/-- A reference the stretch `hostOps4_1` does not write keeps its contents. -/
theorem keep4_1 (X : Valuation τ sig (Elt F)) (r : Ref sig .tc) (hr : r ∉ wr4_1) :
    StableHlo.after hostOps4_1 X (Proc.devRef .tc r) = X (Proc.devRef .tc r) :=
  StableHlo.after_of_writes_sub _ _ wr4_1_sub hr

/-- The references the stretch `hostOps4_2` writes, in order. -/
abbrev wr4_2 : List (Ref sig .tc) := [main_v173, main_v174, main_v175, main_cst_48, main_v176, main_v177, main_v178, main_v179, main_v180, main_v181, main_v182, main_v183, main_v184, main_v185, main_v186, main_v187, main_v188, main_v189, main_v190]

theorem wr4_2_sub : (hostOps4_2 : List (HloOp τ sig (Elt F))).Forall fun op => op.writes ⊆ (wr4_2.map (Proc.devRef (τ := τ) .tc)).toFinset :=
  ⟨sub_of_mem (StableHlo.unary_writes ..) (.head _),
   sub_of_mem (StableHlo.unary_writes ..) (.tail _ (.head _)),
   sub_of_mem (StableHlo.binary_writes ..) (.tail _ (.tail _ (.head _))),
   sub_of_mem (StableHlo.nullary_writes ..) (.tail _ (.tail _ (.tail _ (.head _)))),
   sub_of_mem (StableHlo.unary_writes ..) (.tail _ (.tail _ (.tail _ (.tail _ (.head _))))),
   sub_of_mem (StableHlo.binary_writes ..) (.tail _ (.tail _ (.tail _ (.tail _ (.tail _ (.head _)))))),
   sub_of_mem (StableHlo.unary_writes ..) (.tail _ (.tail _ (.tail _ (.tail _ (.tail _ (.tail _ (.head _))))))),
   sub_of_mem (StableHlo.unary_writes ..) (.tail _ (.tail _ (.tail _ (.tail _ (.tail _ (.tail _ (.tail _ (.head _)))))))),
   sub_of_mem (StableHlo.unary_writes ..) (.tail _ (.tail _ (.tail _ (.tail _ (.tail _ (.tail _ (.tail _ (.tail _ (.head _))))))))),
   sub_of_mem (StableHlo.binary_writes ..) (.tail _ (.tail _ (.tail _ (.tail _ (.tail _ (.tail _ (.tail _ (.tail _ (.tail _ (.head _)))))))))),
   sub_of_mem (StableHlo.unary_writes ..) (.tail _ (.tail _ (.tail _ (.tail _ (.tail _ (.tail _ (.tail _ (.tail _ (.tail _ (.tail _ (.head _))))))))))),
   sub_of_mem (StableHlo.unary_writes ..) (.tail _ (.tail _ (.tail _ (.tail _ (.tail _ (.tail _ (.tail _ (.tail _ (.tail _ (.tail _ (.tail _ (.head _)))))))))))),
   sub_of_mem (StableHlo.binary_writes ..) (.tail _ (.tail _ (.tail _ (.tail _ (.tail _ (.tail _ (.tail _ (.tail _ (.tail _ (.tail _ (.tail _ (.tail _ (.head _))))))))))))),
   sub_of_mem (StableHlo.unary_writes ..) (.tail _ (.tail _ (.tail _ (.tail _ (.tail _ (.tail _ (.tail _ (.tail _ (.tail _ (.tail _ (.tail _ (.tail _ (.tail _ (.head _)))))))))))))),
   sub_of_mem (StableHlo.unary_writes ..) (.tail _ (.tail _ (.tail _ (.tail _ (.tail _ (.tail _ (.tail _ (.tail _ (.tail _ (.tail _ (.tail _ (.tail _ (.tail _ (.tail _ (.head _))))))))))))))),
   sub_of_mem (StableHlo.binary_writes ..) (.tail _ (.tail _ (.tail _ (.tail _ (.tail _ (.tail _ (.tail _ (.tail _ (.tail _ (.tail _ (.tail _ (.tail _ (.tail _ (.tail _ (.tail _ (.head _)))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.head _))))))))))))))))),
   sub_of_mem (StableHlo.binary_writes ..) (.tail _ (.tail _ (.tail _ (.tail _ (.tail _ (.tail _ (.tail _ (.tail _ (.tail _ (.tail _ (.tail _ (.tail _ (.tail _ (.tail _ (.tail _ (.tail _ (.tail _ (.head _)))))))))))))))))),
   sub_of_mem (StableHlo.unary_writes ..) (.tail _ (.tail _ (.tail _ (.tail _ (.tail _ (.tail _ (.tail _ (.tail _ (.tail _ (.tail _ (.tail _ (.tail _ (.tail _ (.tail _ (.tail _ (.tail _ (.tail _ (.tail _ (.head _)))))))))))))))))))⟩

/-- A reference the stretch `hostOps4_2` does not write keeps its contents. -/
theorem keep4_2 (X : Valuation τ sig (Elt F)) (r : Ref sig .tc) (hr : r ∉ wr4_2) :
    StableHlo.after hostOps4_2 X (Proc.devRef .tc r) = X (Proc.devRef .tc r) :=
  StableHlo.after_of_writes_sub _ _ wr4_2_sub hr

end Cert.KernelIdeal.KerValue

end
-- ==== Proof.KerEntry2Ops.lean ====
/-
  The host stretches of the kernel's program up to the third region, read as the stage functions: at any valuation of the
  buffers, the contents a stretch leaves at a result buffer is the stage function of the contents at the buffers the
  stretch reads. Each is the unrolled fold of the stretch's operations, equal to the stage's definition by computation.
-/
import proofs.«143578_j52467320487979_1_alg».proof.Proof.Gen.KernelIdeal.Frame
import proofs.«143578_j52467320487979_1_alg».proof.Proof.Stages
import proofs.«143578_j52467320487979_1_alg».proof.Proof.KStages

set_option maxRecDepth 16384

noncomputable section

namespace Cert.KernelIdeal.KerValue

open Idealize.ShloMosaic Idealize.ShloMosaic.TcCoe
open Cert.KernelIdeal Cert.KernelIdeal.Gen

variable {F : FTy → Type} [FloatOps F]

set_option maxHeartbeats 2000000 in
/-- The first stretch leaves the relation table with the loop row appended. -/
theorem h0_v0 (X : Valuation τ sig (Elt F)) :
    StableHlo.after hostOps0 X (Proc.devRef .tc main_v0)
      = Cert.Stage.relAll (X (Proc.devRef .tc main_arg3)) (X (Proc.devRef .tc main_arg10)) := by
  simp only [hostOps0]; after_results_simp; rfl

set_option maxHeartbeats 2000000 in
/-- The first stretch leaves the first half of the edge list. -/
theorem h0_v1 (X : Valuation τ sig (Elt F)) :
    StableHlo.after hostOps0 X (Proc.devRef .tc main_v1)
      = Cert.Stage.edgeIn (X (Proc.devRef .tc main_arg1)) := by
  simp only [hostOps0]; after_results_simp; rfl

set_option maxHeartbeats 2000000 in
/-- The first stretch leaves the second half of the edge list. -/
theorem h0_v2 (X : Valuation τ sig (Elt F)) :
    StableHlo.after hostOps0 X (Proc.devRef .tc main_v2)
      = Cert.Stage.edgeOut (X (Proc.devRef .tc main_arg1)) := by
  simp only [hostOps0]; after_results_simp; rfl

set_option maxHeartbeats 2000000 in
/-- The first stretch leaves the second half of the edge types. -/
theorem h0_v4 (X : Valuation τ sig (Elt F)) :
    StableHlo.after hostOps0 X (Proc.devRef .tc main_v4)
      = Cert.Stage.typeOut (X (Proc.devRef .tc main_arg2)) := by
  simp only [hostOps0]; after_results_simp; rfl

set_option maxHeartbeats 2000000 in
/-- The first stretch leaves the qualifiers' edges of both directions. -/
theorem h0_v10 (X : Valuation τ sig (Elt F)) :
    StableHlo.after hostOps0 X (Proc.devRef .tc main_v10)
      = Cert.KStage.qIdxAll (X (Proc.devRef .tc main_arg4)) := by
  simp only [hostOps0]; after_results_simp; rfl

attribute [local irreducible] Host.gather Host.scatterAdd Host.reduceAdd in
set_option maxHeartbeats 2000000 in
/-- The second stretch sums the second direction's rotated qualifiers per edge: the second half of the qualifiers' edges, the last rows of the first region's output. -/
theorem h1_v45 (X : Valuation τ sig (Elt F)) :
    StableHlo.after hostOps1 X (Proc.devRef .tc main_v45)
      = Cert.Stage.coalesce (Cert.KStage.hiI (X (Proc.devRef .tc main_v10))) (Cert.KStage.hiF (X (Proc.devRef .tc main_v25))) := by
  simp only [hostOps1]; after_results_simp; rfl

set_option maxHeartbeats 2000000 in
/-- The second stretch rounds the qualifier weight matrix. -/
theorem h1_v46 (X : Valuation τ sig (Elt F)) :
    StableHlo.after hostOps1 X (Proc.devRef .tc main_v46)
      = Cert.KStage.toBf16 (X (Proc.devRef .tc main_arg9)) := by
  simp only [hostOps1]; after_results_simp; rfl

set_option maxHeartbeats 2000000 in
/-- The second stretch rounds the second direction's weight matrix. -/
theorem h1_v48 (X : Valuation τ sig (Elt F)) :
    StableHlo.after hostOps1 X (Proc.devRef .tc main_v48)
      = Cert.KStage.toBf16 (X (Proc.devRef .tc main_arg6)) := by
  simp only [hostOps1]; after_results_simp; rfl

set_option maxHeartbeats 2000000 in
/-- The second stretch rounds the loop weight matrix. -/
theorem h1_v49 (X : Valuation τ sig (Elt F)) :
    StableHlo.after hostOps1 X (Proc.devRef .tc main_v49)
      = Cert.KStage.toBf16 (X (Proc.devRef .tc main_arg7)) := by
  simp only [hostOps1]; after_results_simp; rfl

set_option maxHeartbeats 2000000 in
/-- The second stretch leaves the first direction's target nodes. -/
theorem h1_v51 (X : Valuation τ sig (Elt F)) :
    StableHlo.after hostOps1 X (Proc.devRef .tc main_v51)
      = Cert.Stage.edgeRow (X (Proc.devRef .tc main_v1)) := by
  simp only [hostOps1]; after_results_simp; rfl

attribute [local irreducible] Host.gather Host.scatterAdd Host.reduceAdd in
set_option maxHeartbeats 2000000 in
/-- The stretch after the second region sums that region's output per target node. -/
theorem h2_v106 (X : Valuation τ sig (Elt F)) :
    StableHlo.after hostOps2 X (Proc.devRef .tc main_v106)
      = Cert.Stage.aggr (X (Proc.devRef .tc main_v51)) (X (Proc.devRef .tc main_v98)) := by
  simp only [hostOps2]; after_results_simp; rfl

set_option maxHeartbeats 2000000 in
/-- The same stretch leaves the second direction's target nodes. -/
theorem h2_v108 (X : Valuation τ sig (Elt F)) :
    StableHlo.after hostOps2 X (Proc.devRef .tc main_v108)
      = Cert.Stage.edgeRow (X (Proc.devRef .tc main_v2)) := by
  simp only [hostOps2]; after_results_simp; rfl

attribute [local irreducible] Host.gather Host.scatterAdd Host.reduceAdd in
set_option maxHeartbeats 2000000 in
/-- The same stretch gathers one entity row per edge of the second direction. -/
theorem h2_v117 (X : Valuation τ sig (Elt F)) :
    StableHlo.after hostOps2 X (Proc.devRef .tc main_v117)
      = Cert.Stage.gatherEnt (X (Proc.devRef .tc main_arg0)) (Cert.Stage.edgeCol (X (Proc.devRef .tc main_v2))) := by
  simp only [hostOps2]; after_results_simp; rfl

attribute [local irreducible] Host.gather Host.scatterAdd Host.reduceAdd in
set_option maxHeartbeats 2000000 in
/-- The same stretch gathers one relation row per edge of the second direction. -/
theorem h2_v124 (X : Valuation τ sig (Elt F)) :
    StableHlo.after hostOps2 X (Proc.devRef .tc main_v124)
      = Cert.Stage.gatherRel (X (Proc.devRef .tc main_v0)) (X (Proc.devRef .tc main_v4)) := by
  simp only [hostOps2]; after_results_simp; rfl

attribute [local irreducible] Host.gather Host.scatterAdd Host.reduceAdd in
set_option maxHeartbeats 2000000 in
/-- The three stretches before the third region compute the second direction's degree normalisation: the degree count and its inverse root in the first, the selection of zero at empty nodes in the second, the two gathers and their product in the third. -/
theorem h2_v154 (X : Valuation τ sig (Elt F)) :
    StableHlo.after hostOps2_2 (StableHlo.after hostOps2_1 (StableHlo.after hostOps2 X)) (Proc.devRef .tc main_v154)
      = Cert.Stage.norm (Cert.Stage.edgeRow (X (Proc.devRef .tc main_v2))) (Cert.Stage.edgeCol (X (Proc.devRef .tc main_v2))) := by
  simp only [hostOps2, hostOps2_1, hostOps2_2]; after_results_simp; rfl

end Cert.KernelIdeal.KerValue

end
-- ==== Proof.KerEntry2.lean ====
/-
  The contents of the TensorCore's buffers at the third region's entry, read as the stage functions of the thirteen
  arguments and of the first two regions' output arrays. Each buffer is followed back through the run's boundaries: a
  stretch that computes it gives the stage function of what the stretch read, a stretch or region that does not write it
  keeps it, a region's input array is left as entered and its output array holds what its write-backs leave.
-/
import proofs.«143578_j52467320487979_1_alg».proof.Proof.KerEntry2Keep
import proofs.«143578_j52467320487979_1_alg».proof.Proof.KerEntry2Ops

set_option maxRecDepth 16384

noncomputable section

namespace Cert.KernelIdeal.KerValue

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg)

/-! ## A buffer carried unchanged from one boundary to a later one -/

/-- Across the first region: a buffer that is none of its arrays. -/
theorem W2_of_W1 (c : Dev nD) (r : Ref sig .tc) (hr : ∀ w, Pipeline.arrRef spec0 w ≠ r) :
    Gen.W2 m ρ c (Proc.devRef .tc r) = Gen.W1 m ρ c (Proc.devRef .tc r) := Gen.W2_of_ne m ρ c r hr

/-- Across the first stretch and the first region. -/
theorem W2_of_W0 (c : Dev nD) (r : Ref sig .tc) (h0 : r ∉ wr0) (hr : ∀ w, Pipeline.arrRef spec0 w ≠ r) :
    Gen.W2 m ρ c (Proc.devRef .tc r) = Gen.W0 m ρ c (Proc.devRef .tc r) :=
  (Gen.W2_of_ne m ρ c r hr).trans (keep0 (Gen.W0 m ρ c) r h0)

/-- Across the three stretches before the second region and that region. -/
theorem W6_of_W2 (c : Dev nD) (r : Ref sig .tc) (h1 : r ∉ wr1) (h11 : r ∉ wr1_1) (h12 : r ∉ wr1_2)
    (hr : ∀ w, Pipeline.arrRef spec1 w ≠ r) :
    Gen.W6 m ρ c (Proc.devRef .tc r) = Gen.W2 m ρ c (Proc.devRef .tc r) :=
  (Gen.W6_of_ne m ρ c r hr).trans ((keep1_2 (Gen.W4 m ρ c) r h12).trans ((keep1_1 (Gen.W3 m ρ c) r h11).trans (keep1 (Gen.W2 m ρ c) r h1)))

/-- Across the two short stretches before the second region and that region. -/
theorem W6_of_W3 (c : Dev nD) (r : Ref sig .tc) (h11 : r ∉ wr1_1) (h12 : r ∉ wr1_2)
    (hr : ∀ w, Pipeline.arrRef spec1 w ≠ r) :
    Gen.W6 m ρ c (Proc.devRef .tc r) = Gen.W3 m ρ c (Proc.devRef .tc r) :=
  (Gen.W6_of_ne m ρ c r hr).trans ((keep1_2 (Gen.W4 m ρ c) r h12).trans (keep1_1 (Gen.W3 m ρ c) r h11))

/-- Across the three stretches before the third region. -/
theorem W9_of_W6 (c : Dev nD) (r : Ref sig .tc) (h2 : r ∉ wr2) (h21 : r ∉ wr2_1) (h22 : r ∉ wr2_2) :
    Gen.W9 m ρ c (Proc.devRef .tc r) = Gen.W6 m ρ c (Proc.devRef .tc r) :=
  (keep2_2 (Gen.W8 m ρ c) r h22).trans ((keep2_1 (Gen.W7 m ρ c) r h21).trans (keep2 (Gen.W6 m ρ c) r h2))

/-- Across the two short stretches before the third region. -/
theorem W9_of_W7 (c : Dev nD) (r : Ref sig .tc) (h21 : r ∉ wr2_1) (h22 : r ∉ wr2_2) :
    Gen.W9 m ρ c (Proc.devRef .tc r) = Gen.W7 m ρ c (Proc.devRef .tc r) :=
  (keep2_2 (Gen.W8 m ρ c) r h22).trans (keep2_1 (Gen.W7 m ρ c) r h21)

/-! ## At the first region's exit -/

theorem W2_v0 (c : Dev nD) : Gen.W2 m ρ c (Proc.devRef .tc main_v0)
    = (Cert.Stage.relAll (m ((c : Thread nD τ).loc main_arg3)) (m ((c : Thread nD τ).loc main_arg10))) :=
  (W2_of_W1 m ρ c main_v0 (by decide)).trans (h0_v0 (Gen.W0 m ρ c))

theorem W2_v1 (c : Dev nD) : Gen.W2 m ρ c (Proc.devRef .tc main_v1)
    = (Cert.Stage.edgeIn (m ((c : Thread nD τ).loc main_arg1))) :=
  (W2_of_W1 m ρ c main_v1 (by decide)).trans (h0_v1 (Gen.W0 m ρ c))

theorem W2_v2 (c : Dev nD) : Gen.W2 m ρ c (Proc.devRef .tc main_v2)
    = (Cert.Stage.edgeOut (m ((c : Thread nD τ).loc main_arg1))) :=
  (W2_of_W1 m ρ c main_v2 (by decide)).trans (h0_v2 (Gen.W0 m ρ c))

theorem W2_v4 (c : Dev nD) : Gen.W2 m ρ c (Proc.devRef .tc main_v4)
    = (Cert.Stage.typeOut (m ((c : Thread nD τ).loc main_arg2))) :=
  (W2_of_W1 m ρ c main_v4 (by decide)).trans (h0_v4 (Gen.W0 m ρ c))

theorem W2_v10 (c : Dev nD) : Gen.W2 m ρ c (Proc.devRef .tc main_v10)
    = (Cert.KStage.qIdxAll (m ((c : Thread nD τ).loc main_arg4))) :=
  (W2_of_W1 m ρ c main_v10 (by decide)).trans (h0_v10 (Gen.W0 m ρ c))

/-- The first region's output array at its exit. -/
theorem W2_v25 (c : Dev nD) : Gen.W2 m ρ c (Proc.devRef .tc main_v25)
    = ((Gen.dat0 (Gen.V1 m ρ) c).arrAt 2 cfg0.N) :=
  Gen.W2_arr m ρ c 2

theorem W2_arg0 (c : Dev nD) : Gen.W2 m ρ c (Proc.devRef .tc main_arg0)
    = (m ((c : Thread nD τ).loc main_arg0)) :=
  W2_of_W0 m ρ c main_arg0 (by decide) (by decide)

theorem W2_arg6 (c : Dev nD) : Gen.W2 m ρ c (Proc.devRef .tc main_arg6)
    = (m ((c : Thread nD τ).loc main_arg6)) :=
  W2_of_W0 m ρ c main_arg6 (by decide) (by decide)

theorem W2_arg7 (c : Dev nD) : Gen.W2 m ρ c (Proc.devRef .tc main_arg7)
    = (m ((c : Thread nD τ).loc main_arg7)) :=
  W2_of_W0 m ρ c main_arg7 (by decide) (by decide)

theorem W2_arg8 (c : Dev nD) : Gen.W2 m ρ c (Proc.devRef .tc main_arg8)
    = (m ((c : Thread nD τ).loc main_arg8)) :=
  W2_of_W0 m ρ c main_arg8 (by decide) (by decide)

theorem W2_arg9 (c : Dev nD) : Gen.W2 m ρ c (Proc.devRef .tc main_arg9)
    = (m ((c : Thread nD τ).loc main_arg9)) :=
  W2_of_W0 m ρ c main_arg9 (by decide) (by decide)

theorem W2_arg10 (c : Dev nD) : Gen.W2 m ρ c (Proc.devRef .tc main_arg10)
    = (m ((c : Thread nD τ).loc main_arg10)) :=
  W2_of_W0 m ρ c main_arg10 (by decide) (by decide)

theorem W2_arg11 (c : Dev nD) : Gen.W2 m ρ c (Proc.devRef .tc main_arg11)
    = (m ((c : Thread nD τ).loc main_arg11)) :=
  W2_of_W0 m ρ c main_arg11 (by decide) (by decide)

theorem W2_arg12 (c : Dev nD) : Gen.W2 m ρ c (Proc.devRef .tc main_arg12)
    = (m ((c : Thread nD τ).loc main_arg12)) :=
  W2_of_W0 m ρ c main_arg12 (by decide) (by decide)

/-! ## After the second stretch -/

theorem W3_v45 (c : Dev nD) : Gen.W3 m ρ c (Proc.devRef .tc main_v45)
    = Cert.Stage.coalesce (Cert.KStage.hiI (Cert.KStage.qIdxAll (m ((c : Thread nD τ).loc main_arg4)))) (Cert.KStage.hiF ((Gen.dat0 (Gen.V1 m ρ) c).arrAt 2 cfg0.N)) :=
  (h1_v45 (Gen.W2 m ρ c)).trans (by rw [W2_v10 m ρ c, W2_v25 m ρ c])

theorem W3_v46 (c : Dev nD) : Gen.W3 m ρ c (Proc.devRef .tc main_v46)
    = Cert.KStage.toBf16 (m ((c : Thread nD τ).loc main_arg9)) :=
  (h1_v46 (Gen.W2 m ρ c)).trans (by rw [W2_arg9 m ρ c])

theorem W3_v48 (c : Dev nD) : Gen.W3 m ρ c (Proc.devRef .tc main_v48)
    = Cert.KStage.toBf16 (m ((c : Thread nD τ).loc main_arg6)) :=
  (h1_v48 (Gen.W2 m ρ c)).trans (by rw [W2_arg6 m ρ c])

theorem W3_v49 (c : Dev nD) : Gen.W3 m ρ c (Proc.devRef .tc main_v49)
    = Cert.KStage.toBf16 (m ((c : Thread nD τ).loc main_arg7)) :=
  (h1_v49 (Gen.W2 m ρ c)).trans (by rw [W2_arg7 m ρ c])

theorem W3_v51 (c : Dev nD) : Gen.W3 m ρ c (Proc.devRef .tc main_v51)
    = Cert.Stage.edgeRow (Cert.Stage.edgeIn (m ((c : Thread nD τ).loc main_arg1))) :=
  (h1_v51 (Gen.W2 m ρ c)).trans (by rw [W2_v1 m ρ c])

/-! ## At the second region's exit -/

theorem W6_v0 (c : Dev nD) : Gen.W6 m ρ c (Proc.devRef .tc main_v0)
    = (Cert.Stage.relAll (m ((c : Thread nD τ).loc main_arg3)) (m ((c : Thread nD τ).loc main_arg10))) :=
  (W6_of_W2 m ρ c main_v0 (by decide) (by decide) (by decide) (by decide)).trans (W2_v0 m ρ c)

theorem W6_v2 (c : Dev nD) : Gen.W6 m ρ c (Proc.devRef .tc main_v2)
    = (Cert.Stage.edgeOut (m ((c : Thread nD τ).loc main_arg1))) :=
  (W6_of_W2 m ρ c main_v2 (by decide) (by decide) (by decide) (by decide)).trans (W2_v2 m ρ c)

theorem W6_v4 (c : Dev nD) : Gen.W6 m ρ c (Proc.devRef .tc main_v4)
    = (Cert.Stage.typeOut (m ((c : Thread nD τ).loc main_arg2))) :=
  (W6_of_W2 m ρ c main_v4 (by decide) (by decide) (by decide) (by decide)).trans (W2_v4 m ρ c)

theorem W6_arg0 (c : Dev nD) : Gen.W6 m ρ c (Proc.devRef .tc main_arg0)
    = (m ((c : Thread nD τ).loc main_arg0)) :=
  (W6_of_W2 m ρ c main_arg0 (by decide) (by decide) (by decide) (by decide)).trans (W2_arg0 m ρ c)

theorem W6_arg8 (c : Dev nD) : Gen.W6 m ρ c (Proc.devRef .tc main_arg8)
    = (m ((c : Thread nD τ).loc main_arg8)) :=
  (W6_of_W2 m ρ c main_arg8 (by decide) (by decide) (by decide) (by decide)).trans (W2_arg8 m ρ c)

theorem W6_arg10 (c : Dev nD) : Gen.W6 m ρ c (Proc.devRef .tc main_arg10)
    = (m ((c : Thread nD τ).loc main_arg10)) :=
  (W6_of_W2 m ρ c main_arg10 (by decide) (by decide) (by decide) (by decide)).trans (W2_arg10 m ρ c)

theorem W6_arg11 (c : Dev nD) : Gen.W6 m ρ c (Proc.devRef .tc main_arg11)
    = (m ((c : Thread nD τ).loc main_arg11)) :=
  (W6_of_W2 m ρ c main_arg11 (by decide) (by decide) (by decide) (by decide)).trans (W2_arg11 m ρ c)

theorem W6_arg12 (c : Dev nD) : Gen.W6 m ρ c (Proc.devRef .tc main_arg12)
    = (m ((c : Thread nD τ).loc main_arg12)) :=
  (W6_of_W2 m ρ c main_arg12 (by decide) (by decide) (by decide) (by decide)).trans (W2_arg12 m ρ c)

theorem W6_v45 (c : Dev nD) : Gen.W6 m ρ c (Proc.devRef .tc main_v45)
    = Cert.Stage.coalesce (Cert.KStage.hiI (Cert.KStage.qIdxAll (m ((c : Thread nD τ).loc main_arg4)))) (Cert.KStage.hiF ((Gen.dat0 (Gen.V1 m ρ) c).arrAt 2 cfg0.N)) :=
  (W6_of_W3 m ρ c main_v45 (by decide) (by decide) (by decide)).trans (W3_v45 m ρ c)

theorem W6_v48 (c : Dev nD) : Gen.W6 m ρ c (Proc.devRef .tc main_v48)
    = Cert.KStage.toBf16 (m ((c : Thread nD τ).loc main_arg6)) :=
  (W6_of_W3 m ρ c main_v48 (by decide) (by decide) (by decide)).trans (W3_v48 m ρ c)

theorem W6_v49 (c : Dev nD) : Gen.W6 m ρ c (Proc.devRef .tc main_v49)
    = Cert.KStage.toBf16 (m ((c : Thread nD τ).loc main_arg7)) :=
  (W6_of_W3 m ρ c main_v49 (by decide) (by decide) (by decide)).trans (W3_v49 m ρ c)

theorem W6_v51 (c : Dev nD) : Gen.W6 m ρ c (Proc.devRef .tc main_v51)
    = Cert.Stage.edgeRow (Cert.Stage.edgeIn (m ((c : Thread nD τ).loc main_arg1))) :=
  (W6_of_W3 m ρ c main_v51 (by decide) (by decide) (by decide)).trans (W3_v51 m ρ c)

/-- The rounded qualifier weights are an input array of the second region: it leaves them as entered. -/
theorem W6_v46 (c : Dev nD) : Gen.W6 m ρ c (Proc.devRef .tc main_v46)
    = Cert.KStage.toBf16 (m ((c : Thread nD τ).loc main_arg9)) :=
  ((Gen.W6_arr m ρ c 4).trans (((Gen.dat1 (Gen.V5 m ρ) c).arrAt_in 4 rfl _).trans (Gen.A_eq1 (Gen.V5 m ρ) c 4))).trans
    ((keep1_2 (Gen.W4 m ρ c) main_v46 (by decide)).trans ((keep1_1 (Gen.W3 m ρ c) main_v46 (by decide)).trans (W3_v46 m ρ c)))

/-- The second region's output array at its exit. -/
theorem W6_v98 (c : Dev nD) : Gen.W6 m ρ c (Proc.devRef .tc main_v98)
    = ((Gen.dat1 (Gen.V5 m ρ) c).arrAt 6 cfg1.N) :=
  Gen.W6_arr m ρ c 6

/-! ## The third region's entry -/

theorem V9_v117 (c : Dev nD) : Gen.V9 m ρ c main_v117
    = Cert.Stage.gatherEnt (m ((c : Thread nD τ).loc main_arg0)) (Cert.Stage.edgeCol (Cert.Stage.edgeOut (m ((c : Thread nD τ).loc main_arg1)))) :=
  (W9_of_W7 m ρ c main_v117 (by decide) (by decide)).trans ((h2_v117 (Gen.W6 m ρ c)).trans (by rw [W6_arg0 m ρ c, W6_v2 m ρ c]))

theorem V9_v124 (c : Dev nD) : Gen.V9 m ρ c main_v124
    = Cert.Stage.gatherRel (Cert.Stage.relAll (m ((c : Thread nD τ).loc main_arg3)) (m ((c : Thread nD τ).loc main_arg10))) (Cert.Stage.typeOut (m ((c : Thread nD τ).loc main_arg2))) :=
  (W9_of_W7 m ρ c main_v124 (by decide) (by decide)).trans ((h2_v124 (Gen.W6 m ρ c)).trans (by rw [W6_v0 m ρ c, W6_v4 m ρ c]))

theorem V9_v45 (c : Dev nD) : Gen.V9 m ρ c main_v45
    = Cert.Stage.coalesce (Cert.KStage.hiI (Cert.KStage.qIdxAll (m ((c : Thread nD τ).loc main_arg4)))) (Cert.KStage.hiF ((Gen.dat0 (Gen.V1 m ρ) c).arrAt 2 cfg0.N)) :=
  (W9_of_W6 m ρ c main_v45 (by decide) (by decide) (by decide)).trans (W6_v45 m ρ c)

theorem V9_v154 (c : Dev nD) : Gen.V9 m ρ c main_v154
    = Cert.Stage.norm (Cert.Stage.edgeRow (Cert.Stage.edgeOut (m ((c : Thread nD τ).loc main_arg1)))) (Cert.Stage.edgeCol (Cert.Stage.edgeOut (m ((c : Thread nD τ).loc main_arg1)))) :=
  (h2_v154 (Gen.W6 m ρ c)).trans (by rw [W6_v2 m ρ c])

theorem V9_v46 (c : Dev nD) : Gen.V9 m ρ c main_v46
    = Cert.KStage.toBf16 (m ((c : Thread nD τ).loc main_arg9)) :=
  (W9_of_W6 m ρ c main_v46 (by decide) (by decide) (by decide)).trans (W6_v46 m ρ c)

theorem V9_v48 (c : Dev nD) : Gen.V9 m ρ c main_v48
    = Cert.KStage.toBf16 (m ((c : Thread nD τ).loc main_arg6)) :=
  (W9_of_W6 m ρ c main_v48 (by decide) (by decide) (by decide)).trans (W6_v48 m ρ c)

/-! ## What the later stretches read, at the third region's entry -/

theorem W9_v0 (c : Dev nD) : Gen.W9 m ρ c (Proc.devRef .tc main_v0)
    = (Cert.Stage.relAll (m ((c : Thread nD τ).loc main_arg3)) (m ((c : Thread nD τ).loc main_arg10))) :=
  (W9_of_W6 m ρ c main_v0 (by decide) (by decide) (by decide)).trans (W6_v0 m ρ c)

theorem W9_v49 (c : Dev nD) : Gen.W9 m ρ c (Proc.devRef .tc main_v49)
    = Cert.KStage.toBf16 (m ((c : Thread nD τ).loc main_arg7)) :=
  (W9_of_W6 m ρ c main_v49 (by decide) (by decide) (by decide)).trans (W6_v49 m ρ c)

theorem W9_arg0 (c : Dev nD) : Gen.W9 m ρ c (Proc.devRef .tc main_arg0)
    = (m ((c : Thread nD τ).loc main_arg0)) :=
  (W9_of_W6 m ρ c main_arg0 (by decide) (by decide) (by decide)).trans (W6_arg0 m ρ c)

theorem W9_arg8 (c : Dev nD) : Gen.W9 m ρ c (Proc.devRef .tc main_arg8)
    = (m ((c : Thread nD τ).loc main_arg8)) :=
  (W9_of_W6 m ρ c main_arg8 (by decide) (by decide) (by decide)).trans (W6_arg8 m ρ c)

theorem W9_arg10 (c : Dev nD) : Gen.W9 m ρ c (Proc.devRef .tc main_arg10)
    = (m ((c : Thread nD τ).loc main_arg10)) :=
  (W9_of_W6 m ρ c main_arg10 (by decide) (by decide) (by decide)).trans (W6_arg10 m ρ c)

theorem W9_arg11 (c : Dev nD) : Gen.W9 m ρ c (Proc.devRef .tc main_arg11)
    = (m ((c : Thread nD τ).loc main_arg11)) :=
  (W9_of_W6 m ρ c main_arg11 (by decide) (by decide) (by decide)).trans (W6_arg11 m ρ c)

theorem W9_arg12 (c : Dev nD) : Gen.W9 m ρ c (Proc.devRef .tc main_arg12)
    = (m ((c : Thread nD τ).loc main_arg12)) :=
  (W9_of_W6 m ρ c main_arg12 (by decide) (by decide) (by decide)).trans (W6_arg12 m ρ c)

theorem W9_v106 (c : Dev nD) : Gen.W9 m ρ c (Proc.devRef .tc main_v106)
    = Cert.Stage.aggr (Cert.Stage.edgeRow (Cert.Stage.edgeIn (m ((c : Thread nD τ).loc main_arg1)))) ((Gen.dat1 (Gen.V5 m ρ) c).arrAt 6 cfg1.N) :=
  (W9_of_W7 m ρ c main_v106 (by decide) (by decide)).trans ((h2_v106 (Gen.W6 m ρ c)).trans (by rw [W6_v51 m ρ c, W6_v98 m ρ c]))

theorem W9_v108 (c : Dev nD) : Gen.W9 m ρ c (Proc.devRef .tc main_v108)
    = Cert.Stage.edgeRow (Cert.Stage.edgeOut (m ((c : Thread nD τ).loc main_arg1))) :=
  (W9_of_W7 m ρ c main_v108 (by decide) (by decide)).trans ((h2_v108 (Gen.W6 m ρ c)).trans (by rw [W6_v2 m ρ c]))

end Cert.KernelIdeal.KerValue

end
-- ==== Proof.KerEntry3.lean ====
/-
  The contents of the TensorCore's buffers at the fourth region's entry, read as the stage functions of the arguments:
  the node features and the loop relation are still the launch contents (no stretch writes an argument, the third region
  does not hold them), the rounded loop weights come from the second stretch. With them, the buffers the closing
  stretches read, carried across the third region and the stretch after it.
-/
import proofs.«143578_j52467320487979_1_alg».proof.Proof.KerEntry2

set_option maxRecDepth 16384

noncomputable section

namespace Cert.KernelIdeal.KerValue

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg)

/-- Across the third region and the stretch after it: a buffer that is none of the region's arrays and that the stretch
    does not write. -/
theorem W11_of_W9 (c : Dev nD) (r : Ref sig .tc) (hr : ∀ w, Pipeline.arrRef spec2 w ≠ r) (h3 : r ∉ wr3) :
    Gen.W11 m ρ c (Proc.devRef .tc r) = Gen.W9 m ρ c (Proc.devRef .tc r) :=
  (keep3 (Gen.W10 m ρ c) r h3).trans (Gen.W10_of_ne m ρ c r hr)

/-! ## The fourth region's entry -/

theorem V11_arg0 (c : Dev nD) : Gen.V11 m ρ c main_arg0
    = (m ((c : Thread nD τ).loc main_arg0)) :=
  (W11_of_W9 m ρ c main_arg0 (by decide) (by decide)).trans (W9_arg0 m ρ c)

theorem V11_arg10 (c : Dev nD) : Gen.V11 m ρ c main_arg10
    = (m ((c : Thread nD τ).loc main_arg10)) :=
  (W11_of_W9 m ρ c main_arg10 (by decide) (by decide)).trans (W9_arg10 m ρ c)

theorem V11_v49 (c : Dev nD) : Gen.V11 m ρ c main_v49
    = Cert.KStage.toBf16 (m ((c : Thread nD τ).loc main_arg7)) :=
  (W11_of_W9 m ρ c main_v49 (by decide) (by decide)).trans (W9_v49 m ρ c)

/-! ## What the closing stretches read, at the fourth region's entry -/

theorem W11_v0 (c : Dev nD) : Gen.W11 m ρ c (Proc.devRef .tc main_v0)
    = (Cert.Stage.relAll (m ((c : Thread nD τ).loc main_arg3)) (m ((c : Thread nD τ).loc main_arg10))) :=
  (W11_of_W9 m ρ c main_v0 (by decide) (by decide)).trans (W9_v0 m ρ c)

theorem W11_v106 (c : Dev nD) : Gen.W11 m ρ c (Proc.devRef .tc main_v106)
    = Cert.Stage.aggr (Cert.Stage.edgeRow (Cert.Stage.edgeIn (m ((c : Thread nD τ).loc main_arg1)))) ((Gen.dat1 (Gen.V5 m ρ) c).arrAt 6 cfg1.N) :=
  (W11_of_W9 m ρ c main_v106 (by decide) (by decide)).trans (W9_v106 m ρ c)

theorem W11_arg8 (c : Dev nD) : Gen.W11 m ρ c (Proc.devRef .tc main_arg8)
    = (m ((c : Thread nD τ).loc main_arg8)) :=
  (W11_of_W9 m ρ c main_arg8 (by decide) (by decide)).trans (W9_arg8 m ρ c)

theorem W11_arg11 (c : Dev nD) : Gen.W11 m ρ c (Proc.devRef .tc main_arg11)
    = (m ((c : Thread nD τ).loc main_arg11)) :=
  (W11_of_W9 m ρ c main_arg11 (by decide) (by decide)).trans (W9_arg11 m ρ c)

theorem W11_arg12 (c : Dev nD) : Gen.W11 m ρ c (Proc.devRef .tc main_arg12)
    = (m ((c : Thread nD τ).loc main_arg12)) :=
  (W11_of_W9 m ρ c main_arg12 (by decide) (by decide)).trans (W9_arg12 m ρ c)

theorem W10_v108 (c : Dev nD) : Gen.W10 m ρ c (Proc.devRef .tc main_v108)
    = Cert.Stage.edgeRow (Cert.Stage.edgeOut (m ((c : Thread nD τ).loc main_arg1))) :=
  (Gen.W10_of_ne m ρ c main_v108 (by decide)).trans (W9_v108 m ρ c)

/-- The third region's output array at its exit. -/
theorem W10_v155 (c : Dev nD) : Gen.W10 m ρ c (Proc.devRef .tc main_v155)
    = ((Gen.dat2 (Gen.V9 m ρ) c).arrAt 6 cfg2.N) :=
  Gen.W10_arr m ρ c 6

end Cert.KernelIdeal.KerValue

end
-- ==== Proof.KerResultOps.lean ====
/-
  The host stretches of the kernel's program after the third region, read as the stage functions: the aggregation of the
  third region's output, the closing batch normalisation over the three last stretches, and the relation output. Each is
  the unrolled fold of the stretch's operations, equal to the stage's definition by computation.
-/
import proofs.«143578_j52467320487979_1_alg».proof.Proof.Gen.KernelIdeal.Frame
import proofs.«143578_j52467320487979_1_alg».proof.Proof.Stages
import proofs.«143578_j52467320487979_1_alg».proof.Proof.KStages

set_option maxRecDepth 16384

noncomputable section

namespace Cert.KernelIdeal.KerValue

open Idealize.ShloMosaic Idealize.ShloMosaic.TcCoe
open Cert.KernelIdeal Cert.KernelIdeal.Gen

variable {F : FTy → Type} [FloatOps F]

attribute [local irreducible] Host.gather Host.scatterAdd Host.reduceAdd in
set_option maxHeartbeats 2000000 in
/-- The stretch after the third region sums that region's output per target node. -/
theorem h3_v163 (X : Valuation τ sig (Elt F)) :
    StableHlo.after hostOps3 X (Proc.devRef .tc main_v163)
      = Cert.Stage.aggr (X (Proc.devRef .tc main_v108)) (X (Proc.devRef .tc main_v155)) := by
  simp only [hostOps3]; after_results_simp; rfl

attribute [local irreducible] Host.gather Host.scatterAdd Host.reduceAdd in
set_option maxHeartbeats 2000000 in
/-- The three closing stretches compute the batch normalisation of a third of the three terms' sum: the sum, its scaling and the column means in the first, the biased variance in the second, the normalisation, scale, shift and tanh in the third. -/
theorem h4_v188 (X : Valuation τ sig (Elt F)) :
    StableHlo.after hostOps4_2 (StableHlo.after hostOps4_1 (StableHlo.after hostOps4 X)) (Proc.devRef .tc main_v188)
      = Cert.Stage.tail (X (Proc.devRef .tc main_v106)) (X (Proc.devRef .tc main_v163)) (X (Proc.devRef .tc main_v164)) (X (Proc.devRef .tc main_arg11)) (X (Proc.devRef .tc main_arg12)) := by
  simp only [hostOps4, hostOps4_1, hostOps4_2]; after_results_simp; rfl

attribute [local irreducible] Host.gather Host.scatterAdd Host.reduceAdd in
set_option maxHeartbeats 2000000 in
/-- The last stretch multiplies the relation table by its weight matrix and drops the loop row. -/
theorem h4_v190 (X : Valuation τ sig (Elt F)) :
    StableHlo.after hostOps4_2 X (Proc.devRef .tc main_v190)
      = Cert.Stage.relOut (X (Proc.devRef .tc main_v0)) (X (Proc.devRef .tc main_arg8)) := by
  simp only [hostOps4_2]; after_results_simp; rfl

end Cert.KernelIdeal.KerValue

end
-- ==== Proof.KerResult.lean ====
/-
  The two result buffers of the kernel's program at the end of its run, read as the stage functions of the arguments and
  of the regions' output arrays: the node output is the closing batch-normalisation chain over the two directions'
  aggregated messages and the fourth region's output, the relation output is the relation table times its weights.
-/
import proofs.«143578_j52467320487979_1_alg».proof.Proof.KerEntry3
import proofs.«143578_j52467320487979_1_alg».proof.Proof.KerResultOps

set_option maxRecDepth 16384

noncomputable section

namespace Cert.KernelIdeal.KerValue

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg)

/-- Across the first two closing stretches. -/
theorem W14_of_W12 (c : Dev nD) (r : Ref sig .tc) (h4 : r ∉ wr4) (h41 : r ∉ wr4_1) :
    Gen.W14 m ρ c (Proc.devRef .tc r) = Gen.W12 m ρ c (Proc.devRef .tc r) :=
  (keep4_1 (Gen.W13 m ρ c) r h41).trans (keep4 (Gen.W12 m ρ c) r h4)

/-! ## After the third region's aggregation, at the fourth region's exit -/

theorem W11_v163 (c : Dev nD) : Gen.W11 m ρ c (Proc.devRef .tc main_v163)
    = (Cert.Stage.aggr (Cert.Stage.edgeRow (Cert.Stage.edgeOut (m ((c : Thread nD τ).loc main_arg1)))) ((Gen.dat2 (Gen.V9 m ρ) c).arrAt 6 cfg2.N)) :=
  (h3_v163 (Gen.W10 m ρ c)).trans (by rw [W10_v108 m ρ c, W10_v155 m ρ c])

theorem W12_v0 (c : Dev nD) : Gen.W12 m ρ c (Proc.devRef .tc main_v0)
    = (Cert.Stage.relAll (m ((c : Thread nD τ).loc main_arg3)) (m ((c : Thread nD τ).loc main_arg10))) :=
  (Gen.W12_of_ne m ρ c main_v0 (by decide)).trans (W11_v0 m ρ c)

theorem W12_v106 (c : Dev nD) : Gen.W12 m ρ c (Proc.devRef .tc main_v106)
    = (Cert.Stage.aggr (Cert.Stage.edgeRow (Cert.Stage.edgeIn (m ((c : Thread nD τ).loc main_arg1)))) ((Gen.dat1 (Gen.V5 m ρ) c).arrAt 6 cfg1.N)) :=
  (Gen.W12_of_ne m ρ c main_v106 (by decide)).trans (W11_v106 m ρ c)

theorem W12_v163 (c : Dev nD) : Gen.W12 m ρ c (Proc.devRef .tc main_v163)
    = (Cert.Stage.aggr (Cert.Stage.edgeRow (Cert.Stage.edgeOut (m ((c : Thread nD τ).loc main_arg1)))) ((Gen.dat2 (Gen.V9 m ρ) c).arrAt 6 cfg2.N)) :=
  (Gen.W12_of_ne m ρ c main_v163 (by decide)).trans (W11_v163 m ρ c)

/-- The fourth region's output array at its exit. -/
theorem W12_v164 (c : Dev nD) : Gen.W12 m ρ c (Proc.devRef .tc main_v164)
    = ((Gen.dat3 (Gen.V11 m ρ) c).arrAt 3 cfg3.N) :=
  Gen.W12_arr m ρ c 3

theorem W12_arg8 (c : Dev nD) : Gen.W12 m ρ c (Proc.devRef .tc main_arg8)
    = (m ((c : Thread nD τ).loc main_arg8)) :=
  (Gen.W12_of_ne m ρ c main_arg8 (by decide)).trans (W11_arg8 m ρ c)

theorem W12_arg11 (c : Dev nD) : Gen.W12 m ρ c (Proc.devRef .tc main_arg11)
    = (m ((c : Thread nD τ).loc main_arg11)) :=
  (Gen.W12_of_ne m ρ c main_arg11 (by decide)).trans (W11_arg11 m ρ c)

theorem W12_arg12 (c : Dev nD) : Gen.W12 m ρ c (Proc.devRef .tc main_arg12)
    = (m ((c : Thread nD τ).loc main_arg12)) :=
  (Gen.W12_of_ne m ρ c main_arg12 (by decide)).trans (W11_arg12 m ρ c)

/-! ## The two results -/

/-- The node output: the closing chain over the two directions' aggregated messages and the fourth region's output. -/
theorem W15_v188 (c : Dev nD) : Gen.W15 m ρ c (Proc.devRef .tc main_v188)
    = Cert.Stage.tail (Cert.Stage.aggr (Cert.Stage.edgeRow (Cert.Stage.edgeIn (m ((c : Thread nD τ).loc main_arg1)))) ((Gen.dat1 (Gen.V5 m ρ) c).arrAt 6 cfg1.N)) (Cert.Stage.aggr (Cert.Stage.edgeRow (Cert.Stage.edgeOut (m ((c : Thread nD τ).loc main_arg1)))) ((Gen.dat2 (Gen.V9 m ρ) c).arrAt 6 cfg2.N)) ((Gen.dat3 (Gen.V11 m ρ) c).arrAt 3 cfg3.N) (m ((c : Thread nD τ).loc main_arg11)) (m ((c : Thread nD τ).loc main_arg12)) :=
  (h4_v188 (Gen.W12 m ρ c)).trans (by rw [W12_v106 m ρ c, W12_v163 m ρ c, W12_v164 m ρ c, W12_arg11 m ρ c, W12_arg12 m ρ c])

/-- The relation output: the relation table times its weight matrix, the loop row dropped. -/
theorem W15_v190 (c : Dev nD) : Gen.W15 m ρ c (Proc.devRef .tc main_v190)
    = Cert.Stage.relOut (Cert.Stage.relAll (m ((c : Thread nD τ).loc main_arg3)) (m ((c : Thread nD τ).loc main_arg10))) (m ((c : Thread nD τ).loc main_arg8)) :=
  (h4_v190 (Gen.W14 m ρ c)).trans (by rw [W14_of_W12 m ρ c main_v0 (by decide) (by decide), W14_of_W12 m ρ c main_arg8 (by decide) (by decide), W12_v0 m ρ c, W12_arg8 m ρ c])

end Cert.KernelIdeal.KerValue

end
-- ==== Proof.LibDot.lean ====
/-
  A product of an `n × K` matrix by a `K × c` right factor, read entry by entry: the kernel's product accumulated
  into a zero array and the host's product are the same finite sum.

  For an `n × K` array `a` and a `K × c` array `b` contracted over the middle axis, entry `(p, q)` of the product is
  `∑ k : Fin K, a (p, k) * b (k, q)`. The dimension-number record `D` is abstract: what is asked of it is that it
  contracts one axis of extent `K` and where its operand indices sit (row of the result and contraction index on the
  left operand, contraction index and column of the result on the right one) — four coordinate facts that hold by
  computation at any literal record of this kind.
-/
import Idealize.ShloMosaic.Lib.ValueIdx
import Idealize.ShloMosaic.PureOps.Ideal.Laws

noncomputable section

namespace Cert.LibDot

open Idealize.ShloMosaic Idealize.ShloMosaic.ValueIdx
open scoped BigOperators

variable {n K c : Nat} {φ₁ φ₂ : FTy} (D : DotDims ⟨2, ![n, K]⟩ ⟨2, ![K, c]⟩ ⟨2, ![n, c]⟩)
  (hr : D.contr.rank = 1) (hs : D.contr.size ⟨0, by omega⟩ = K)
  (hl0 : ∀ j k, (D.lhsIdx j k 0).val = (j 0).val) (hl1 : ∀ j k, (D.lhsIdx j k 1).val = (k ⟨0, by omega⟩).val)
  (hr0 : ∀ j k, (D.rhsIdx j k 0).val = (k ⟨0, by omega⟩).val) (hr1 : ∀ j k, (D.rhsIdx j k 1).val = (j 1).val)

include hs hl0 hl1 hr0 hr1 in
/-- The sum over the record's contraction index is the sum over the middle coordinate. -/
theorem sum_contr (a : (⟨2, ![n, K]⟩ : Shape).Idx → EReal) (b : (⟨2, ![K, c]⟩ : Shape).Idx → EReal) (p : Fin n) (q : Fin c) :
    ∑ k : D.contr.Idx, a (D.lhsIdx (ix2 p q) k) * b (D.rhsIdx (ix2 p q) k) = ∑ k : Fin K, a (ix2 p k) * b (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

include hs hl0 hl1 hr0 hr1 in
/-- The kernel's product into a zero accumulator, at entry `(p, q)`. -/
theorem matmul_zero_apply (prec : Option ContractPrecision) (a : FVec Ideal ⟨2, ![n, K]⟩ φ₁) (b : FVec Ideal ⟨2, ![K, c]⟩ φ₂)
    (p : Fin n) (q : Fin c) :
    matmul D prec a b (constant ⟨2, ![n, c]⟩ .f32 0x00000000#32) (ix2 p q) = ∑ k : Fin K, a (ix2 p k) * b (ix2 k q) :=
  (Ideal.matmul_constant_zero_apply D prec a b (ix2 p q)).trans (sum_contr D hr hs hl0 hl1 hr0 hr1 a b p q)

include hs hl0 hl1 hr0 hr1 in
/-- The host's product, at entry `(p, q)`. -/
theorem dotGeneral_apply (prec : Option ContractPrecision) (a : FVec Ideal ⟨2, ![n, K]⟩ φ₁) (b : FVec Ideal ⟨2, ![K, c]⟩ φ₂)
    (p : Fin n) (q : Fin c) :
    Host.dotGeneral D prec a b (ix2 p q) = ∑ k : Fin K, a (ix2 p k) * b (ix2 k q) :=
  (Ideal.dotGeneral_apply D prec _ a b (ix2 p q)).trans (sum_contr D hr hs hl0 hl1 hr0 hr1 a b p q)

end Cert.LibDot

end
-- ==== Proof.RegRotSpec.lean ====
/-
  The host side of the two regions, read entry by entry.

  The qualifier rotation at the edges' extent (`Stage.rot200k`) at entry `(P, q)` is the complex product of row `P` of
  its two operands (`rotAt`). The self-loop term (`Stage.loopRes`) at entry `(P, q)` is the sum over `k` of the rotated
  row `P` of the node features — rotated by the one loop-relation row, the same for every node — times column `q` of the
  weight matrix: a host product is that finite sum, the broadcast of a one-row array reads its row at every row.
-/
import proofs.«143578_j52467320487979_1_alg».proof.Proof.Stages
import proofs.«143578_j52467320487979_1_alg».proof.Proof.LibRotate
import proofs.«143578_j52467320487979_1_alg».proof.Proof.LibDot
import Idealize.ShloMosaic.Lib.KernelVsHost

noncomputable section

namespace Cert.KernelIdeal.RegValue

open Idealize.ShloMosaic Idealize.ShloMosaic.ValueIdx Cert.LibRotate
open scoped BigOperators

/-- The rotation at the edges' extent, at entry `(P, q)`. -/
theorem rot200k_apply (A B : FVec Ideal Cert.ReferenceIdeal.S200000x200 .f32) (P : Fin 200000) (q : Fin 200) :
    Cert.Stage.rot200k (F := Ideal) A B (ix2 P q) = rotAt (m := 100) rfl A B P q := by
  unfold Cert.Stage.rot200k
  exact rot_apply (m := 100) rfl A B _ _ _ P q

/-- The rotation at the nodes' extent, at entry `(P, q)`. -/
theorem rot50k_apply (A B : FVec Ideal Cert.ReferenceIdeal.S50000x200 .f32) (P : Fin 50000) (q : Fin 200) :
    Cert.Stage.rot50k (F := Ideal) A B (ix2 P q) = rotAt (m := 100) rfl A B P q := by
  unfold Cert.Stage.rot50k
  exact rot_apply (m := 100) rfl A B _ _ _ P q

/-- The loop relation repeated over the nodes reads its one row at every node. -/
theorem bcastLoop_apply (lr : FVec Ideal Cert.ReferenceIdeal.S1x200 .f32) (P : Fin 50000) (q : Fin 200) :
    Cert.Stage.bcastLoop (F := Ideal) lr (ix2 P q) = lr (ix2 (0 : Fin 1) q) := by
  unfold Cert.Stage.bcastLoop
  exact broadcastInDim_oneRow_apply _ lr P q

/-! The host product's operand indices: the left operand is read at the result's row and the summation index, the
    right one at the summation index and the result's column. -/

theorem hostDot_lhs0 (j : Cert.ReferenceIdeal.S50000x200.Idx)
    (k : Cert.ReferenceIdeal.dot_S50000x200_S200x200_S50000x200_1_0_0_1_n_n.contr.Idx) :
    (Cert.ReferenceIdeal.dot_S50000x200_S200x200_S50000x200_1_0_0_1_n_n.lhsIdx j k 0).val = (j 0).val := by
  unfold DotDims.lhsIdx
  rw [dif_neg (show ¬(0 : Fin Cert.ReferenceIdeal.S50000x200.rank) ∈ Cert.ReferenceIdeal.dot_S50000x200_S200x200_S50000x200_1_0_0_1_n_n.lhsBatch by decide),
    dif_pos (show (0 : Fin Cert.ReferenceIdeal.S50000x200.rank) ∈ Cert.ReferenceIdeal.dot_S50000x200_S200x200_S50000x200_1_0_0_1_n_n.lhsNonContracting by decide)]
  rfl

theorem hostDot_rhs1 (j : Cert.ReferenceIdeal.S50000x200.Idx)
    (k : Cert.ReferenceIdeal.dot_S50000x200_S200x200_S50000x200_1_0_0_1_n_n.contr.Idx) :
    (Cert.ReferenceIdeal.dot_S50000x200_S200x200_S50000x200_1_0_0_1_n_n.rhsIdx j k 1).val = (j 1).val := by
  unfold DotDims.rhsIdx
  rw [dif_neg (show ¬(1 : Fin Cert.ReferenceIdeal.S200x200.rank) ∈ Cert.ReferenceIdeal.dot_S50000x200_S200x200_S50000x200_1_0_0_1_n_n.rhsBatch by decide),
    dif_pos (show (1 : Fin Cert.ReferenceIdeal.S200x200.rank) ∈ Cert.ReferenceIdeal.dot_S50000x200_S200x200_S50000x200_1_0_0_1_n_n.rhsNonContracting by decide)]
  rfl

/-- The self-loop term at entry `(P, q)`: the rotated row `P` against column `q` of the weights. -/
theorem loopRes_apply (lr : FVec Ideal Cert.ReferenceIdeal.S1x200 .f32) (x : FVec Ideal Cert.ReferenceIdeal.S50000x200 .f32)
    (w : FVec Ideal Cert.ReferenceIdeal.S200x200 .f32) (P : Fin 50000) (q : Fin 200) :
    Cert.Stage.loopRes (F := Ideal) lr x w (ix2 P q)
      = ∑ k : Fin 200, rotAt (m := 100) rfl x (Cert.Stage.bcastLoop (F := Ideal) lr) P k * w (ix2 k q) := by
  unfold Cert.Stage.loopRes Cert.Stage.dot50k
  refine (Cert.LibDot.dotGeneral_apply Cert.ReferenceIdeal.dot_S50000x200_S200x200_S50000x200_1_0_0_1_n_n rfl rfl hostDot_lhs0
    (fun j k => Cert.ReferenceIdeal.dot_S50000x200_S200x200_S50000x200_1_0_0_1_n_n.lhsIdx_val_of_single rfl j k)
    (fun j k => Cert.ReferenceIdeal.dot_S50000x200_S200x200_S50000x200_1_0_0_1_n_n.rhsIdx_val_of_single rfl j k)
    hostDot_rhs1 none _ w P q).trans ?_
  exact Finset.sum_congr rfl fun k _ => congrArg (· * w (ix2 k q)) (rot50k_apply x _ P k)

end Cert.KernelIdeal.RegValue

end
-- ==== Proof.RegRotPay.lean ====
/-
  The two kernel bodies' arithmetic, read entry by entry of the block.

  The rotation kernel's body stores, at entry `(p, q)` of its block of 5000 rows, the complex product of row `p` of its
  two loaded blocks. The self-loop kernel's body stores, at entry `(p, q)` of its block of 2000 rows, the sum over `k`
  of its rotated row `p` — rotated by the one loaded row, broadcast to every row of the block — times column `q` of the
  loaded weight matrix: a product accumulated into a zero array is that finite sum, and the narrowing of the left factor
  changes nothing at the ideal values.
-/
import proofs.«143578_j52467320487979_1_alg».proof.Proof.Gen.KernelIdeal.Skeleton
import proofs.«143578_j52467320487979_1_alg».proof.Proof.LibRotate
import proofs.«143578_j52467320487979_1_alg».proof.Proof.LibDot
import Idealize.ShloMosaic.Lib.ValueLayout

noncomputable section

namespace Cert.KernelIdeal.RegValue

open Cert.KernelIdeal Cert.KernelIdeal.Gen
open Idealize.ShloMosaic Idealize.ShloMosaic.ValueIdx Cert.LibRotate
open scoped BigOperators

/-- The rotation kernel's stored block at entry `(p, q)`. -/
theorem rotPay_apply (x0 x1 : FVec Ideal S5000x200 .f32) (p : Fin 5000) (q : Fin 200) :
    k0_pay1 (F := Ideal) x0 x1 (ix2 p q) = rotAt (m := 100) rfl x0 x1 p q := by
  unfold k0_pay1
  simp only [shapeCast_self]
  exact rot_apply (w := 200) (m := 100) rfl x0 x1 _ _ _ p q

/-- The loaded one-row block broadcast to the block's rows reads its row at every row. -/
theorem rowBcast_apply (x1 : FVec Ideal S1x200 .f32) (p : Fin 2000) (q : Fin 200) :
    broadcastTo S2000x200 x1 broadcasts_S1x200_S2000x200 (ix2 p q) = x1 (ix2 (0 : Fin 1) q) :=
  broadcastTo_1b_ab_apply x1 _ p q

/-! The kernel product's operand indices: the left operand is read at the result's row and the summation index, the
    right one at the summation index and the result's column. -/

theorem kerDot_lhs0 (j : S2000x200.Idx) (k : dot_S2000x200_S200x200_S2000x200_1_0_0_1_n_n.contr.Idx) :
    (dot_S2000x200_S200x200_S2000x200_1_0_0_1_n_n.lhsIdx j k 0).val = (j 0).val := by
  unfold DotDims.lhsIdx
  rw [dif_neg (show ¬(0 : Fin S2000x200.rank) ∈ dot_S2000x200_S200x200_S2000x200_1_0_0_1_n_n.lhsBatch by decide),
    dif_pos (show (0 : Fin S2000x200.rank) ∈ dot_S2000x200_S200x200_S2000x200_1_0_0_1_n_n.lhsNonContracting by decide)]
  rfl

theorem kerDot_rhs1 (j : S2000x200.Idx) (k : dot_S2000x200_S200x200_S2000x200_1_0_0_1_n_n.contr.Idx) :
    (dot_S2000x200_S200x200_S2000x200_1_0_0_1_n_n.rhsIdx j k 1).val = (j 1).val := by
  unfold DotDims.rhsIdx
  rw [dif_neg (show ¬(1 : Fin S200x200.rank) ∈ dot_S2000x200_S200x200_S2000x200_1_0_0_1_n_n.rhsBatch by decide),
    dif_pos (show (1 : Fin S200x200.rank) ∈ dot_S2000x200_S200x200_S2000x200_1_0_0_1_n_n.rhsNonContracting by decide)]
  rfl

/-- The kernel's product of a block of 2000 rows with a 200 × 200 matrix into a zero array, at entry `(p, q)`. -/
theorem kerDot_apply {φ₁ φ₂ : FTy} (a : FVec Ideal S2000x200 φ₁) (b : FVec Ideal S200x200 φ₂) (p : Fin 2000) (q : Fin 200) :
    matmul dot_S2000x200_S200x200_S2000x200_1_0_0_1_n_n none a b (constant S2000x200 .f32 0x00000000#32) (ix2 p q)
      = ∑ k : Fin 200, a (ix2 p k) * b (ix2 k q) :=
  Cert.LibDot.matmul_zero_apply dot_S2000x200_S200x200_S2000x200_1_0_0_1_n_n rfl rfl kerDot_lhs0
    (fun j k => dot_S2000x200_S200x200_S2000x200_1_0_0_1_n_n.lhsIdx_val_of_single rfl j k)
    (fun j k => dot_S2000x200_S200x200_S2000x200_1_0_0_1_n_n.rhsIdx_val_of_single rfl j k)
    kerDot_rhs1 none a b p q

/-- The self-loop kernel's stored block at entry `(p, q)`. -/
theorem loopPay_apply (x1 : FVec Ideal S1x200 .f32) (x0 : FVec Ideal S2000x200 .f32) (x2 : FVec Ideal S200x200 .bf16)
    (p : Fin 2000) (q : Fin 200) :
    k3_pay1 (F := Ideal) x1 x0 x2 (ix2 p q)
      = ∑ k : Fin 200, rotAt (m := 100) rfl x0 (broadcastTo S2000x200 x1 broadcasts_S1x200_S2000x200) p k * x2 (ix2 k q) := by
  unfold k3_pay1
  simp only [shapeCast_self]
  rw [shapeCast_self x1]
  refine (kerDot_apply _ x2 p q).trans ?_
  refine Finset.sum_congr rfl fun k _ => ?_
  rw [truncf_apply]
  exact congrArg (· * x2 (ix2 k q))
    (rot_apply (w := 200) (m := 100) rfl x0 (broadcastTo S2000x200 x1 broadcasts_S1x200_S2000x200) _ _ _ p k)

end Cert.KernelIdeal.RegValue

end
-- ==== Proof.Reg0.lean ====
/-
  The value of the qualifier-rotation region as one whole array.

  The region runs over 40 grid points; point `t` reads rows `5000 t … 5000 t + 4999` of its two input arrays and writes
  the same rows of its output. What it writes at row `p` of the block is the complex product of row `p` of the two input
  blocks, that is of rows `5000 t + p` of the two arrays: block `t` of the rotation of the whole arrays. Every row `r`
  of the output lies in the block of point `r / 5000`, so after the last point the output array is the rotation of the
  two input arrays as the region found them.
-/
import proofs.«143578_j52467320487979_1_alg».proof.Proof.Gen.KernelIdeal.Frame
import proofs.«143578_j52467320487979_1_alg».proof.Proof.RegRotSpec
import proofs.«143578_j52467320487979_1_alg».proof.Proof.RegRotPay
import Idealize.ShloMosaic.Lib.Pipeline.Value

noncomputable section

namespace Cert.KernelIdeal.RegValue

open Cert.KernelIdeal Cert.KernelIdeal.Gen Idealize.ShloMosaic Idealize.ShloMosaic.TcCoe Idealize.SL.Sem
open Idealize.ShloMosaic.Pipeline (Dat)
open Idealize.ShloMosaic.ValueIdx Cert.LibRotate

variable (V : (c : Dev nD) → (b : Ref sig .tc) → Buf (Elt Ideal) ((c : Thread nD τ).loc b))

/-- The body loads and stores its whole staging buffers: offsets zero on both axes. -/
theorem rotZero : (![0, 0] : Fin 2 → Nat) = fun _ => 0 := funext fun a => by fin_cases a <;> rfl

/-- All three windows are at row block `t`, column block 0, at point `t` (decided over the 40 points). -/
theorem rotIdx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of the first input block at point `t` is row `5000 t + p` of the first input array. -/
theorem rotBlk0 (c : Dev nD) (t : Fin cfg0.N) (p : Fin 5000) (q : Fin 200) (P : Fin 200000) (hP : P.val = t.val * 5000 + p.val) :
    (iblk0 V c 0 t : FVec Ideal S5000x200 .f32) (ix2 p q) = (V c main_v17 : FVec Ideal S200000x200 .f32) (ix2 P q) := by
  obtain ⟨e0, e1, -⟩ := rotIdx t
  unfold iblk0
  rw [View.read_apply]
  show V c main_v17 _ = V c main_v17 _
  congr 1
  funext a
  apply Fin.ext
  match a with
  | ⟨0, _⟩ => show win0_0.index t (0 : Fin 2) * 5000 + 1 * p.val = P.val; rw [e0, hP]; omega
  | ⟨1, _⟩ => show win0_0.index t (1 : Fin 2) * 200 + 1 * q.val = q.val; rw [e1]; omega

/-- Row `p` of the second input block at point `t` is row `5000 t + p` of the second input array. -/
theorem rotBlk1 (c : Dev nD) (t : Fin cfg0.N) (p : Fin 5000) (q : Fin 200) (P : Fin 200000) (hP : P.val = t.val * 5000 + p.val) :
    (iblk0 V c 1 t : FVec Ideal S5000x200 .f32) (ix2 p q) = (V c main_v24 : FVec Ideal S200000x200 .f32) (ix2 P q) := by
  obtain ⟨-, -, e0, e1, -⟩ := rotIdx t
  unfold iblk0
  rw [View.read_apply]
  show V c main_v24 _ = V c main_v24 _
  congr 1
  funext a
  apply Fin.ext
  match a with
  | ⟨0, _⟩ => show win0_1.index t (0 : Fin 2) * 5000 + 1 * p.val = P.val; rw [e0, hP]; omega
  | ⟨1, _⟩ => show win0_1.index t (1 : Fin 2) * 200 + 1 * q.val = q.val; rw [e1]; omega

/-- What point `t` writes back is block `t` of the rotation of the two whole input arrays. -/
theorem rotFlushed (c : Dev nD) (t : Fin cfg0.N) :
    (dat0 (F := Ideal) V c).flushed 2 t
      = ((cfg0.win 2).blk t).view.read (Elt Ideal) (Cert.Stage.rot200k (F := Ideal) (V c main_v17) (V c main_v24)) := by
  show (cfg0.win 2).cut (grid0.coords t) ((dat0 V c).after 2 t) = _
  rw [after0_2]
  unfold out0_2
  rw [View.canon_unit_zero rotZero]
  simp only [View.ld_unit_zero (S := S5000x200) rotZero]
  have ht : t.val < 40 := Nat.lt_of_lt_of_eq t.isLt N_0
  obtain ⟨-, -, -, -, e4, e5⟩ := rotIdx t
  funext j
  obtain ⟨p, q, rfl⟩ : ∃ (p : Fin 5000) (q : Fin 200), j = ix2 p q := ⟨j 0, j 1, eq_ix2 j⟩
  have hp := p.isLt
  have hemb : ((cfg0.win 2).blk t).view.emb (ix2 p q) = ix2 (⟨t.val * 5000 + p.val, by omega⟩ : Fin 200000) q := by
    funext a
    apply Fin.ext
    match a with
    | ⟨0, _⟩ => show win0_2.index t (0 : Fin 2) * 5000 + 1 * p.val = t.val * 5000 + p.val; rw [e4]; omega
    | ⟨1, _⟩ => show win0_2.index t (1 : Fin 2) * 200 + 1 * q.val = q.val; rw [e5]; omega
  show k0_pay1 (F := Ideal) (iblk0 V c 0 t) (iblk0 V c 1 t) (ix2 p q)
    = Cert.Stage.rot200k (F := Ideal) (V c main_v17) (V c main_v24) (((cfg0.win 2).blk t).view.emb (ix2 p q))
  rw [hemb]
  refine (rotPay_apply (iblk0 V c 0 t) (iblk0 V c 1 t) p q).trans ?_
  refine Eq.trans ?_ (rot200k_apply (V c main_v17) (V c main_v24) ⟨t.val * 5000 + p.val, by omega⟩ q).symm
  exact rotAt_congr (m := 100) rfl (iblk0 V c 0 t) (iblk0 V c 1 t) (V c main_v17) (V c main_v24) p ⟨t.val * 5000 + p.val, by omega⟩
    (fun q' => rotBlk0 V c t p q' _ rfl) (fun q' => rotBlk1 V c t p q' _ rfl) q

/-- An index of the output array is in point `t`'s block iff each coordinate is in the block's range on its axis. -/
theorem rotMemBlk (t : Fin cfg0.N) (i : S200000x200.Idx) :
    i ∈ ((cfg0.win 2).blk t).view.set
      ↔ ∀ a : Fin 2, win0_2.index t a * S5000x200.size a ≤ (i a).val ∧ (i a).val < win0_2.index t a * S5000x200.size a + S5000x200.size a := by
  show i ∈ ((View.whole main_v25).slice (win0_2.rect t)).set ↔ _
  rw [View.set_slice_whole, Rect.mem_set_unit]
  exact Iff.rfl

/-- Every row `r` of the output lies in the block of point `r / 5000`. -/
theorem rotCover (i : S200000x200.Idx) :
    ∃ t : Fin cfg0.N, (cfg0.win 2).flush t = true ∧ i ∈ ((cfg0.win 2).blk t).view.set := by
  have hi0 : (i 0).val < 200000 := (i 0).isLt
  have hi1 : (i 1).val < 200 := (i 1).isLt
  have hN : cfg0.N = 40 := N_0
  have hlt : (i 0).val / 5000 < cfg0.N := by rw [hN]; omega
  obtain ⟨-, -, -, -, e4, e5⟩ := rotIdx ⟨(i 0).val / 5000, hlt⟩
  refine ⟨⟨(i 0).val / 5000, hlt⟩, flush0_2 _, ?_⟩
  rw [rotMemBlk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hlt⟩ (1 : Fin 2) * 200 ≤ (i 1).val ∧ (i 1).val < win0_2.index ⟨(i 0).val / 5000, hlt⟩ (1 : Fin 2) * 200 + 200
    rw [e5]
    omega

/-- After the region the output array is the rotation of the two input arrays as the region found them. -/
theorem region0 (c : Dev nD) :
    (Gen.dat0 (F := Ideal) V c).arrAt 2 cfg0.N = Cert.Stage.rot200k (F := Ideal) (V c main_v17) (V c main_v24) :=
  (dat0 (F := Ideal) V c).arrAt_eq_of_cover 2 (Cert.Stage.rot200k (F := Ideal) (V c main_v17) (V c main_v24))
    (fun t _ => rotFlushed V c t) rotCover

end Cert.KernelIdeal.RegValue

end
-- ==== Proof.LibRows.lean ====
/-
  Rows of matrices read at an index, at the ideal values and for any number of rows.

  A product of an m × k matrix with a k × n matrix, whether the host's dot_general or the kernel's matmul into a zero
  accumulator, read at (a, b) is the sum over the contracted coordinate c of A(a, c) · B(c, b): it depends on row a of
  the left operand only ('rowDot' of that row). The complex rotation of 200-wide rows (columns 0..99 the real parts,
  columns 100..199 the imaginary parts: (h_re r_re − h_im r_im, h_re r_im + h_im r_re)) read at (p, k) depends on row p of
  its two operands only ('rowRot' of the two rows). A column broadcast along the rows reads its row's one entry.
  With these, a chain of such operations on a block of rows and the same chain on the whole array agree row by row.
-/
import Idealize.ShloMosaic.Lib.StackMember
import Idealize.ShloMosaic.Lib.ValueLayout

noncomputable section

namespace Cert.RowLib

open Idealize.ShloMosaic Idealize.ShloMosaic.ValueIdx

/-- Row p of a matrix, as a function of the column. -/
def rowAt {α : Type} {n c : Nat} (X : (⟨2, ![n, c]⟩ : Shape).Idx → α) (p : Fin n) : Fin c → α := fun k => X (ix2 p k)

theorem rowAt_apply {α : Type} {n c : Nat} (X : (⟨2, ![n, c]⟩ : Shape).Idx → α) (p : Fin n) (k : Fin c) :
    rowAt X p k = X (ix2 p k) := rfl

/-- A row times a matrix: entry q is the sum over c of a(c) · W(c, q). -/
def rowDot {k n : Nat} (a : Fin k → EReal) (W : (⟨2, ![k, n]⟩ : Shape).Idx → EReal) : Fin n → EReal :=
  fun q => ∑ c : Fin k, a c * W (ix2 c q)

/-- The complex rotation of a 200-wide row a by a row b: for k < 100 the real part a(k) b(k) − a(k+100) b(k+100), for
    k ≥ 100 the imaginary part a(k−100) b(k) + a(k) b(k−100). -/
def rowRot (a b : Fin 200 → EReal) : Fin 200 → EReal := fun k =>
  if h : k.val < 100 then a k * b k - a ⟨k.val + 100, by omega⟩ * b ⟨k.val + 100, by omega⟩
  else a ⟨k.val - 100, by omega⟩ * b k + a k * b ⟨k.val - 100, by omega⟩

/-- The host's product with the plain dimension numbers, at an index. -/
theorem hostDot_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = rowDot (rowAt A a) B b := by
  subst hd
  exact StackMember.dotGeneral_plain_apply prec A B a b

/-- The kernel's product into a zero accumulator with the plain dimension numbers, at an index. -/
theorem matmulZero_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant (F := Ideal) ⟨2, ![m, n]⟩ .f32 0x00000000#32) (ix2 a b) = rowDot (rowAt A a) B b := by
  subst hd
  rw [matmul_zero_eq_dotGeneral]
  exact StackMember.dotGeneral_plain_apply prec A B a b

/-- The complex rotation, written with slices and a concatenation along the columns, at an index. -/
theorem rot_apply {n : Nat} (h r : FVec Ideal ⟨2, ![n, 200]⟩ .f32)
    (s0 : (⟨2, ![n, 200]⟩ : Shape).Slices ![0, 0] ⟨2, ![n, 100]⟩)
    (s1 : (⟨2, ![n, 200]⟩ : Shape).Slices ![0, 100] ⟨2, ![n, 100]⟩)
    (hc : Shape.Concatenates [(⟨2, ![n, 100]⟩ : Shape), ⟨2, ![n, 100]⟩] ⟨2, ![n, 200]⟩ 1) (p : Fin n) (k : Fin 200) :
    concatenate (⟨2, ![n, 200]⟩ : Shape) 1
      [⟨(⟨2, ![n, 100]⟩ : Shape), subf (mulf (extractStridedSlice ⟨2, ![n, 100]⟩ ![0, 0] h s0) (extractStridedSlice ⟨2, ![n, 100]⟩ ![0, 0] r s0))
          (mulf (extractStridedSlice ⟨2, ![n, 100]⟩ ![0, 100] h s1) (extractStridedSlice ⟨2, ![n, 100]⟩ ![0, 100] r s1))⟩,
       ⟨(⟨2, ![n, 100]⟩ : Shape), addf (mulf (extractStridedSlice ⟨2, ![n, 100]⟩ ![0, 0] h s0) (extractStridedSlice ⟨2, ![n, 100]⟩ ![0, 100] r s1))
          (mulf (extractStridedSlice ⟨2, ![n, 100]⟩ ![0, 100] h s1) (extractStridedSlice ⟨2, ![n, 100]⟩ ![0, 0] r s0))⟩] hc (ix2 p k)
      = rowRot (rowAt h p) (rowAt r p) k := by
  by_cases hk : k.val < 100
  · refine (concatenate_pair_apply_left 1 _ _ hc (ix2 p k) rfl (ix2 p (⟨k.val, hk⟩ : Fin 100))
      (fun b => by match b with | ⟨0, _⟩ => rfl | ⟨1, _⟩ => rfl)).trans ?_
    rw [subf_apply, mulf_apply, mulf_apply,
      slice2_axis1_apply 0 h s0 p (⟨k.val, hk⟩ : Fin 100) k (Nat.zero_add _).symm,
      slice2_axis1_apply 0 r s0 p (⟨k.val, hk⟩ : Fin 100) k (Nat.zero_add _).symm,
      slice2_axis1_apply 100 h s1 p (⟨k.val, hk⟩ : Fin 100) (⟨k.val + 100, by omega⟩ : Fin 200) (Nat.add_comm _ _),
      slice2_axis1_apply 100 r s1 p (⟨k.val, hk⟩ : Fin 100) (⟨k.val + 100, by omega⟩ : Fin 200) (Nat.add_comm _ _)]
    unfold rowRot
    rw [dif_pos hk]
    rfl
  · have hk2 : k.val - 100 < 100 := by have := k.isLt; omega
    refine (concatenate_pair_apply_right 1 _ _ hc (ix2 p k) rfl rfl (ix2 p (⟨k.val - 100, hk2⟩ : Fin 100))
      (fun b hb => by match b with | ⟨0, _⟩ => rfl | ⟨1, _⟩ => exact absurd rfl hb)
      (by show k.val - 100 + 100 = k.val; omega)).trans ?_
    rw [addf_apply, mulf_apply, mulf_apply,
      slice2_axis1_apply 0 h s0 p (⟨k.val - 100, hk2⟩ : Fin 100) (⟨k.val - 100, by omega⟩ : Fin 200) (Nat.zero_add _).symm,
      slice2_axis1_apply 0 r s0 p (⟨k.val - 100, hk2⟩ : Fin 100) (⟨k.val - 100, by omega⟩ : Fin 200) (Nat.zero_add _).symm,
      slice2_axis1_apply 100 h s1 p (⟨k.val - 100, hk2⟩ : Fin 100) k (by show k.val = 100 + (k.val - 100); omega),
      slice2_axis1_apply 100 r s1 p (⟨k.val - 100, hk2⟩ : Fin 100) k (by show k.val = 100 + (k.val - 100); omega)]
    unfold rowRot
    rw [dif_neg hk]
    rfl

/-- A column laid along the rows by the host's broadcast in dimensions (0, 1), at an index: the row's one entry. -/
theorem bcastInDimCol_apply {α : Type} {n c : Nat} (x : (⟨2, ![n, 1]⟩ : Shape).Idx → α)
    (hb : (⟨2, ![n, 1]⟩ : Shape).BroadcastsInDim ⟨2, ![n, c]⟩ ![0, 1]) (p : Fin n) (q : Fin c) :
    broadcastInDim ⟨2, ![n, c]⟩ ![0, 1] hb x (ix2 p q) = x (ix2 p (0 : Fin 1)) := by
  refine broadcastInDim_apply _ hb x _ _ (fun a => ?_)
  match a with
  | ⟨0, _⟩ =>
    show p.val = if n = 1 then 0 else p.val
    by_cases h1 : n = 1
    · rw [if_pos h1]; have := p.isLt; omega
    · rw [if_neg h1]
  | ⟨1, _⟩ => exact (if_pos (rfl : (1 : ℕ) = 1)).symm

/-- A column laid along the rows by the kernel's broadcast, at an index: the row's one entry. -/
theorem bcastToCol_apply {α : Type} {n c : Nat} (x : (⟨2, ![n, 1]⟩ : Shape).Idx → α)
    (hb : (⟨2, ![n, 1]⟩ : Shape).Broadcasts ⟨2, ![n, c]⟩) (p : Fin n) (q : Fin c) :
    broadcastTo ⟨2, ![n, c]⟩ x hb (ix2 p q) = x (ix2 p (0 : Fin 1)) := by
  refine broadcastTo_apply x hb _ _ (fun a => ?_)
  match a with
  | ⟨0, _⟩ =>
    show p.val = if n = 1 then 0 else p.val
    by_cases h1 : n = 1
    · rw [if_pos h1]; have := p.isLt; omega
    · rw [if_neg h1]
  | ⟨1, _⟩ => exact (if_pos (rfl : (1 : ℕ) = 1)).symm

end Cert.RowLib

end
-- ==== Proof.RegDirSpec.lean ====
/-
  One edge's message in a direction, as a function of that edge's rows alone. For an edge p with source row x, relation
  row rel, coalesced-qualifier row coal and normalisation nrm, and the two 200 × 200 matrices wq and w:
  the relation embedding is re(k) = (4/5) rel(k) + (1/5) ∑ j coal(j) wq(j, k) (the two constants as the f32 words the
  programs hold), the rotated row is the complex rotation of x by re, and the message at column q is
  (∑ k rot(k) w(k, q)) · nrm. The host's composite 'scale (msgPre …) nrm' read at (p, q) is this function of the rows p
  of its operands: each operation of the composite reads only row p of what it is applied to.
-/
import proofs.«143578_j52467320487979_1_alg».proof.Proof.Stages
import proofs.«143578_j52467320487979_1_alg».proof.Proof.LibRows

noncomputable section

namespace Cert.KernelIdeal.RegValue

open Idealize.ShloMosaic Idealize.ShloMosaic.ValueIdx Cert.RowLib

/-- The relation embedding of one edge from its relation row and its coalesced-qualifier row. -/
def relRow (rel coal : Fin 200 → EReal) (wq : (⟨2, ![200, 200]⟩ : Shape).Idx → EReal) : Fin 200 → EReal :=
  fun k => Ideal.ofBits .f32 0x3F4CCCCD#32 * rel k + Ideal.ofBits .f32 0x3E4CCCCD#32 * rowDot coal wq k

/-- One edge's normalised message from its rows. -/
def dirRow (x rel coal : Fin 200 → EReal) (nrm : EReal) (wq w : (⟨2, ![200, 200]⟩ : Shape).Idx → EReal) : Fin 200 → EReal :=
  fun q => rowDot (rowRot x (relRow rel coal wq)) w q * nrm

open Cert.ReferenceIdeal in
/-- The host's relation embedding at an index. -/
theorem relEmb_apply (relpart coal : FVec Ideal S200000x200 .f32) (wq : FVec Ideal S200x200 .f32) (p : Fin 200000) (k : Fin 200) :
    Cert.Stage.relEmb (F := Ideal) relpart coal wq (ix2 p k) = relRow (rowAt relpart p) (rowAt coal p) wq k := by
  unfold Cert.Stage.relEmb
  refine (addf_apply _ _ _).trans ?_
  refine congrArg₂ (· + ·) ?_ ?_
  · exact mulf_apply _ _ _
  · refine (mulf_apply _ _ _).trans ?_
    exact congrArg (Ideal.ofBits .f32 0x3E4CCCCD#32 * ·) (hostDot_apply _ rfl none coal wq p k)

open Cert.ReferenceIdeal in
/-- The host's composite at an index is the edge's message from its rows. -/
theorem host_apply (relpart coal xj : FVec Ideal S200000x200 .f32) (wq w : FVec Ideal S200x200 .f32)
    (nrm : FVec Ideal S200000x1 .f32) (p : Fin 200000) (q : Fin 200) :
    Cert.Stage.scale (F := Ideal) (Cert.Stage.msgPre relpart coal wq xj w) nrm (ix2 p q)
      = dirRow (rowAt xj p) (rowAt relpart p) (rowAt coal p) (nrm (ix2 p (0 : Fin 1))) wq w q := by
  have e1 : rowAt (Cert.Stage.relEmb (F := Ideal) relpart coal wq) p = relRow (rowAt relpart p) (rowAt coal p) wq :=
    funext fun k => relEmb_apply relpart coal wq p k
  have e2 : rowAt (Cert.Stage.rot200k (F := Ideal) xj (Cert.Stage.relEmb relpart coal wq)) p
      = rowRot (rowAt xj p) (relRow (rowAt relpart p) (rowAt coal p) wq) := by
    rw [← e1]
    funext k
    unfold Cert.Stage.rot200k
    exact rot_apply xj _ _ _ _ p k
  unfold Cert.Stage.scale Cert.Stage.msgPre Cert.Stage.dot200k
  refine (mulf_apply _ _ _).trans ?_
  unfold dirRow
  rw [← e2]
  refine congrArg₂ (· * ·) ?_ ?_
  · exact hostDot_apply _ rfl none _ w p q
  · exact bcastInDimCol_apply nrm _ p q

end Cert.KernelIdeal.RegValue

end
-- ==== Proof.RegDirBody.lean ====
/-
  The direction kernel's body at an index. The body computes, on a block of 2000 edges, the relation embedding
  (4/5 of the relation block plus 1/5 of the coalesced block times wq, the product accumulated into zeros), the complex
  rotation of the source block by it, the product with w (again into zeros) and the scaling by the block's
  normalisation column. Read at (p, q) the stored value is the edge's message 'dirRow' of rows p of the loaded blocks:
  the roundings to bf16 are the identity at the ideal values, the shape casts are of a shape to itself.
-/
import proofs.«143578_j52467320487979_1_alg».proof.Proof.Gen.KernelIdeal.Skeleton
import proofs.«143578_j52467320487979_1_alg».proof.Proof.RegDirSpec

noncomputable section

namespace Cert.KernelIdeal.RegValue

open Idealize.ShloMosaic Idealize.ShloMosaic.ValueIdx Cert.RowLib Cert.KernelIdeal

/-- The first launch's stored value at (p, q). -/
theorem body1_apply (v0 : Vec Ideal S2000x200 .f32) (v3 : Vec Ideal S200x200 .bf16) (v6 v13 : Vec Ideal S2000x200 .f32)
    (v27 : Vec Ideal S200x200 .bf16) (v30 : Vec Ideal S2000x1 .f32) (p : Fin 2000) (q : Fin 200) :
    Gen.k1_pay1 (F := Ideal) v0 v3 v6 v13 v27 v30 (ix2 p q)
      = dirRow (rowAt v13 p) (rowAt v6 p) (rowAt v0 p) (v30 (ix2 p (0 : Fin 1))) v3 v27 q := by
  unfold Gen.k1_pay1
  rw [shapeCast_self v0, shapeCast_self v3, shapeCast_self v6, shapeCast_self v13, shapeCast_self v27, shapeCast_self v30]
  refine (mulf_apply _ _ _).trans ?_
  unfold dirRow
  refine congrArg₂ (· * ·) ?_ ?_
  · refine (matmulZero_apply _ rfl none _ v27 p q).trans ?_
    refine congrArg (fun a => rowDot a v27 q) ?_
    funext k
    refine (rot_apply v13 _ Gen.slices_S2000x200_o0_0_S2000x100 Gen.slices_S2000x200_o0_100_S2000x100
      Gen.concatenates_S2000x100_S2000x100_S2000x200_d1 p k).trans ?_
    refine congrArg (fun b => rowRot (rowAt v13 p) b k) ?_
    funext j
    refine (addf_apply _ _ _).trans ?_
    refine congrArg₂ (· + ·) ?_ ?_
    · exact mulf_apply _ _ _
    · refine (mulf_apply _ _ _).trans ?_
      exact congrArg (Ideal.ofBits .f32 0x3E4CCCCD#32 * ·) (matmulZero_apply _ rfl none v0 v3 p j)
  · exact bcastToCol_apply v30 _ p q

/-- The second launch's (the same body) stored value at (p, q). -/
theorem body2_apply (v0 : Vec Ideal S2000x200 .f32) (v3 : Vec Ideal S200x200 .bf16) (v6 v13 : Vec Ideal S2000x200 .f32)
    (v27 : Vec Ideal S200x200 .bf16) (v30 : Vec Ideal S2000x1 .f32) (p : Fin 2000) (q : Fin 200) :
    Gen.k2_pay1 (F := Ideal) v0 v3 v6 v13 v27 v30 (ix2 p q)
      = dirRow (rowAt v13 p) (rowAt v6 p) (rowAt v0 p) (v30 (ix2 p (0 : Fin 1))) v3 v27 q := by
  unfold Gen.k2_pay1
  rw [shapeCast_self v0, shapeCast_self v3, shapeCast_self v6, shapeCast_self v13, shapeCast_self v27, shapeCast_self v30]
  refine (mulf_apply _ _ _).trans ?_
  unfold dirRow
  refine congrArg₂ (· * ·) ?_ ?_
  · refine (matmulZero_apply _ rfl none _ v27 p q).trans ?_
    refine congrArg (fun a => rowDot a v27 q) ?_
    funext k
    refine (rot_apply v13 _ Gen.slices_S2000x200_o0_0_S2000x100 Gen.slices_S2000x200_o0_100_S2000x100
      Gen.concatenates_S2000x100_S2000x100_S2000x200_d1 p k).trans ?_
    refine congrArg (fun b => rowRot (rowAt v13 p) b k) ?_
    funext j
    refine (addf_apply _ _ _).trans ?_
    refine congrArg₂ (· + ·) ?_ ?_
    · exact mulf_apply _ _ _
    · refine (mulf_apply _ _ _).trans ?_
      exact congrArg (Ideal.ofBits .f32 0x3E4CCCCD#32 * ·) (matmulZero_apply _ rfl none v0 v3 p j)
  · exact bcastToCol_apply v30 _ p q

end Cert.KernelIdeal.RegValue

end
-- ==== Proof.Reg1.lean ====
/-
  The value of the first launch of the direction kernel as one whole-array function of the arrays it is entered with.
  The launch walks 100 blocks of 2000 edges. At block t the six input windows hold rows 2000 t … 2000 t + 1999 of the
  source rows, the relation rows, the coalesced qualifiers and the normalisation column, and the whole of the two
  200 × 200 matrices; the body's stored value at (p, q) is the message of edge 2000 t + p from those rows, which is the
  host's composite 'scale (msgPre …)' of the whole arrays read at (2000 t + p, q). So each block written back is the
  block of that composite, the blocks cover all 200000 rows (row r lies in block r / 2000), and the array after the
  launch is the composite.
-/
import proofs.«143578_j52467320487979_1_alg».proof.Proof.Gen.KernelIdeal.Frame
import proofs.«143578_j52467320487979_1_alg».proof.Proof.RegDirBody
import Idealize.ShloMosaic.Lib.Pipeline.Value

noncomputable section

namespace Cert.KernelIdeal.RegValue

open Cert.KernelIdeal Cert.KernelIdeal.Gen Idealize.ShloMosaic Idealize.ShloMosaic.TcCoe Idealize.SL.Sem
open Idealize.ShloMosaic.Pipeline (Dat)
open Idealize.ShloMosaic.ValueIdx Cert.RowLib

variable (V : (c : Dev nD) → (b : Ref sig .tc) → Buf (Elt Ideal) ((c : Thread nD τ).loc b))

theorem zeroOff1 : (![0, 0] : Fin 2 → Nat) = fun _ => 0 := funext fun a => by fin_cases a <;> rfl

/-- The printed index maps over the grid: the row windows sit at block row t, column block 0; the matrices at (0, 0). -/
theorem idxFacts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The launch's result as a function of the arrays it is entered with: the host's normalised messages. -/
abbrev msg1 (c : Dev nD) : Vec Ideal S200000x200 .f32 :=
  Cert.Stage.scale (F := Ideal) (Cert.Stage.msgPre (V c main_v67) (V c main_v37) (V c main_v46) (V c main_v60) (V c main_v47)) (V c main_v97)

/-- Row p of window 0's block at point t is row 2000 t + p of the source rows. -/
theorem blkRow1_0 (c : Dev nD) (t : Fin cfg1.N) (p : Fin 2000) (P : Fin 200000) (hP : P.val = t.val * 2000 + p.val) :
    rowAt (iblk1 V c 0 t : Vec Ideal S2000x200 .f32) p = rowAt (V c main_v60 : Vec Ideal S200000x200 .f32) P := by
  obtain ⟨e00, e01, e10, e11, e20, e21, e30, e31, e40, e41, e50, e51, e60, e61⟩ := idxFacts1 t
  funext k
  show iblk1 V c 0 t (ix2 p k) = V c main_v60 (ix2 P k)
  unfold iblk1
  rw [View.read_apply]
  show V c main_v60 _ = V c main_v60 _
  refine congrArg (V c main_v60) ?_
  funext a; apply Fin.ext
  match a with
  | ⟨0, _⟩ => show win1_0.index t (0 : Fin 2) * 2000 + 1 * p.val = P.val; omega
  | ⟨1, _⟩ => show win1_0.index t (1 : Fin 2) * 200 + 1 * k.val = k.val; omega

/-- Row p of window 1's block at point t is row 2000 t + p of the relation rows. -/
theorem blkRow1_1 (c : Dev nD) (t : Fin cfg1.N) (p : Fin 2000) (P : Fin 200000) (hP : P.val = t.val * 2000 + p.val) :
    rowAt (iblk1 V c 1 t : Vec Ideal S2000x200 .f32) p = rowAt (V c main_v67 : Vec Ideal S200000x200 .f32) P := by
  obtain ⟨e00, e01, e10, e11, e20, e21, e30, e31, e40, e41, e50, e51, e60, e61⟩ := idxFacts1 t
  funext k
  show iblk1 V c 1 t (ix2 p k) = V c main_v67 (ix2 P k)
  unfold iblk1
  rw [View.read_apply]
  show V c main_v67 _ = V c main_v67 _
  refine congrArg (V c main_v67) ?_
  funext a; apply Fin.ext
  match a with
  | ⟨0, _⟩ => show win1_1.index t (0 : Fin 2) * 2000 + 1 * p.val = P.val; omega
  | ⟨1, _⟩ => show win1_1.index t (1 : Fin 2) * 200 + 1 * k.val = k.val; omega

/-- Row p of window 2's block at point t is row 2000 t + p of the coalesced qualifiers. -/
theorem blkRow1_2 (c : Dev nD) (t : Fin cfg1.N) (p : Fin 2000) (P : Fin 200000) (hP : P.val = t.val * 2000 + p.val) :
    rowAt (iblk1 V c 2 t : Vec Ideal S2000x200 .f32) p = rowAt (V c main_v37 : Vec Ideal S200000x200 .f32) P := by
  obtain ⟨e00, e01, e10, e11, e20, e21, e30, e31, e40, e41, e50, e51, e60, e61⟩ := idxFacts1 t
  funext k
  show iblk1 V c 2 t (ix2 p k) = V c main_v37 (ix2 P k)
  unfold iblk1
  rw [View.read_apply]
  show V c main_v37 _ = V c main_v37 _
  refine congrArg (V c main_v37) ?_
  funext a; apply Fin.ext
  match a with
  | ⟨0, _⟩ => show win1_2.index t (0 : Fin 2) * 2000 + 1 * p.val = P.val; omega
  | ⟨1, _⟩ => show win1_2.index t (1 : Fin 2) * 200 + 1 * k.val = k.val; omega

/-- Entry p of window 3's block at point t is entry 2000 t + p of the normalisation column. -/
theorem blkCol1_3 (c : Dev nD) (t : Fin cfg1.N) (p : Fin 2000) (P : Fin 200000) (hP : P.val = t.val * 2000 + p.val) :
    (iblk1 V c 3 t : Vec Ideal S2000x1 .f32) (ix2 p (0 : Fin 1)) = (V c main_v97 : Vec Ideal S200000x1 .f32) (ix2 P (0 : Fin 1)) := by
  obtain ⟨e00, e01, e10, e11, e20, e21, e30, e31, e40, e41, e50, e51, e60, e61⟩ := idxFacts1 t
  unfold iblk1
  rw [View.read_apply]
  show V c main_v97 _ = V c main_v97 _
  refine congrArg (V c main_v97) ?_
  funext a; apply Fin.ext
  match a with
  | ⟨0, _⟩ => show win1_3.index t (0 : Fin 2) * 2000 + 1 * p.val = P.val; omega
  | ⟨1, _⟩ => show win1_3.index t (1 : Fin 2) * 1 + 1 * 0 = 0; omega

/-- Window 4's block at every point is the whole of wq. -/
theorem blkMat1_4 (c : Dev nD) (t : Fin cfg1.N) :
    (iblk1 V c 4 t : Vec Ideal S200x200 .bf16) = (V c main_v46 : Vec Ideal S200x200 .bf16) := by
  obtain ⟨e00, e01, e10, e11, e20, e21, e30, e31, e40, e41, e50, e51, e60, e61⟩ := idxFacts1 t
  funext j
  unfold iblk1
  rw [View.read_apply]
  show V c main_v46 _ = V c main_v46 _
  refine congrArg (V c main_v46) ?_
  funext a; apply Fin.ext
  match a with
  | ⟨0, _⟩ => show win1_4.index t (0 : Fin 2) * 200 + 1 * (j 0).val = (j 0).val; omega
  | ⟨1, _⟩ => show win1_4.index t (1 : Fin 2) * 200 + 1 * (j 1).val = (j 1).val; omega

/-- Window 5's block at every point is the whole of w. -/
theorem blkMat1_5 (c : Dev nD) (t : Fin cfg1.N) :
    (iblk1 V c 5 t : Vec Ideal S200x200 .bf16) = (V c main_v47 : Vec Ideal S200x200 .bf16) := by
  obtain ⟨e00, e01, e10, e11, e20, e21, e30, e31, e40, e41, e50, e51, e60, e61⟩ := idxFacts1 t
  funext j
  unfold iblk1
  rw [View.read_apply]
  show V c main_v47 _ = V c main_v47 _
  refine congrArg (V c main_v47) ?_
  funext a; apply Fin.ext
  match a with
  | ⟨0, _⟩ => show win1_5.index t (0 : Fin 2) * 200 + 1 * (j 0).val = (j 0).val; omega
  | ⟨1, _⟩ => show win1_5.index t (1 : Fin 2) * 200 + 1 * (j 1).val = (j 1).val; omega

/-- What point t writes back is block t of the host's normalised messages. -/
theorem flushed1 (c : Dev nD) (t : Fin cfg1.N) :
    (dat1 (F := Ideal) V c).flushed 6 t = ((cfg1.win 6).blk t).view.read (Elt Ideal) (msg1 V c) := by
  show (cfg1.win 6).cut (grid1.coords t) ((dat1 V c).after 6 t) = _
  rw [after1_6]
  unfold out1_6
  rw [View.canon_unit_zero zeroOff1]
  simp only [View.ld_unit_zero (S := S2000x200) zeroOff1, View.ld_unit_zero (S := S200x200) zeroOff1,
    View.ld_unit_zero (S := S2000x1) zeroOff1]
  funext j
  obtain ⟨p, q, rfl⟩ : ∃ (p : Fin 2000) (q : Fin 200), j = ix2 p q := ⟨j 0, j 1, eq_ix2 j⟩
  have hN : t.val < 100 := lt_of_lt_of_eq t.isLt (show cfg1.N = 100 from N_1)
  have hp : p.val < 2000 := p.isLt
  have hP : t.val * 2000 + p.val < 200000 := by omega
  obtain ⟨e00, e01, e10, e11, e20, e21, e30, e31, e40, e41, e50, e51, e60, e61⟩ := idxFacts1 t
  have hemb : ((cfg1.win 6).blk t).view.emb (ix2 p q) = ix2 (⟨t.val * 2000 + p.val, hP⟩ : Fin 200000) q := by
    funext a; apply Fin.ext
    match a with
    | ⟨0, _⟩ => show win1_6.index t (0 : Fin 2) * 2000 + 1 * p.val = t.val * 2000 + p.val; omega
    | ⟨1, _⟩ => show win1_6.index t (1 : Fin 2) * 200 + 1 * q.val = q.val; omega
  refine (body1_apply _ _ _ _ _ _ p q).trans ?_
  refine Eq.trans ?_ (congrArg (msg1 V c) hemb).symm
  refine Eq.trans ?_ (host_apply (V c main_v67) (V c main_v37) (V c main_v60) (V c main_v46) (V c main_v47) (V c main_v97) ⟨t.val * 2000 + p.val, hP⟩ q).symm
  rw [blkRow1_0 V c t p ⟨t.val * 2000 + p.val, hP⟩ rfl, blkRow1_1 V c t p ⟨t.val * 2000 + p.val, hP⟩ rfl,
    blkRow1_2 V c t p ⟨t.val * 2000 + p.val, hP⟩ rfl, blkCol1_3 V c t p ⟨t.val * 2000 + p.val, hP⟩ rfl,
    blkMat1_4 V c t, blkMat1_5 V c t]

/-- An index of the array is in point t's block iff each coordinate is in the block's range on its axis. -/
theorem memBlk1 (t : Fin cfg1.N) (i : S200000x200.Idx) :
    i ∈ ((cfg1.win 6).blk t).view.set ↔ ∀ a : Fin 2, win1_6.index t a * S2000x200.size a ≤ (i a).val
      ∧ (i a).val < win1_6.index t a * S2000x200.size a + S2000x200.size a := by
  show i ∈ ((View.whole main_v98).slice (win1_6.rect t)).set ↔ _
  rw [View.set_slice_whole, Rect.mem_set_unit]
  exact Iff.rfl

/-- The array after the launch is the host's normalised messages of the arrays the launch is entered with: every row
    r lies in the block of point r / 2000. -/
theorem region1 (V : (c : Dev nD) → (b : Ref sig .tc) → Buf (Elt Ideal) ((c : Thread nD τ).loc b)) (c : Dev nD) :
    (Gen.dat1 (F := Ideal) V c).arrAt 6 cfg1.N
      = Cert.Stage.scale (F := Ideal) (Cert.Stage.msgPre (V c main_v67) (V c main_v37) (V c main_v46) (V c main_v60) (V c main_v47)) (V c main_v97) :=
  (dat1 V c).arrAt_eq_of_cover 6 (msg1 V c) (fun t _ => flushed1 V c t) fun (i : S200000x200.Idx) => by
    have hi0 : (i 0).val < 200000 := (i 0).isLt
    have hi1 : (i 1).val < 200 := (i 1).isLt
    have hN : cfg1.N = 100 := N_1
    refine ⟨⟨(i 0).val / 2000, by rw [hN]; omega⟩, flush1_6 _, ?_⟩
    obtain ⟨e00, e01, e10, e11, e20, e21, e30, e31, e40, e41, e50, e51, e60, e61⟩ :=
      idxFacts1 ⟨(i 0).val / 2000, by rw [hN]; omega⟩
    rw [memBlk1]
    intro a
    match a with
    | ⟨0, _⟩ =>
      show win1_6.index _ (0 : Fin 2) * 2000 ≤ (i 0).val ∧ (i 0).val < win1_6.index _ (0 : Fin 2) * 2000 + 2000
      rw [e60]; show (i 0).val / 2000 * 2000 ≤ (i 0).val ∧ (i 0).val < (i 0).val / 2000 * 2000 + 2000; omega
    | ⟨1, _⟩ =>
      show win1_6.index _ (1 : Fin 2) * 200 ≤ (i 1).val ∧ (i 1).val < win1_6.index _ (1 : Fin 2) * 200 + 200
      rw [e61]; omega

end Cert.KernelIdeal.RegValue

end
-- ==== Proof.Reg2.lean ====
/-
  The value of the second launch of the direction kernel as one whole-array function of the arrays it is entered with.
  The launch walks 100 blocks of 2000 edges. At block t the six input windows hold rows 2000 t … 2000 t + 1999 of the
  source rows, the relation rows, the coalesced qualifiers and the normalisation column, and the whole of the two
  200 × 200 matrices; the body's stored value at (p, q) is the message of edge 2000 t + p from those rows, which is the
  host's composite 'scale (msgPre …)' of the whole arrays read at (2000 t + p, q). So each block written back is the
  block of that composite, the blocks cover all 200000 rows (row r lies in block r / 2000), and the array after the
  launch is the composite.
-/
import proofs.«143578_j52467320487979_1_alg».proof.Proof.Gen.KernelIdeal.Frame
import proofs.«143578_j52467320487979_1_alg».proof.Proof.RegDirBody
import Idealize.ShloMosaic.Lib.Pipeline.Value

noncomputable section

namespace Cert.KernelIdeal.RegValue

open Cert.KernelIdeal Cert.KernelIdeal.Gen Idealize.ShloMosaic Idealize.ShloMosaic.TcCoe Idealize.SL.Sem
open Idealize.ShloMosaic.Pipeline (Dat)
open Idealize.ShloMosaic.ValueIdx Cert.RowLib

variable (V : (c : Dev nD) → (b : Ref sig .tc) → Buf (Elt Ideal) ((c : Thread nD τ).loc b))

theorem zeroOff2 : (![0, 0] : Fin 2 → Nat) = fun _ => 0 := funext fun a => by fin_cases a <;> rfl

/-- The printed index maps over the grid: the row windows sit at block row t, column block 0; the matrices at (0, 0). -/
theorem idxFacts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The launch's result as a function of the arrays it is entered with: the host's normalised messages. -/
abbrev msg2 (c : Dev nD) : Vec Ideal S200000x200 .f32 :=
  Cert.Stage.scale (F := Ideal) (Cert.Stage.msgPre (V c main_v124) (V c main_v45) (V c main_v46) (V c main_v117) (V c main_v48)) (V c main_v154)

/-- Row p of window 0's block at point t is row 2000 t + p of the source rows. -/
theorem blkRow2_0 (c : Dev nD) (t : Fin cfg2.N) (p : Fin 2000) (P : Fin 200000) (hP : P.val = t.val * 2000 + p.val) :
    rowAt (iblk2 V c 0 t : Vec Ideal S2000x200 .f32) p = rowAt (V c main_v117 : Vec Ideal S200000x200 .f32) P := by
  obtain ⟨e00, e01, e10, e11, e20, e21, e30, e31, e40, e41, e50, e51, e60, e61⟩ := idxFacts2 t
  funext k
  show iblk2 V c 0 t (ix2 p k) = V c main_v117 (ix2 P k)
  unfold iblk2
  rw [View.read_apply]
  show V c main_v117 _ = V c main_v117 _
  refine congrArg (V c main_v117) ?_
  funext a; apply Fin.ext
  match a with
  | ⟨0, _⟩ => show win2_0.index t (0 : Fin 2) * 2000 + 1 * p.val = P.val; omega
  | ⟨1, _⟩ => show win2_0.index t (1 : Fin 2) * 200 + 1 * k.val = k.val; omega

/-- Row p of window 1's block at point t is row 2000 t + p of the relation rows. -/
theorem blkRow2_1 (c : Dev nD) (t : Fin cfg2.N) (p : Fin 2000) (P : Fin 200000) (hP : P.val = t.val * 2000 + p.val) :
    rowAt (iblk2 V c 1 t : Vec Ideal S2000x200 .f32) p = rowAt (V c main_v124 : Vec Ideal S200000x200 .f32) P := by
  obtain ⟨e00, e01, e10, e11, e20, e21, e30, e31, e40, e41, e50, e51, e60, e61⟩ := idxFacts2 t
  funext k
  show iblk2 V c 1 t (ix2 p k) = V c main_v124 (ix2 P k)
  unfold iblk2
  rw [View.read_apply]
  show V c main_v124 _ = V c main_v124 _
  refine congrArg (V c main_v124) ?_
  funext a; apply Fin.ext
  match a with
  | ⟨0, _⟩ => show win2_1.index t (0 : Fin 2) * 2000 + 1 * p.val = P.val; omega
  | ⟨1, _⟩ => show win2_1.index t (1 : Fin 2) * 200 + 1 * k.val = k.val; omega

/-- Row p of window 2's block at point t is row 2000 t + p of the coalesced qualifiers. -/
theorem blkRow2_2 (c : Dev nD) (t : Fin cfg2.N) (p : Fin 2000) (P : Fin 200000) (hP : P.val = t.val * 2000 + p.val) :
    rowAt (iblk2 V c 2 t : Vec Ideal S2000x200 .f32) p = rowAt (V c main_v45 : Vec Ideal S200000x200 .f32) P := by
  obtain ⟨e00, e01, e10, e11, e20, e21, e30, e31, e40, e41, e50, e51, e60, e61⟩ := idxFacts2 t
  funext k
  show iblk2 V c 2 t (ix2 p k) = V c main_v45 (ix2 P k)
  unfold iblk2
  rw [View.read_apply]
  show V c main_v45 _ = V c main_v45 _
  refine congrArg (V c main_v45) ?_
  funext a; apply Fin.ext
  match a with
  | ⟨0, _⟩ => show win2_2.index t (0 : Fin 2) * 2000 + 1 * p.val = P.val; omega
  | ⟨1, _⟩ => show win2_2.index t (1 : Fin 2) * 200 + 1 * k.val = k.val; omega

/-- Entry p of window 3's block at point t is entry 2000 t + p of the normalisation column. -/
theorem blkCol2_3 (c : Dev nD) (t : Fin cfg2.N) (p : Fin 2000) (P : Fin 200000) (hP : P.val = t.val * 2000 + p.val) :
    (iblk2 V c 3 t : Vec Ideal S2000x1 .f32) (ix2 p (0 : Fin 1)) = (V c main_v154 : Vec Ideal S200000x1 .f32) (ix2 P (0 : Fin 1)) := by
  obtain ⟨e00, e01, e10, e11, e20, e21, e30, e31, e40, e41, e50, e51, e60, e61⟩ := idxFacts2 t
  unfold iblk2
  rw [View.read_apply]
  show V c main_v154 _ = V c main_v154 _
  refine congrArg (V c main_v154) ?_
  funext a; apply Fin.ext
  match a with
  | ⟨0, _⟩ => show win2_3.index t (0 : Fin 2) * 2000 + 1 * p.val = P.val; omega
  | ⟨1, _⟩ => show win2_3.index t (1 : Fin 2) * 1 + 1 * 0 = 0; omega

/-- Window 4's block at every point is the whole of wq. -/
theorem blkMat2_4 (c : Dev nD) (t : Fin cfg2.N) :
    (iblk2 V c 4 t : Vec Ideal S200x200 .bf16) = (V c main_v46 : Vec Ideal S200x200 .bf16) := by
  obtain ⟨e00, e01, e10, e11, e20, e21, e30, e31, e40, e41, e50, e51, e60, e61⟩ := idxFacts2 t
  funext j
  unfold iblk2
  rw [View.read_apply]
  show V c main_v46 _ = V c main_v46 _
  refine congrArg (V c main_v46) ?_
  funext a; apply Fin.ext
  match a with
  | ⟨0, _⟩ => show win2_4.index t (0 : Fin 2) * 200 + 1 * (j 0).val = (j 0).val; omega
  | ⟨1, _⟩ => show win2_4.index t (1 : Fin 2) * 200 + 1 * (j 1).val = (j 1).val; omega

/-- Window 5's block at every point is the whole of w. -/
theorem blkMat2_5 (c : Dev nD) (t : Fin cfg2.N) :
    (iblk2 V c 5 t : Vec Ideal S200x200 .bf16) = (V c main_v48 : Vec Ideal S200x200 .bf16) := by
  obtain ⟨e00, e01, e10, e11, e20, e21, e30, e31, e40, e41, e50, e51, e60, e61⟩ := idxFacts2 t
  funext j
  unfold iblk2
  rw [View.read_apply]
  show V c main_v48 _ = V c main_v48 _
  refine congrArg (V c main_v48) ?_
  funext a; apply Fin.ext
  match a with
  | ⟨0, _⟩ => show win2_5.index t (0 : Fin 2) * 200 + 1 * (j 0).val = (j 0).val; omega
  | ⟨1, _⟩ => show win2_5.index t (1 : Fin 2) * 200 + 1 * (j 1).val = (j 1).val; omega

/-- What point t writes back is block t of the host's normalised messages. -/
theorem flushed2 (c : Dev nD) (t : Fin cfg2.N) :
    (dat2 (F := Ideal) V c).flushed 6 t = ((cfg2.win 6).blk t).view.read (Elt Ideal) (msg2 V c) := by
  show (cfg2.win 6).cut (grid2.coords t) ((dat2 V c).after 6 t) = _
  rw [after2_6]
  unfold out2_6
  rw [View.canon_unit_zero zeroOff2]
  simp only [View.ld_unit_zero (S := S2000x200) zeroOff2, View.ld_unit_zero (S := S200x200) zeroOff2,
    View.ld_unit_zero (S := S2000x1) zeroOff2]
  funext j
  obtain ⟨p, q, rfl⟩ : ∃ (p : Fin 2000) (q : Fin 200), j = ix2 p q := ⟨j 0, j 1, eq_ix2 j⟩
  have hN : t.val < 100 := lt_of_lt_of_eq t.isLt (show cfg2.N = 100 from N_2)
  have hp : p.val < 2000 := p.isLt
  have hP : t.val * 2000 + p.val < 200000 := by omega
  obtain ⟨e00, e01, e10, e11, e20, e21, e30, e31, e40, e41, e50, e51, e60, e61⟩ := idxFacts2 t
  have hemb : ((cfg2.win 6).blk t).view.emb (ix2 p q) = ix2 (⟨t.val * 2000 + p.val, hP⟩ : Fin 200000) q := by
    funext a; apply Fin.ext
    match a with
    | ⟨0, _⟩ => show win2_6.index t (0 : Fin 2) * 2000 + 1 * p.val = t.val * 2000 + p.val; omega
    | ⟨1, _⟩ => show win2_6.index t (1 : Fin 2) * 200 + 1 * q.val = q.val; omega
  refine (body2_apply _ _ _ _ _ _ p q).trans ?_
  refine Eq.trans ?_ (congrArg (msg2 V c) hemb).symm
  refine Eq.trans ?_ (host_apply (V c main_v124) (V c main_v45) (V c main_v117) (V c main_v46) (V c main_v48) (V c main_v154) ⟨t.val * 2000 + p.val, hP⟩ q).symm
  rw [blkRow2_0 V c t p ⟨t.val * 2000 + p.val, hP⟩ rfl, blkRow2_1 V c t p ⟨t.val * 2000 + p.val, hP⟩ rfl,
    blkRow2_2 V c t p ⟨t.val * 2000 + p.val, hP⟩ rfl, blkCol2_3 V c t p ⟨t.val * 2000 + p.val, hP⟩ rfl,
    blkMat2_4 V c t, blkMat2_5 V c t]

/-- An index of the array is in point t's block iff each coordinate is in the block's range on its axis. -/
theorem memBlk2 (t : Fin cfg2.N) (i : S200000x200.Idx) :
    i ∈ ((cfg2.win 6).blk t).view.set ↔ ∀ a : Fin 2, win2_6.index t a * S2000x200.size a ≤ (i a).val
      ∧ (i a).val < win2_6.index t a * S2000x200.size a + S2000x200.size a := by
  show i ∈ ((View.whole main_v155).slice (win2_6.rect t)).set ↔ _
  rw [View.set_slice_whole, Rect.mem_set_unit]
  exact Iff.rfl

/-- The array after the launch is the host's normalised messages of the arrays the launch is entered with: every row
    r lies in the block of point r / 2000. -/
theorem region2 (V : (c : Dev nD) → (b : Ref sig .tc) → Buf (Elt Ideal) ((c : Thread nD τ).loc b)) (c : Dev nD) :
    (Gen.dat2 (F := Ideal) V c).arrAt 6 cfg2.N
      = Cert.Stage.scale (F := Ideal) (Cert.Stage.msgPre (V c main_v124) (V c main_v45) (V c main_v46) (V c main_v117) (V c main_v48)) (V c main_v154) :=
  (dat2 V c).arrAt_eq_of_cover 6 (msg2 V c) (fun t _ => flushed2 V c t) fun (i : S200000x200.Idx) => by
    have hi0 : (i 0).val < 200000 := (i 0).isLt
    have hi1 : (i 1).val < 200 := (i 1).isLt
    have hN : cfg2.N = 100 := N_2
    refine ⟨⟨(i 0).val / 2000, by rw [hN]; omega⟩, flush2_6 _, ?_⟩
    obtain ⟨e00, e01, e10, e11, e20, e21, e30, e31, e40, e41, e50, e51, e60, e61⟩ :=
      idxFacts2 ⟨(i 0).val / 2000, by rw [hN]; omega⟩
    rw [memBlk2]
    intro a
    match a with
    | ⟨0, _⟩ =>
      show win2_6.index _ (0 : Fin 2) * 2000 ≤ (i 0).val ∧ (i 0).val < win2_6.index _ (0 : Fin 2) * 2000 + 2000
      rw [e60]; show (i 0).val / 2000 * 2000 ≤ (i 0).val ∧ (i 0).val < (i 0).val / 2000 * 2000 + 2000; omega
    | ⟨1, _⟩ =>
      show win2_6.index _ (1 : Fin 2) * 200 ≤ (i 1).val ∧ (i 1).val < win2_6.index _ (1 : Fin 2) * 200 + 200
      rw [e61]; omega

end Cert.KernelIdeal.RegValue

end
-- ==== Proof.Reg3.lean ====
/-
  The value of the self-loop region as one whole array.

  The region runs over 25 grid points; point `t` reads rows `2000 t … 2000 t + 1999` (a block of 2000 rows) of
  the node features, the whole one-row loop relation and the whole 200 × 200 weight matrix, and writes the same 2000 rows
  of its output. What it writes at entry `(p, q)` of the block is the sum over `k` of the rotated row `p` of the block —
  rotated by the loop relation's row — times column `q` of the weights; row `p` of the block is row `2000 t + p` of the
  node features, so this is entry `(2000 t + p, q)` of the self-loop term of the whole arrays. Every row `r` of the output
  lies in the block of point `r / 2000`, so after the last point the output array is the self-loop term of the arrays as
  the region found them.
-/
import proofs.«143578_j52467320487979_1_alg».proof.Proof.Gen.KernelIdeal.Frame
import proofs.«143578_j52467320487979_1_alg».proof.Proof.RegRotSpec
import proofs.«143578_j52467320487979_1_alg».proof.Proof.RegRotPay
import Idealize.ShloMosaic.Lib.Pipeline.Value

noncomputable section

namespace Cert.KernelIdeal.RegValue

open Cert.KernelIdeal Cert.KernelIdeal.Gen Idealize.ShloMosaic Idealize.ShloMosaic.TcCoe Idealize.SL.Sem
open Idealize.ShloMosaic.Pipeline (Dat)
open Idealize.ShloMosaic.ValueIdx Cert.LibRotate
open scoped BigOperators

variable (V : (c : Dev nD) → (b : Ref sig .tc) → Buf (Elt Ideal) ((c : Thread nD τ).loc b))

/-- The body loads and stores its whole staging buffers: offsets zero on both axes. -/
theorem loopZero : (![0, 0] : Fin 2 → Nat) = fun _ => 0 := funext fun a => by fin_cases a <;> rfl

/-- At point `t` the node-feature window and the output window are at row block `t`, column block 0; the loop relation's
    and the weights' windows are at block (0, 0), their whole arrays (decided over the 25 points). -/
theorem loopIdx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the node-feature block at point `t` is row `2000 t + p` of the node features. -/
theorem loopBlk0 (c : Dev nD) (t : Fin cfg3.N) (p : Fin 2000) (q : Fin 200) (P : Fin 50000) (hP : P.val = t.val * 2000 + p.val) :
    (iblk3 V c 0 t : FVec Ideal S2000x200 .f32) (ix2 p q) = (V c main_arg0 : FVec Ideal S50000x200 .f32) (ix2 P q) := by
  obtain ⟨e0, e1, -⟩ := loopIdx t
  unfold iblk3
  rw [View.read_apply]
  show V c main_arg0 _ = V c main_arg0 _
  congr 1
  funext a
  apply Fin.ext
  match a with
  | ⟨0, _⟩ => show win3_0.index t (0 : Fin 2) * 2000 + 1 * p.val = P.val; rw [e0, hP]; omega
  | ⟨1, _⟩ => show win3_0.index t (1 : Fin 2) * 200 + 1 * q.val = q.val; rw [e1]; omega

/-- The loop relation's block at every point is the whole one-row array. -/
theorem loopBlk1 (c : Dev nD) (t : Fin cfg3.N) (u : Fin 1) (q : Fin 200) :
    (iblk3 V c 1 t : FVec Ideal S1x200 .f32) (ix2 u q) = (V c main_arg10 : FVec Ideal S1x200 .f32) (ix2 u q) := by
  obtain ⟨-, -, e0, e1, -⟩ := loopIdx t
  unfold iblk3
  rw [View.read_apply]
  show V c main_arg10 _ = V c main_arg10 _
  congr 1
  funext a
  apply Fin.ext
  match a with
  | ⟨0, _⟩ => show win3_1.index t (0 : Fin 2) * 1 + 1 * u.val = u.val; rw [e0]; omega
  | ⟨1, _⟩ => show win3_1.index t (1 : Fin 2) * 200 + 1 * q.val = q.val; rw [e1]; omega

/-- The weights' block at every point is the whole matrix. -/
theorem loopBlk2 (c : Dev nD) (t : Fin cfg3.N) (k : Fin 200) (q : Fin 200) :
    (iblk3 V c 2 t : FVec Ideal S200x200 .bf16) (ix2 k q) = (V c main_v49 : FVec Ideal S200x200 .bf16) (ix2 k q) := by
  obtain ⟨-, -, -, -, e0, e1, -⟩ := loopIdx t
  unfold iblk3
  rw [View.read_apply]
  show V c main_v49 _ = V c main_v49 _
  congr 1
  funext a
  apply Fin.ext
  match a with
  | ⟨0, _⟩ => show win3_2.index t (0 : Fin 2) * 200 + 1 * k.val = k.val; rw [e0]; omega
  | ⟨1, _⟩ => show win3_2.index t (1 : Fin 2) * 200 + 1 * q.val = q.val; rw [e1]; omega

/-- What point `t` writes back is block `t` of the self-loop term of the whole arrays. -/
theorem loopFlushed (c : Dev nD) (t : Fin cfg3.N) :
    (dat3 (F := Ideal) V c).flushed 3 t
      = ((cfg3.win 3).blk t).view.read (Elt Ideal)
          (Cert.Stage.loopRes (F := Ideal) (V c main_arg10) (V c main_arg0) (V c main_v49)) := by
  show (cfg3.win 3).cut (grid3.coords t) ((dat3 V c).after 3 t) = _
  rw [after3_3]
  unfold out3_3
  rw [View.canon_unit_zero loopZero]
  simp only [View.ld_unit_zero (S := S1x200) loopZero, View.ld_unit_zero (S := S2000x200) loopZero,
    View.ld_unit_zero (S := S200x200) loopZero]
  have ht : t.val < 25 := Nat.lt_of_lt_of_eq t.isLt N_3
  obtain ⟨-, -, -, -, -, -, e6, e7⟩ := loopIdx t
  funext j
  obtain ⟨p, q, rfl⟩ : ∃ (p : Fin 2000) (q : Fin 200), j = ix2 p q := ⟨j 0, j 1, eq_ix2 j⟩
  have hp := p.isLt
  have hemb : ((cfg3.win 3).blk t).view.emb (ix2 p q) = ix2 (⟨t.val * 2000 + p.val, by omega⟩ : Fin 50000) q := by
    funext a
    apply Fin.ext
    match a with
    | ⟨0, _⟩ => show win3_3.index t (0 : Fin 2) * 2000 + 1 * p.val = t.val * 2000 + p.val; rw [e6]; omega
    | ⟨1, _⟩ => show win3_3.index t (1 : Fin 2) * 200 + 1 * q.val = q.val; rw [e7]; omega
  show k3_pay1 (F := Ideal) (iblk3 V c 1 t) (iblk3 V c 0 t) (iblk3 V c 2 t) (ix2 p q)
    = Cert.Stage.loopRes (F := Ideal) (V c main_arg10) (V c main_arg0) (V c main_v49) (((cfg3.win 3).blk t).view.emb (ix2 p q))
  rw [hemb]
  refine (loopPay_apply (iblk3 V c 1 t) (iblk3 V c 0 t) (iblk3 V c 2 t) p q).trans ?_
  refine Eq.trans ?_ (loopRes_apply (V c main_arg10) (V c main_arg0) (V c main_v49) ⟨t.val * 2000 + p.val, by omega⟩ q).symm
  refine Finset.sum_congr rfl fun k _ => ?_
  exact congrArg₂ (· * ·)
    (rotAt_congr (m := 100) rfl (iblk3 V c 0 t) (broadcastTo S2000x200 (iblk3 V c 1 t) broadcasts_S1x200_S2000x200)
      (V c main_arg0) (Cert.Stage.bcastLoop (F := Ideal) (V c main_arg10)) p ⟨t.val * 2000 + p.val, by omega⟩
      (fun q' => loopBlk0 V c t p q' _ rfl)
      (fun q' => (rowBcast_apply (iblk3 V c 1 t) p q').trans
        ((loopBlk1 V c t 0 q').trans (bcastLoop_apply (V c main_arg10) ⟨t.val * 2000 + p.val, by omega⟩ q').symm)) k)
    (loopBlk2 V c t k q)

/-- An index of the output array is in point `t`'s block iff each coordinate is in the block's range on its axis. -/
theorem loopMemBlk (t : Fin cfg3.N) (i : S50000x200.Idx) :
    i ∈ ((cfg3.win 3).blk t).view.set
      ↔ ∀ a : Fin 2, win3_3.index t a * S2000x200.size a ≤ (i a).val ∧ (i a).val < win3_3.index t a * S2000x200.size a + S2000x200.size a := by
  show i ∈ ((View.whole main_v164).slice (win3_3.rect t)).set ↔ _
  rw [View.set_slice_whole, Rect.mem_set_unit]
  exact Iff.rfl

/-- Every row `r` of the output lies in the block of point `r / 2000`. -/
theorem loopCover (i : S50000x200.Idx) :
    ∃ t : Fin cfg3.N, (cfg3.win 3).flush t = true ∧ i ∈ ((cfg3.win 3).blk t).view.set := by
  have hi0 : (i 0).val < 50000 := (i 0).isLt
  have hi1 : (i 1).val < 200 := (i 1).isLt
  have hN : cfg3.N = 25 := N_3
  have hlt : (i 0).val / 2000 < cfg3.N := by rw [hN]; omega
  obtain ⟨-, -, -, -, -, -, e6, e7⟩ := loopIdx ⟨(i 0).val / 2000, hlt⟩
  refine ⟨⟨(i 0).val / 2000, hlt⟩, flush3_3 _, ?_⟩
  rw [loopMemBlk]
  intro a
  match a with
  | ⟨0, _⟩ =>
    show win3_3.index ⟨(i 0).val / 2000, hlt⟩ (0 : Fin 2) * 2000 ≤ (i 0).val ∧ (i 0).val < win3_3.index ⟨(i 0).val / 2000, hlt⟩ (0 : Fin 2) * 2000 + 2000
    rw [e6]
    show (i 0).val / 2000 * 2000 ≤ (i 0).val ∧ (i 0).val < (i 0).val / 2000 * 2000 + 2000
    omega
  | ⟨1, _⟩ =>
    show win3_3.index ⟨(i 0).val / 2000, hlt⟩ (1 : Fin 2) * 200 ≤ (i 1).val ∧ (i 1).val < win3_3.index ⟨(i 0).val / 2000, hlt⟩ (1 : Fin 2) * 200 + 200
    rw [e7]
    omega

/-- After the region the output array is the self-loop term of the arrays as the region found them. -/
theorem region3 (c : Dev nD) :
    (Gen.dat3 (F := Ideal) V c).arrAt 3 cfg3.N
      = Cert.Stage.loopRes (F := Ideal) (V c main_arg10) (V c main_arg0) (V c main_v49) :=
  (dat3 (F := Ideal) V c).arrAt_eq_of_cover 3 (Cert.Stage.loopRes (F := Ideal) (V c main_arg10) (V c main_arg0) (V c main_v49))
    (fun t _ => loopFlushed V c t) loopCover

end Cert.KernelIdeal.RegValue

end
-- ==== Proof.KerFinal.lean ====
/-
  The idealized kernel program's two results as the stage functions of its thirteen arguments. The last segment boundary's
  contents at the node output are the closing chain applied to the two directions' aggregated messages and the self-loop term;
  each of those is a region's array, which is that region's whole-array function of its entry arrays, which are stage
  functions of the arguments. The qualifiers enter the first direction's region as the first 100000 rows of region 0's 200000
  rotated rows (and the second direction's as the last 100000): the reference's rotation of each half.
-/
import proofs.«143578_j52467320487979_1_alg».proof.Proof.Gen.KernelIdeal.Frame
import proofs.«143578_j52467320487979_1_alg».proof.Proof.Stages
import proofs.«143578_j52467320487979_1_alg».proof.Proof.KStages
import proofs.«143578_j52467320487979_1_alg».proof.Proof.Halves
import proofs.«143578_j52467320487979_1_alg».proof.Proof.KerEntry0
import proofs.«143578_j52467320487979_1_alg».proof.Proof.KerEntry1
import proofs.«143578_j52467320487979_1_alg».proof.Proof.KerEntry2
import proofs.«143578_j52467320487979_1_alg».proof.Proof.KerEntry3
import proofs.«143578_j52467320487979_1_alg».proof.Proof.KerResult
import proofs.«143578_j52467320487979_1_alg».proof.Proof.Reg0
import proofs.«143578_j52467320487979_1_alg».proof.Proof.Reg1
import proofs.«143578_j52467320487979_1_alg».proof.Proof.Reg2
import proofs.«143578_j52467320487979_1_alg».proof.Proof.Reg3

set_option maxRecDepth 16384

noncomputable section

namespace Cert.KernelIdeal.KerFinal

open Cert.KernelIdeal Cert.KernelIdeal.Gen Cert.Stage Cert.KStage
open Idealize.ShloMosaic Idealize.ShloMosaic.TcCoe Idealize.SL.Sem

variable (m : (ℓ : Loc nD τ sig) → Buf (Elt Ideal) ℓ) (ρ : Dev nD → PrngReg)

/-- Region 0 leaves the rotation of every qualifier's entity row by its relation row, both directions. -/
theorem region0_eq (c : Dev nD) :
    (Gen.dat0 (F := Ideal) (Gen.V1 m ρ) c).arrAt 2 cfg0.N
      = rot200k (F := Ideal) (gatherEnt (F := Ideal) (m ((c : Thread nD τ).loc main_arg0)) (qEntAll (m ((c : Thread nD τ).loc main_arg4)))) (gatherRel (F := Ideal) (relAll (F := Ideal) (m ((c : Thread nD τ).loc main_arg3)) (m ((c : Thread nD τ).loc main_arg10))) (qRelAll (m ((c : Thread nD τ).loc main_arg4)))) := by
  rw [RegValue.region0, KerValueA.V1_v17, KerValueA.V1_v24]

/-- Region 1 leaves the first direction's normalised messages. -/
theorem region1_eq (c : Dev nD) :
    (Gen.dat1 (F := Ideal) (Gen.V5 m ρ) c).arrAt 6 cfg1.N
      = scale (F := Ideal) (msgPre (F := Ideal) (gatherRel (F := Ideal) (relAll (F := Ideal) (m ((c : Thread nD τ).loc main_arg3)) (m ((c : Thread nD τ).loc main_arg10))) (typeIn (m ((c : Thread nD τ).loc main_arg2)))) (coalesce (F := Ideal) (qIdx0 (m ((c : Thread nD τ).loc main_arg4))) (qEmb (F := Ideal) (m ((c : Thread nD τ).loc main_arg0)) (relAll (F := Ideal) (m ((c : Thread nD τ).loc main_arg3)) (m ((c : Thread nD τ).loc main_arg10))) (qEnt0 (m ((c : Thread nD τ).loc main_arg4))) (qRel0 (m ((c : Thread nD τ).loc main_arg4))))) (m ((c : Thread nD τ).loc main_arg9)) (gatherEnt (F := Ideal) (m ((c : Thread nD τ).loc main_arg0)) (edgeCol (edgeIn (m ((c : Thread nD τ).loc main_arg1))))) (m ((c : Thread nD τ).loc main_arg5))) (norm (F := Ideal) (edgeRow (edgeIn (m ((c : Thread nD τ).loc main_arg1)))) (edgeCol (edgeIn (m ((c : Thread nD τ).loc main_arg1))))) := by
  rw [RegValue.region1, KerValueA.V5_v67, KerValueA.V5_v37, KerValueA.V5_v46, KerValueA.V5_v60, KerValueA.V5_v47, KerValueA.V5_v97,
    region0_eq, ← Cert.Halves.qEmb_lo, Cert.Halves.qIdx_lo]
  rfl

/-- Region 2 leaves the second direction's. -/
theorem region2_eq (c : Dev nD) :
    (Gen.dat2 (F := Ideal) (Gen.V9 m ρ) c).arrAt 6 cfg2.N
      = scale (F := Ideal) (msgPre (F := Ideal) (gatherRel (F := Ideal) (relAll (F := Ideal) (m ((c : Thread nD τ).loc main_arg3)) (m ((c : Thread nD τ).loc main_arg10))) (typeOut (m ((c : Thread nD τ).loc main_arg2)))) (coalesce (F := Ideal) (qIdx1 (m ((c : Thread nD τ).loc main_arg4))) (qEmb (F := Ideal) (m ((c : Thread nD τ).loc main_arg0)) (relAll (F := Ideal) (m ((c : Thread nD τ).loc main_arg3)) (m ((c : Thread nD τ).loc main_arg10))) (qEnt1 (m ((c : Thread nD τ).loc main_arg4))) (qRel1 (m ((c : Thread nD τ).loc main_arg4))))) (m ((c : Thread nD τ).loc main_arg9)) (gatherEnt (F := Ideal) (m ((c : Thread nD τ).loc main_arg0)) (edgeCol (edgeOut (m ((c : Thread nD τ).loc main_arg1))))) (m ((c : Thread nD τ).loc main_arg6))) (norm (F := Ideal) (edgeRow (edgeOut (m ((c : Thread nD τ).loc main_arg1)))) (edgeCol (edgeOut (m ((c : Thread nD τ).loc main_arg1))))) := by
  rw [RegValue.region2, KerValue.V9_v124, KerValue.V9_v45, KerValue.V9_v46, KerValue.V9_v117, KerValue.V9_v48, KerValue.V9_v154,
    region0_eq, ← Cert.Halves.qEmb_hi, Cert.Halves.qIdx_hi]
  rfl

/-- Region 3 leaves the self-loop term. -/
theorem region3_eq (c : Dev nD) :
    (Gen.dat3 (F := Ideal) (Gen.V11 m ρ) c).arrAt 3 cfg3.N = loopRes (F := Ideal) (m ((c : Thread nD τ).loc main_arg10)) (m ((c : Thread nD τ).loc main_arg0)) (m ((c : Thread nD τ).loc main_arg7)) := by
  rw [RegValue.region3, KerValue.V11_arg10, KerValue.V11_arg0, KerValue.V11_v49]
  rfl

/-- The node output. -/
theorem ent (c : Dev nD) :
    Gen.W15 (F := Ideal) m ρ c (Proc.devRef .tc main_v188) = resEnt (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [KerValue.W15_v188, region1_eq, region2_eq, region3_eq]
  rfl

/-- The relation output. -/
theorem rel (c : Dev nD) :
    Gen.W15 (F := Ideal) m ρ c (Proc.devRef .tc main_v190) = resRel (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [KerValue.W15_v190]
  rfl

end Cert.KernelIdeal.KerFinal

end
-- ==== Proof.RefOps.lean ====
/-
  The reference program as a list of host operations, window by window, a called function's operations standing at its call
  over that call's buffers; `main` is the sequence of that list, and so every weakly fair execution of the reference terminates
  with each buffer at the fold of the operations' results over the launch contents.
-/
import proofs.«143578_j52467320487979_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 0 of @main, in order. -/
abbrev ops0 : List (HloOp τ sig (Elt F)) :=
  [ StableHlo.binary main_arg3 main_arg10 main_v0 ((fun a b => concatenate S401x200 0 [⟨S400x200, a⟩, ⟨S1x200, b⟩] concatenates_S400x200_S1x200_S401x200_d0) : (⟨S400x200, .f32⟩ : BufTy).Contents (Elt F) → (⟨S1x200, .f32⟩ : BufTy).Contents (Elt F) → (⟨S401x200, .f32⟩ : BufTy).Contents (Elt F)),
    StableHlo.unary main_arg1 main_v1 ((extractStridedSlice S2x200000 ![0, 0] · slices_S2x400000_S2x200000_0_0) : (⟨S2x400000, .i32⟩ : BufTy).Contents (Elt F) → (⟨S2x200000, .i32⟩ : BufTy).Contents (Elt F)),
    StableHlo.unary main_arg1 main_v2 ((extractStridedSlice S2x200000 ![0, 200000] · slices_S2x400000_S2x200000_0_200000) : (⟨S2x400000, .i32⟩ : BufTy).Contents (Elt F) → (⟨S2x200000, .i32⟩ : BufTy).Contents (Elt F)),
    StableHlo.unary main_arg2 main_v3 ((extractStridedSlice S200000 ![0] · slices_S400000_S200000_0) : (⟨S400000, .i32⟩ : BufTy).Contents (Elt F) → (⟨S200000, .i32⟩ : BufTy).Contents (Elt F)),
    StableHlo.unary main_arg2 main_v4 ((extractStridedSlice S200000 ![200000] · slices_S400000_S200000_200000) : (⟨S400000, .i32⟩ : BufTy).Contents (Elt F) → (⟨S200000, .i32⟩ : BufTy).Contents (Elt F)),
    StableHlo.unary main_arg4 main_v5 ((extractStridedSlice S1x100000 ![0, 0] · slices_S3x200000_S1x100000_0_0) : (⟨S3x200000, .i32⟩ : BufTy).Contents (Elt F) → (⟨S1x100000, .i32⟩ : BufTy).Contents (Elt F)),
    StableHlo.reshape main_v5 main_v6 rfl shapeCasts_S1x100000_S100000,
    StableHlo.unary main_arg4 main_v7 ((extractStridedSlice S1x100000 ![0, 100000] · slices_S3x200000_S1x100000_0_100000) : (⟨S3x200000, .i32⟩ : BufTy).Contents (Elt F) → (⟨S1x100000, .i32⟩ : BufTy).Contents (Elt F)),
    StableHlo.reshape main_v7 main_v8 rfl shapeCasts_S1x100000_S100000,
    StableHlo.unary main_arg4 main_v9 ((extractStridedSlice S1x100000 ![1, 0] · slices_S3x200000_S1x100000_1_0) : (⟨S3x200000, .i32⟩ : BufTy).Contents (Elt F) → (⟨S1x100000, .i32⟩ : BufTy).Contents (Elt F)),
    StableHlo.reshape main_v9 main_v10 rfl shapeCasts_S1x100000_S100000,
    StableHlo.unary main_arg4 main_v11 ((extractStridedSlice S1x100000 ![1, 100000] · slices_S3x200000_S1x100000_1_100000) : (⟨S3x200000, .i32⟩ : BufTy).Contents (Elt F) → (⟨S1x100000, .i32⟩ : BufTy).Contents (Elt F)),
    StableHlo.reshape main_v11 main_v12 rfl shapeCasts_S1x100000_S100000,
    StableHlo.unary main_arg4 main_v13 ((extractStridedSlice S1x100000 ![2, 0] · slices_S3x200000_S1x100000_2_0) : (⟨S3x200000, .i32⟩ : BufTy).Contents (Elt F) → (⟨S1x100000, .i32⟩ : BufTy).Contents (Elt F)),
    StableHlo.reshape main_v13 main_v14 rfl shapeCasts_S1x100000_S100000,
    StableHlo.unary main_arg4 main_v15 ((extractStridedSlice S1x100000 ![2, 100000] · slices_S3x200000_S1x100000_2_100000) : (⟨S3x200000, .i32⟩ : BufTy).Contents (Elt F) → (⟨S1x100000, .i32⟩ : BufTy).Contents (Elt F)),
    StableHlo.reshape main_v15 main_v16 rfl shapeCasts_S1x100000_S100000,
    StableHlo.unary main_v1 main_v17 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v17 main_v18 rfl shapeCasts_S1x200000_S200000,
    StableHlo.unary main_v1 main_v19 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v19 main_v20 rfl shapeCasts_S1x200000_S200000,
    StableHlo.nullary main_c (constantI S_ 32 0#32),
    StableHlo.unary main_c main_v21 (broadcastInDim S200000 ![] bcast_S_S200000 : (⟨S_, .i32⟩ : BufTy).Contents (Elt F) → (⟨S200000, .i32⟩ : BufTy).Contents (Elt F)),
    StableHlo.binary main_v20 main_v21 main_v22 (cmpi .slt : (⟨S200000, .i32⟩ : BufTy).Contents (Elt F) → (⟨S200000, .i32⟩ : BufTy).Contents (Elt F) → (⟨S200000, .i1⟩ : BufTy).Contents (Elt F)),
    StableHlo.nullary main_c_0 (constantI S_ 32 50000#32),
    StableHlo.unary main_c_0 main_v23 (broadcastInDim S200000 ![] bcast_S_S200000 : (⟨S_, .i32⟩ : BufTy).Contents (Elt F) → (⟨S200000, .i32⟩ : BufTy).Contents (Elt F)),
    StableHlo.binary main_v20 main_v23 main_v24 (addi : (⟨S200000, .i32⟩ : BufTy).Contents (Elt F) → (⟨S200000, .i32⟩ : BufTy).Contents (Elt F) → (⟨S200000, .i32⟩ : BufTy).Contents (Elt F)),
    StableHlo.ternary main_v22 main_v24 main_v20 main_v25 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v25 main_v26 (broadcastInDim S200000x1 ![0] bcast_S200000_S200000x1_0 : (⟨S200000, .i32⟩ : BufTy).Contents (Elt F) → (⟨S200000x1, .i32⟩ : BufTy).Contents (Elt F)),
    StableHlo.binary main_arg0 main_v26 main_v27 ((fun x i => Host.gather gather_S50000x200_S200000x1_S200000x200_1_0_n_n_0_1_1200 x i) : (⟨S50000x200, .f32⟩ : BufTy).Contents (Elt F) → (⟨S200000x1, .i32⟩ : BufTy).Contents (Elt F) → (⟨S200000x200, .f32⟩ : BufTy).Contents (Elt F)),
    StableHlo.nullary main_c_1 (constantI S_ 32 0#32),
    StableHlo.unary main_c_1 main_v28 (broadcastInDim S200000 ![] bcast_S_S200000 : (⟨S_, .i32⟩ : BufTy).Contents (Elt F) → (⟨S200000, .i32⟩ : BufTy).Contents (Elt F)),
    StableHlo.binary main_v3 main_v28 main_v29 (cmpi .slt : (⟨S200000, .i32⟩ : BufTy).Contents (Elt F) → (⟨S200000, .i32⟩ : BufTy).Contents (Elt F) → (⟨S200000, .i1⟩ : BufTy).Contents (Elt F)),
    StableHlo.nullary main_c_2 (constantI S_ 32 401#32),
    StableHlo.unary main_c_2 main_v30 (broadcastInDim S200000 ![] bcast_S_S200000 : (⟨S_, .i32⟩ : BufTy).Contents (Elt F) → (⟨S200000, .i32⟩ : BufTy).Contents (Elt F)),
    StableHlo.binary main_v3 main_v30 main_v31 (addi : (⟨S200000, .i32⟩ : BufTy).Contents (Elt F) → (⟨S200000, .i32⟩ : BufTy).Contents (Elt F) → (⟨S200000, .i32⟩ : BufTy).Contents (Elt F)),
    StableHlo.ternary main_v29 main_v31 main_v3 main_v32 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v32 main_v33 (broadcastInDim S200000x1 ![0] bcast_S200000_S200000x1_0 : (⟨S200000, .i32⟩ : BufTy).Contents (Elt F) → (⟨S200000x1, .i32⟩ : BufTy).Contents (Elt F)),
    StableHlo.binary main_v0 main_v33 main_v34 ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)),
    StableHlo.nullary main_c_3 (constantI S_ 32 0#32),
    StableHlo.unary main_c_3 main_v35 (broadcastInDim S100000 ![] bcast_S_S100000 : (⟨S_, .i32⟩ : BufTy).Contents (Elt F) → (⟨S100000, .i32⟩ : BufTy).Contents (Elt F)),
    StableHlo.binary main_v10 main_v35 main_v36 (cmpi .slt : (⟨S100000, .i32⟩ : BufTy).Contents (Elt F) → (⟨S100000, .i32⟩ : BufTy).Contents (Elt F) → (⟨S100000, .i1⟩ : BufTy).Contents (Elt F)),
    StableHlo.nullary main_c_4 (constantI S_ 32 50000#32),
    StableHlo.unary main_c_4 main_v37 (broadcastInDim S100000 ![] bcast_S_S100000 : (⟨S_, .i32⟩ : BufTy).Contents (Elt F) → (⟨S100000, .i32⟩ : BufTy).Contents (Elt F)),
    StableHlo.binary main_v10 main_v37 main_v38 (addi : (⟨S100000, .i32⟩ : BufTy).Contents (Elt F) → (⟨S100000, .i32⟩ : BufTy).Contents (Elt F) → (⟨S100000, .i32⟩ : BufTy).Contents (Elt F)),
    StableHlo.ternary main_v36 main_v38 main_v10 main_v39 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v39 main_v40 (broadcastInDim S100000x1 ![0] bcast_S100000_S100000x1_0 : (⟨S100000, .i32⟩ : BufTy).Contents (Elt F) → (⟨S100000x1, .i32⟩ : BufTy).Contents (Elt F)),
    StableHlo.binary main_arg0 main_v40 main_v41 ((fun x i => Host.gather gather_S50000x200_S100000x1_S100000x200_1_0_n_n_0_1_1200 x i) : (⟨S50000x200, .f32⟩ : BufTy).Contents (Elt F) → (⟨S100000x1, .i32⟩ : BufTy).Contents (Elt F) → (⟨S100000x200, .f32⟩ : BufTy).Contents (Elt F)),
    StableHlo.nullary main_c_5 (constantI S_ 32 0#32),
    StableHlo.unary main_c_5 main_v42 (broadcastInDim S100000 ![] bcast_S_S100000 : (⟨S_, .i32⟩ : BufTy).Contents (Elt F) → (⟨S100000, .i32⟩ : BufTy).Contents (Elt F)),
    StableHlo.binary main_v6 main_v42 main_v43 (cmpi .slt : (⟨S100000, .i32⟩ : BufTy).Contents (Elt F) → (⟨S100000, .i32⟩ : BufTy).Contents (Elt F) → (⟨S100000, .i1⟩ : BufTy).Contents (Elt F)),
    StableHlo.nullary main_c_6 (constantI S_ 32 401#32),
    StableHlo.unary main_c_6 main_v44 (broadcastInDim S100000 ![] bcast_S_S100000 : (⟨S_, .i32⟩ : BufTy).Contents (Elt F) → (⟨S100000, .i32⟩ : BufTy).Contents (Elt F)),
    StableHlo.binary main_v6 main_v44 main_v45 (addi : (⟨S100000, .i32⟩ : BufTy).Contents (Elt F) → (⟨S100000, .i32⟩ : BufTy).Contents (Elt F) → (⟨S100000, .i32⟩ : BufTy).Contents (Elt F)),
    StableHlo.ternary main_v43 main_v45 main_v6 main_v46 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v46 main_v47 (broadcastInDim S100000x1 ![0] bcast_S100000_S100000x1_0 : (⟨S100000, .i32⟩ : BufTy).Contents (Elt F) → (⟨S100000x1, .i32⟩ : BufTy).Contents (Elt F)),
    StableHlo.binary main_v0 main_v47 main_v48 ((fun x i => Host.gather gather_S401x200_S100000x1_S100000x200_1_0_n_n_0_1_1200 x i) : (⟨S401x200, .f32⟩ : BufTy).Contents (Elt F) → (⟨S100000x1, .i32⟩ : BufTy).Contents (Elt F) → (⟨S100000x200, .f32⟩ : BufTy).Contents (Elt F)),
    StableHlo.unary main_v41 main_v49 ((extractStridedSlice S100000x100 ![0, 0] · slices_S100000x200_S100000x100_0_0) : (⟨S100000x200, .f32⟩ : BufTy).Contents (Elt F) → (⟨S100000x100, .f32⟩ : BufTy).Contents (Elt F)),
    StableHlo.unary main_v41 main_v50 ((extractStridedSlice S100000x100 ![0, 100] · slices_S100000x200_S100000x100_0_100) : (⟨S100000x200, .f32⟩ : BufTy).Contents (Elt F) → (⟨S100000x100, .f32⟩ : BufTy).Contents (Elt F)),
    StableHlo.unary main_v48 main_v51 ((extractStridedSlice S100000x100 ![0, 0] · slices_S100000x200_S100000x100_0_0) : (⟨S100000x200, .f32⟩ : BufTy).Contents (Elt F) → (⟨S100000x100, .f32⟩ : BufTy).Contents (Elt F)) ]

set_option maxRecDepth 8192 in
theorem ops0_sub : (ops0 : List (HloOp τ sig (Elt F))).Forall fun op => op.bufs ⊆ tcRefs τ sig :=
  ⟨StableHlo.binary_bufs_sub .., StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.unary_bufs_sub ..⟩

set_option maxRecDepth 8192 in
set_option maxHeartbeats 4000000 in
/-- Window 0 is the sequence of its operations. -/
theorem part0_eq (c : Dev nD) : main_part0 (F := F) c = seq ops0 := rfl

set_option maxHeartbeats 40000000 in
/-- The operations of window 1 of @main, in order. -/
abbrev ops1 : List (HloOp τ sig (Elt F)) :=
  [ StableHlo.unary main_v48 main_v52 ((extractStridedSlice S100000x100 ![0, 100] · slices_S100000x200_S100000x100_0_100) : (⟨S100000x200, .f32⟩ : BufTy).Contents (Elt F) → (⟨S100000x100, .f32⟩ : BufTy).Contents (Elt F)),
    StableHlo.binary main_v49 main_v51 main_v53 (mulf : (⟨S100000x100, .f32⟩ : BufTy).Contents (Elt F) → (⟨S100000x100, .f32⟩ : BufTy).Contents (Elt F) → (⟨S100000x100, .f32⟩ : BufTy).Contents (Elt F)),
    StableHlo.binary main_v50 main_v52 main_v54 (mulf : (⟨S100000x100, .f32⟩ : BufTy).Contents (Elt F) → (⟨S100000x100, .f32⟩ : BufTy).Contents (Elt F) → (⟨S100000x100, .f32⟩ : BufTy).Contents (Elt F)),
    StableHlo.binary main_v53 main_v54 main_v55 (subf : (⟨S100000x100, .f32⟩ : BufTy).Contents (Elt F) → (⟨S100000x100, .f32⟩ : BufTy).Contents (Elt F) → (⟨S100000x100, .f32⟩ : BufTy).Contents (Elt F)),
    StableHlo.binary main_v49 main_v52 main_v56 (mulf : (⟨S100000x100, .f32⟩ : BufTy).Contents (Elt F) → (⟨S100000x100, .f32⟩ : BufTy).Contents (Elt F) → (⟨S100000x100, .f32⟩ : BufTy).Contents (Elt F)),
    StableHlo.binary main_v50 main_v51 main_v57 (mulf : (⟨S100000x100, .f32⟩ : BufTy).Contents (Elt F) → (⟨S100000x100, .f32⟩ : BufTy).Contents (Elt F) → (⟨S100000x100, .f32⟩ : BufTy).Contents (Elt F)),
    StableHlo.binary main_v56 main_v57 main_v58 (addf : (⟨S100000x100, .f32⟩ : BufTy).Contents (Elt F) → (⟨S100000x100, .f32⟩ : BufTy).Contents (Elt F) → (⟨S100000x100, .f32⟩ : BufTy).Contents (Elt F)),
    StableHlo.binary main_v55 main_v58 main_v59 ((fun a b => concatenate S100000x200 1 [⟨S100000x100, a⟩, ⟨S100000x100, b⟩] concatenates_S100000x100_S100000x100_S100000x200_d1) : (⟨S100000x100, .f32⟩ : BufTy).Contents (Elt F) → (⟨S100000x100, .f32⟩ : BufTy).Contents (Elt F) → (⟨S100000x200, .f32⟩ : BufTy).Contents (Elt F)),
    StableHlo.nullary main_cst (constant S_ .f32 0x00000000#32),
    StableHlo.unary main_cst main_v60 (broadcastInDim S200000x200 ![] bcast_S_S200000x200 : (⟨S_, .f32⟩ : BufTy).Contents (Elt F) → (⟨S200000x200, .f32⟩ : BufTy).Contents (Elt F)),
    StableHlo.nullary main_c_7 (constantI S_ 32 0#32),
    StableHlo.unary main_c_7 main_v61 (broadcastInDim S100000 ![] bcast_S_S100000 : (⟨S_, .i32⟩ : BufTy).Contents (Elt F) → (⟨S100000, .i32⟩ : BufTy).Contents (Elt F)),
    StableHlo.binary main_v14 main_v61 main_v62 (cmpi .slt : (⟨S100000, .i32⟩ : BufTy).Contents (Elt F) → (⟨S100000, .i32⟩ : BufTy).Contents (Elt F) → (⟨S100000, .i1⟩ : BufTy).Contents (Elt F)),
    StableHlo.nullary main_c_8 (constantI S_ 32 200000#32),
    StableHlo.unary main_c_8 main_v63 (broadcastInDim S100000 ![] bcast_S_S100000 : (⟨S_, .i32⟩ : BufTy).Contents (Elt F) → (⟨S100000, .i32⟩ : BufTy).Contents (Elt F)),
    StableHlo.binary main_v14 main_v63 main_v64 (addi : (⟨S100000, .i32⟩ : BufTy).Contents (Elt F) → (⟨S100000, .i32⟩ : BufTy).Contents (Elt F) → (⟨S100000, .i32⟩ : BufTy).Contents (Elt F)),
    StableHlo.ternary main_v62 main_v64 main_v14 main_v65 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v65 main_v66 (broadcastInDim S100000x1 ![0] bcast_S100000_S100000x1_0 : (⟨S100000, .i32⟩ : BufTy).Contents (Elt F) → (⟨S100000x1, .i32⟩ : BufTy).Contents (Elt F)),
    StableHlo.ternary main_v60 main_v66 main_v59 main_v67 ((fun x i u => Host.scatterAdd scatter_S200000x200_S100000x1_S100000x200_1_0_0_1 x i u) : (⟨S200000x200, .f32⟩ : BufTy).Contents (Elt F) → (⟨S100000x1, .i32⟩ : BufTy).Contents (Elt F) → (⟨S100000x200, .f32⟩ : BufTy).Contents (Elt F) → (⟨S200000x200, .f32⟩ : BufTy).Contents (Elt F)),
    StableHlo.nullary main_cst_9 (constant S_ .f32 0x3F4CCCCD#32),
    StableHlo.unary main_cst_9 main_v68 (broadcastInDim S200000x200 ![] bcast_S_S200000x200 : (⟨S_, .f32⟩ : BufTy).Contents (Elt F) → (⟨S200000x200, .f32⟩ : BufTy).Contents (Elt F)),
    StableHlo.binary main_v68 main_v34 main_v69 (mulf : (⟨S200000x200, .f32⟩ : BufTy).Contents (Elt F) → (⟨S200000x200, .f32⟩ : BufTy).Contents (Elt F) → (⟨S200000x200, .f32⟩ : BufTy).Contents (Elt F)),
    StableHlo.binary main_v67 main_arg9 main_v70 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    StableHlo.nullary main_cst_10 (constant S_ .f32 0x3E4CCCCD#32),
    StableHlo.unary main_cst_10 main_v71 (broadcastInDim S200000x200 ![] bcast_S_S200000x200 : (⟨S_, .f32⟩ : BufTy).Contents (Elt F) → (⟨S200000x200, .f32⟩ : BufTy).Contents (Elt F)),
    StableHlo.binary main_v71 main_v70 main_v72 (mulf : (⟨S200000x200, .f32⟩ : BufTy).Contents (Elt F) → (⟨S200000x200, .f32⟩ : BufTy).Contents (Elt F) → (⟨S200000x200, .f32⟩ : BufTy).Contents (Elt F)),
    StableHlo.binary main_v69 main_v72 main_v73 (addf : (⟨S200000x200, .f32⟩ : BufTy).Contents (Elt F) → (⟨S200000x200, .f32⟩ : BufTy).Contents (Elt F) → (⟨S200000x200, .f32⟩ : BufTy).Contents (Elt F)),
    StableHlo.unary main_v27 main_v74 ((extractStridedSlice S200000x100 ![0, 0] · slices_S200000x200_S200000x100_0_0) : (⟨S200000x200, .f32⟩ : BufTy).Contents (Elt F) → (⟨S200000x100, .f32⟩ : BufTy).Contents (Elt F)),
    StableHlo.unary main_v27 main_v75 ((extractStridedSlice S200000x100 ![0, 100] · slices_S200000x200_S200000x100_0_100) : (⟨S200000x200, .f32⟩ : BufTy).Contents (Elt F) → (⟨S200000x100, .f32⟩ : BufTy).Contents (Elt F)),
    StableHlo.unary main_v73 main_v76 ((extractStridedSlice S200000x100 ![0, 0] · slices_S200000x200_S200000x100_0_0) : (⟨S200000x200, .f32⟩ : BufTy).Contents (Elt F) → (⟨S200000x100, .f32⟩ : BufTy).Contents (Elt F)),
    StableHlo.unary main_v73 main_v77 ((extractStridedSlice S200000x100 ![0, 100] · slices_S200000x200_S200000x100_0_100) : (⟨S200000x200, .f32⟩ : BufTy).Contents (Elt F) → (⟨S200000x100, .f32⟩ : BufTy).Contents (Elt F)),
    StableHlo.binary main_v74 main_v76 main_v78 (mulf : (⟨S200000x100, .f32⟩ : BufTy).Contents (Elt F) → (⟨S200000x100, .f32⟩ : BufTy).Contents (Elt F) → (⟨S200000x100, .f32⟩ : BufTy).Contents (Elt F)),
    StableHlo.binary main_v75 main_v77 main_v79 (mulf : (⟨S200000x100, .f32⟩ : BufTy).Contents (Elt F) → (⟨S200000x100, .f32⟩ : BufTy).Contents (Elt F) → (⟨S200000x100, .f32⟩ : BufTy).Contents (Elt F)),
    StableHlo.binary main_v78 main_v79 main_v80 (subf : (⟨S200000x100, .f32⟩ : BufTy).Contents (Elt F) → (⟨S200000x100, .f32⟩ : BufTy).Contents (Elt F) → (⟨S200000x100, .f32⟩ : BufTy).Contents (Elt F)),
    StableHlo.binary main_v74 main_v77 main_v81 (mulf : (⟨S200000x100, .f32⟩ : BufTy).Contents (Elt F) → (⟨S200000x100, .f32⟩ : BufTy).Contents (Elt F) → (⟨S200000x100, .f32⟩ : BufTy).Contents (Elt F)),
    StableHlo.binary main_v75 main_v76 main_v82 (mulf : (⟨S200000x100, .f32⟩ : BufTy).Contents (Elt F) → (⟨S200000x100, .f32⟩ : BufTy).Contents (Elt F) → (⟨S200000x100, .f32⟩ : BufTy).Contents (Elt F)),
    StableHlo.binary main_v81 main_v82 main_v83 (addf : (⟨S200000x100, .f32⟩ : BufTy).Contents (Elt F) → (⟨S200000x100, .f32⟩ : BufTy).Contents (Elt F) → (⟨S200000x100, .f32⟩ : BufTy).Contents (Elt F)),
    StableHlo.binary main_v80 main_v83 main_v84 ((fun a b => concatenate S200000x200 1 [⟨S200000x100, a⟩, ⟨S200000x100, b⟩] concatenates_S200000x100_S200000x100_S200000x200_d1) : (⟨S200000x100, .f32⟩ : BufTy).Contents (Elt F) → (⟨S200000x100, .f32⟩ : BufTy).Contents (Elt F) → (⟨S200000x200, .f32⟩ : BufTy).Contents (Elt F)),
    StableHlo.binary main_v84 main_arg5 main_v85 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    StableHlo.nullary main_cst_11 (constant S_ .f32 0x00000000#32),
    StableHlo.unary main_cst_11 main_v86 (broadcastInDim S50000 ![] bcast_S_S50000 : (⟨S_, .f32⟩ : BufTy).Contents (Elt F) → (⟨S50000, .f32⟩ : BufTy).Contents (Elt F)),
    StableHlo.nullary main_c_12 (constantI S_ 32 0#32),
    StableHlo.unary main_c_12 main_v87 (broadcastInDim S200000 ![] bcast_S_S200000 : (⟨S_, .i32⟩ : BufTy).Contents (Elt F) → (⟨S200000, .i32⟩ : BufTy).Contents (Elt F)),
    StableHlo.binary main_v18 main_v87 main_v88 (cmpi .slt : (⟨S200000, .i32⟩ : BufTy).Contents (Elt F) → (⟨S200000, .i32⟩ : BufTy).Contents (Elt F) → (⟨S200000, .i1⟩ : BufTy).Contents (Elt F)),
    StableHlo.nullary main_c_13 (constantI S_ 32 50000#32),
    StableHlo.unary main_c_13 main_v89 (broadcastInDim S200000 ![] bcast_S_S200000 : (⟨S_, .i32⟩ : BufTy).Contents (Elt F) → (⟨S200000, .i32⟩ : BufTy).Contents (Elt F)),
    StableHlo.binary main_v18 main_v89 main_v90 (addi : (⟨S200000, .i32⟩ : BufTy).Contents (Elt F) → (⟨S200000, .i32⟩ : BufTy).Contents (Elt F) → (⟨S200000, .i32⟩ : BufTy).Contents (Elt F)),
    StableHlo.ternary main_v88 main_v90 main_v18 main_v91 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v91 main_v92 (broadcastInDim S200000x1 ![0] bcast_S200000_S200000x1_0 : (⟨S200000, .i32⟩ : BufTy).Contents (Elt F) → (⟨S200000x1, .i32⟩ : BufTy).Contents (Elt F)),
    StableHlo.nullary main_cst_14 (constant S_ .f32 0x3F800000#32),
    StableHlo.unary main_cst_14 main_v93 (broadcastInDim S200000 ![] bcast_S_S200000 : (⟨S_, .f32⟩ : BufTy).Contents (Elt F) → (⟨S200000, .f32⟩ : BufTy).Contents (Elt F)),
    StableHlo.ternary main_v86 main_v92 main_v93 main_v94 ((fun x i u => Host.scatterAdd scatter_S50000_S200000x1_S200000_n_0_0_1 x i u) : (⟨S50000, .f32⟩ : BufTy).Contents (Elt F) → (⟨S200000x1, .i32⟩ : BufTy).Contents (Elt F) → (⟨S200000, .f32⟩ : BufTy).Contents (Elt F) → (⟨S50000, .f32⟩ : BufTy).Contents (Elt F)),
    StableHlo.nullary main_cst_15 (constant S_ .f32 0x00000000#32),
    StableHlo.unary main_cst_15 main_v95 (broadcastInDim S50000 ![] bcast_S_S50000 : (⟨S_, .f32⟩ : BufTy).Contents (Elt F) → (⟨S50000, .f32⟩ : BufTy).Contents (Elt F)),
    StableHlo.binary main_v94 main_v95 main_v96 (cmpf .ogt : (⟨S50000, .f32⟩ : BufTy).Contents (Elt F) → (⟨S50000, .f32⟩ : BufTy).Contents (Elt F) → (⟨S50000, .i1⟩ : BufTy).Contents (Elt F)),
    StableHlo.nullary main_cst_16 (constant S_ .f32 0xBF000000#32),
    StableHlo.unary main_cst_16 main_v97 (broadcastInDim S50000 ![] bcast_S_S50000 : (⟨S_, .f32⟩ : BufTy).Contents (Elt F) → (⟨S50000, .f32⟩ : BufTy).Contents (Elt F)),
    StableHlo.binary main_v94 main_v97 main_v98 (Host.powf : (⟨S50000, .f32⟩ : BufTy).Contents (Elt F) → (⟨S50000, .f32⟩ : BufTy).Contents (Elt F) → (⟨S50000, .f32⟩ : BufTy).Contents (Elt F)),
    StableHlo.nullary main_cst_17 (constant S_ .f32 0x00000000#32),
    StableHlo.TRef.unary (.of main_cst_17 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v96 : StableHlo.TRef sig ⟨S50000, .i1⟩) (.of main_v98 : StableHlo.TRef sig ⟨S50000, .f32⟩) (.of main_call0_v1 : StableHlo.TRef sig ⟨S50000, .f32⟩) (.of main_v99 : StableHlo.TRef sig ⟨S50000, .f32⟩) select ]

set_option maxRecDepth 8192 in
theorem ops1_sub : (ops1 : List (HloOp τ sig (Elt F))).Forall fun op => op.bufs ⊆ tcRefs τ sig :=
  ⟨StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩

set_option maxRecDepth 8192 in
set_option maxHeartbeats 4000000 in
/-- Window 1 is the sequence of its operations. -/
theorem part1_eq (c : Dev nD) : main_part1 (F := F) c = seq ops1 := by
  simp only [main_part1, fn_where.body, fn_where_0.body, fn_var.body, seq, bind_assoc, pure_bind] <;> rfl

set_option maxHeartbeats 40000000 in
/-- The operations of window 2 of @main, in order. -/
abbrev ops2 : List (HloOp τ sig (Elt F)) :=
  [ StableHlo.nullary main_c_18 (constantI S_ 32 0#32),
    StableHlo.unary main_c_18 main_v100 (broadcastInDim S200000 ![] bcast_S_S200000 : (⟨S_, .i32⟩ : BufTy).Contents (Elt F) → (⟨S200000, .i32⟩ : BufTy).Contents (Elt F)),
    StableHlo.binary main_v18 main_v100 main_v101 (cmpi .slt : (⟨S200000, .i32⟩ : BufTy).Contents (Elt F) → (⟨S200000, .i32⟩ : BufTy).Contents (Elt F) → (⟨S200000, .i1⟩ : BufTy).Contents (Elt F)),
    StableHlo.nullary main_c_19 (constantI S_ 32 50000#32),
    StableHlo.unary main_c_19 main_v102 (broadcastInDim S200000 ![] bcast_S_S200000 : (⟨S_, .i32⟩ : BufTy).Contents (Elt F) → (⟨S200000, .i32⟩ : BufTy).Contents (Elt F)),
    StableHlo.binary main_v18 main_v102 main_v103 (addi : (⟨S200000, .i32⟩ : BufTy).Contents (Elt F) → (⟨S200000, .i32⟩ : BufTy).Contents (Elt F) → (⟨S200000, .i32⟩ : BufTy).Contents (Elt F)),
    StableHlo.ternary main_v101 main_v103 main_v18 main_v104 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v104 main_v105 (broadcastInDim S200000x1 ![0] bcast_S200000_S200000x1_0 : (⟨S200000, .i32⟩ : BufTy).Contents (Elt F) → (⟨S200000x1, .i32⟩ : BufTy).Contents (Elt F)),
    StableHlo.binary main_v99 main_v105 main_v106 ((fun x i => Host.gather gather_S50000_S200000x1_S200000_n_0_n_n_0_1_1 x i) : (⟨S50000, .f32⟩ : BufTy).Contents (Elt F) → (⟨S200000x1, .i32⟩ : BufTy).Contents (Elt F) → (⟨S200000, .f32⟩ : BufTy).Contents (Elt F)),
    StableHlo.nullary main_c_20 (constantI S_ 32 0#32),
    StableHlo.unary main_c_20 main_v107 (broadcastInDim S200000 ![] bcast_S_S200000 : (⟨S_, .i32⟩ : BufTy).Contents (Elt F) → (⟨S200000, .i32⟩ : BufTy).Contents (Elt F)),
    StableHlo.binary main_v20 main_v107 main_v108 (cmpi .slt : (⟨S200000, .i32⟩ : BufTy).Contents (Elt F) → (⟨S200000, .i32⟩ : BufTy).Contents (Elt F) → (⟨S200000, .i1⟩ : BufTy).Contents (Elt F)),
    StableHlo.nullary main_c_21 (constantI S_ 32 50000#32),
    StableHlo.unary main_c_21 main_v109 (broadcastInDim S200000 ![] bcast_S_S200000 : (⟨S_, .i32⟩ : BufTy).Contents (Elt F) → (⟨S200000, .i32⟩ : BufTy).Contents (Elt F)),
    StableHlo.binary main_v20 main_v109 main_v110 (addi : (⟨S200000, .i32⟩ : BufTy).Contents (Elt F) → (⟨S200000, .i32⟩ : BufTy).Contents (Elt F) → (⟨S200000, .i32⟩ : BufTy).Contents (Elt F)),
    StableHlo.ternary main_v108 main_v110 main_v20 main_v111 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v111 main_v112 (broadcastInDim S200000x1 ![0] bcast_S200000_S200000x1_0 : (⟨S200000, .i32⟩ : BufTy).Contents (Elt F) → (⟨S200000x1, .i32⟩ : BufTy).Contents (Elt F)),
    StableHlo.binary main_v99 main_v112 main_v113 ((fun x i => Host.gather gather_S50000_S200000x1_S200000_n_0_n_n_0_1_1 x i) : (⟨S50000, .f32⟩ : BufTy).Contents (Elt F) → (⟨S200000x1, .i32⟩ : BufTy).Contents (Elt F) → (⟨S200000, .f32⟩ : BufTy).Contents (Elt F)),
    StableHlo.binary main_v106 main_v113 main_v114 (mulf : (⟨S200000, .f32⟩ : BufTy).Contents (Elt F) → (⟨S200000, .f32⟩ : BufTy).Contents (Elt F) → (⟨S200000, .f32⟩ : BufTy).Contents (Elt F)),
    StableHlo.unary main_v114 main_v115 (broadcastInDim S200000x1 ![0] bcast_S200000_S200000x1_0 : (⟨S200000, .f32⟩ : BufTy).Contents (Elt F) → (⟨S200000x1, .f32⟩ : BufTy).Contents (Elt F)),
    StableHlo.unary main_v115 main_v116 (broadcastInDim S200000x200 ![0, 1] bcast_S200000x1_S200000x200_0_1 : (⟨S200000x1, .f32⟩ : BufTy).Contents (Elt F) → (⟨S200000x200, .f32⟩ : BufTy).Contents (Elt F)),
    StableHlo.binary main_v85 main_v116 main_v117 (mulf : (⟨S200000x200, .f32⟩ : BufTy).Contents (Elt F) → (⟨S200000x200, .f32⟩ : BufTy).Contents (Elt F) → (⟨S200000x200, .f32⟩ : BufTy).Contents (Elt F)),
    StableHlo.nullary main_cst_22 (constant S_ .f32 0x00000000#32),
    StableHlo.unary main_cst_22 main_v118 (broadcastInDim S50000x200 ![] bcast_S_S50000x200 : (⟨S_, .f32⟩ : BufTy).Contents (Elt F) → (⟨S50000x200, .f32⟩ : BufTy).Contents (Elt F)),
    StableHlo.nullary main_c_23 (constantI S_ 32 0#32),
    StableHlo.unary main_c_23 main_v119 (broadcastInDim S200000 ![] bcast_S_S200000 : (⟨S_, .i32⟩ : BufTy).Contents (Elt F) → (⟨S200000, .i32⟩ : BufTy).Contents (Elt F)),
    StableHlo.binary main_v18 main_v119 main_v120 (cmpi .slt : (⟨S200000, .i32⟩ : BufTy).Contents (Elt F) → (⟨S200000, .i32⟩ : BufTy).Contents (Elt F) → (⟨S200000, .i1⟩ : BufTy).Contents (Elt F)),
    StableHlo.nullary main_c_24 (constantI S_ 32 50000#32),
    StableHlo.unary main_c_24 main_v121 (broadcastInDim S200000 ![] bcast_S_S200000 : (⟨S_, .i32⟩ : BufTy).Contents (Elt F) → (⟨S200000, .i32⟩ : BufTy).Contents (Elt F)),
    StableHlo.binary main_v18 main_v121 main_v122 (addi : (⟨S200000, .i32⟩ : BufTy).Contents (Elt F) → (⟨S200000, .i32⟩ : BufTy).Contents (Elt F) → (⟨S200000, .i32⟩ : BufTy).Contents (Elt F)),
    StableHlo.ternary main_v120 main_v122 main_v18 main_v123 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v123 main_v124 (broadcastInDim S200000x1 ![0] bcast_S200000_S200000x1_0 : (⟨S200000, .i32⟩ : BufTy).Contents (Elt F) → (⟨S200000x1, .i32⟩ : BufTy).Contents (Elt F)),
    StableHlo.ternary main_v118 main_v124 main_v117 main_v125 ((fun x i u => Host.scatterAdd scatter_S50000x200_S200000x1_S200000x200_1_0_0_1 x i u) : (⟨S50000x200, .f32⟩ : BufTy).Contents (Elt F) → (⟨S200000x1, .i32⟩ : BufTy).Contents (Elt F) → (⟨S200000x200, .f32⟩ : BufTy).Contents (Elt F) → (⟨S50000x200, .f32⟩ : BufTy).Contents (Elt F)),
    StableHlo.unary main_v2 main_v126 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v126 main_v127 rfl shapeCasts_S1x200000_S200000,
    StableHlo.unary main_v2 main_v128 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v128 main_v129 rfl shapeCasts_S1x200000_S200000,
    StableHlo.nullary main_c_25 (constantI S_ 32 0#32),
    StableHlo.unary main_c_25 main_v130 (broadcastInDim S200000 ![] bcast_S_S200000 : (⟨S_, .i32⟩ : BufTy).Contents (Elt F) → (⟨S200000, .i32⟩ : BufTy).Contents (Elt F)),
    StableHlo.binary main_v129 main_v130 main_v131 (cmpi .slt : (⟨S200000, .i32⟩ : BufTy).Contents (Elt F) → (⟨S200000, .i32⟩ : BufTy).Contents (Elt F) → (⟨S200000, .i1⟩ : BufTy).Contents (Elt F)),
    StableHlo.nullary main_c_26 (constantI S_ 32 50000#32),
    StableHlo.unary main_c_26 main_v132 (broadcastInDim S200000 ![] bcast_S_S200000 : (⟨S_, .i32⟩ : BufTy).Contents (Elt F) → (⟨S200000, .i32⟩ : BufTy).Contents (Elt F)),
    StableHlo.binary main_v129 main_v132 main_v133 (addi : (⟨S200000, .i32⟩ : BufTy).Contents (Elt F) → (⟨S200000, .i32⟩ : BufTy).Contents (Elt F) → (⟨S200000, .i32⟩ : BufTy).Contents (Elt F)),
    StableHlo.ternary main_v131 main_v133 main_v129 main_v134 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v134 main_v135 (broadcastInDim S200000x1 ![0] bcast_S200000_S200000x1_0 : (⟨S200000, .i32⟩ : BufTy).Contents (Elt F) → (⟨S200000x1, .i32⟩ : BufTy).Contents (Elt F)),
    StableHlo.binary main_arg0 main_v135 main_v136 ((fun x i => Host.gather gather_S50000x200_S200000x1_S200000x200_1_0_n_n_0_1_1200 x i) : (⟨S50000x200, .f32⟩ : BufTy).Contents (Elt F) → (⟨S200000x1, .i32⟩ : BufTy).Contents (Elt F) → (⟨S200000x200, .f32⟩ : BufTy).Contents (Elt F)),
    StableHlo.nullary main_c_27 (constantI S_ 32 0#32),
    StableHlo.unary main_c_27 main_v137 (broadcastInDim S200000 ![] bcast_S_S200000 : (⟨S_, .i32⟩ : BufTy).Contents (Elt F) → (⟨S200000, .i32⟩ : BufTy).Contents (Elt F)),
    StableHlo.binary main_v4 main_v137 main_v138 (cmpi .slt : (⟨S200000, .i32⟩ : BufTy).Contents (Elt F) → (⟨S200000, .i32⟩ : BufTy).Contents (Elt F) → (⟨S200000, .i1⟩ : BufTy).Contents (Elt F)),
    StableHlo.nullary main_c_28 (constantI S_ 32 401#32),
    StableHlo.unary main_c_28 main_v139 (broadcastInDim S200000 ![] bcast_S_S200000 : (⟨S_, .i32⟩ : BufTy).Contents (Elt F) → (⟨S200000, .i32⟩ : BufTy).Contents (Elt F)),
    StableHlo.binary main_v4 main_v139 main_v140 (addi : (⟨S200000, .i32⟩ : BufTy).Contents (Elt F) → (⟨S200000, .i32⟩ : BufTy).Contents (Elt F) → (⟨S200000, .i32⟩ : BufTy).Contents (Elt F)),
    StableHlo.ternary main_v138 main_v140 main_v4 main_v141 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v141 main_v142 (broadcastInDim S200000x1 ![0] bcast_S200000_S200000x1_0 : (⟨S200000, .i32⟩ : BufTy).Contents (Elt F) → (⟨S200000x1, .i32⟩ : BufTy).Contents (Elt F)),
    StableHlo.binary main_v0 main_v142 main_v143 ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)),
    StableHlo.nullary main_c_29 (constantI S_ 32 0#32),
    StableHlo.unary main_c_29 main_v144 (broadcastInDim S100000 ![] bcast_S_S100000 : (⟨S_, .i32⟩ : BufTy).Contents (Elt F) → (⟨S100000, .i32⟩ : BufTy).Contents (Elt F)),
    StableHlo.binary main_v12 main_v144 main_v145 (cmpi .slt : (⟨S100000, .i32⟩ : BufTy).Contents (Elt F) → (⟨S100000, .i32⟩ : BufTy).Contents (Elt F) → (⟨S100000, .i1⟩ : BufTy).Contents (Elt F)),
    StableHlo.nullary main_c_30 (constantI S_ 32 50000#32),
    StableHlo.unary main_c_30 main_v146 (broadcastInDim S100000 ![] bcast_S_S100000 : (⟨S_, .i32⟩ : BufTy).Contents (Elt F) → (⟨S100000, .i32⟩ : BufTy).Contents (Elt F)) ]

set_option maxRecDepth 8192 in
theorem ops2_sub : (ops2 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub ..⟩

set_option maxRecDepth 8192 in
set_option maxHeartbeats 4000000 in
/-- Window 2 is the sequence of its operations. -/
theorem part2_eq (c : Dev nD) : main_part2 (F := F) c = seq ops2 := rfl

set_option maxHeartbeats 40000000 in
/-- The operations of window 3 of @main, in order. -/
abbrev ops3 : List (HloOp τ sig (Elt F)) :=
  [ StableHlo.binary main_v12 main_v146 main_v147 (addi : (⟨S100000, .i32⟩ : BufTy).Contents (Elt F) → (⟨S100000, .i32⟩ : BufTy).Contents (Elt F) → (⟨S100000, .i32⟩ : BufTy).Contents (Elt F)),
    StableHlo.ternary main_v145 main_v147 main_v12 main_v148 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v148 main_v149 (broadcastInDim S100000x1 ![0] bcast_S100000_S100000x1_0 : (⟨S100000, .i32⟩ : BufTy).Contents (Elt F) → (⟨S100000x1, .i32⟩ : BufTy).Contents (Elt F)),
    StableHlo.binary main_arg0 main_v149 main_v150 ((fun x i => Host.gather gather_S50000x200_S100000x1_S100000x200_1_0_n_n_0_1_1200 x i) : (⟨S50000x200, .f32⟩ : BufTy).Contents (Elt F) → (⟨S100000x1, .i32⟩ : BufTy).Contents (Elt F) → (⟨S100000x200, .f32⟩ : BufTy).Contents (Elt F)),
    StableHlo.nullary main_c_31 (constantI S_ 32 0#32),
    StableHlo.unary main_c_31 main_v151 (broadcastInDim S100000 ![] bcast_S_S100000 : (⟨S_, .i32⟩ : BufTy).Contents (Elt F) → (⟨S100000, .i32⟩ : BufTy).Contents (Elt F)),
    StableHlo.binary main_v8 main_v151 main_v152 (cmpi .slt : (⟨S100000, .i32⟩ : BufTy).Contents (Elt F) → (⟨S100000, .i32⟩ : BufTy).Contents (Elt F) → (⟨S100000, .i1⟩ : BufTy).Contents (Elt F)),
    StableHlo.nullary main_c_32 (constantI S_ 32 401#32),
    StableHlo.unary main_c_32 main_v153 (broadcastInDim S100000 ![] bcast_S_S100000 : (⟨S_, .i32⟩ : BufTy).Contents (Elt F) → (⟨S100000, .i32⟩ : BufTy).Contents (Elt F)),
    StableHlo.binary main_v8 main_v153 main_v154 (addi : (⟨S100000, .i32⟩ : BufTy).Contents (Elt F) → (⟨S100000, .i32⟩ : BufTy).Contents (Elt F) → (⟨S100000, .i32⟩ : BufTy).Contents (Elt F)),
    StableHlo.ternary main_v152 main_v154 main_v8 main_v155 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v155 main_v156 (broadcastInDim S100000x1 ![0] bcast_S100000_S100000x1_0 : (⟨S100000, .i32⟩ : BufTy).Contents (Elt F) → (⟨S100000x1, .i32⟩ : BufTy).Contents (Elt F)),
    StableHlo.binary main_v0 main_v156 main_v157 ((fun x i => Host.gather gather_S401x200_S100000x1_S100000x200_1_0_n_n_0_1_1200 x i) : (⟨S401x200, .f32⟩ : BufTy).Contents (Elt F) → (⟨S100000x1, .i32⟩ : BufTy).Contents (Elt F) → (⟨S100000x200, .f32⟩ : BufTy).Contents (Elt F)),
    StableHlo.unary main_v150 main_v158 ((extractStridedSlice S100000x100 ![0, 0] · slices_S100000x200_S100000x100_0_0) : (⟨S100000x200, .f32⟩ : BufTy).Contents (Elt F) → (⟨S100000x100, .f32⟩ : BufTy).Contents (Elt F)),
    StableHlo.unary main_v150 main_v159 ((extractStridedSlice S100000x100 ![0, 100] · slices_S100000x200_S100000x100_0_100) : (⟨S100000x200, .f32⟩ : BufTy).Contents (Elt F) → (⟨S100000x100, .f32⟩ : BufTy).Contents (Elt F)),
    StableHlo.unary main_v157 main_v160 ((extractStridedSlice S100000x100 ![0, 0] · slices_S100000x200_S100000x100_0_0) : (⟨S100000x200, .f32⟩ : BufTy).Contents (Elt F) → (⟨S100000x100, .f32⟩ : BufTy).Contents (Elt F)),
    StableHlo.unary main_v157 main_v161 ((extractStridedSlice S100000x100 ![0, 100] · slices_S100000x200_S100000x100_0_100) : (⟨S100000x200, .f32⟩ : BufTy).Contents (Elt F) → (⟨S100000x100, .f32⟩ : BufTy).Contents (Elt F)),
    StableHlo.binary main_v158 main_v160 main_v162 (mulf : (⟨S100000x100, .f32⟩ : BufTy).Contents (Elt F) → (⟨S100000x100, .f32⟩ : BufTy).Contents (Elt F) → (⟨S100000x100, .f32⟩ : BufTy).Contents (Elt F)),
    StableHlo.binary main_v159 main_v161 main_v163 (mulf : (⟨S100000x100, .f32⟩ : BufTy).Contents (Elt F) → (⟨S100000x100, .f32⟩ : BufTy).Contents (Elt F) → (⟨S100000x100, .f32⟩ : BufTy).Contents (Elt F)),
    StableHlo.binary main_v162 main_v163 main_v164 (subf : (⟨S100000x100, .f32⟩ : BufTy).Contents (Elt F) → (⟨S100000x100, .f32⟩ : BufTy).Contents (Elt F) → (⟨S100000x100, .f32⟩ : BufTy).Contents (Elt F)),
    StableHlo.binary main_v158 main_v161 main_v165 (mulf : (⟨S100000x100, .f32⟩ : BufTy).Contents (Elt F) → (⟨S100000x100, .f32⟩ : BufTy).Contents (Elt F) → (⟨S100000x100, .f32⟩ : BufTy).Contents (Elt F)),
    StableHlo.binary main_v159 main_v160 main_v166 (mulf : (⟨S100000x100, .f32⟩ : BufTy).Contents (Elt F) → (⟨S100000x100, .f32⟩ : BufTy).Contents (Elt F) → (⟨S100000x100, .f32⟩ : BufTy).Contents (Elt F)),
    StableHlo.binary main_v165 main_v166 main_v167 (addf : (⟨S100000x100, .f32⟩ : BufTy).Contents (Elt F) → (⟨S100000x100, .f32⟩ : BufTy).Contents (Elt F) → (⟨S100000x100, .f32⟩ : BufTy).Contents (Elt F)),
    StableHlo.binary main_v164 main_v167 main_v168 ((fun a b => concatenate S100000x200 1 [⟨S100000x100, a⟩, ⟨S100000x100, b⟩] concatenates_S100000x100_S100000x100_S100000x200_d1) : (⟨S100000x100, .f32⟩ : BufTy).Contents (Elt F) → (⟨S100000x100, .f32⟩ : BufTy).Contents (Elt F) → (⟨S100000x200, .f32⟩ : BufTy).Contents (Elt F)),
    StableHlo.nullary main_cst_33 (constant S_ .f32 0x00000000#32),
    StableHlo.unary main_cst_33 main_v169 (broadcastInDim S200000x200 ![] bcast_S_S200000x200 : (⟨S_, .f32⟩ : BufTy).Contents (Elt F) → (⟨S200000x200, .f32⟩ : BufTy).Contents (Elt F)),
    StableHlo.nullary main_c_34 (constantI S_ 32 0#32),
    StableHlo.unary main_c_34 main_v170 (broadcastInDim S100000 ![] bcast_S_S100000 : (⟨S_, .i32⟩ : BufTy).Contents (Elt F) → (⟨S100000, .i32⟩ : BufTy).Contents (Elt F)),
    StableHlo.binary main_v16 main_v170 main_v171 (cmpi .slt : (⟨S100000, .i32⟩ : BufTy).Contents (Elt F) → (⟨S100000, .i32⟩ : BufTy).Contents (Elt F) → (⟨S100000, .i1⟩ : BufTy).Contents (Elt F)),
    StableHlo.nullary main_c_35 (constantI S_ 32 200000#32),
    StableHlo.unary main_c_35 main_v172 (broadcastInDim S100000 ![] bcast_S_S100000 : (⟨S_, .i32⟩ : BufTy).Contents (Elt F) → (⟨S100000, .i32⟩ : BufTy).Contents (Elt F)),
    StableHlo.binary main_v16 main_v172 main_v173 (addi : (⟨S100000, .i32⟩ : BufTy).Contents (Elt F) → (⟨S100000, .i32⟩ : BufTy).Contents (Elt F) → (⟨S100000, .i32⟩ : BufTy).Contents (Elt F)),
    StableHlo.ternary main_v171 main_v173 main_v16 main_v174 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v174 main_v175 (broadcastInDim S100000x1 ![0] bcast_S100000_S100000x1_0 : (⟨S100000, .i32⟩ : BufTy).Contents (Elt F) → (⟨S100000x1, .i32⟩ : BufTy).Contents (Elt F)),
    StableHlo.ternary main_v169 main_v175 main_v168 main_v176 ((fun x i u => Host.scatterAdd scatter_S200000x200_S100000x1_S100000x200_1_0_0_1 x i u) : (⟨S200000x200, .f32⟩ : BufTy).Contents (Elt F) → (⟨S100000x1, .i32⟩ : BufTy).Contents (Elt F) → (⟨S100000x200, .f32⟩ : BufTy).Contents (Elt F) → (⟨S200000x200, .f32⟩ : BufTy).Contents (Elt F)),
    StableHlo.nullary main_cst_36 (constant S_ .f32 0x3F4CCCCD#32),
    StableHlo.unary main_cst_36 main_v177 (broadcastInDim S200000x200 ![] bcast_S_S200000x200 : (⟨S_, .f32⟩ : BufTy).Contents (Elt F) → (⟨S200000x200, .f32⟩ : BufTy).Contents (Elt F)),
    StableHlo.binary main_v177 main_v143 main_v178 (mulf : (⟨S200000x200, .f32⟩ : BufTy).Contents (Elt F) → (⟨S200000x200, .f32⟩ : BufTy).Contents (Elt F) → (⟨S200000x200, .f32⟩ : BufTy).Contents (Elt F)),
    StableHlo.binary main_v176 main_arg9 main_v179 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    StableHlo.nullary main_cst_37 (constant S_ .f32 0x3E4CCCCD#32),
    StableHlo.unary main_cst_37 main_v180 (broadcastInDim S200000x200 ![] bcast_S_S200000x200 : (⟨S_, .f32⟩ : BufTy).Contents (Elt F) → (⟨S200000x200, .f32⟩ : BufTy).Contents (Elt F)),
    StableHlo.binary main_v180 main_v179 main_v181 (mulf : (⟨S200000x200, .f32⟩ : BufTy).Contents (Elt F) → (⟨S200000x200, .f32⟩ : BufTy).Contents (Elt F) → (⟨S200000x200, .f32⟩ : BufTy).Contents (Elt F)),
    StableHlo.binary main_v178 main_v181 main_v182 (addf : (⟨S200000x200, .f32⟩ : BufTy).Contents (Elt F) → (⟨S200000x200, .f32⟩ : BufTy).Contents (Elt F) → (⟨S200000x200, .f32⟩ : BufTy).Contents (Elt F)),
    StableHlo.unary main_v136 main_v183 ((extractStridedSlice S200000x100 ![0, 0] · slices_S200000x200_S200000x100_0_0) : (⟨S200000x200, .f32⟩ : BufTy).Contents (Elt F) → (⟨S200000x100, .f32⟩ : BufTy).Contents (Elt F)),
    StableHlo.unary main_v136 main_v184 ((extractStridedSlice S200000x100 ![0, 100] · slices_S200000x200_S200000x100_0_100) : (⟨S200000x200, .f32⟩ : BufTy).Contents (Elt F) → (⟨S200000x100, .f32⟩ : BufTy).Contents (Elt F)),
    StableHlo.unary main_v182 main_v185 ((extractStridedSlice S200000x100 ![0, 0] · slices_S200000x200_S200000x100_0_0) : (⟨S200000x200, .f32⟩ : BufTy).Contents (Elt F) → (⟨S200000x100, .f32⟩ : BufTy).Contents (Elt F)),
    StableHlo.unary main_v182 main_v186 ((extractStridedSlice S200000x100 ![0, 100] · slices_S200000x200_S200000x100_0_100) : (⟨S200000x200, .f32⟩ : BufTy).Contents (Elt F) → (⟨S200000x100, .f32⟩ : BufTy).Contents (Elt F)),
    StableHlo.binary main_v183 main_v185 main_v187 (mulf : (⟨S200000x100, .f32⟩ : BufTy).Contents (Elt F) → (⟨S200000x100, .f32⟩ : BufTy).Contents (Elt F) → (⟨S200000x100, .f32⟩ : BufTy).Contents (Elt F)),
    StableHlo.binary main_v184 main_v186 main_v188 (mulf : (⟨S200000x100, .f32⟩ : BufTy).Contents (Elt F) → (⟨S200000x100, .f32⟩ : BufTy).Contents (Elt F) → (⟨S200000x100, .f32⟩ : BufTy).Contents (Elt F)),
    StableHlo.binary main_v187 main_v188 main_v189 (subf : (⟨S200000x100, .f32⟩ : BufTy).Contents (Elt F) → (⟨S200000x100, .f32⟩ : BufTy).Contents (Elt F) → (⟨S200000x100, .f32⟩ : BufTy).Contents (Elt F)),
    StableHlo.binary main_v183 main_v186 main_v190 (mulf : (⟨S200000x100, .f32⟩ : BufTy).Contents (Elt F) → (⟨S200000x100, .f32⟩ : BufTy).Contents (Elt F) → (⟨S200000x100, .f32⟩ : BufTy).Contents (Elt F)),
    StableHlo.binary main_v184 main_v185 main_v191 (mulf : (⟨S200000x100, .f32⟩ : BufTy).Contents (Elt F) → (⟨S200000x100, .f32⟩ : BufTy).Contents (Elt F) → (⟨S200000x100, .f32⟩ : BufTy).Contents (Elt F)),
    StableHlo.binary main_v190 main_v191 main_v192 (addf : (⟨S200000x100, .f32⟩ : BufTy).Contents (Elt F) → (⟨S200000x100, .f32⟩ : BufTy).Contents (Elt F) → (⟨S200000x100, .f32⟩ : BufTy).Contents (Elt F)),
    StableHlo.binary main_v189 main_v192 main_v193 ((fun a b => concatenate S200000x200 1 [⟨S200000x100, a⟩, ⟨S200000x100, b⟩] concatenates_S200000x100_S200000x100_S200000x200_d1) : (⟨S200000x100, .f32⟩ : BufTy).Contents (Elt F) → (⟨S200000x100, .f32⟩ : BufTy).Contents (Elt F) → (⟨S200000x200, .f32⟩ : BufTy).Contents (Elt F)),
    StableHlo.binary main_v193 main_arg6 main_v194 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    StableHlo.nullary main_cst_38 (constant S_ .f32 0x00000000#32),
    StableHlo.unary main_cst_38 main_v195 (broadcastInDim S50000 ![] bcast_S_S50000 : (⟨S_, .f32⟩ : BufTy).Contents (Elt F) → (⟨S50000, .f32⟩ : BufTy).Contents (Elt F)),
    StableHlo.nullary main_c_39 (constantI S_ 32 0#32),
    StableHlo.unary main_c_39 main_v196 (broadcastInDim S200000 ![] bcast_S_S200000 : (⟨S_, .i32⟩ : BufTy).Contents (Elt F) → (⟨S200000, .i32⟩ : BufTy).Contents (Elt F)),
    StableHlo.binary main_v127 main_v196 main_v197 (cmpi .slt : (⟨S200000, .i32⟩ : BufTy).Contents (Elt F) → (⟨S200000, .i32⟩ : BufTy).Contents (Elt F) → (⟨S200000, .i1⟩ : BufTy).Contents (Elt F)) ]

set_option maxRecDepth 8192 in
theorem ops3_sub : (ops3 : List (HloOp τ sig (Elt F))).Forall fun op => op.bufs ⊆ tcRefs τ sig :=
  ⟨StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub ..⟩

set_option maxRecDepth 8192 in
set_option maxHeartbeats 4000000 in
/-- Window 3 is the sequence of its operations. -/
theorem part3_eq (c : Dev nD) : main_part3 (F := F) c = seq ops3 := rfl

set_option maxHeartbeats 40000000 in
/-- The operations of window 4 of @main, in order. -/
abbrev ops4 : List (HloOp τ sig (Elt F)) :=
  [ StableHlo.nullary main_c_40 (constantI S_ 32 50000#32),
    StableHlo.unary main_c_40 main_v198 (broadcastInDim S200000 ![] bcast_S_S200000 : (⟨S_, .i32⟩ : BufTy).Contents (Elt F) → (⟨S200000, .i32⟩ : BufTy).Contents (Elt F)),
    StableHlo.binary main_v127 main_v198 main_v199 (addi : (⟨S200000, .i32⟩ : BufTy).Contents (Elt F) → (⟨S200000, .i32⟩ : BufTy).Contents (Elt F) → (⟨S200000, .i32⟩ : BufTy).Contents (Elt F)),
    StableHlo.ternary main_v197 main_v199 main_v127 main_v200 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v200 main_v201 (broadcastInDim S200000x1 ![0] bcast_S200000_S200000x1_0 : (⟨S200000, .i32⟩ : BufTy).Contents (Elt F) → (⟨S200000x1, .i32⟩ : BufTy).Contents (Elt F)),
    StableHlo.nullary main_cst_41 (constant S_ .f32 0x3F800000#32),
    StableHlo.unary main_cst_41 main_v202 (broadcastInDim S200000 ![] bcast_S_S200000 : (⟨S_, .f32⟩ : BufTy).Contents (Elt F) → (⟨S200000, .f32⟩ : BufTy).Contents (Elt F)),
    StableHlo.ternary main_v195 main_v201 main_v202 main_v203 ((fun x i u => Host.scatterAdd scatter_S50000_S200000x1_S200000_n_0_0_1 x i u) : (⟨S50000, .f32⟩ : BufTy).Contents (Elt F) → (⟨S200000x1, .i32⟩ : BufTy).Contents (Elt F) → (⟨S200000, .f32⟩ : BufTy).Contents (Elt F) → (⟨S50000, .f32⟩ : BufTy).Contents (Elt F)),
    StableHlo.nullary main_cst_42 (constant S_ .f32 0x00000000#32),
    StableHlo.unary main_cst_42 main_v204 (broadcastInDim S50000 ![] bcast_S_S50000 : (⟨S_, .f32⟩ : BufTy).Contents (Elt F) → (⟨S50000, .f32⟩ : BufTy).Contents (Elt F)),
    StableHlo.binary main_v203 main_v204 main_v205 (cmpf .ogt : (⟨S50000, .f32⟩ : BufTy).Contents (Elt F) → (⟨S50000, .f32⟩ : BufTy).Contents (Elt F) → (⟨S50000, .i1⟩ : BufTy).Contents (Elt F)),
    StableHlo.nullary main_cst_43 (constant S_ .f32 0xBF000000#32),
    StableHlo.unary main_cst_43 main_v206 (broadcastInDim S50000 ![] bcast_S_S50000 : (⟨S_, .f32⟩ : BufTy).Contents (Elt F) → (⟨S50000, .f32⟩ : BufTy).Contents (Elt F)),
    StableHlo.binary main_v203 main_v206 main_v207 (Host.powf : (⟨S50000, .f32⟩ : BufTy).Contents (Elt F) → (⟨S50000, .f32⟩ : BufTy).Contents (Elt F) → (⟨S50000, .f32⟩ : BufTy).Contents (Elt F)),
    StableHlo.nullary main_cst_44 (constant S_ .f32 0x00000000#32),
    StableHlo.TRef.unary (.of main_cst_44 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S50000, .f32⟩) (broadcastInDim S50000 ![] bcast_S_S50000),
    StableHlo.TRef.ternary (.of main_v205 : StableHlo.TRef sig ⟨S50000, .i1⟩) (.of main_v207 : StableHlo.TRef sig ⟨S50000, .f32⟩) (.of main_call1_v1 : StableHlo.TRef sig ⟨S50000, .f32⟩) (.of main_v208 : StableHlo.TRef sig ⟨S50000, .f32⟩) select,
    StableHlo.nullary main_c_45 (constantI S_ 32 0#32),
    StableHlo.unary main_c_45 main_v209 (broadcastInDim S200000 ![] bcast_S_S200000 : (⟨S_, .i32⟩ : BufTy).Contents (Elt F) → (⟨S200000, .i32⟩ : BufTy).Contents (Elt F)),
    StableHlo.binary main_v127 main_v209 main_v210 (cmpi .slt : (⟨S200000, .i32⟩ : BufTy).Contents (Elt F) → (⟨S200000, .i32⟩ : BufTy).Contents (Elt F) → (⟨S200000, .i1⟩ : BufTy).Contents (Elt F)),
    StableHlo.nullary main_c_46 (constantI S_ 32 50000#32),
    StableHlo.unary main_c_46 main_v211 (broadcastInDim S200000 ![] bcast_S_S200000 : (⟨S_, .i32⟩ : BufTy).Contents (Elt F) → (⟨S200000, .i32⟩ : BufTy).Contents (Elt F)),
    StableHlo.binary main_v127 main_v211 main_v212 (addi : (⟨S200000, .i32⟩ : BufTy).Contents (Elt F) → (⟨S200000, .i32⟩ : BufTy).Contents (Elt F) → (⟨S200000, .i32⟩ : BufTy).Contents (Elt F)),
    StableHlo.ternary main_v210 main_v212 main_v127 main_v213 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v213 main_v214 (broadcastInDim S200000x1 ![0] bcast_S200000_S200000x1_0 : (⟨S200000, .i32⟩ : BufTy).Contents (Elt F) → (⟨S200000x1, .i32⟩ : BufTy).Contents (Elt F)),
    StableHlo.binary main_v208 main_v214 main_v215 ((fun x i => Host.gather gather_S50000_S200000x1_S200000_n_0_n_n_0_1_1 x i) : (⟨S50000, .f32⟩ : BufTy).Contents (Elt F) → (⟨S200000x1, .i32⟩ : BufTy).Contents (Elt F) → (⟨S200000, .f32⟩ : BufTy).Contents (Elt F)),
    StableHlo.nullary main_c_47 (constantI S_ 32 0#32),
    StableHlo.unary main_c_47 main_v216 (broadcastInDim S200000 ![] bcast_S_S200000 : (⟨S_, .i32⟩ : BufTy).Contents (Elt F) → (⟨S200000, .i32⟩ : BufTy).Contents (Elt F)),
    StableHlo.binary main_v129 main_v216 main_v217 (cmpi .slt : (⟨S200000, .i32⟩ : BufTy).Contents (Elt F) → (⟨S200000, .i32⟩ : BufTy).Contents (Elt F) → (⟨S200000, .i1⟩ : BufTy).Contents (Elt F)),
    StableHlo.nullary main_c_48 (constantI S_ 32 50000#32),
    StableHlo.unary main_c_48 main_v218 (broadcastInDim S200000 ![] bcast_S_S200000 : (⟨S_, .i32⟩ : BufTy).Contents (Elt F) → (⟨S200000, .i32⟩ : BufTy).Contents (Elt F)),
    StableHlo.binary main_v129 main_v218 main_v219 (addi : (⟨S200000, .i32⟩ : BufTy).Contents (Elt F) → (⟨S200000, .i32⟩ : BufTy).Contents (Elt F) → (⟨S200000, .i32⟩ : BufTy).Contents (Elt F)),
    StableHlo.ternary main_v217 main_v219 main_v129 main_v220 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v220 main_v221 (broadcastInDim S200000x1 ![0] bcast_S200000_S200000x1_0 : (⟨S200000, .i32⟩ : BufTy).Contents (Elt F) → (⟨S200000x1, .i32⟩ : BufTy).Contents (Elt F)),
    StableHlo.binary main_v208 main_v221 main_v222 ((fun x i => Host.gather gather_S50000_S200000x1_S200000_n_0_n_n_0_1_1 x i) : (⟨S50000, .f32⟩ : BufTy).Contents (Elt F) → (⟨S200000x1, .i32⟩ : BufTy).Contents (Elt F) → (⟨S200000, .f32⟩ : BufTy).Contents (Elt F)),
    StableHlo.binary main_v215 main_v222 main_v223 (mulf : (⟨S200000, .f32⟩ : BufTy).Contents (Elt F) → (⟨S200000, .f32⟩ : BufTy).Contents (Elt F) → (⟨S200000, .f32⟩ : BufTy).Contents (Elt F)),
    StableHlo.unary main_v223 main_v224 (broadcastInDim S200000x1 ![0] bcast_S200000_S200000x1_0 : (⟨S200000, .f32⟩ : BufTy).Contents (Elt F) → (⟨S200000x1, .f32⟩ : BufTy).Contents (Elt F)),
    StableHlo.unary main_v224 main_v225 (broadcastInDim S200000x200 ![0, 1] bcast_S200000x1_S200000x200_0_1 : (⟨S200000x1, .f32⟩ : BufTy).Contents (Elt F) → (⟨S200000x200, .f32⟩ : BufTy).Contents (Elt F)),
    StableHlo.binary main_v194 main_v225 main_v226 (mulf : (⟨S200000x200, .f32⟩ : BufTy).Contents (Elt F) → (⟨S200000x200, .f32⟩ : BufTy).Contents (Elt F) → (⟨S200000x200, .f32⟩ : BufTy).Contents (Elt F)),
    StableHlo.nullary main_cst_49 (constant S_ .f32 0x00000000#32),
    StableHlo.unary main_cst_49 main_v227 (broadcastInDim S50000x200 ![] bcast_S_S50000x200 : (⟨S_, .f32⟩ : BufTy).Contents (Elt F) → (⟨S50000x200, .f32⟩ : BufTy).Contents (Elt F)),
    StableHlo.nullary main_c_50 (constantI S_ 32 0#32),
    StableHlo.unary main_c_50 main_v228 (broadcastInDim S200000 ![] bcast_S_S200000 : (⟨S_, .i32⟩ : BufTy).Contents (Elt F) → (⟨S200000, .i32⟩ : BufTy).Contents (Elt F)),
    StableHlo.binary main_v127 main_v228 main_v229 (cmpi .slt : (⟨S200000, .i32⟩ : BufTy).Contents (Elt F) → (⟨S200000, .i32⟩ : BufTy).Contents (Elt F) → (⟨S200000, .i1⟩ : BufTy).Contents (Elt F)),
    StableHlo.nullary main_c_51 (constantI S_ 32 50000#32),
    StableHlo.unary main_c_51 main_v230 (broadcastInDim S200000 ![] bcast_S_S200000 : (⟨S_, .i32⟩ : BufTy).Contents (Elt F) → (⟨S200000, .i32⟩ : BufTy).Contents (Elt F)),
    StableHlo.binary main_v127 main_v230 main_v231 (addi : (⟨S200000, .i32⟩ : BufTy).Contents (Elt F) → (⟨S200000, .i32⟩ : BufTy).Contents (Elt F) → (⟨S200000, .i32⟩ : BufTy).Contents (Elt F)),
    StableHlo.ternary main_v229 main_v231 main_v127 main_v232 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v232 main_v233 (broadcastInDim S200000x1 ![0] bcast_S200000_S200000x1_0 : (⟨S200000, .i32⟩ : BufTy).Contents (Elt F) → (⟨S200000x1, .i32⟩ : BufTy).Contents (Elt F)),
    StableHlo.ternary main_v227 main_v233 main_v226 main_v234 ((fun x i u => Host.scatterAdd scatter_S50000x200_S200000x1_S200000x200_1_0_0_1 x i u) : (⟨S50000x200, .f32⟩ : BufTy).Contents (Elt F) → (⟨S200000x1, .i32⟩ : BufTy).Contents (Elt F) → (⟨S200000x200, .f32⟩ : BufTy).Contents (Elt F) → (⟨S50000x200, .f32⟩ : BufTy).Contents (Elt F)),
    StableHlo.unary main_arg10 main_v235 (broadcastInDim S50000x200 ![0, 1] bcast_S1x200_S50000x200_0_1 : (⟨S1x200, .f32⟩ : BufTy).Contents (Elt F) → (⟨S50000x200, .f32⟩ : BufTy).Contents (Elt F)),
    StableHlo.unary main_arg0 main_v236 ((extractStridedSlice S50000x100 ![0, 0] · slices_S50000x200_S50000x100_0_0) : (⟨S50000x200, .f32⟩ : BufTy).Contents (Elt F) → (⟨S50000x100, .f32⟩ : BufTy).Contents (Elt F)),
    StableHlo.unary main_arg0 main_v237 ((extractStridedSlice S50000x100 ![0, 100] · slices_S50000x200_S50000x100_0_100) : (⟨S50000x200, .f32⟩ : BufTy).Contents (Elt F) → (⟨S50000x100, .f32⟩ : BufTy).Contents (Elt F)),
    StableHlo.unary main_v235 main_v238 ((extractStridedSlice S50000x100 ![0, 0] · slices_S50000x200_S50000x100_0_0) : (⟨S50000x200, .f32⟩ : BufTy).Contents (Elt F) → (⟨S50000x100, .f32⟩ : BufTy).Contents (Elt F)),
    StableHlo.unary main_v235 main_v239 ((extractStridedSlice S50000x100 ![0, 100] · slices_S50000x200_S50000x100_0_100) : (⟨S50000x200, .f32⟩ : BufTy).Contents (Elt F) → (⟨S50000x100, .f32⟩ : BufTy).Contents (Elt F)),
    StableHlo.binary main_v236 main_v238 main_v240 (mulf : (⟨S50000x100, .f32⟩ : BufTy).Contents (Elt F) → (⟨S50000x100, .f32⟩ : BufTy).Contents (Elt F) → (⟨S50000x100, .f32⟩ : BufTy).Contents (Elt F)),
    StableHlo.binary main_v237 main_v239 main_v241 (mulf : (⟨S50000x100, .f32⟩ : BufTy).Contents (Elt F) → (⟨S50000x100, .f32⟩ : BufTy).Contents (Elt F) → (⟨S50000x100, .f32⟩ : BufTy).Contents (Elt F)),
    StableHlo.binary main_v240 main_v241 main_v242 (subf : (⟨S50000x100, .f32⟩ : BufTy).Contents (Elt F) → (⟨S50000x100, .f32⟩ : BufTy).Contents (Elt F) → (⟨S50000x100, .f32⟩ : BufTy).Contents (Elt F)),
    StableHlo.binary main_v236 main_v239 main_v243 (mulf : (⟨S50000x100, .f32⟩ : BufTy).Contents (Elt F) → (⟨S50000x100, .f32⟩ : BufTy).Contents (Elt F) → (⟨S50000x100, .f32⟩ : BufTy).Contents (Elt F)),
    StableHlo.binary main_v237 main_v238 main_v244 (mulf : (⟨S50000x100, .f32⟩ : BufTy).Contents (Elt F) → (⟨S50000x100, .f32⟩ : BufTy).Contents (Elt F) → (⟨S50000x100, .f32⟩ : BufTy).Contents (Elt F)),
    StableHlo.binary main_v243 main_v244 main_v245 (addf : (⟨S50000x100, .f32⟩ : BufTy).Contents (Elt F) → (⟨S50000x100, .f32⟩ : BufTy).Contents (Elt F) → (⟨S50000x100, .f32⟩ : BufTy).Contents (Elt F)) ]

set_option maxRecDepth 8192 in
theorem ops4_sub : (ops4 : List (HloOp τ sig (Elt F))).Forall fun op => op.bufs ⊆ tcRefs τ sig :=
  ⟨StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub ..⟩

set_option maxRecDepth 8192 in
set_option maxHeartbeats 4000000 in
/-- Window 4 is the sequence of its operations. -/
theorem part4_eq (c : Dev nD) : main_part4 (F := F) c = seq ops4 := by
  simp only [main_part4, fn_where.body, fn_where_0.body, fn_var.body, seq, bind_assoc, pure_bind] <;> rfl

set_option maxHeartbeats 40000000 in
/-- The operations of window 5 of @main, in order. -/
abbrev ops5 : List (HloOp τ sig (Elt F)) :=
  [ StableHlo.binary main_v242 main_v245 main_v246 ((fun a b => concatenate S50000x200 1 [⟨S50000x100, a⟩, ⟨S50000x100, b⟩] concatenates_S50000x100_S50000x100_S50000x200_d1) : (⟨S50000x100, .f32⟩ : BufTy).Contents (Elt F) → (⟨S50000x100, .f32⟩ : BufTy).Contents (Elt F) → (⟨S50000x200, .f32⟩ : BufTy).Contents (Elt F)),
    StableHlo.binary main_v246 main_arg7 main_v247 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.binary main_v125 main_v234 main_v248 (addf : (⟨S50000x200, .f32⟩ : BufTy).Contents (Elt F) → (⟨S50000x200, .f32⟩ : BufTy).Contents (Elt F) → (⟨S50000x200, .f32⟩ : BufTy).Contents (Elt F)),
    StableHlo.binary main_v248 main_v247 main_v249 (addf : (⟨S50000x200, .f32⟩ : BufTy).Contents (Elt F) → (⟨S50000x200, .f32⟩ : BufTy).Contents (Elt F) → (⟨S50000x200, .f32⟩ : BufTy).Contents (Elt F)),
    StableHlo.nullary main_cst_52 (constant S_ .f32 0x3EAAAAAB#32),
    StableHlo.unary main_cst_52 main_v250 (broadcastInDim S50000x200 ![] bcast_S_S50000x200 : (⟨S_, .f32⟩ : BufTy).Contents (Elt F) → (⟨S50000x200, .f32⟩ : BufTy).Contents (Elt F)),
    StableHlo.binary main_v249 main_v250 main_v251 (mulf : (⟨S50000x200, .f32⟩ : BufTy).Contents (Elt F) → (⟨S50000x200, .f32⟩ : BufTy).Contents (Elt F) → (⟨S50000x200, .f32⟩ : BufTy).Contents (Elt F)),
    StableHlo.nullary main_cst_53 (constant S_ .f32 0x00000000#32),
    StableHlo.binary main_v251 main_cst_53 main_v252 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_54 (constant S_ .f32 0x47435000#32),
    StableHlo.unary main_cst_54 main_v253 (broadcastInDim S200 ![] bcast_S_S200 : (⟨S_, .f32⟩ : BufTy).Contents (Elt F) → (⟨S200, .f32⟩ : BufTy).Contents (Elt F)),
    StableHlo.binary main_v252 main_v253 main_v254 (Host.divf : (⟨S200, .f32⟩ : BufTy).Contents (Elt F) → (⟨S200, .f32⟩ : BufTy).Contents (Elt F) → (⟨S200, .f32⟩ : BufTy).Contents (Elt F)),
    StableHlo.nullary main_c_55 (constantI S_ 32 0#32),
    StableHlo.TRef.nullary (.of main_call2_cst : StableHlo.TRef sig ⟨S_, .f32⟩) (constant S_ .f32 0x00000000#32),
    StableHlo.TRef.binary (.of main_v251 : StableHlo.TRef sig ⟨S50000x200, .f32⟩) (.of main_call2_cst : StableHlo.TRef sig ⟨S_, .f32⟩) (.of main_call2_v0 : StableHlo.TRef sig ⟨S200, .f32⟩) (fun x v => Host.reduceAdd x v reducesTo_S50000x200_S200_d0 h_S_),
    StableHlo.TRef.unary (.of main_call2_v0 : StableHlo.TRef sig ⟨S200, .f32⟩) (.of main_call2_v1 : StableHlo.TRef sig ⟨S1x200, .f32⟩) (broadcastInDim S1x200 ![1] bcast_S200_S1x200_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x200, .f32⟩) (broadcastInDim S1x200 ![] bcast_S_S1x200),
    StableHlo.TRef.binary (.of main_call2_v1 : StableHlo.TRef sig ⟨S1x200, .f32⟩) (.of main_call2_v2 : StableHlo.TRef sig ⟨S1x200, .f32⟩) (.of main_call2_v3 : StableHlo.TRef sig ⟨S1x200, .f32⟩) Host.divf,
    StableHlo.TRef.unary (.of main_call2_v3 : StableHlo.TRef sig ⟨S1x200, .f32⟩) (.of main_call2_v4 : StableHlo.TRef sig ⟨S50000x200, .f32⟩) (broadcastInDim S50000x200 ![0, 1] bcast_S1x200_S50000x200_0_1),
    StableHlo.TRef.binary (.of main_v251 : StableHlo.TRef sig ⟨S50000x200, .f32⟩) (.of main_call2_v4 : StableHlo.TRef sig ⟨S50000x200, .f32⟩) (.of main_call2_v5 : StableHlo.TRef sig ⟨S50000x200, .f32⟩) subf,
    StableHlo.TRef.binary (.of main_call2_v5 : StableHlo.TRef sig ⟨S50000x200, .f32⟩) (.of main_call2_v5 : StableHlo.TRef sig ⟨S50000x200, .f32⟩) (.of main_call2_v6 : StableHlo.TRef sig ⟨S50000x200, .f32⟩) mulf,
    StableHlo.TRef.unary (.of main_c_55 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x200, .f32⟩) (.of main_call2_cst_2 : StableHlo.TRef sig ⟨S_, .f32⟩) (.of main_call2_v9 : StableHlo.TRef sig ⟨S200, .f32⟩) (fun x v => Host.reduceAdd x v reducesTo_S50000x200_S200_d0 h_S_),
    StableHlo.TRef.unary (.of main_call2_v8 : StableHlo.TRef sig ⟨S_, .f32⟩) (.of main_call2_v10 : StableHlo.TRef sig ⟨S200, .f32⟩) (broadcastInDim S200 ![] bcast_S_S200),
    StableHlo.TRef.binary (.of main_call2_v9 : StableHlo.TRef sig ⟨S200, .f32⟩) (.of main_call2_v10 : StableHlo.TRef sig ⟨S200, .f32⟩) (.of main_call2_v11 : StableHlo.TRef sig ⟨S200, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S200, .f32⟩) (broadcastInDim S200 ![] bcast_S_S200),
    StableHlo.TRef.ternary (.of main_call2_v12 : StableHlo.TRef sig ⟨S_, .i1⟩) (.of main_call2_v11 : StableHlo.TRef sig ⟨S200, .f32⟩) (.of main_call2_call0_v1 : StableHlo.TRef sig ⟨S200, .f32⟩) (.of main_v255 : StableHlo.TRef sig ⟨S200, .f32⟩) (fun p a b => select (broadcastInDim S200 ![] bcast_S_S200 p) a b),
    StableHlo.unary main_v254 main_v256 (broadcastInDim S1x200 ![1] bcast_S200_S1x200_1 : (⟨S200, .f32⟩ : BufTy).Contents (Elt F) → (⟨S1x200, .f32⟩ : BufTy).Contents (Elt F)),
    StableHlo.unary main_v256 main_v257 (broadcastInDim S50000x200 ![0, 1] bcast_S1x200_S50000x200_0_1 : (⟨S1x200, .f32⟩ : BufTy).Contents (Elt F) → (⟨S50000x200, .f32⟩ : BufTy).Contents (Elt F)),
    StableHlo.binary main_v251 main_v257 main_v258 (subf : (⟨S50000x200, .f32⟩ : BufTy).Contents (Elt F) → (⟨S50000x200, .f32⟩ : BufTy).Contents (Elt F) → (⟨S50000x200, .f32⟩ : BufTy).Contents (Elt F)),
    StableHlo.nullary main_cst_56 (constant S_ .f32 0x3727C5AC#32),
    StableHlo.unary main_cst_56 main_v259 (broadcastInDim S200 ![] bcast_S_S200 : (⟨S_, .f32⟩ : BufTy).Contents (Elt F) → (⟨S200, .f32⟩ : BufTy).Contents (Elt F)),
    StableHlo.binary main_v255 main_v259 main_v260 (addf : (⟨S200, .f32⟩ : BufTy).Contents (Elt F) → (⟨S200, .f32⟩ : BufTy).Contents (Elt F) → (⟨S200, .f32⟩ : BufTy).Contents (Elt F)),
    StableHlo.unary main_v260 main_v261 (Host.sqrt : (⟨S200, .f32⟩ : BufTy).Contents (Elt F) → (⟨S200, .f32⟩ : BufTy).Contents (Elt F)),
    StableHlo.unary main_v261 main_v262 (broadcastInDim S1x200 ![1] bcast_S200_S1x200_1 : (⟨S200, .f32⟩ : BufTy).Contents (Elt F) → (⟨S1x200, .f32⟩ : BufTy).Contents (Elt F)),
    StableHlo.unary main_v262 main_v263 (broadcastInDim S50000x200 ![0, 1] bcast_S1x200_S50000x200_0_1 : (⟨S1x200, .f32⟩ : BufTy).Contents (Elt F) → (⟨S50000x200, .f32⟩ : BufTy).Contents (Elt F)),
    StableHlo.binary main_v258 main_v263 main_v264 (Host.divf : (⟨S50000x200, .f32⟩ : BufTy).Contents (Elt F) → (⟨S50000x200, .f32⟩ : BufTy).Contents (Elt F) → (⟨S50000x200, .f32⟩ : BufTy).Contents (Elt F)),
    StableHlo.unary main_arg11 main_v265 (broadcastInDim S1x200 ![1] bcast_S200_S1x200_1 : (⟨S200, .f32⟩ : BufTy).Contents (Elt F) → (⟨S1x200, .f32⟩ : BufTy).Contents (Elt F)),
    StableHlo.unary main_v265 main_v266 (broadcastInDim S50000x200 ![0, 1] bcast_S1x200_S50000x200_0_1 : (⟨S1x200, .f32⟩ : BufTy).Contents (Elt F) → (⟨S50000x200, .f32⟩ : BufTy).Contents (Elt F)),
    StableHlo.binary main_v264 main_v266 main_v267 (mulf : (⟨S50000x200, .f32⟩ : BufTy).Contents (Elt F) → (⟨S50000x200, .f32⟩ : BufTy).Contents (Elt F) → (⟨S50000x200, .f32⟩ : BufTy).Contents (Elt F)),
    StableHlo.unary main_arg12 main_v268 (broadcastInDim S1x200 ![1] bcast_S200_S1x200_1 : (⟨S200, .f32⟩ : BufTy).Contents (Elt F) → (⟨S1x200, .f32⟩ : BufTy).Contents (Elt F)),
    StableHlo.unary main_v268 main_v269 (broadcastInDim S50000x200 ![0, 1] bcast_S1x200_S50000x200_0_1 : (⟨S1x200, .f32⟩ : BufTy).Contents (Elt F) → (⟨S50000x200, .f32⟩ : BufTy).Contents (Elt F)),
    StableHlo.binary main_v267 main_v269 main_v270 (addf : (⟨S50000x200, .f32⟩ : BufTy).Contents (Elt F) → (⟨S50000x200, .f32⟩ : BufTy).Contents (Elt F) → (⟨S50000x200, .f32⟩ : BufTy).Contents (Elt F)),
    StableHlo.unary main_v270 main_v271 (Host.tanh : (⟨S50000x200, .f32⟩ : BufTy).Contents (Elt F) → (⟨S50000x200, .f32⟩ : BufTy).Contents (Elt F)),
    StableHlo.binary main_v0 main_arg8 main_v272 ((fun l r => Host.dotGeneral dot_S401x200_S200x200_S401x200_1_0_0_1_n_n none l r) : (⟨S401x200, .f32⟩ : BufTy).Contents (Elt F) → (⟨S200x200, .f32⟩ : BufTy).Contents (Elt F) → (⟨S401x200, .f32⟩ : BufTy).Contents (Elt F)),
    StableHlo.unary main_v272 main_v273 ((extractStridedSlice S400x200 ![0, 0] · slices_S401x200_S400x200_0_0) : (⟨S401x200, .f32⟩ : BufTy).Contents (Elt F) → (⟨S400x200, .f32⟩ : BufTy).Contents (Elt F)) ]

set_option maxRecDepth 8192 in
theorem ops5_sub : (ops5 : List (HloOp τ sig (Elt F))).Forall fun op => op.bufs ⊆ tcRefs τ sig :=
  ⟨StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub ..⟩

set_option maxRecDepth 8192 in
set_option maxHeartbeats 4000000 in
/-- Window 5 is the sequence of its operations. -/
theorem part5_eq (c : Dev nD) : main_part5 (F := F) c = seq ops5 := by
  simp only [main_part5, fn_where.body, fn_where_0.body, fn_var.body, seq, bind_assoc, pure_bind] <;> rfl

/-- @main's operations, in order. -/
abbrev ops : List (HloOp τ sig (Elt F)) := ops0 ++ (ops1 ++ (ops2 ++ (ops3 ++ (ops4 ++ ops5))))

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h]

/-- @main is the sequence of its operations: the windows' equations joined. -/
theorem main_eq (c : Dev nD) : main (F := F) c = seq ops := by
  simp only [ops, seq_append, ← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_fresh : ∀ op ∈ (ops : List (HloOp τ sig (Elt F))), op.fresh = ∅ := by
  intro op h
  simp only [ops, List.mem_append] at h
  rcases h with h | h | h | h | h | h <;>
    ((repeat (cases h with | head => rfl | tail _ h => ?_)); exact nomatch h)

/-- Every weakly fair execution of the reference terminates, nothing faulting, with every buffer at the fold of the
    operations' results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefValueAB.lean ====
/-
  The reference's run, stages A and B. Stage A prepares the indices: the relation table with the loop relation appended, the
  two halves of the edge list, of the edge types and of the qualifiers' three rows, and the first direction's target and source
  nodes. Stage B gathers, for the first direction, each edge's source row of the node features and each edge's row of the
  relation table. Each result buffer of a stage holds the stage function of the buffers the stage reads; every buffer the stage
  does not write is kept.
-/
import proofs.«143578_j52467320487979_1_alg».proof.Proof.Stages
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Stage A: the operations computing the index preparation. -/
def stA : List (HloOp τ sig (Elt F)) :=
  [ StableHlo.binary main_arg3 main_arg10 main_v0 ((fun a b => concatenate S401x200 0 [⟨S400x200, a⟩, ⟨S1x200, b⟩] concatenates_S400x200_S1x200_S401x200_d0) : (⟨S400x200, .f32⟩ : BufTy).Contents (Elt F) → (⟨S1x200, .f32⟩ : BufTy).Contents (Elt F) → (⟨S401x200, .f32⟩ : BufTy).Contents (Elt F)),
    StableHlo.unary main_arg1 main_v1 ((extractStridedSlice S2x200000 ![0, 0] · slices_S2x400000_S2x200000_0_0) : (⟨S2x400000, .i32⟩ : BufTy).Contents (Elt F) → (⟨S2x200000, .i32⟩ : BufTy).Contents (Elt F)),
    StableHlo.unary main_arg1 main_v2 ((extractStridedSlice S2x200000 ![0, 200000] · slices_S2x400000_S2x200000_0_200000) : (⟨S2x400000, .i32⟩ : BufTy).Contents (Elt F) → (⟨S2x200000, .i32⟩ : BufTy).Contents (Elt F)),
    StableHlo.unary main_arg2 main_v3 ((extractStridedSlice S200000 ![0] · slices_S400000_S200000_0) : (⟨S400000, .i32⟩ : BufTy).Contents (Elt F) → (⟨S200000, .i32⟩ : BufTy).Contents (Elt F)),
    StableHlo.unary main_arg2 main_v4 ((extractStridedSlice S200000 ![200000] · slices_S400000_S200000_200000) : (⟨S400000, .i32⟩ : BufTy).Contents (Elt F) → (⟨S200000, .i32⟩ : BufTy).Contents (Elt F)),
    StableHlo.unary main_arg4 main_v5 ((extractStridedSlice S1x100000 ![0, 0] · slices_S3x200000_S1x100000_0_0) : (⟨S3x200000, .i32⟩ : BufTy).Contents (Elt F) → (⟨S1x100000, .i32⟩ : BufTy).Contents (Elt F)),
    StableHlo.reshape main_v5 main_v6 rfl shapeCasts_S1x100000_S100000,
    StableHlo.unary main_arg4 main_v7 ((extractStridedSlice S1x100000 ![0, 100000] · slices_S3x200000_S1x100000_0_100000) : (⟨S3x200000, .i32⟩ : BufTy).Contents (Elt F) → (⟨S1x100000, .i32⟩ : BufTy).Contents (Elt F)),
    StableHlo.reshape main_v7 main_v8 rfl shapeCasts_S1x100000_S100000,
    StableHlo.unary main_arg4 main_v9 ((extractStridedSlice S1x100000 ![1, 0] · slices_S3x200000_S1x100000_1_0) : (⟨S3x200000, .i32⟩ : BufTy).Contents (Elt F) → (⟨S1x100000, .i32⟩ : BufTy).Contents (Elt F)),
    StableHlo.reshape main_v9 main_v10 rfl shapeCasts_S1x100000_S100000,
    StableHlo.unary main_arg4 main_v11 ((extractStridedSlice S1x100000 ![1, 100000] · slices_S3x200000_S1x100000_1_100000) : (⟨S3x200000, .i32⟩ : BufTy).Contents (Elt F) → (⟨S1x100000, .i32⟩ : BufTy).Contents (Elt F)),
    StableHlo.reshape main_v11 main_v12 rfl shapeCasts_S1x100000_S100000,
    StableHlo.unary main_arg4 main_v13 ((extractStridedSlice S1x100000 ![2, 0] · slices_S3x200000_S1x100000_2_0) : (⟨S3x200000, .i32⟩ : BufTy).Contents (Elt F) → (⟨S1x100000, .i32⟩ : BufTy).Contents (Elt F)),
    StableHlo.reshape main_v13 main_v14 rfl shapeCasts_S1x100000_S100000,
    StableHlo.unary main_arg4 main_v15 ((extractStridedSlice S1x100000 ![2, 100000] · slices_S3x200000_S1x100000_2_100000) : (⟨S3x200000, .i32⟩ : BufTy).Contents (Elt F) → (⟨S1x100000, .i32⟩ : BufTy).Contents (Elt F)),
    StableHlo.reshape main_v15 main_v16 rfl shapeCasts_S1x100000_S100000,
    StableHlo.unary main_v1 main_v17 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v17 main_v18 rfl shapeCasts_S1x200000_S200000,
    StableHlo.unary main_v1 main_v19 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v19 main_v20 rfl shapeCasts_S1x200000_S200000 ]

/-- The buffers stage A writes. -/
abbrev stA_W : List (Ref sig .tc) :=
  [main_v0, main_v1, main_v2, main_v3, main_v4, main_v5, main_v6, main_v7, main_v8, main_v9, main_v10, main_v11, main_v12, main_v13, main_v14, main_v15, main_v16, main_v17, main_v18, main_v19, main_v20]

theorem stA_writes : (stA : List (HloOp τ sig (Elt F))).Forall fun op =>
    op.writes ⊆ (stA_W.map (Proc.devRef (τ := τ) .tc)).toFinset := by
  simp only [stA, List.Forall, nullary_writes, unary_writes, binary_writes, ternary_writes, reshape_writes,
    Finset.singleton_subset_iff, List.mem_toFinset]
  repeat' apply And.intro
  all_goals exact List.mem_map_of_mem (by decide)

/-- A buffer stage A does not write keeps its contents through it. -/
theorem stA_keep (V : Valuation τ sig (Elt F)) {r : Ref sig .tc} (h : r ∉ stA_W) :
    after stA V (no_index (Proc.devRef .tc r)) = V (Proc.devRef .tc r) :=
  after_of_writes_sub stA V stA_writes h

set_option maxHeartbeats 2000000 in
/-- The relation table with the loop relation appended. -/
theorem stA_v0 (V : Valuation τ sig (Elt F)) :
    after stA V (no_index (Proc.devRef .tc main_v0)) = Cert.Stage.relAll (V (Proc.devRef .tc main_arg3)) (V (Proc.devRef .tc main_arg10)) := by
  simp only [stA]; after_results_simp; rfl

set_option maxHeartbeats 2000000 in
/-- The second half of the edge list. -/
theorem stA_v2 (V : Valuation τ sig (Elt F)) :
    after stA V (no_index (Proc.devRef .tc main_v2)) = Cert.Stage.edgeOut (V (Proc.devRef .tc main_arg1)) := by
  simp only [stA]; after_results_simp; rfl

set_option maxHeartbeats 2000000 in
/-- The first half of the edge types. -/
theorem stA_v3 (V : Valuation τ sig (Elt F)) :
    after stA V (no_index (Proc.devRef .tc main_v3)) = Cert.Stage.typeIn (V (Proc.devRef .tc main_arg2)) := by
  simp only [stA]; after_results_simp; rfl

set_option maxHeartbeats 2000000 in
/-- The second half of the edge types. -/
theorem stA_v4 (V : Valuation τ sig (Elt F)) :
    after stA V (no_index (Proc.devRef .tc main_v4)) = Cert.Stage.typeOut (V (Proc.devRef .tc main_arg2)) := by
  simp only [stA]; after_results_simp; rfl

set_option maxHeartbeats 2000000 in
/-- The first direction's qualifier relations. -/
theorem stA_v6 (V : Valuation τ sig (Elt F)) :
    after stA V (no_index (Proc.devRef .tc main_v6)) = Cert.Stage.qRel0 (V (Proc.devRef .tc main_arg4)) := by
  simp only [stA]; after_results_simp; rfl

set_option maxHeartbeats 2000000 in
/-- The second direction's qualifier relations. -/
theorem stA_v8 (V : Valuation τ sig (Elt F)) :
    after stA V (no_index (Proc.devRef .tc main_v8)) = Cert.Stage.qRel1 (V (Proc.devRef .tc main_arg4)) := by
  simp only [stA]; after_results_simp; rfl

set_option maxHeartbeats 2000000 in
/-- The first direction's qualifier entities. -/
theorem stA_v10 (V : Valuation τ sig (Elt F)) :
    after stA V (no_index (Proc.devRef .tc main_v10)) = Cert.Stage.qEnt0 (V (Proc.devRef .tc main_arg4)) := by
  simp only [stA]; after_results_simp; rfl

set_option maxHeartbeats 2000000 in
/-- The second direction's qualifier entities. -/
theorem stA_v12 (V : Valuation τ sig (Elt F)) :
    after stA V (no_index (Proc.devRef .tc main_v12)) = Cert.Stage.qEnt1 (V (Proc.devRef .tc main_arg4)) := by
  simp only [stA]; after_results_simp; rfl

set_option maxHeartbeats 2000000 in
/-- The edge of each qualifier of the first direction. -/
theorem stA_v14 (V : Valuation τ sig (Elt F)) :
    after stA V (no_index (Proc.devRef .tc main_v14)) = Cert.Stage.qIdx0 (V (Proc.devRef .tc main_arg4)) := by
  simp only [stA]; after_results_simp; rfl

set_option maxHeartbeats 2000000 in
/-- The edge of each qualifier of the second direction. -/
theorem stA_v16 (V : Valuation τ sig (Elt F)) :
    after stA V (no_index (Proc.devRef .tc main_v16)) = Cert.Stage.qIdx1 (V (Proc.devRef .tc main_arg4)) := by
  simp only [stA]; after_results_simp; rfl

set_option maxHeartbeats 2000000 in
/-- The first direction's target nodes. -/
theorem stA_v18 (V : Valuation τ sig (Elt F)) :
    after stA V (no_index (Proc.devRef .tc main_v18)) = Cert.Stage.edgeRow (Cert.Stage.edgeIn (V (Proc.devRef .tc main_arg1))) := by
  simp only [stA]; after_results_simp; rfl

set_option maxHeartbeats 2000000 in
/-- The first direction's source nodes. -/
theorem stA_v20 (V : Valuation τ sig (Elt F)) :
    after stA V (no_index (Proc.devRef .tc main_v20)) = Cert.Stage.edgeCol (Cert.Stage.edgeIn (V (Proc.devRef .tc main_arg1))) := by
  simp only [stA]; after_results_simp; rfl

set_option maxHeartbeats 4000000 in
/-- Stage B: the operations computing the first direction's two gathers. -/
def stB : List (HloOp τ sig (Elt F)) :=
  [ StableHlo.nullary main_c (constantI S_ 32 0#32),
    StableHlo.unary main_c main_v21 (broadcastInDim S200000 ![] bcast_S_S200000 : (⟨S_, .i32⟩ : BufTy).Contents (Elt F) → (⟨S200000, .i32⟩ : BufTy).Contents (Elt F)),
    StableHlo.binary main_v20 main_v21 main_v22 (cmpi .slt : (⟨S200000, .i32⟩ : BufTy).Contents (Elt F) → (⟨S200000, .i32⟩ : BufTy).Contents (Elt F) → (⟨S200000, .i1⟩ : BufTy).Contents (Elt F)),
    StableHlo.nullary main_c_0 (constantI S_ 32 50000#32),
    StableHlo.unary main_c_0 main_v23 (broadcastInDim S200000 ![] bcast_S_S200000 : (⟨S_, .i32⟩ : BufTy).Contents (Elt F) → (⟨S200000, .i32⟩ : BufTy).Contents (Elt F)),
    StableHlo.binary main_v20 main_v23 main_v24 (addi : (⟨S200000, .i32⟩ : BufTy).Contents (Elt F) → (⟨S200000, .i32⟩ : BufTy).Contents (Elt F) → (⟨S200000, .i32⟩ : BufTy).Contents (Elt F)),
    StableHlo.ternary main_v22 main_v24 main_v20 main_v25 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v25 main_v26 (broadcastInDim S200000x1 ![0] bcast_S200000_S200000x1_0 : (⟨S200000, .i32⟩ : BufTy).Contents (Elt F) → (⟨S200000x1, .i32⟩ : BufTy).Contents (Elt F)),
    StableHlo.binary main_arg0 main_v26 main_v27 ((fun x i => Host.gather gather_S50000x200_S200000x1_S200000x200_1_0_n_n_0_1_1200 x i) : (⟨S50000x200, .f32⟩ : BufTy).Contents (Elt F) → (⟨S200000x1, .i32⟩ : BufTy).Contents (Elt F) → (⟨S200000x200, .f32⟩ : BufTy).Contents (Elt F)),
    StableHlo.nullary main_c_1 (constantI S_ 32 0#32),
    StableHlo.unary main_c_1 main_v28 (broadcastInDim S200000 ![] bcast_S_S200000 : (⟨S_, .i32⟩ : BufTy).Contents (Elt F) → (⟨S200000, .i32⟩ : BufTy).Contents (Elt F)),
    StableHlo.binary main_v3 main_v28 main_v29 (cmpi .slt : (⟨S200000, .i32⟩ : BufTy).Contents (Elt F) → (⟨S200000, .i32⟩ : BufTy).Contents (Elt F) → (⟨S200000, .i1⟩ : BufTy).Contents (Elt F)),
    StableHlo.nullary main_c_2 (constantI S_ 32 401#32),
    StableHlo.unary main_c_2 main_v30 (broadcastInDim S200000 ![] bcast_S_S200000 : (⟨S_, .i32⟩ : BufTy).Contents (Elt F) → (⟨S200000, .i32⟩ : BufTy).Contents (Elt F)),
    StableHlo.binary main_v3 main_v30 main_v31 (addi : (⟨S200000, .i32⟩ : BufTy).Contents (Elt F) → (⟨S200000, .i32⟩ : BufTy).Contents (Elt F) → (⟨S200000, .i32⟩ : BufTy).Contents (Elt F)),
    StableHlo.ternary main_v29 main_v31 main_v3 main_v32 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v32 main_v33 (broadcastInDim S200000x1 ![0] bcast_S200000_S200000x1_0 : (⟨S200000, .i32⟩ : BufTy).Contents (Elt F) → (⟨S200000x1, .i32⟩ : BufTy).Contents (Elt F)),
    StableHlo.binary main_v0 main_v33 main_v34 ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)) ]

/-- The buffers stage B writes. -/
abbrev stB_W : List (Ref sig .tc) :=
  [main_c, main_v21, main_v22, main_c_0, main_v23, main_v24, main_v25, main_v26, main_v27, main_c_1, main_v28, main_v29, main_c_2, main_v30, main_v31, main_v32, main_v33, main_v34]

theorem stB_writes : (stB : List (HloOp τ sig (Elt F))).Forall fun op =>
    op.writes ⊆ (stB_W.map (Proc.devRef (τ := τ) .tc)).toFinset := by
  simp only [stB, List.Forall, nullary_writes, unary_writes, binary_writes, ternary_writes, reshape_writes,
    Finset.singleton_subset_iff, List.mem_toFinset]
  repeat' apply And.intro
  all_goals exact List.mem_map_of_mem (by decide)

/-- A buffer stage B does not write keeps its contents through it. -/
theorem stB_keep (V : Valuation τ sig (Elt F)) {r : Ref sig .tc} (h : r ∉ stB_W) :
    after stB V (no_index (Proc.devRef .tc r)) = V (Proc.devRef .tc r) :=
  after_of_writes_sub stB V stB_writes h

set_option maxHeartbeats 1800000 in
/-- Each edge's source row of the node features. -/
theorem stB_v27 (V : Valuation τ sig (Elt F)) :
    after stB V (no_index (Proc.devRef .tc main_v27)) = Cert.Stage.gatherEnt (V (Proc.devRef .tc main_arg0)) (V (Proc.devRef .tc main_v20)) := by
  simp only [stB]; after_results_simp; rfl

set_option maxHeartbeats 1800000 in
/-- Each edge's row of the relation table. -/
theorem stB_v34 (V : Valuation τ sig (Elt F)) :
    after stB V (no_index (Proc.devRef .tc main_v34)) = Cert.Stage.gatherRel (V (Proc.devRef .tc main_v0)) (V (Proc.devRef .tc main_v3)) := by
  simp only [stB]; after_results_simp; rfl

end Cert.ReferenceIdeal.RefRun

end
-- ==== Proof.RefValueCE.lean ====
/-
  The reference's run, stages C, D and E of the first direction. Stage C is the qualifier embeddings (each qualifier's entity
  row rotated by its relation row), stage D their sum per edge, stage E each edge's message before normalisation (the relation
  embedding from the edge's relation row and its coalesced qualifiers, the source row rotated by it, the product with the
  direction's matrix). Each result buffer holds the stage function of the buffers the stage reads; every buffer a stage does
  not write is kept.
-/
import proofs.«143578_j52467320487979_1_alg».proof.Proof.Stages
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Stage C: the operations computing the first direction's qualifier embeddings. -/
def stC : List (HloOp τ sig (Elt F)) :=
  [ StableHlo.nullary main_c_3 (constantI S_ 32 0#32),
    StableHlo.unary main_c_3 main_v35 (broadcastInDim S100000 ![] bcast_S_S100000 : (⟨S_, .i32⟩ : BufTy).Contents (Elt F) → (⟨S100000, .i32⟩ : BufTy).Contents (Elt F)),
    StableHlo.binary main_v10 main_v35 main_v36 (cmpi .slt : (⟨S100000, .i32⟩ : BufTy).Contents (Elt F) → (⟨S100000, .i32⟩ : BufTy).Contents (Elt F) → (⟨S100000, .i1⟩ : BufTy).Contents (Elt F)),
    StableHlo.nullary main_c_4 (constantI S_ 32 50000#32),
    StableHlo.unary main_c_4 main_v37 (broadcastInDim S100000 ![] bcast_S_S100000 : (⟨S_, .i32⟩ : BufTy).Contents (Elt F) → (⟨S100000, .i32⟩ : BufTy).Contents (Elt F)),
    StableHlo.binary main_v10 main_v37 main_v38 (addi : (⟨S100000, .i32⟩ : BufTy).Contents (Elt F) → (⟨S100000, .i32⟩ : BufTy).Contents (Elt F) → (⟨S100000, .i32⟩ : BufTy).Contents (Elt F)),
    StableHlo.ternary main_v36 main_v38 main_v10 main_v39 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v39 main_v40 (broadcastInDim S100000x1 ![0] bcast_S100000_S100000x1_0 : (⟨S100000, .i32⟩ : BufTy).Contents (Elt F) → (⟨S100000x1, .i32⟩ : BufTy).Contents (Elt F)),
    StableHlo.binary main_arg0 main_v40 main_v41 ((fun x i => Host.gather gather_S50000x200_S100000x1_S100000x200_1_0_n_n_0_1_1200 x i) : (⟨S50000x200, .f32⟩ : BufTy).Contents (Elt F) → (⟨S100000x1, .i32⟩ : BufTy).Contents (Elt F) → (⟨S100000x200, .f32⟩ : BufTy).Contents (Elt F)),
    StableHlo.nullary main_c_5 (constantI S_ 32 0#32),
    StableHlo.unary main_c_5 main_v42 (broadcastInDim S100000 ![] bcast_S_S100000 : (⟨S_, .i32⟩ : BufTy).Contents (Elt F) → (⟨S100000, .i32⟩ : BufTy).Contents (Elt F)),
    StableHlo.binary main_v6 main_v42 main_v43 (cmpi .slt : (⟨S100000, .i32⟩ : BufTy).Contents (Elt F) → (⟨S100000, .i32⟩ : BufTy).Contents (Elt F) → (⟨S100000, .i1⟩ : BufTy).Contents (Elt F)),
    StableHlo.nullary main_c_6 (constantI S_ 32 401#32),
    StableHlo.unary main_c_6 main_v44 (broadcastInDim S100000 ![] bcast_S_S100000 : (⟨S_, .i32⟩ : BufTy).Contents (Elt F) → (⟨S100000, .i32⟩ : BufTy).Contents (Elt F)),
    StableHlo.binary main_v6 main_v44 main_v45 (addi : (⟨S100000, .i32⟩ : BufTy).Contents (Elt F) → (⟨S100000, .i32⟩ : BufTy).Contents (Elt F) → (⟨S100000, .i32⟩ : BufTy).Contents (Elt F)),
    StableHlo.ternary main_v43 main_v45 main_v6 main_v46 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v46 main_v47 (broadcastInDim S100000x1 ![0] bcast_S100000_S100000x1_0 : (⟨S100000, .i32⟩ : BufTy).Contents (Elt F) → (⟨S100000x1, .i32⟩ : BufTy).Contents (Elt F)),
    StableHlo.binary main_v0 main_v47 main_v48 ((fun x i => Host.gather gather_S401x200_S100000x1_S100000x200_1_0_n_n_0_1_1200 x i) : (⟨S401x200, .f32⟩ : BufTy).Contents (Elt F) → (⟨S100000x1, .i32⟩ : BufTy).Contents (Elt F) → (⟨S100000x200, .f32⟩ : BufTy).Contents (Elt F)),
    StableHlo.unary main_v41 main_v49 ((extractStridedSlice S100000x100 ![0, 0] · slices_S100000x200_S100000x100_0_0) : (⟨S100000x200, .f32⟩ : BufTy).Contents (Elt F) → (⟨S100000x100, .f32⟩ : BufTy).Contents (Elt F)),
    StableHlo.unary main_v41 main_v50 ((extractStridedSlice S100000x100 ![0, 100] · slices_S100000x200_S100000x100_0_100) : (⟨S100000x200, .f32⟩ : BufTy).Contents (Elt F) → (⟨S100000x100, .f32⟩ : BufTy).Contents (Elt F)),
    StableHlo.unary main_v48 main_v51 ((extractStridedSlice S100000x100 ![0, 0] · slices_S100000x200_S100000x100_0_0) : (⟨S100000x200, .f32⟩ : BufTy).Contents (Elt F) → (⟨S100000x100, .f32⟩ : BufTy).Contents (Elt F)),
    StableHlo.unary main_v48 main_v52 ((extractStridedSlice S100000x100 ![0, 100] · slices_S100000x200_S100000x100_0_100) : (⟨S100000x200, .f32⟩ : BufTy).Contents (Elt F) → (⟨S100000x100, .f32⟩ : BufTy).Contents (Elt F)),
    StableHlo.binary main_v49 main_v51 main_v53 (mulf : (⟨S100000x100, .f32⟩ : BufTy).Contents (Elt F) → (⟨S100000x100, .f32⟩ : BufTy).Contents (Elt F) → (⟨S100000x100, .f32⟩ : BufTy).Contents (Elt F)),
    StableHlo.binary main_v50 main_v52 main_v54 (mulf : (⟨S100000x100, .f32⟩ : BufTy).Contents (Elt F) → (⟨S100000x100, .f32⟩ : BufTy).Contents (Elt F) → (⟨S100000x100, .f32⟩ : BufTy).Contents (Elt F)),
    StableHlo.binary main_v53 main_v54 main_v55 (subf : (⟨S100000x100, .f32⟩ : BufTy).Contents (Elt F) → (⟨S100000x100, .f32⟩ : BufTy).Contents (Elt F) → (⟨S100000x100, .f32⟩ : BufTy).Contents (Elt F)),
    StableHlo.binary main_v49 main_v52 main_v56 (mulf : (⟨S100000x100, .f32⟩ : BufTy).Contents (Elt F) → (⟨S100000x100, .f32⟩ : BufTy).Contents (Elt F) → (⟨S100000x100, .f32⟩ : BufTy).Contents (Elt F)),
    StableHlo.binary main_v50 main_v51 main_v57 (mulf : (⟨S100000x100, .f32⟩ : BufTy).Contents (Elt F) → (⟨S100000x100, .f32⟩ : BufTy).Contents (Elt F) → (⟨S100000x100, .f32⟩ : BufTy).Contents (Elt F)),
    StableHlo.binary main_v56 main_v57 main_v58 (addf : (⟨S100000x100, .f32⟩ : BufTy).Contents (Elt F) → (⟨S100000x100, .f32⟩ : BufTy).Contents (Elt F) → (⟨S100000x100, .f32⟩ : BufTy).Contents (Elt F)),
    StableHlo.binary main_v55 main_v58 main_v59 ((fun a b => concatenate S100000x200 1 [⟨S100000x100, a⟩, ⟨S100000x100, b⟩] concatenates_S100000x100_S100000x100_S100000x200_d1) : (⟨S100000x100, .f32⟩ : BufTy).Contents (Elt F) → (⟨S100000x100, .f32⟩ : BufTy).Contents (Elt F) → (⟨S100000x200, .f32⟩ : BufTy).Contents (Elt F)) ]

/-- The buffers stage C writes. -/
abbrev stC_W : List (Ref sig .tc) :=
  [main_c_3, main_v35, main_v36, main_c_4, main_v37, main_v38, main_v39, main_v40, main_v41, main_c_5, main_v42, main_v43, main_c_6, main_v44, main_v45, main_v46, main_v47, main_v48, main_v49, main_v50, main_v51, main_v52, main_v53, main_v54, main_v55, main_v56, main_v57, main_v58, main_v59]

theorem stC_writes : (stC : List (HloOp τ sig (Elt F))).Forall fun op =>
    op.writes ⊆ (stC_W.map (Proc.devRef (τ := τ) .tc)).toFinset := by
  simp only [stC, List.Forall, nullary_writes, unary_writes, binary_writes, ternary_writes, reshape_writes,
    Finset.singleton_subset_iff, List.mem_toFinset]
  repeat' apply And.intro
  all_goals exact List.mem_map_of_mem (by decide)

/-- A buffer stage C does not write keeps its contents through it. -/
theorem stC_keep (V : Valuation τ sig (Elt F)) {r : Ref sig .tc} (h : r ∉ stC_W) :
    after stC V (no_index (Proc.devRef .tc r)) = V (Proc.devRef .tc r) :=
  after_of_writes_sub stC V stC_writes h

set_option maxHeartbeats 2000000 in
/-- The qualifier embeddings. -/
theorem stC_v59 (V : Valuation τ sig (Elt F)) :
    after stC V (no_index (Proc.devRef .tc main_v59)) = Cert.Stage.qEmb (V (Proc.devRef .tc main_arg0)) (V (Proc.devRef .tc main_v0)) (V (Proc.devRef .tc main_v10)) (V (Proc.devRef .tc main_v6)) := by
  simp only [stC]; after_results_simp; rfl

set_option maxHeartbeats 4000000 in
/-- Stage D: the operations computing the first direction's coalesced qualifiers. -/
def stD : List (HloOp τ sig (Elt F)) :=
  [ StableHlo.nullary main_cst (constant S_ .f32 0x00000000#32),
    StableHlo.unary main_cst main_v60 (broadcastInDim S200000x200 ![] bcast_S_S200000x200 : (⟨S_, .f32⟩ : BufTy).Contents (Elt F) → (⟨S200000x200, .f32⟩ : BufTy).Contents (Elt F)),
    StableHlo.nullary main_c_7 (constantI S_ 32 0#32),
    StableHlo.unary main_c_7 main_v61 (broadcastInDim S100000 ![] bcast_S_S100000 : (⟨S_, .i32⟩ : BufTy).Contents (Elt F) → (⟨S100000, .i32⟩ : BufTy).Contents (Elt F)),
    StableHlo.binary main_v14 main_v61 main_v62 (cmpi .slt : (⟨S100000, .i32⟩ : BufTy).Contents (Elt F) → (⟨S100000, .i32⟩ : BufTy).Contents (Elt F) → (⟨S100000, .i1⟩ : BufTy).Contents (Elt F)),
    StableHlo.nullary main_c_8 (constantI S_ 32 200000#32),
    StableHlo.unary main_c_8 main_v63 (broadcastInDim S100000 ![] bcast_S_S100000 : (⟨S_, .i32⟩ : BufTy).Contents (Elt F) → (⟨S100000, .i32⟩ : BufTy).Contents (Elt F)),
    StableHlo.binary main_v14 main_v63 main_v64 (addi : (⟨S100000, .i32⟩ : BufTy).Contents (Elt F) → (⟨S100000, .i32⟩ : BufTy).Contents (Elt F) → (⟨S100000, .i32⟩ : BufTy).Contents (Elt F)),
    StableHlo.ternary main_v62 main_v64 main_v14 main_v65 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v65 main_v66 (broadcastInDim S100000x1 ![0] bcast_S100000_S100000x1_0 : (⟨S100000, .i32⟩ : BufTy).Contents (Elt F) → (⟨S100000x1, .i32⟩ : BufTy).Contents (Elt F)),
    StableHlo.ternary main_v60 main_v66 main_v59 main_v67 ((fun x i u => Host.scatterAdd scatter_S200000x200_S100000x1_S100000x200_1_0_0_1 x i u) : (⟨S200000x200, .f32⟩ : BufTy).Contents (Elt F) → (⟨S100000x1, .i32⟩ : BufTy).Contents (Elt F) → (⟨S100000x200, .f32⟩ : BufTy).Contents (Elt F) → (⟨S200000x200, .f32⟩ : BufTy).Contents (Elt F)) ]

/-- The buffers stage D writes. -/
abbrev stD_W : List (Ref sig .tc) :=
  [main_cst, main_v60, main_c_7, main_v61, main_v62, main_c_8, main_v63, main_v64, main_v65, main_v66, main_v67]

theorem stD_writes : (stD : List (HloOp τ sig (Elt F))).Forall fun op =>
    op.writes ⊆ (stD_W.map (Proc.devRef (τ := τ) .tc)).toFinset := by
  simp only [stD, List.Forall, nullary_writes, unary_writes, binary_writes, ternary_writes, reshape_writes,
    Finset.singleton_subset_iff, List.mem_toFinset]
  repeat' apply And.intro
  all_goals exact List.mem_map_of_mem (by decide)

/-- A buffer stage D does not write keeps its contents through it. -/
theorem stD_keep (V : Valuation τ sig (Elt F)) {r : Ref sig .tc} (h : r ∉ stD_W) :
    after stD V (no_index (Proc.devRef .tc r)) = V (Proc.devRef .tc r) :=
  after_of_writes_sub stD V stD_writes h

set_option maxHeartbeats 1100000 in
/-- The qualifier embeddings summed per edge. -/
theorem stD_v67 (V : Valuation τ sig (Elt F)) :
    after stD V (no_index (Proc.devRef .tc main_v67)) = Cert.Stage.coalesce (V (Proc.devRef .tc main_v14)) (V (Proc.devRef .tc main_v59)) := by
  simp only [stD]; after_results_simp; rfl

set_option maxHeartbeats 4000000 in
/-- Stage E: the operations computing the first direction's messages before normalisation. -/
def stE : List (HloOp τ sig (Elt F)) :=
  [ StableHlo.nullary main_cst_9 (constant S_ .f32 0x3F4CCCCD#32),
    StableHlo.unary main_cst_9 main_v68 (broadcastInDim S200000x200 ![] bcast_S_S200000x200 : (⟨S_, .f32⟩ : BufTy).Contents (Elt F) → (⟨S200000x200, .f32⟩ : BufTy).Contents (Elt F)),
    StableHlo.binary main_v68 main_v34 main_v69 (mulf : (⟨S200000x200, .f32⟩ : BufTy).Contents (Elt F) → (⟨S200000x200, .f32⟩ : BufTy).Contents (Elt F) → (⟨S200000x200, .f32⟩ : BufTy).Contents (Elt F)),
    StableHlo.binary main_v67 main_arg9 main_v70 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    StableHlo.nullary main_cst_10 (constant S_ .f32 0x3E4CCCCD#32),
    StableHlo.unary main_cst_10 main_v71 (broadcastInDim S200000x200 ![] bcast_S_S200000x200 : (⟨S_, .f32⟩ : BufTy).Contents (Elt F) → (⟨S200000x200, .f32⟩ : BufTy).Contents (Elt F)),
    StableHlo.binary main_v71 main_v70 main_v72 (mulf : (⟨S200000x200, .f32⟩ : BufTy).Contents (Elt F) → (⟨S200000x200, .f32⟩ : BufTy).Contents (Elt F) → (⟨S200000x200, .f32⟩ : BufTy).Contents (Elt F)),
    StableHlo.binary main_v69 main_v72 main_v73 (addf : (⟨S200000x200, .f32⟩ : BufTy).Contents (Elt F) → (⟨S200000x200, .f32⟩ : BufTy).Contents (Elt F) → (⟨S200000x200, .f32⟩ : BufTy).Contents (Elt F)),
    StableHlo.unary main_v27 main_v74 ((extractStridedSlice S200000x100 ![0, 0] · slices_S200000x200_S200000x100_0_0) : (⟨S200000x200, .f32⟩ : BufTy).Contents (Elt F) → (⟨S200000x100, .f32⟩ : BufTy).Contents (Elt F)),
    StableHlo.unary main_v27 main_v75 ((extractStridedSlice S200000x100 ![0, 100] · slices_S200000x200_S200000x100_0_100) : (⟨S200000x200, .f32⟩ : BufTy).Contents (Elt F) → (⟨S200000x100, .f32⟩ : BufTy).Contents (Elt F)),
    StableHlo.unary main_v73 main_v76 ((extractStridedSlice S200000x100 ![0, 0] · slices_S200000x200_S200000x100_0_0) : (⟨S200000x200, .f32⟩ : BufTy).Contents (Elt F) → (⟨S200000x100, .f32⟩ : BufTy).Contents (Elt F)),
    StableHlo.unary main_v73 main_v77 ((extractStridedSlice S200000x100 ![0, 100] · slices_S200000x200_S200000x100_0_100) : (⟨S200000x200, .f32⟩ : BufTy).Contents (Elt F) → (⟨S200000x100, .f32⟩ : BufTy).Contents (Elt F)),
    StableHlo.binary main_v74 main_v76 main_v78 (mulf : (⟨S200000x100, .f32⟩ : BufTy).Contents (Elt F) → (⟨S200000x100, .f32⟩ : BufTy).Contents (Elt F) → (⟨S200000x100, .f32⟩ : BufTy).Contents (Elt F)),
    StableHlo.binary main_v75 main_v77 main_v79 (mulf : (⟨S200000x100, .f32⟩ : BufTy).Contents (Elt F) → (⟨S200000x100, .f32⟩ : BufTy).Contents (Elt F) → (⟨S200000x100, .f32⟩ : BufTy).Contents (Elt F)),
    StableHlo.binary main_v78 main_v79 main_v80 (subf : (⟨S200000x100, .f32⟩ : BufTy).Contents (Elt F) → (⟨S200000x100, .f32⟩ : BufTy).Contents (Elt F) → (⟨S200000x100, .f32⟩ : BufTy).Contents (Elt F)),
    StableHlo.binary main_v74 main_v77 main_v81 (mulf : (⟨S200000x100, .f32⟩ : BufTy).Contents (Elt F) → (⟨S200000x100, .f32⟩ : BufTy).Contents (Elt F) → (⟨S200000x100, .f32⟩ : BufTy).Contents (Elt F)),
    StableHlo.binary main_v75 main_v76 main_v82 (mulf : (⟨S200000x100, .f32⟩ : BufTy).Contents (Elt F) → (⟨S200000x100, .f32⟩ : BufTy).Contents (Elt F) → (⟨S200000x100, .f32⟩ : BufTy).Contents (Elt F)),
    StableHlo.binary main_v81 main_v82 main_v83 (addf : (⟨S200000x100, .f32⟩ : BufTy).Contents (Elt F) → (⟨S200000x100, .f32⟩ : BufTy).Contents (Elt F) → (⟨S200000x100, .f32⟩ : BufTy).Contents (Elt F)),
    StableHlo.binary main_v80 main_v83 main_v84 ((fun a b => concatenate S200000x200 1 [⟨S200000x100, a⟩, ⟨S200000x100, b⟩] concatenates_S200000x100_S200000x100_S200000x200_d1) : (⟨S200000x100, .f32⟩ : BufTy).Contents (Elt F) → (⟨S200000x100, .f32⟩ : BufTy).Contents (Elt F) → (⟨S200000x200, .f32⟩ : BufTy).Contents (Elt F)),
    StableHlo.binary main_v84 main_arg5 main_v85 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)) ]

/-- The buffers stage E writes. -/
abbrev stE_W : List (Ref sig .tc) :=
  [main_cst_9, main_v68, main_v69, main_v70, main_cst_10, main_v71, main_v72, main_v73, main_v74, main_v75, main_v76, main_v77, main_v78, main_v79, main_v80, main_v81, main_v82, main_v83, main_v84, main_v85]

theorem stE_writes : (stE : List (HloOp τ sig (Elt F))).Forall fun op =>
    op.writes ⊆ (stE_W.map (Proc.devRef (τ := τ) .tc)).toFinset := by
  simp only [stE, List.Forall, nullary_writes, unary_writes, binary_writes, ternary_writes, reshape_writes,
    Finset.singleton_subset_iff, List.mem_toFinset]
  repeat' apply And.intro
  all_goals exact List.mem_map_of_mem (by decide)

/-- A buffer stage E does not write keeps its contents through it. -/
theorem stE_keep (V : Valuation τ sig (Elt F)) {r : Ref sig .tc} (h : r ∉ stE_W) :
    after stE V (no_index (Proc.devRef .tc r)) = V (Proc.devRef .tc r) :=
  after_of_writes_sub stE V stE_writes h

set_option maxHeartbeats 2000000 in
/-- Each edge's message before normalisation. -/
theorem stE_v85 (V : Valuation τ sig (Elt F)) :
    after stE V (no_index (Proc.devRef .tc main_v85)) = Cert.Stage.msgPre (V (Proc.devRef .tc main_v34)) (V (Proc.devRef .tc main_v67)) (V (Proc.devRef .tc main_arg9)) (V (Proc.devRef .tc main_v27)) (V (Proc.devRef .tc main_arg5)) := by
  simp only [stE]; after_results_simp; rfl

end Cert.ReferenceIdeal.RefRun

end
-- ==== Proof.RefValueFH.lean ====
/-
  The reference's run, stages F, G and H. Stage F is the first direction's degree normalisation and the messages scaled by it,
  stage G their sum per target node, stage H the second direction's target and source nodes. Each result buffer holds the stage
  function of the buffers the stage reads; every buffer a stage does not write is kept.
-/
import proofs.«143578_j52467320487979_1_alg».proof.Proof.Stages
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Stage F: the operations computing the first direction's normalised messages. -/
def stF : List (HloOp τ sig (Elt F)) :=
  [ StableHlo.nullary main_cst_11 (constant S_ .f32 0x00000000#32),
    StableHlo.unary main_cst_11 main_v86 (broadcastInDim S50000 ![] bcast_S_S50000 : (⟨S_, .f32⟩ : BufTy).Contents (Elt F) → (⟨S50000, .f32⟩ : BufTy).Contents (Elt F)),
    StableHlo.nullary main_c_12 (constantI S_ 32 0#32),
    StableHlo.unary main_c_12 main_v87 (broadcastInDim S200000 ![] bcast_S_S200000 : (⟨S_, .i32⟩ : BufTy).Contents (Elt F) → (⟨S200000, .i32⟩ : BufTy).Contents (Elt F)),
    StableHlo.binary main_v18 main_v87 main_v88 (cmpi .slt : (⟨S200000, .i32⟩ : BufTy).Contents (Elt F) → (⟨S200000, .i32⟩ : BufTy).Contents (Elt F) → (⟨S200000, .i1⟩ : BufTy).Contents (Elt F)),
    StableHlo.nullary main_c_13 (constantI S_ 32 50000#32),
    StableHlo.unary main_c_13 main_v89 (broadcastInDim S200000 ![] bcast_S_S200000 : (⟨S_, .i32⟩ : BufTy).Contents (Elt F) → (⟨S200000, .i32⟩ : BufTy).Contents (Elt F)),
    StableHlo.binary main_v18 main_v89 main_v90 (addi : (⟨S200000, .i32⟩ : BufTy).Contents (Elt F) → (⟨S200000, .i32⟩ : BufTy).Contents (Elt F) → (⟨S200000, .i32⟩ : BufTy).Contents (Elt F)),
    StableHlo.ternary main_v88 main_v90 main_v18 main_v91 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v91 main_v92 (broadcastInDim S200000x1 ![0] bcast_S200000_S200000x1_0 : (⟨S200000, .i32⟩ : BufTy).Contents (Elt F) → (⟨S200000x1, .i32⟩ : BufTy).Contents (Elt F)),
    StableHlo.nullary main_cst_14 (constant S_ .f32 0x3F800000#32),
    StableHlo.unary main_cst_14 main_v93 (broadcastInDim S200000 ![] bcast_S_S200000 : (⟨S_, .f32⟩ : BufTy).Contents (Elt F) → (⟨S200000, .f32⟩ : BufTy).Contents (Elt F)),
    StableHlo.ternary main_v86 main_v92 main_v93 main_v94 ((fun x i u => Host.scatterAdd scatter_S50000_S200000x1_S200000_n_0_0_1 x i u) : (⟨S50000, .f32⟩ : BufTy).Contents (Elt F) → (⟨S200000x1, .i32⟩ : BufTy).Contents (Elt F) → (⟨S200000, .f32⟩ : BufTy).Contents (Elt F) → (⟨S50000, .f32⟩ : BufTy).Contents (Elt F)),
    StableHlo.nullary main_cst_15 (constant S_ .f32 0x00000000#32),
    StableHlo.unary main_cst_15 main_v95 (broadcastInDim S50000 ![] bcast_S_S50000 : (⟨S_, .f32⟩ : BufTy).Contents (Elt F) → (⟨S50000, .f32⟩ : BufTy).Contents (Elt F)),
    StableHlo.binary main_v94 main_v95 main_v96 (cmpf .ogt : (⟨S50000, .f32⟩ : BufTy).Contents (Elt F) → (⟨S50000, .f32⟩ : BufTy).Contents (Elt F) → (⟨S50000, .i1⟩ : BufTy).Contents (Elt F)),
    StableHlo.nullary main_cst_16 (constant S_ .f32 0xBF000000#32),
    StableHlo.unary main_cst_16 main_v97 (broadcastInDim S50000 ![] bcast_S_S50000 : (⟨S_, .f32⟩ : BufTy).Contents (Elt F) → (⟨S50000, .f32⟩ : BufTy).Contents (Elt F)),
    StableHlo.binary main_v94 main_v97 main_v98 (Host.powf : (⟨S50000, .f32⟩ : BufTy).Contents (Elt F) → (⟨S50000, .f32⟩ : BufTy).Contents (Elt F) → (⟨S50000, .f32⟩ : BufTy).Contents (Elt F)),
    StableHlo.nullary main_cst_17 (constant S_ .f32 0x00000000#32),
    StableHlo.TRef.unary (.of main_cst_17 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v96 : StableHlo.TRef sig ⟨S50000, .i1⟩) (.of main_v98 : StableHlo.TRef sig ⟨S50000, .f32⟩) (.of main_call0_v1 : StableHlo.TRef sig ⟨S50000, .f32⟩) (.of main_v99 : StableHlo.TRef sig ⟨S50000, .f32⟩) select,
    StableHlo.nullary main_c_18 (constantI S_ 32 0#32),
    StableHlo.unary main_c_18 main_v100 (broadcastInDim S200000 ![] bcast_S_S200000 : (⟨S_, .i32⟩ : BufTy).Contents (Elt F) → (⟨S200000, .i32⟩ : BufTy).Contents (Elt F)),
    StableHlo.binary main_v18 main_v100 main_v101 (cmpi .slt : (⟨S200000, .i32⟩ : BufTy).Contents (Elt F) → (⟨S200000, .i32⟩ : BufTy).Contents (Elt F) → (⟨S200000, .i1⟩ : BufTy).Contents (Elt F)),
    StableHlo.nullary main_c_19 (constantI S_ 32 50000#32),
    StableHlo.unary main_c_19 main_v102 (broadcastInDim S200000 ![] bcast_S_S200000 : (⟨S_, .i32⟩ : BufTy).Contents (Elt F) → (⟨S200000, .i32⟩ : BufTy).Contents (Elt F)),
    StableHlo.binary main_v18 main_v102 main_v103 (addi : (⟨S200000, .i32⟩ : BufTy).Contents (Elt F) → (⟨S200000, .i32⟩ : BufTy).Contents (Elt F) → (⟨S200000, .i32⟩ : BufTy).Contents (Elt F)),
    StableHlo.ternary main_v101 main_v103 main_v18 main_v104 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v104 main_v105 (broadcastInDim S200000x1 ![0] bcast_S200000_S200000x1_0 : (⟨S200000, .i32⟩ : BufTy).Contents (Elt F) → (⟨S200000x1, .i32⟩ : BufTy).Contents (Elt F)),
    StableHlo.binary main_v99 main_v105 main_v106 ((fun x i => Host.gather gather_S50000_S200000x1_S200000_n_0_n_n_0_1_1 x i) : (⟨S50000, .f32⟩ : BufTy).Contents (Elt F) → (⟨S200000x1, .i32⟩ : BufTy).Contents (Elt F) → (⟨S200000, .f32⟩ : BufTy).Contents (Elt F)),
    StableHlo.nullary main_c_20 (constantI S_ 32 0#32),
    StableHlo.unary main_c_20 main_v107 (broadcastInDim S200000 ![] bcast_S_S200000 : (⟨S_, .i32⟩ : BufTy).Contents (Elt F) → (⟨S200000, .i32⟩ : BufTy).Contents (Elt F)),
    StableHlo.binary main_v20 main_v107 main_v108 (cmpi .slt : (⟨S200000, .i32⟩ : BufTy).Contents (Elt F) → (⟨S200000, .i32⟩ : BufTy).Contents (Elt F) → (⟨S200000, .i1⟩ : BufTy).Contents (Elt F)),
    StableHlo.nullary main_c_21 (constantI S_ 32 50000#32),
    StableHlo.unary main_c_21 main_v109 (broadcastInDim S200000 ![] bcast_S_S200000 : (⟨S_, .i32⟩ : BufTy).Contents (Elt F) → (⟨S200000, .i32⟩ : BufTy).Contents (Elt F)),
    StableHlo.binary main_v20 main_v109 main_v110 (addi : (⟨S200000, .i32⟩ : BufTy).Contents (Elt F) → (⟨S200000, .i32⟩ : BufTy).Contents (Elt F) → (⟨S200000, .i32⟩ : BufTy).Contents (Elt F)),
    StableHlo.ternary main_v108 main_v110 main_v20 main_v111 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v111 main_v112 (broadcastInDim S200000x1 ![0] bcast_S200000_S200000x1_0 : (⟨S200000, .i32⟩ : BufTy).Contents (Elt F) → (⟨S200000x1, .i32⟩ : BufTy).Contents (Elt F)),
    StableHlo.binary main_v99 main_v112 main_v113 ((fun x i => Host.gather gather_S50000_S200000x1_S200000_n_0_n_n_0_1_1 x i) : (⟨S50000, .f32⟩ : BufTy).Contents (Elt F) → (⟨S200000x1, .i32⟩ : BufTy).Contents (Elt F) → (⟨S200000, .f32⟩ : BufTy).Contents (Elt F)),
    StableHlo.binary main_v106 main_v113 main_v114 (mulf : (⟨S200000, .f32⟩ : BufTy).Contents (Elt F) → (⟨S200000, .f32⟩ : BufTy).Contents (Elt F) → (⟨S200000, .f32⟩ : BufTy).Contents (Elt F)),
    StableHlo.unary main_v114 main_v115 (broadcastInDim S200000x1 ![0] bcast_S200000_S200000x1_0 : (⟨S200000, .f32⟩ : BufTy).Contents (Elt F) → (⟨S200000x1, .f32⟩ : BufTy).Contents (Elt F)),
    StableHlo.unary main_v115 main_v116 (broadcastInDim S200000x200 ![0, 1] bcast_S200000x1_S200000x200_0_1 : (⟨S200000x1, .f32⟩ : BufTy).Contents (Elt F) → (⟨S200000x200, .f32⟩ : BufTy).Contents (Elt F)),
    StableHlo.binary main_v85 main_v116 main_v117 (mulf : (⟨S200000x200, .f32⟩ : BufTy).Contents (Elt F) → (⟨S200000x200, .f32⟩ : BufTy).Contents (Elt F) → (⟨S200000x200, .f32⟩ : BufTy).Contents (Elt F)) ]

/-- The buffers stage F writes. -/
abbrev stF_W : List (Ref sig .tc) :=
  [main_cst_11, main_v86, main_c_12, main_v87, main_v88, main_c_13, main_v89, main_v90, main_v91, main_v92, main_cst_14, main_v93, main_v94, main_cst_15, main_v95, main_v96, main_cst_16, main_v97, main_v98, main_cst_17, main_call0_v0, main_call0_v1, main_v99, main_c_18, main_v100, main_v101, main_c_19, main_v102, main_v103, main_v104, main_v105, main_v106, main_c_20, main_v107, main_v108, main_c_21, main_v109, main_v110, main_v111, main_v112, main_v113, main_v114, main_v115, main_v116, main_v117]

theorem stF_writes : (stF : List (HloOp τ sig (Elt F))).Forall fun op =>
    op.writes ⊆ (stF_W.map (Proc.devRef (τ := τ) .tc)).toFinset := by
  simp only [stF, List.Forall, nullary_writes, unary_writes, binary_writes, ternary_writes, reshape_writes,
    Finset.singleton_subset_iff, List.mem_toFinset]
  repeat' apply And.intro
  all_goals exact List.mem_map_of_mem (by decide)

/-- A buffer stage F does not write keeps its contents through it. -/
theorem stF_keep (V : Valuation τ sig (Elt F)) {r : Ref sig .tc} (h : r ∉ stF_W) :
    after stF V (no_index (Proc.devRef .tc r)) = V (Proc.devRef .tc r) :=
  after_of_writes_sub stF V stF_writes h

set_option maxHeartbeats 2000000 in
/-- Each edge's message times its normalisation. -/
theorem stF_v117 (V : Valuation τ sig (Elt F)) :
    after stF V (no_index (Proc.devRef .tc main_v117)) = Cert.Stage.scale (V (Proc.devRef .tc main_v85)) (Cert.Stage.norm (V (Proc.devRef .tc main_v18)) (V (Proc.devRef .tc main_v20))) := by
  simp only [stF]; after_results_simp; rfl

set_option maxHeartbeats 4000000 in
/-- Stage G: the operations computing the first direction's aggregation. -/
def stG : List (HloOp τ sig (Elt F)) :=
  [ StableHlo.nullary main_cst_22 (constant S_ .f32 0x00000000#32),
    StableHlo.unary main_cst_22 main_v118 (broadcastInDim S50000x200 ![] bcast_S_S50000x200 : (⟨S_, .f32⟩ : BufTy).Contents (Elt F) → (⟨S50000x200, .f32⟩ : BufTy).Contents (Elt F)),
    StableHlo.nullary main_c_23 (constantI S_ 32 0#32),
    StableHlo.unary main_c_23 main_v119 (broadcastInDim S200000 ![] bcast_S_S200000 : (⟨S_, .i32⟩ : BufTy).Contents (Elt F) → (⟨S200000, .i32⟩ : BufTy).Contents (Elt F)),
    StableHlo.binary main_v18 main_v119 main_v120 (cmpi .slt : (⟨S200000, .i32⟩ : BufTy).Contents (Elt F) → (⟨S200000, .i32⟩ : BufTy).Contents (Elt F) → (⟨S200000, .i1⟩ : BufTy).Contents (Elt F)),
    StableHlo.nullary main_c_24 (constantI S_ 32 50000#32),
    StableHlo.unary main_c_24 main_v121 (broadcastInDim S200000 ![] bcast_S_S200000 : (⟨S_, .i32⟩ : BufTy).Contents (Elt F) → (⟨S200000, .i32⟩ : BufTy).Contents (Elt F)),
    StableHlo.binary main_v18 main_v121 main_v122 (addi : (⟨S200000, .i32⟩ : BufTy).Contents (Elt F) → (⟨S200000, .i32⟩ : BufTy).Contents (Elt F) → (⟨S200000, .i32⟩ : BufTy).Contents (Elt F)),
    StableHlo.ternary main_v120 main_v122 main_v18 main_v123 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v123 main_v124 (broadcastInDim S200000x1 ![0] bcast_S200000_S200000x1_0 : (⟨S200000, .i32⟩ : BufTy).Contents (Elt F) → (⟨S200000x1, .i32⟩ : BufTy).Contents (Elt F)),
    StableHlo.ternary main_v118 main_v124 main_v117 main_v125 ((fun x i u => Host.scatterAdd scatter_S50000x200_S200000x1_S200000x200_1_0_0_1 x i u) : (⟨S50000x200, .f32⟩ : BufTy).Contents (Elt F) → (⟨S200000x1, .i32⟩ : BufTy).Contents (Elt F) → (⟨S200000x200, .f32⟩ : BufTy).Contents (Elt F) → (⟨S50000x200, .f32⟩ : BufTy).Contents (Elt F)) ]

/-- The buffers stage G writes. -/
abbrev stG_W : List (Ref sig .tc) :=
  [main_cst_22, main_v118, main_c_23, main_v119, main_v120, main_c_24, main_v121, main_v122, main_v123, main_v124, main_v125]

theorem stG_writes : (stG : List (HloOp τ sig (Elt F))).Forall fun op =>
    op.writes ⊆ (stG_W.map (Proc.devRef (τ := τ) .tc)).toFinset := by
  simp only [stG, List.Forall, nullary_writes, unary_writes, binary_writes, ternary_writes, reshape_writes,
    Finset.singleton_subset_iff, List.mem_toFinset]
  repeat' apply And.intro
  all_goals exact List.mem_map_of_mem (by decide)

/-- A buffer stage G does not write keeps its contents through it. -/
theorem stG_keep (V : Valuation τ sig (Elt F)) {r : Ref sig .tc} (h : r ∉ stG_W) :
    after stG V (no_index (Proc.devRef .tc r)) = V (Proc.devRef .tc r) :=
  after_of_writes_sub stG V stG_writes h

set_option maxHeartbeats 1100000 in
/-- The messages summed per target node. -/
theorem stG_v125 (V : Valuation τ sig (Elt F)) :
    after stG V (no_index (Proc.devRef .tc main_v125)) = Cert.Stage.aggr (V (Proc.devRef .tc main_v18)) (V (Proc.devRef .tc main_v117)) := by
  simp only [stG]; after_results_simp; rfl

set_option maxHeartbeats 4000000 in
/-- Stage H: the operations computing the second direction's target and source nodes. -/
def stH : List (HloOp τ sig (Elt F)) :=
  [ StableHlo.unary main_v2 main_v126 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v126 main_v127 rfl shapeCasts_S1x200000_S200000,
    StableHlo.unary main_v2 main_v128 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v128 main_v129 rfl shapeCasts_S1x200000_S200000 ]

/-- The buffers stage H writes. -/
abbrev stH_W : List (Ref sig .tc) :=
  [main_v126, main_v127, main_v128, main_v129]

theorem stH_writes : (stH : List (HloOp τ sig (Elt F))).Forall fun op =>
    op.writes ⊆ (stH_W.map (Proc.devRef (τ := τ) .tc)).toFinset := by
  simp only [stH, List.Forall, nullary_writes, unary_writes, binary_writes, ternary_writes, reshape_writes,
    Finset.singleton_subset_iff, List.mem_toFinset]
  repeat' apply And.intro
  all_goals exact List.mem_map_of_mem (by decide)

/-- A buffer stage H does not write keeps its contents through it. -/
theorem stH_keep (V : Valuation τ sig (Elt F)) {r : Ref sig .tc} (h : r ∉ stH_W) :
    after stH V (no_index (Proc.devRef .tc r)) = V (Proc.devRef .tc r) :=
  after_of_writes_sub stH V stH_writes h

set_option maxHeartbeats 400000 in
/-- The second direction's target nodes. -/
theorem stH_v127 (V : Valuation τ sig (Elt F)) :
    after stH V (no_index (Proc.devRef .tc main_v127)) = Cert.Stage.edgeRow (V (Proc.devRef .tc main_v2)) := by
  simp only [stH]; after_results_simp; rfl

set_option maxHeartbeats 400000 in
/-- The second direction's source nodes. -/
theorem stH_v129 (V : Valuation τ sig (Elt F)) :
    after stH V (no_index (Proc.devRef .tc main_v129)) = Cert.Stage.edgeCol (V (Proc.devRef .tc main_v2)) := by
  simp only [stH]; after_results_simp; rfl

end Cert.ReferenceIdeal.RefRun

end
-- ==== Proof.RefValueIK.lean ====
/-
  The reference's run, stages I, J and K of the second direction: the two gathers per edge, the qualifier embeddings, and
  their sum per edge — the same stage functions as the first direction's, at the second direction's buffers. Each result buffer
  holds the stage function of the buffers the stage reads; every buffer a stage does not write is kept.
-/
import proofs.«143578_j52467320487979_1_alg».proof.Proof.Stages
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Stage I: the operations computing the second direction's two gathers. -/
def stI : List (HloOp τ sig (Elt F)) :=
  [ StableHlo.nullary main_c_25 (constantI S_ 32 0#32),
    StableHlo.unary main_c_25 main_v130 (broadcastInDim S200000 ![] bcast_S_S200000 : (⟨S_, .i32⟩ : BufTy).Contents (Elt F) → (⟨S200000, .i32⟩ : BufTy).Contents (Elt F)),
    StableHlo.binary main_v129 main_v130 main_v131 (cmpi .slt : (⟨S200000, .i32⟩ : BufTy).Contents (Elt F) → (⟨S200000, .i32⟩ : BufTy).Contents (Elt F) → (⟨S200000, .i1⟩ : BufTy).Contents (Elt F)),
    StableHlo.nullary main_c_26 (constantI S_ 32 50000#32),
    StableHlo.unary main_c_26 main_v132 (broadcastInDim S200000 ![] bcast_S_S200000 : (⟨S_, .i32⟩ : BufTy).Contents (Elt F) → (⟨S200000, .i32⟩ : BufTy).Contents (Elt F)),
    StableHlo.binary main_v129 main_v132 main_v133 (addi : (⟨S200000, .i32⟩ : BufTy).Contents (Elt F) → (⟨S200000, .i32⟩ : BufTy).Contents (Elt F) → (⟨S200000, .i32⟩ : BufTy).Contents (Elt F)),
    StableHlo.ternary main_v131 main_v133 main_v129 main_v134 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v134 main_v135 (broadcastInDim S200000x1 ![0] bcast_S200000_S200000x1_0 : (⟨S200000, .i32⟩ : BufTy).Contents (Elt F) → (⟨S200000x1, .i32⟩ : BufTy).Contents (Elt F)),
    StableHlo.binary main_arg0 main_v135 main_v136 ((fun x i => Host.gather gather_S50000x200_S200000x1_S200000x200_1_0_n_n_0_1_1200 x i) : (⟨S50000x200, .f32⟩ : BufTy).Contents (Elt F) → (⟨S200000x1, .i32⟩ : BufTy).Contents (Elt F) → (⟨S200000x200, .f32⟩ : BufTy).Contents (Elt F)),
    StableHlo.nullary main_c_27 (constantI S_ 32 0#32),
    StableHlo.unary main_c_27 main_v137 (broadcastInDim S200000 ![] bcast_S_S200000 : (⟨S_, .i32⟩ : BufTy).Contents (Elt F) → (⟨S200000, .i32⟩ : BufTy).Contents (Elt F)),
    StableHlo.binary main_v4 main_v137 main_v138 (cmpi .slt : (⟨S200000, .i32⟩ : BufTy).Contents (Elt F) → (⟨S200000, .i32⟩ : BufTy).Contents (Elt F) → (⟨S200000, .i1⟩ : BufTy).Contents (Elt F)),
    StableHlo.nullary main_c_28 (constantI S_ 32 401#32),
    StableHlo.unary main_c_28 main_v139 (broadcastInDim S200000 ![] bcast_S_S200000 : (⟨S_, .i32⟩ : BufTy).Contents (Elt F) → (⟨S200000, .i32⟩ : BufTy).Contents (Elt F)),
    StableHlo.binary main_v4 main_v139 main_v140 (addi : (⟨S200000, .i32⟩ : BufTy).Contents (Elt F) → (⟨S200000, .i32⟩ : BufTy).Contents (Elt F) → (⟨S200000, .i32⟩ : BufTy).Contents (Elt F)),
    StableHlo.ternary main_v138 main_v140 main_v4 main_v141 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v141 main_v142 (broadcastInDim S200000x1 ![0] bcast_S200000_S200000x1_0 : (⟨S200000, .i32⟩ : BufTy).Contents (Elt F) → (⟨S200000x1, .i32⟩ : BufTy).Contents (Elt F)),
    StableHlo.binary main_v0 main_v142 main_v143 ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)) ]

/-- The buffers stage I writes. -/
abbrev stI_W : List (Ref sig .tc) :=
  [main_c_25, main_v130, main_v131, main_c_26, main_v132, main_v133, main_v134, main_v135, main_v136, main_c_27, main_v137, main_v138, main_c_28, main_v139, main_v140, main_v141, main_v142, main_v143]

theorem stI_writes : (stI : List (HloOp τ sig (Elt F))).Forall fun op =>
    op.writes ⊆ (stI_W.map (Proc.devRef (τ := τ) .tc)).toFinset := by
  simp only [stI, List.Forall, nullary_writes, unary_writes, binary_writes, ternary_writes, reshape_writes,
    Finset.singleton_subset_iff, List.mem_toFinset]
  repeat' apply And.intro
  all_goals exact List.mem_map_of_mem (by decide)

/-- A buffer stage I does not write keeps its contents through it. -/
theorem stI_keep (V : Valuation τ sig (Elt F)) {r : Ref sig .tc} (h : r ∉ stI_W) :
    after stI V (no_index (Proc.devRef .tc r)) = V (Proc.devRef .tc r) :=
  after_of_writes_sub stI V stI_writes h

set_option maxHeartbeats 1800000 in
/-- Each edge's source row of the node features. -/
theorem stI_v136 (V : Valuation τ sig (Elt F)) :
    after stI V (no_index (Proc.devRef .tc main_v136)) = Cert.Stage.gatherEnt (V (Proc.devRef .tc main_arg0)) (V (Proc.devRef .tc main_v129)) := by
  simp only [stI]; after_results_simp; rfl

set_option maxHeartbeats 1800000 in
/-- Each edge's row of the relation table. -/
theorem stI_v143 (V : Valuation τ sig (Elt F)) :
    after stI V (no_index (Proc.devRef .tc main_v143)) = Cert.Stage.gatherRel (V (Proc.devRef .tc main_v0)) (V (Proc.devRef .tc main_v4)) := by
  simp only [stI]; after_results_simp; rfl

set_option maxHeartbeats 4000000 in
/-- Stage J: the operations computing the second direction's qualifier embeddings. -/
def stJ : List (HloOp τ sig (Elt F)) :=
  [ StableHlo.nullary main_c_29 (constantI S_ 32 0#32),
    StableHlo.unary main_c_29 main_v144 (broadcastInDim S100000 ![] bcast_S_S100000 : (⟨S_, .i32⟩ : BufTy).Contents (Elt F) → (⟨S100000, .i32⟩ : BufTy).Contents (Elt F)),
    StableHlo.binary main_v12 main_v144 main_v145 (cmpi .slt : (⟨S100000, .i32⟩ : BufTy).Contents (Elt F) → (⟨S100000, .i32⟩ : BufTy).Contents (Elt F) → (⟨S100000, .i1⟩ : BufTy).Contents (Elt F)),
    StableHlo.nullary main_c_30 (constantI S_ 32 50000#32),
    StableHlo.unary main_c_30 main_v146 (broadcastInDim S100000 ![] bcast_S_S100000 : (⟨S_, .i32⟩ : BufTy).Contents (Elt F) → (⟨S100000, .i32⟩ : BufTy).Contents (Elt F)),
    StableHlo.binary main_v12 main_v146 main_v147 (addi : (⟨S100000, .i32⟩ : BufTy).Contents (Elt F) → (⟨S100000, .i32⟩ : BufTy).Contents (Elt F) → (⟨S100000, .i32⟩ : BufTy).Contents (Elt F)),
    StableHlo.ternary main_v145 main_v147 main_v12 main_v148 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v148 main_v149 (broadcastInDim S100000x1 ![0] bcast_S100000_S100000x1_0 : (⟨S100000, .i32⟩ : BufTy).Contents (Elt F) → (⟨S100000x1, .i32⟩ : BufTy).Contents (Elt F)),
    StableHlo.binary main_arg0 main_v149 main_v150 ((fun x i => Host.gather gather_S50000x200_S100000x1_S100000x200_1_0_n_n_0_1_1200 x i) : (⟨S50000x200, .f32⟩ : BufTy).Contents (Elt F) → (⟨S100000x1, .i32⟩ : BufTy).Contents (Elt F) → (⟨S100000x200, .f32⟩ : BufTy).Contents (Elt F)),
    StableHlo.nullary main_c_31 (constantI S_ 32 0#32),
    StableHlo.unary main_c_31 main_v151 (broadcastInDim S100000 ![] bcast_S_S100000 : (⟨S_, .i32⟩ : BufTy).Contents (Elt F) → (⟨S100000, .i32⟩ : BufTy).Contents (Elt F)),
    StableHlo.binary main_v8 main_v151 main_v152 (cmpi .slt : (⟨S100000, .i32⟩ : BufTy).Contents (Elt F) → (⟨S100000, .i32⟩ : BufTy).Contents (Elt F) → (⟨S100000, .i1⟩ : BufTy).Contents (Elt F)),
    StableHlo.nullary main_c_32 (constantI S_ 32 401#32),
    StableHlo.unary main_c_32 main_v153 (broadcastInDim S100000 ![] bcast_S_S100000 : (⟨S_, .i32⟩ : BufTy).Contents (Elt F) → (⟨S100000, .i32⟩ : BufTy).Contents (Elt F)),
    StableHlo.binary main_v8 main_v153 main_v154 (addi : (⟨S100000, .i32⟩ : BufTy).Contents (Elt F) → (⟨S100000, .i32⟩ : BufTy).Contents (Elt F) → (⟨S100000, .i32⟩ : BufTy).Contents (Elt F)),
    StableHlo.ternary main_v152 main_v154 main_v8 main_v155 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v155 main_v156 (broadcastInDim S100000x1 ![0] bcast_S100000_S100000x1_0 : (⟨S100000, .i32⟩ : BufTy).Contents (Elt F) → (⟨S100000x1, .i32⟩ : BufTy).Contents (Elt F)),
    StableHlo.binary main_v0 main_v156 main_v157 ((fun x i => Host.gather gather_S401x200_S100000x1_S100000x200_1_0_n_n_0_1_1200 x i) : (⟨S401x200, .f32⟩ : BufTy).Contents (Elt F) → (⟨S100000x1, .i32⟩ : BufTy).Contents (Elt F) → (⟨S100000x200, .f32⟩ : BufTy).Contents (Elt F)),
    StableHlo.unary main_v150 main_v158 ((extractStridedSlice S100000x100 ![0, 0] · slices_S100000x200_S100000x100_0_0) : (⟨S100000x200, .f32⟩ : BufTy).Contents (Elt F) → (⟨S100000x100, .f32⟩ : BufTy).Contents (Elt F)),
    StableHlo.unary main_v150 main_v159 ((extractStridedSlice S100000x100 ![0, 100] · slices_S100000x200_S100000x100_0_100) : (⟨S100000x200, .f32⟩ : BufTy).Contents (Elt F) → (⟨S100000x100, .f32⟩ : BufTy).Contents (Elt F)),
    StableHlo.unary main_v157 main_v160 ((extractStridedSlice S100000x100 ![0, 0] · slices_S100000x200_S100000x100_0_0) : (⟨S100000x200, .f32⟩ : BufTy).Contents (Elt F) → (⟨S100000x100, .f32⟩ : BufTy).Contents (Elt F)),
    StableHlo.unary main_v157 main_v161 ((extractStridedSlice S100000x100 ![0, 100] · slices_S100000x200_S100000x100_0_100) : (⟨S100000x200, .f32⟩ : BufTy).Contents (Elt F) → (⟨S100000x100, .f32⟩ : BufTy).Contents (Elt F)),
    StableHlo.binary main_v158 main_v160 main_v162 (mulf : (⟨S100000x100, .f32⟩ : BufTy).Contents (Elt F) → (⟨S100000x100, .f32⟩ : BufTy).Contents (Elt F) → (⟨S100000x100, .f32⟩ : BufTy).Contents (Elt F)),
    StableHlo.binary main_v159 main_v161 main_v163 (mulf : (⟨S100000x100, .f32⟩ : BufTy).Contents (Elt F) → (⟨S100000x100, .f32⟩ : BufTy).Contents (Elt F) → (⟨S100000x100, .f32⟩ : BufTy).Contents (Elt F)),
    StableHlo.binary main_v162 main_v163 main_v164 (subf : (⟨S100000x100, .f32⟩ : BufTy).Contents (Elt F) → (⟨S100000x100, .f32⟩ : BufTy).Contents (Elt F) → (⟨S100000x100, .f32⟩ : BufTy).Contents (Elt F)),
    StableHlo.binary main_v158 main_v161 main_v165 (mulf : (⟨S100000x100, .f32⟩ : BufTy).Contents (Elt F) → (⟨S100000x100, .f32⟩ : BufTy).Contents (Elt F) → (⟨S100000x100, .f32⟩ : BufTy).Contents (Elt F)),
    StableHlo.binary main_v159 main_v160 main_v166 (mulf : (⟨S100000x100, .f32⟩ : BufTy).Contents (Elt F) → (⟨S100000x100, .f32⟩ : BufTy).Contents (Elt F) → (⟨S100000x100, .f32⟩ : BufTy).Contents (Elt F)),
    StableHlo.binary main_v165 main_v166 main_v167 (addf : (⟨S100000x100, .f32⟩ : BufTy).Contents (Elt F) → (⟨S100000x100, .f32⟩ : BufTy).Contents (Elt F) → (⟨S100000x100, .f32⟩ : BufTy).Contents (Elt F)),
    StableHlo.binary main_v164 main_v167 main_v168 ((fun a b => concatenate S100000x200 1 [⟨S100000x100, a⟩, ⟨S100000x100, b⟩] concatenates_S100000x100_S100000x100_S100000x200_d1) : (⟨S100000x100, .f32⟩ : BufTy).Contents (Elt F) → (⟨S100000x100, .f32⟩ : BufTy).Contents (Elt F) → (⟨S100000x200, .f32⟩ : BufTy).Contents (Elt F)) ]

/-- The buffers stage J writes. -/
abbrev stJ_W : List (Ref sig .tc) :=
  [main_c_29, main_v144, main_v145, main_c_30, main_v146, main_v147, main_v148, main_v149, main_v150, main_c_31, main_v151, main_v152, main_c_32, main_v153, main_v154, main_v155, main_v156, main_v157, main_v158, main_v159, main_v160, main_v161, main_v162, main_v163, main_v164, main_v165, main_v166, main_v167, main_v168]

theorem stJ_writes : (stJ : List (HloOp τ sig (Elt F))).Forall fun op =>
    op.writes ⊆ (stJ_W.map (Proc.devRef (τ := τ) .tc)).toFinset := by
  simp only [stJ, List.Forall, nullary_writes, unary_writes, binary_writes, ternary_writes, reshape_writes,
    Finset.singleton_subset_iff, List.mem_toFinset]
  repeat' apply And.intro
  all_goals exact List.mem_map_of_mem (by decide)

/-- A buffer stage J does not write keeps its contents through it. -/
theorem stJ_keep (V : Valuation τ sig (Elt F)) {r : Ref sig .tc} (h : r ∉ stJ_W) :
    after stJ V (no_index (Proc.devRef .tc r)) = V (Proc.devRef .tc r) :=
  after_of_writes_sub stJ V stJ_writes h

set_option maxHeartbeats 2000000 in
/-- The qualifier embeddings. -/
theorem stJ_v168 (V : Valuation τ sig (Elt F)) :
    after stJ V (no_index (Proc.devRef .tc main_v168)) = Cert.Stage.qEmb (V (Proc.devRef .tc main_arg0)) (V (Proc.devRef .tc main_v0)) (V (Proc.devRef .tc main_v12)) (V (Proc.devRef .tc main_v8)) := by
  simp only [stJ]; after_results_simp; rfl

set_option maxHeartbeats 4000000 in
/-- Stage K: the operations computing the second direction's coalesced qualifiers. -/
def stK : List (HloOp τ sig (Elt F)) :=
  [ StableHlo.nullary main_cst_33 (constant S_ .f32 0x00000000#32),
    StableHlo.unary main_cst_33 main_v169 (broadcastInDim S200000x200 ![] bcast_S_S200000x200 : (⟨S_, .f32⟩ : BufTy).Contents (Elt F) → (⟨S200000x200, .f32⟩ : BufTy).Contents (Elt F)),
    StableHlo.nullary main_c_34 (constantI S_ 32 0#32),
    StableHlo.unary main_c_34 main_v170 (broadcastInDim S100000 ![] bcast_S_S100000 : (⟨S_, .i32⟩ : BufTy).Contents (Elt F) → (⟨S100000, .i32⟩ : BufTy).Contents (Elt F)),
    StableHlo.binary main_v16 main_v170 main_v171 (cmpi .slt : (⟨S100000, .i32⟩ : BufTy).Contents (Elt F) → (⟨S100000, .i32⟩ : BufTy).Contents (Elt F) → (⟨S100000, .i1⟩ : BufTy).Contents (Elt F)),
    StableHlo.nullary main_c_35 (constantI S_ 32 200000#32),
    StableHlo.unary main_c_35 main_v172 (broadcastInDim S100000 ![] bcast_S_S100000 : (⟨S_, .i32⟩ : BufTy).Contents (Elt F) → (⟨S100000, .i32⟩ : BufTy).Contents (Elt F)),
    StableHlo.binary main_v16 main_v172 main_v173 (addi : (⟨S100000, .i32⟩ : BufTy).Contents (Elt F) → (⟨S100000, .i32⟩ : BufTy).Contents (Elt F) → (⟨S100000, .i32⟩ : BufTy).Contents (Elt F)),
    StableHlo.ternary main_v171 main_v173 main_v16 main_v174 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v174 main_v175 (broadcastInDim S100000x1 ![0] bcast_S100000_S100000x1_0 : (⟨S100000, .i32⟩ : BufTy).Contents (Elt F) → (⟨S100000x1, .i32⟩ : BufTy).Contents (Elt F)),
    StableHlo.ternary main_v169 main_v175 main_v168 main_v176 ((fun x i u => Host.scatterAdd scatter_S200000x200_S100000x1_S100000x200_1_0_0_1 x i u) : (⟨S200000x200, .f32⟩ : BufTy).Contents (Elt F) → (⟨S100000x1, .i32⟩ : BufTy).Contents (Elt F) → (⟨S100000x200, .f32⟩ : BufTy).Contents (Elt F) → (⟨S200000x200, .f32⟩ : BufTy).Contents (Elt F)) ]

/-- The buffers stage K writes. -/
abbrev stK_W : List (Ref sig .tc) :=
  [main_cst_33, main_v169, main_c_34, main_v170, main_v171, main_c_35, main_v172, main_v173, main_v174, main_v175, main_v176]

theorem stK_writes : (stK : List (HloOp τ sig (Elt F))).Forall fun op =>
    op.writes ⊆ (stK_W.map (Proc.devRef (τ := τ) .tc)).toFinset := by
  simp only [stK, List.Forall, nullary_writes, unary_writes, binary_writes, ternary_writes, reshape_writes,
    Finset.singleton_subset_iff, List.mem_toFinset]
  repeat' apply And.intro
  all_goals exact List.mem_map_of_mem (by decide)

/-- A buffer stage K does not write keeps its contents through it. -/
theorem stK_keep (V : Valuation τ sig (Elt F)) {r : Ref sig .tc} (h : r ∉ stK_W) :
    after stK V (no_index (Proc.devRef .tc r)) = V (Proc.devRef .tc r) :=
  after_of_writes_sub stK V stK_writes h

set_option maxHeartbeats 1100000 in
/-- The qualifier embeddings summed per edge. -/
theorem stK_v176 (V : Valuation τ sig (Elt F)) :
    after stK V (no_index (Proc.devRef .tc main_v176)) = Cert.Stage.coalesce (V (Proc.devRef .tc main_v16)) (V (Proc.devRef .tc main_v168)) := by
  simp only [stK]; after_results_simp; rfl

end Cert.ReferenceIdeal.RefRun

end
-- ==== Proof.RefValueLN.lean ====
/-
  The reference's run, stages L, M and N of the second direction: each edge's message before normalisation, the degree
  normalisation and the messages scaled by it, and their sum per target node — the same stage functions as the first
  direction's, at the second direction's buffers. Each result buffer holds the stage function of the buffers the stage reads;
  every buffer a stage does not write is kept.
-/
import proofs.«143578_j52467320487979_1_alg».proof.Proof.Stages
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Stage L: the operations computing the second direction's messages before normalisation. -/
def stL : List (HloOp τ sig (Elt F)) :=
  [ StableHlo.nullary main_cst_36 (constant S_ .f32 0x3F4CCCCD#32),
    StableHlo.unary main_cst_36 main_v177 (broadcastInDim S200000x200 ![] bcast_S_S200000x200 : (⟨S_, .f32⟩ : BufTy).Contents (Elt F) → (⟨S200000x200, .f32⟩ : BufTy).Contents (Elt F)),
    StableHlo.binary main_v177 main_v143 main_v178 (mulf : (⟨S200000x200, .f32⟩ : BufTy).Contents (Elt F) → (⟨S200000x200, .f32⟩ : BufTy).Contents (Elt F) → (⟨S200000x200, .f32⟩ : BufTy).Contents (Elt F)),
    StableHlo.binary main_v176 main_arg9 main_v179 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    StableHlo.nullary main_cst_37 (constant S_ .f32 0x3E4CCCCD#32),
    StableHlo.unary main_cst_37 main_v180 (broadcastInDim S200000x200 ![] bcast_S_S200000x200 : (⟨S_, .f32⟩ : BufTy).Contents (Elt F) → (⟨S200000x200, .f32⟩ : BufTy).Contents (Elt F)),
    StableHlo.binary main_v180 main_v179 main_v181 (mulf : (⟨S200000x200, .f32⟩ : BufTy).Contents (Elt F) → (⟨S200000x200, .f32⟩ : BufTy).Contents (Elt F) → (⟨S200000x200, .f32⟩ : BufTy).Contents (Elt F)),
    StableHlo.binary main_v178 main_v181 main_v182 (addf : (⟨S200000x200, .f32⟩ : BufTy).Contents (Elt F) → (⟨S200000x200, .f32⟩ : BufTy).Contents (Elt F) → (⟨S200000x200, .f32⟩ : BufTy).Contents (Elt F)),
    StableHlo.unary main_v136 main_v183 ((extractStridedSlice S200000x100 ![0, 0] · slices_S200000x200_S200000x100_0_0) : (⟨S200000x200, .f32⟩ : BufTy).Contents (Elt F) → (⟨S200000x100, .f32⟩ : BufTy).Contents (Elt F)),
    StableHlo.unary main_v136 main_v184 ((extractStridedSlice S200000x100 ![0, 100] · slices_S200000x200_S200000x100_0_100) : (⟨S200000x200, .f32⟩ : BufTy).Contents (Elt F) → (⟨S200000x100, .f32⟩ : BufTy).Contents (Elt F)),
    StableHlo.unary main_v182 main_v185 ((extractStridedSlice S200000x100 ![0, 0] · slices_S200000x200_S200000x100_0_0) : (⟨S200000x200, .f32⟩ : BufTy).Contents (Elt F) → (⟨S200000x100, .f32⟩ : BufTy).Contents (Elt F)),
    StableHlo.unary main_v182 main_v186 ((extractStridedSlice S200000x100 ![0, 100] · slices_S200000x200_S200000x100_0_100) : (⟨S200000x200, .f32⟩ : BufTy).Contents (Elt F) → (⟨S200000x100, .f32⟩ : BufTy).Contents (Elt F)),
    StableHlo.binary main_v183 main_v185 main_v187 (mulf : (⟨S200000x100, .f32⟩ : BufTy).Contents (Elt F) → (⟨S200000x100, .f32⟩ : BufTy).Contents (Elt F) → (⟨S200000x100, .f32⟩ : BufTy).Contents (Elt F)),
    StableHlo.binary main_v184 main_v186 main_v188 (mulf : (⟨S200000x100, .f32⟩ : BufTy).Contents (Elt F) → (⟨S200000x100, .f32⟩ : BufTy).Contents (Elt F) → (⟨S200000x100, .f32⟩ : BufTy).Contents (Elt F)),
    StableHlo.binary main_v187 main_v188 main_v189 (subf : (⟨S200000x100, .f32⟩ : BufTy).Contents (Elt F) → (⟨S200000x100, .f32⟩ : BufTy).Contents (Elt F) → (⟨S200000x100, .f32⟩ : BufTy).Contents (Elt F)),
    StableHlo.binary main_v183 main_v186 main_v190 (mulf : (⟨S200000x100, .f32⟩ : BufTy).Contents (Elt F) → (⟨S200000x100, .f32⟩ : BufTy).Contents (Elt F) → (⟨S200000x100, .f32⟩ : BufTy).Contents (Elt F)),
    StableHlo.binary main_v184 main_v185 main_v191 (mulf : (⟨S200000x100, .f32⟩ : BufTy).Contents (Elt F) → (⟨S200000x100, .f32⟩ : BufTy).Contents (Elt F) → (⟨S200000x100, .f32⟩ : BufTy).Contents (Elt F)),
    StableHlo.binary main_v190 main_v191 main_v192 (addf : (⟨S200000x100, .f32⟩ : BufTy).Contents (Elt F) → (⟨S200000x100, .f32⟩ : BufTy).Contents (Elt F) → (⟨S200000x100, .f32⟩ : BufTy).Contents (Elt F)),
    StableHlo.binary main_v189 main_v192 main_v193 ((fun a b => concatenate S200000x200 1 [⟨S200000x100, a⟩, ⟨S200000x100, b⟩] concatenates_S200000x100_S200000x100_S200000x200_d1) : (⟨S200000x100, .f32⟩ : BufTy).Contents (Elt F) → (⟨S200000x100, .f32⟩ : BufTy).Contents (Elt F) → (⟨S200000x200, .f32⟩ : BufTy).Contents (Elt F)),
    StableHlo.binary main_v193 main_arg6 main_v194 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)) ]

/-- The buffers stage L writes. -/
abbrev stL_W : List (Ref sig .tc) :=
  [main_cst_36, main_v177, main_v178, main_v179, main_cst_37, main_v180, main_v181, main_v182, main_v183, main_v184, main_v185, main_v186, main_v187, main_v188, main_v189, main_v190, main_v191, main_v192, main_v193, main_v194]

theorem stL_writes : (stL : List (HloOp τ sig (Elt F))).Forall fun op =>
    op.writes ⊆ (stL_W.map (Proc.devRef (τ := τ) .tc)).toFinset := by
  simp only [stL, List.Forall, nullary_writes, unary_writes, binary_writes, ternary_writes, reshape_writes,
    Finset.singleton_subset_iff, List.mem_toFinset]
  repeat' apply And.intro
  all_goals exact List.mem_map_of_mem (by decide)

/-- A buffer stage L does not write keeps its contents through it. -/
theorem stL_keep (V : Valuation τ sig (Elt F)) {r : Ref sig .tc} (h : r ∉ stL_W) :
    after stL V (no_index (Proc.devRef .tc r)) = V (Proc.devRef .tc r) :=
  after_of_writes_sub stL V stL_writes h

set_option maxHeartbeats 2000000 in
/-- Each edge's message before normalisation. -/
theorem stL_v194 (V : Valuation τ sig (Elt F)) :
    after stL V (no_index (Proc.devRef .tc main_v194)) = Cert.Stage.msgPre (V (Proc.devRef .tc main_v143)) (V (Proc.devRef .tc main_v176)) (V (Proc.devRef .tc main_arg9)) (V (Proc.devRef .tc main_v136)) (V (Proc.devRef .tc main_arg6)) := by
  simp only [stL]; after_results_simp; rfl

set_option maxHeartbeats 4000000 in
/-- Stage M: the operations computing the second direction's normalised messages. -/
def stM : List (HloOp τ sig (Elt F)) :=
  [ StableHlo.nullary main_cst_38 (constant S_ .f32 0x00000000#32),
    StableHlo.unary main_cst_38 main_v195 (broadcastInDim S50000 ![] bcast_S_S50000 : (⟨S_, .f32⟩ : BufTy).Contents (Elt F) → (⟨S50000, .f32⟩ : BufTy).Contents (Elt F)),
    StableHlo.nullary main_c_39 (constantI S_ 32 0#32),
    StableHlo.unary main_c_39 main_v196 (broadcastInDim S200000 ![] bcast_S_S200000 : (⟨S_, .i32⟩ : BufTy).Contents (Elt F) → (⟨S200000, .i32⟩ : BufTy).Contents (Elt F)),
    StableHlo.binary main_v127 main_v196 main_v197 (cmpi .slt : (⟨S200000, .i32⟩ : BufTy).Contents (Elt F) → (⟨S200000, .i32⟩ : BufTy).Contents (Elt F) → (⟨S200000, .i1⟩ : BufTy).Contents (Elt F)),
    StableHlo.nullary main_c_40 (constantI S_ 32 50000#32),
    StableHlo.unary main_c_40 main_v198 (broadcastInDim S200000 ![] bcast_S_S200000 : (⟨S_, .i32⟩ : BufTy).Contents (Elt F) → (⟨S200000, .i32⟩ : BufTy).Contents (Elt F)),
    StableHlo.binary main_v127 main_v198 main_v199 (addi : (⟨S200000, .i32⟩ : BufTy).Contents (Elt F) → (⟨S200000, .i32⟩ : BufTy).Contents (Elt F) → (⟨S200000, .i32⟩ : BufTy).Contents (Elt F)),
    StableHlo.ternary main_v197 main_v199 main_v127 main_v200 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v200 main_v201 (broadcastInDim S200000x1 ![0] bcast_S200000_S200000x1_0 : (⟨S200000, .i32⟩ : BufTy).Contents (Elt F) → (⟨S200000x1, .i32⟩ : BufTy).Contents (Elt F)),
    StableHlo.nullary main_cst_41 (constant S_ .f32 0x3F800000#32),
    StableHlo.unary main_cst_41 main_v202 (broadcastInDim S200000 ![] bcast_S_S200000 : (⟨S_, .f32⟩ : BufTy).Contents (Elt F) → (⟨S200000, .f32⟩ : BufTy).Contents (Elt F)),
    StableHlo.ternary main_v195 main_v201 main_v202 main_v203 ((fun x i u => Host.scatterAdd scatter_S50000_S200000x1_S200000_n_0_0_1 x i u) : (⟨S50000, .f32⟩ : BufTy).Contents (Elt F) → (⟨S200000x1, .i32⟩ : BufTy).Contents (Elt F) → (⟨S200000, .f32⟩ : BufTy).Contents (Elt F) → (⟨S50000, .f32⟩ : BufTy).Contents (Elt F)),
    StableHlo.nullary main_cst_42 (constant S_ .f32 0x00000000#32),
    StableHlo.unary main_cst_42 main_v204 (broadcastInDim S50000 ![] bcast_S_S50000 : (⟨S_, .f32⟩ : BufTy).Contents (Elt F) → (⟨S50000, .f32⟩ : BufTy).Contents (Elt F)),
    StableHlo.binary main_v203 main_v204 main_v205 (cmpf .ogt : (⟨S50000, .f32⟩ : BufTy).Contents (Elt F) → (⟨S50000, .f32⟩ : BufTy).Contents (Elt F) → (⟨S50000, .i1⟩ : BufTy).Contents (Elt F)),
    StableHlo.nullary main_cst_43 (constant S_ .f32 0xBF000000#32),
    StableHlo.unary main_cst_43 main_v206 (broadcastInDim S50000 ![] bcast_S_S50000 : (⟨S_, .f32⟩ : BufTy).Contents (Elt F) → (⟨S50000, .f32⟩ : BufTy).Contents (Elt F)),
    StableHlo.binary main_v203 main_v206 main_v207 (Host.powf : (⟨S50000, .f32⟩ : BufTy).Contents (Elt F) → (⟨S50000, .f32⟩ : BufTy).Contents (Elt F) → (⟨S50000, .f32⟩ : BufTy).Contents (Elt F)),
    StableHlo.nullary main_cst_44 (constant S_ .f32 0x00000000#32),
    StableHlo.TRef.unary (.of main_cst_44 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S50000, .f32⟩) (broadcastInDim S50000 ![] bcast_S_S50000),
    StableHlo.TRef.ternary (.of main_v205 : StableHlo.TRef sig ⟨S50000, .i1⟩) (.of main_v207 : StableHlo.TRef sig ⟨S50000, .f32⟩) (.of main_call1_v1 : StableHlo.TRef sig ⟨S50000, .f32⟩) (.of main_v208 : StableHlo.TRef sig ⟨S50000, .f32⟩) select,
    StableHlo.nullary main_c_45 (constantI S_ 32 0#32),
    StableHlo.unary main_c_45 main_v209 (broadcastInDim S200000 ![] bcast_S_S200000 : (⟨S_, .i32⟩ : BufTy).Contents (Elt F) → (⟨S200000, .i32⟩ : BufTy).Contents (Elt F)),
    StableHlo.binary main_v127 main_v209 main_v210 (cmpi .slt : (⟨S200000, .i32⟩ : BufTy).Contents (Elt F) → (⟨S200000, .i32⟩ : BufTy).Contents (Elt F) → (⟨S200000, .i1⟩ : BufTy).Contents (Elt F)),
    StableHlo.nullary main_c_46 (constantI S_ 32 50000#32),
    StableHlo.unary main_c_46 main_v211 (broadcastInDim S200000 ![] bcast_S_S200000 : (⟨S_, .i32⟩ : BufTy).Contents (Elt F) → (⟨S200000, .i32⟩ : BufTy).Contents (Elt F)),
    StableHlo.binary main_v127 main_v211 main_v212 (addi : (⟨S200000, .i32⟩ : BufTy).Contents (Elt F) → (⟨S200000, .i32⟩ : BufTy).Contents (Elt F) → (⟨S200000, .i32⟩ : BufTy).Contents (Elt F)),
    StableHlo.ternary main_v210 main_v212 main_v127 main_v213 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v213 main_v214 (broadcastInDim S200000x1 ![0] bcast_S200000_S200000x1_0 : (⟨S200000, .i32⟩ : BufTy).Contents (Elt F) → (⟨S200000x1, .i32⟩ : BufTy).Contents (Elt F)),
    StableHlo.binary main_v208 main_v214 main_v215 ((fun x i => Host.gather gather_S50000_S200000x1_S200000_n_0_n_n_0_1_1 x i) : (⟨S50000, .f32⟩ : BufTy).Contents (Elt F) → (⟨S200000x1, .i32⟩ : BufTy).Contents (Elt F) → (⟨S200000, .f32⟩ : BufTy).Contents (Elt F)),
    StableHlo.nullary main_c_47 (constantI S_ 32 0#32),
    StableHlo.unary main_c_47 main_v216 (broadcastInDim S200000 ![] bcast_S_S200000 : (⟨S_, .i32⟩ : BufTy).Contents (Elt F) → (⟨S200000, .i32⟩ : BufTy).Contents (Elt F)),
    StableHlo.binary main_v129 main_v216 main_v217 (cmpi .slt : (⟨S200000, .i32⟩ : BufTy).Contents (Elt F) → (⟨S200000, .i32⟩ : BufTy).Contents (Elt F) → (⟨S200000, .i1⟩ : BufTy).Contents (Elt F)),
    StableHlo.nullary main_c_48 (constantI S_ 32 50000#32),
    StableHlo.unary main_c_48 main_v218 (broadcastInDim S200000 ![] bcast_S_S200000 : (⟨S_, .i32⟩ : BufTy).Contents (Elt F) → (⟨S200000, .i32⟩ : BufTy).Contents (Elt F)),
    StableHlo.binary main_v129 main_v218 main_v219 (addi : (⟨S200000, .i32⟩ : BufTy).Contents (Elt F) → (⟨S200000, .i32⟩ : BufTy).Contents (Elt F) → (⟨S200000, .i32⟩ : BufTy).Contents (Elt F)),
    StableHlo.ternary main_v217 main_v219 main_v129 main_v220 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v220 main_v221 (broadcastInDim S200000x1 ![0] bcast_S200000_S200000x1_0 : (⟨S200000, .i32⟩ : BufTy).Contents (Elt F) → (⟨S200000x1, .i32⟩ : BufTy).Contents (Elt F)),
    StableHlo.binary main_v208 main_v221 main_v222 ((fun x i => Host.gather gather_S50000_S200000x1_S200000_n_0_n_n_0_1_1 x i) : (⟨S50000, .f32⟩ : BufTy).Contents (Elt F) → (⟨S200000x1, .i32⟩ : BufTy).Contents (Elt F) → (⟨S200000, .f32⟩ : BufTy).Contents (Elt F)),
    StableHlo.binary main_v215 main_v222 main_v223 (mulf : (⟨S200000, .f32⟩ : BufTy).Contents (Elt F) → (⟨S200000, .f32⟩ : BufTy).Contents (Elt F) → (⟨S200000, .f32⟩ : BufTy).Contents (Elt F)),
    StableHlo.unary main_v223 main_v224 (broadcastInDim S200000x1 ![0] bcast_S200000_S200000x1_0 : (⟨S200000, .f32⟩ : BufTy).Contents (Elt F) → (⟨S200000x1, .f32⟩ : BufTy).Contents (Elt F)),
    StableHlo.unary main_v224 main_v225 (broadcastInDim S200000x200 ![0, 1] bcast_S200000x1_S200000x200_0_1 : (⟨S200000x1, .f32⟩ : BufTy).Contents (Elt F) → (⟨S200000x200, .f32⟩ : BufTy).Contents (Elt F)),
    StableHlo.binary main_v194 main_v225 main_v226 (mulf : (⟨S200000x200, .f32⟩ : BufTy).Contents (Elt F) → (⟨S200000x200, .f32⟩ : BufTy).Contents (Elt F) → (⟨S200000x200, .f32⟩ : BufTy).Contents (Elt F)) ]

/-- The buffers stage M writes. -/
abbrev stM_W : List (Ref sig .tc) :=
  [main_cst_38, main_v195, main_c_39, main_v196, main_v197, main_c_40, main_v198, main_v199, main_v200, main_v201, main_cst_41, main_v202, main_v203, main_cst_42, main_v204, main_v205, main_cst_43, main_v206, main_v207, main_cst_44, main_call1_v0, main_call1_v1, main_v208, main_c_45, main_v209, main_v210, main_c_46, main_v211, main_v212, main_v213, main_v214, main_v215, main_c_47, main_v216, main_v217, main_c_48, main_v218, main_v219, main_v220, main_v221, main_v222, main_v223, main_v224, main_v225, main_v226]

theorem stM_writes : (stM : List (HloOp τ sig (Elt F))).Forall fun op =>
    op.writes ⊆ (stM_W.map (Proc.devRef (τ := τ) .tc)).toFinset := by
  simp only [stM, List.Forall, nullary_writes, unary_writes, binary_writes, ternary_writes, reshape_writes,
    Finset.singleton_subset_iff, List.mem_toFinset]
  repeat' apply And.intro
  all_goals exact List.mem_map_of_mem (by decide)

/-- A buffer stage M does not write keeps its contents through it. -/
theorem stM_keep (V : Valuation τ sig (Elt F)) {r : Ref sig .tc} (h : r ∉ stM_W) :
    after stM V (no_index (Proc.devRef .tc r)) = V (Proc.devRef .tc r) :=
  after_of_writes_sub stM V stM_writes h

set_option maxHeartbeats 2000000 in
/-- Each edge's message times its normalisation. -/
theorem stM_v226 (V : Valuation τ sig (Elt F)) :
    after stM V (no_index (Proc.devRef .tc main_v226)) = Cert.Stage.scale (V (Proc.devRef .tc main_v194)) (Cert.Stage.norm (V (Proc.devRef .tc main_v127)) (V (Proc.devRef .tc main_v129))) := by
  simp only [stM]; after_results_simp; rfl

set_option maxHeartbeats 4000000 in
/-- Stage N: the operations computing the second direction's aggregation. -/
def stN : List (HloOp τ sig (Elt F)) :=
  [ StableHlo.nullary main_cst_49 (constant S_ .f32 0x00000000#32),
    StableHlo.unary main_cst_49 main_v227 (broadcastInDim S50000x200 ![] bcast_S_S50000x200 : (⟨S_, .f32⟩ : BufTy).Contents (Elt F) → (⟨S50000x200, .f32⟩ : BufTy).Contents (Elt F)),
    StableHlo.nullary main_c_50 (constantI S_ 32 0#32),
    StableHlo.unary main_c_50 main_v228 (broadcastInDim S200000 ![] bcast_S_S200000 : (⟨S_, .i32⟩ : BufTy).Contents (Elt F) → (⟨S200000, .i32⟩ : BufTy).Contents (Elt F)),
    StableHlo.binary main_v127 main_v228 main_v229 (cmpi .slt : (⟨S200000, .i32⟩ : BufTy).Contents (Elt F) → (⟨S200000, .i32⟩ : BufTy).Contents (Elt F) → (⟨S200000, .i1⟩ : BufTy).Contents (Elt F)),
    StableHlo.nullary main_c_51 (constantI S_ 32 50000#32),
    StableHlo.unary main_c_51 main_v230 (broadcastInDim S200000 ![] bcast_S_S200000 : (⟨S_, .i32⟩ : BufTy).Contents (Elt F) → (⟨S200000, .i32⟩ : BufTy).Contents (Elt F)),
    StableHlo.binary main_v127 main_v230 main_v231 (addi : (⟨S200000, .i32⟩ : BufTy).Contents (Elt F) → (⟨S200000, .i32⟩ : BufTy).Contents (Elt F) → (⟨S200000, .i32⟩ : BufTy).Contents (Elt F)),
    StableHlo.ternary main_v229 main_v231 main_v127 main_v232 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v232 main_v233 (broadcastInDim S200000x1 ![0] bcast_S200000_S200000x1_0 : (⟨S200000, .i32⟩ : BufTy).Contents (Elt F) → (⟨S200000x1, .i32⟩ : BufTy).Contents (Elt F)),
    StableHlo.ternary main_v227 main_v233 main_v226 main_v234 ((fun x i u => Host.scatterAdd scatter_S50000x200_S200000x1_S200000x200_1_0_0_1 x i u) : (⟨S50000x200, .f32⟩ : BufTy).Contents (Elt F) → (⟨S200000x1, .i32⟩ : BufTy).Contents (Elt F) → (⟨S200000x200, .f32⟩ : BufTy).Contents (Elt F) → (⟨S50000x200, .f32⟩ : BufTy).Contents (Elt F)) ]

/-- The buffers stage N writes. -/
abbrev stN_W : List (Ref sig .tc) :=
  [main_cst_49, main_v227, main_c_50, main_v228, main_v229, main_c_51, main_v230, main_v231, main_v232, main_v233, main_v234]

theorem stN_writes : (stN : List (HloOp τ sig (Elt F))).Forall fun op =>
    op.writes ⊆ (stN_W.map (Proc.devRef (τ := τ) .tc)).toFinset := by
  simp only [stN, List.Forall, nullary_writes, unary_writes, binary_writes, ternary_writes, reshape_writes,
    Finset.singleton_subset_iff, List.mem_toFinset]
  repeat' apply And.intro
  all_goals exact List.mem_map_of_mem (by decide)

/-- A buffer stage N does not write keeps its contents through it. -/
theorem stN_keep (V : Valuation τ sig (Elt F)) {r : Ref sig .tc} (h : r ∉ stN_W) :
    after stN V (no_index (Proc.devRef .tc r)) = V (Proc.devRef .tc r) :=
  after_of_writes_sub stN V stN_writes h

set_option maxHeartbeats 1100000 in
/-- The messages summed per target node. -/
theorem stN_v234 (V : Valuation τ sig (Elt F)) :
    after stN V (no_index (Proc.devRef .tc main_v234)) = Cert.Stage.aggr (V (Proc.devRef .tc main_v127)) (V (Proc.devRef .tc main_v226)) := by
  simp only [stN]; after_results_simp; rfl

end Cert.ReferenceIdeal.RefRun

end
-- ==== Proof.RefValueOP.lean ====
/-
  The reference's run, stages O and P. Stage O is the self-loop term (every node's row rotated by the loop relation, times the
  loop matrix). Stage P is the closing chain — a third of the three terms' sum, batch-normalised over the nodes, scaled, shifted,
  through tanh — and the relation output (the relation table times its matrix, without the appended row). Each result buffer
  holds the stage function of the buffers the stage reads; every buffer a stage does not write is kept.
-/
import proofs.«143578_j52467320487979_1_alg».proof.Proof.Stages
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Stage O: the operations computing the self-loop term. -/
def stO : List (HloOp τ sig (Elt F)) :=
  [ StableHlo.unary main_arg10 main_v235 (broadcastInDim S50000x200 ![0, 1] bcast_S1x200_S50000x200_0_1 : (⟨S1x200, .f32⟩ : BufTy).Contents (Elt F) → (⟨S50000x200, .f32⟩ : BufTy).Contents (Elt F)),
    StableHlo.unary main_arg0 main_v236 ((extractStridedSlice S50000x100 ![0, 0] · slices_S50000x200_S50000x100_0_0) : (⟨S50000x200, .f32⟩ : BufTy).Contents (Elt F) → (⟨S50000x100, .f32⟩ : BufTy).Contents (Elt F)),
    StableHlo.unary main_arg0 main_v237 ((extractStridedSlice S50000x100 ![0, 100] · slices_S50000x200_S50000x100_0_100) : (⟨S50000x200, .f32⟩ : BufTy).Contents (Elt F) → (⟨S50000x100, .f32⟩ : BufTy).Contents (Elt F)),
    StableHlo.unary main_v235 main_v238 ((extractStridedSlice S50000x100 ![0, 0] · slices_S50000x200_S50000x100_0_0) : (⟨S50000x200, .f32⟩ : BufTy).Contents (Elt F) → (⟨S50000x100, .f32⟩ : BufTy).Contents (Elt F)),
    StableHlo.unary main_v235 main_v239 ((extractStridedSlice S50000x100 ![0, 100] · slices_S50000x200_S50000x100_0_100) : (⟨S50000x200, .f32⟩ : BufTy).Contents (Elt F) → (⟨S50000x100, .f32⟩ : BufTy).Contents (Elt F)),
    StableHlo.binary main_v236 main_v238 main_v240 (mulf : (⟨S50000x100, .f32⟩ : BufTy).Contents (Elt F) → (⟨S50000x100, .f32⟩ : BufTy).Contents (Elt F) → (⟨S50000x100, .f32⟩ : BufTy).Contents (Elt F)),
    StableHlo.binary main_v237 main_v239 main_v241 (mulf : (⟨S50000x100, .f32⟩ : BufTy).Contents (Elt F) → (⟨S50000x100, .f32⟩ : BufTy).Contents (Elt F) → (⟨S50000x100, .f32⟩ : BufTy).Contents (Elt F)),
    StableHlo.binary main_v240 main_v241 main_v242 (subf : (⟨S50000x100, .f32⟩ : BufTy).Contents (Elt F) → (⟨S50000x100, .f32⟩ : BufTy).Contents (Elt F) → (⟨S50000x100, .f32⟩ : BufTy).Contents (Elt F)),
    StableHlo.binary main_v236 main_v239 main_v243 (mulf : (⟨S50000x100, .f32⟩ : BufTy).Contents (Elt F) → (⟨S50000x100, .f32⟩ : BufTy).Contents (Elt F) → (⟨S50000x100, .f32⟩ : BufTy).Contents (Elt F)),
    StableHlo.binary main_v237 main_v238 main_v244 (mulf : (⟨S50000x100, .f32⟩ : BufTy).Contents (Elt F) → (⟨S50000x100, .f32⟩ : BufTy).Contents (Elt F) → (⟨S50000x100, .f32⟩ : BufTy).Contents (Elt F)),
    StableHlo.binary main_v243 main_v244 main_v245 (addf : (⟨S50000x100, .f32⟩ : BufTy).Contents (Elt F) → (⟨S50000x100, .f32⟩ : BufTy).Contents (Elt F) → (⟨S50000x100, .f32⟩ : BufTy).Contents (Elt F)),
    StableHlo.binary main_v242 main_v245 main_v246 ((fun a b => concatenate S50000x200 1 [⟨S50000x100, a⟩, ⟨S50000x100, b⟩] concatenates_S50000x100_S50000x100_S50000x200_d1) : (⟨S50000x100, .f32⟩ : BufTy).Contents (Elt F) → (⟨S50000x100, .f32⟩ : BufTy).Contents (Elt F) → (⟨S50000x200, .f32⟩ : BufTy).Contents (Elt F)),
    StableHlo.binary main_v246 main_arg7 main_v247 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)) ]

/-- The buffers stage O writes. -/
abbrev stO_W : List (Ref sig .tc) :=
  [main_v235, main_v236, main_v237, main_v238, main_v239, main_v240, main_v241, main_v242, main_v243, main_v244, main_v245, main_v246, main_v247]

theorem stO_writes : (stO : List (HloOp τ sig (Elt F))).Forall fun op =>
    op.writes ⊆ (stO_W.map (Proc.devRef (τ := τ) .tc)).toFinset := by
  simp only [stO, List.Forall, nullary_writes, unary_writes, binary_writes, ternary_writes, reshape_writes,
    Finset.singleton_subset_iff, List.mem_toFinset]
  repeat' apply And.intro
  all_goals exact List.mem_map_of_mem (by decide)

/-- A buffer stage O does not write keeps its contents through it. -/
theorem stO_keep (V : Valuation τ sig (Elt F)) {r : Ref sig .tc} (h : r ∉ stO_W) :
    after stO V (no_index (Proc.devRef .tc r)) = V (Proc.devRef .tc r) :=
  after_of_writes_sub stO V stO_writes h

set_option maxHeartbeats 1300000 in
/-- The self-loop term. -/
theorem stO_v247 (V : Valuation τ sig (Elt F)) :
    after stO V (no_index (Proc.devRef .tc main_v247)) = Cert.Stage.loopRes (V (Proc.devRef .tc main_arg10)) (V (Proc.devRef .tc main_arg0)) (V (Proc.devRef .tc main_arg7)) := by
  simp only [stO]; after_results_simp; rfl

set_option maxHeartbeats 4000000 in
/-- Stage P: the operations computing the closing chain and the relation output. -/
def stP : List (HloOp τ sig (Elt F)) :=
  [ StableHlo.binary main_v125 main_v234 main_v248 (addf : (⟨S50000x200, .f32⟩ : BufTy).Contents (Elt F) → (⟨S50000x200, .f32⟩ : BufTy).Contents (Elt F) → (⟨S50000x200, .f32⟩ : BufTy).Contents (Elt F)),
    StableHlo.binary main_v248 main_v247 main_v249 (addf : (⟨S50000x200, .f32⟩ : BufTy).Contents (Elt F) → (⟨S50000x200, .f32⟩ : BufTy).Contents (Elt F) → (⟨S50000x200, .f32⟩ : BufTy).Contents (Elt F)),
    StableHlo.nullary main_cst_52 (constant S_ .f32 0x3EAAAAAB#32),
    StableHlo.unary main_cst_52 main_v250 (broadcastInDim S50000x200 ![] bcast_S_S50000x200 : (⟨S_, .f32⟩ : BufTy).Contents (Elt F) → (⟨S50000x200, .f32⟩ : BufTy).Contents (Elt F)),
    StableHlo.binary main_v249 main_v250 main_v251 (mulf : (⟨S50000x200, .f32⟩ : BufTy).Contents (Elt F) → (⟨S50000x200, .f32⟩ : BufTy).Contents (Elt F) → (⟨S50000x200, .f32⟩ : BufTy).Contents (Elt F)),
    StableHlo.nullary main_cst_53 (constant S_ .f32 0x00000000#32),
    StableHlo.binary main_v251 main_cst_53 main_v252 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_54 (constant S_ .f32 0x47435000#32),
    StableHlo.unary main_cst_54 main_v253 (broadcastInDim S200 ![] bcast_S_S200 : (⟨S_, .f32⟩ : BufTy).Contents (Elt F) → (⟨S200, .f32⟩ : BufTy).Contents (Elt F)),
    StableHlo.binary main_v252 main_v253 main_v254 (Host.divf : (⟨S200, .f32⟩ : BufTy).Contents (Elt F) → (⟨S200, .f32⟩ : BufTy).Contents (Elt F) → (⟨S200, .f32⟩ : BufTy).Contents (Elt F)),
    StableHlo.nullary main_c_55 (constantI S_ 32 0#32),
    StableHlo.TRef.nullary (.of main_call2_cst : StableHlo.TRef sig ⟨S_, .f32⟩) (constant S_ .f32 0x00000000#32),
    StableHlo.TRef.binary (.of main_v251 : StableHlo.TRef sig ⟨S50000x200, .f32⟩) (.of main_call2_cst : StableHlo.TRef sig ⟨S_, .f32⟩) (.of main_call2_v0 : StableHlo.TRef sig ⟨S200, .f32⟩) (fun x v => Host.reduceAdd x v reducesTo_S50000x200_S200_d0 h_S_),
    StableHlo.TRef.unary (.of main_call2_v0 : StableHlo.TRef sig ⟨S200, .f32⟩) (.of main_call2_v1 : StableHlo.TRef sig ⟨S1x200, .f32⟩) (broadcastInDim S1x200 ![1] bcast_S200_S1x200_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x200, .f32⟩) (broadcastInDim S1x200 ![] bcast_S_S1x200),
    StableHlo.TRef.binary (.of main_call2_v1 : StableHlo.TRef sig ⟨S1x200, .f32⟩) (.of main_call2_v2 : StableHlo.TRef sig ⟨S1x200, .f32⟩) (.of main_call2_v3 : StableHlo.TRef sig ⟨S1x200, .f32⟩) Host.divf,
    StableHlo.TRef.unary (.of main_call2_v3 : StableHlo.TRef sig ⟨S1x200, .f32⟩) (.of main_call2_v4 : StableHlo.TRef sig ⟨S50000x200, .f32⟩) (broadcastInDim S50000x200 ![0, 1] bcast_S1x200_S50000x200_0_1),
    StableHlo.TRef.binary (.of main_v251 : StableHlo.TRef sig ⟨S50000x200, .f32⟩) (.of main_call2_v4 : StableHlo.TRef sig ⟨S50000x200, .f32⟩) (.of main_call2_v5 : StableHlo.TRef sig ⟨S50000x200, .f32⟩) subf,
    StableHlo.TRef.binary (.of main_call2_v5 : StableHlo.TRef sig ⟨S50000x200, .f32⟩) (.of main_call2_v5 : StableHlo.TRef sig ⟨S50000x200, .f32⟩) (.of main_call2_v6 : StableHlo.TRef sig ⟨S50000x200, .f32⟩) mulf,
    StableHlo.TRef.unary (.of main_c_55 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x200, .f32⟩) (.of main_call2_cst_2 : StableHlo.TRef sig ⟨S_, .f32⟩) (.of main_call2_v9 : StableHlo.TRef sig ⟨S200, .f32⟩) (fun x v => Host.reduceAdd x v reducesTo_S50000x200_S200_d0 h_S_),
    StableHlo.TRef.unary (.of main_call2_v8 : StableHlo.TRef sig ⟨S_, .f32⟩) (.of main_call2_v10 : StableHlo.TRef sig ⟨S200, .f32⟩) (broadcastInDim S200 ![] bcast_S_S200),
    StableHlo.TRef.binary (.of main_call2_v9 : StableHlo.TRef sig ⟨S200, .f32⟩) (.of main_call2_v10 : StableHlo.TRef sig ⟨S200, .f32⟩) (.of main_call2_v11 : StableHlo.TRef sig ⟨S200, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S200, .f32⟩) (broadcastInDim S200 ![] bcast_S_S200),
    StableHlo.TRef.ternary (.of main_call2_v12 : StableHlo.TRef sig ⟨S_, .i1⟩) (.of main_call2_v11 : StableHlo.TRef sig ⟨S200, .f32⟩) (.of main_call2_call0_v1 : StableHlo.TRef sig ⟨S200, .f32⟩) (.of main_v255 : StableHlo.TRef sig ⟨S200, .f32⟩) (fun p a b => select (broadcastInDim S200 ![] bcast_S_S200 p) a b),
    StableHlo.unary main_v254 main_v256 (broadcastInDim S1x200 ![1] bcast_S200_S1x200_1 : (⟨S200, .f32⟩ : BufTy).Contents (Elt F) → (⟨S1x200, .f32⟩ : BufTy).Contents (Elt F)),
    StableHlo.unary main_v256 main_v257 (broadcastInDim S50000x200 ![0, 1] bcast_S1x200_S50000x200_0_1 : (⟨S1x200, .f32⟩ : BufTy).Contents (Elt F) → (⟨S50000x200, .f32⟩ : BufTy).Contents (Elt F)),
    StableHlo.binary main_v251 main_v257 main_v258 (subf : (⟨S50000x200, .f32⟩ : BufTy).Contents (Elt F) → (⟨S50000x200, .f32⟩ : BufTy).Contents (Elt F) → (⟨S50000x200, .f32⟩ : BufTy).Contents (Elt F)),
    StableHlo.nullary main_cst_56 (constant S_ .f32 0x3727C5AC#32),
    StableHlo.unary main_cst_56 main_v259 (broadcastInDim S200 ![] bcast_S_S200 : (⟨S_, .f32⟩ : BufTy).Contents (Elt F) → (⟨S200, .f32⟩ : BufTy).Contents (Elt F)),
    StableHlo.binary main_v255 main_v259 main_v260 (addf : (⟨S200, .f32⟩ : BufTy).Contents (Elt F) → (⟨S200, .f32⟩ : BufTy).Contents (Elt F) → (⟨S200, .f32⟩ : BufTy).Contents (Elt F)),
    StableHlo.unary main_v260 main_v261 (Host.sqrt : (⟨S200, .f32⟩ : BufTy).Contents (Elt F) → (⟨S200, .f32⟩ : BufTy).Contents (Elt F)),
    StableHlo.unary main_v261 main_v262 (broadcastInDim S1x200 ![1] bcast_S200_S1x200_1 : (⟨S200, .f32⟩ : BufTy).Contents (Elt F) → (⟨S1x200, .f32⟩ : BufTy).Contents (Elt F)),
    StableHlo.unary main_v262 main_v263 (broadcastInDim S50000x200 ![0, 1] bcast_S1x200_S50000x200_0_1 : (⟨S1x200, .f32⟩ : BufTy).Contents (Elt F) → (⟨S50000x200, .f32⟩ : BufTy).Contents (Elt F)),
    StableHlo.binary main_v258 main_v263 main_v264 (Host.divf : (⟨S50000x200, .f32⟩ : BufTy).Contents (Elt F) → (⟨S50000x200, .f32⟩ : BufTy).Contents (Elt F) → (⟨S50000x200, .f32⟩ : BufTy).Contents (Elt F)),
    StableHlo.unary main_arg11 main_v265 (broadcastInDim S1x200 ![1] bcast_S200_S1x200_1 : (⟨S200, .f32⟩ : BufTy).Contents (Elt F) → (⟨S1x200, .f32⟩ : BufTy).Contents (Elt F)),
    StableHlo.unary main_v265 main_v266 (broadcastInDim S50000x200 ![0, 1] bcast_S1x200_S50000x200_0_1 : (⟨S1x200, .f32⟩ : BufTy).Contents (Elt F) → (⟨S50000x200, .f32⟩ : BufTy).Contents (Elt F)),
    StableHlo.binary main_v264 main_v266 main_v267 (mulf : (⟨S50000x200, .f32⟩ : BufTy).Contents (Elt F) → (⟨S50000x200, .f32⟩ : BufTy).Contents (Elt F) → (⟨S50000x200, .f32⟩ : BufTy).Contents (Elt F)),
    StableHlo.unary main_arg12 main_v268 (broadcastInDim S1x200 ![1] bcast_S200_S1x200_1 : (⟨S200, .f32⟩ : BufTy).Contents (Elt F) → (⟨S1x200, .f32⟩ : BufTy).Contents (Elt F)),
    StableHlo.unary main_v268 main_v269 (broadcastInDim S50000x200 ![0, 1] bcast_S1x200_S50000x200_0_1 : (⟨S1x200, .f32⟩ : BufTy).Contents (Elt F) → (⟨S50000x200, .f32⟩ : BufTy).Contents (Elt F)),
    StableHlo.binary main_v267 main_v269 main_v270 (addf : (⟨S50000x200, .f32⟩ : BufTy).Contents (Elt F) → (⟨S50000x200, .f32⟩ : BufTy).Contents (Elt F) → (⟨S50000x200, .f32⟩ : BufTy).Contents (Elt F)),
    StableHlo.unary main_v270 main_v271 (Host.tanh : (⟨S50000x200, .f32⟩ : BufTy).Contents (Elt F) → (⟨S50000x200, .f32⟩ : BufTy).Contents (Elt F)),
    StableHlo.binary main_v0 main_arg8 main_v272 ((fun l r => Host.dotGeneral dot_S401x200_S200x200_S401x200_1_0_0_1_n_n none l r) : (⟨S401x200, .f32⟩ : BufTy).Contents (Elt F) → (⟨S200x200, .f32⟩ : BufTy).Contents (Elt F) → (⟨S401x200, .f32⟩ : BufTy).Contents (Elt F)),
    StableHlo.unary main_v272 main_v273 ((extractStridedSlice S400x200 ![0, 0] · slices_S401x200_S400x200_0_0) : (⟨S401x200, .f32⟩ : BufTy).Contents (Elt F) → (⟨S400x200, .f32⟩ : BufTy).Contents (Elt F)) ]

/-- The buffers stage P writes. -/
abbrev stP_W : List (Ref sig .tc) :=
  [main_v248, main_v249, main_cst_52, main_v250, main_v251, main_cst_53, main_v252, main_cst_54, main_v253, main_v254, main_c_55, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v255, main_v256, main_v257, main_v258, main_cst_56, main_v259, main_v260, main_v261, main_v262, main_v263, main_v264, main_v265, main_v266, main_v267, main_v268, main_v269, main_v270, main_v271, main_v272, main_v273]

theorem stP_writes : (stP : List (HloOp τ sig (Elt F))).Forall fun op =>
    op.writes ⊆ (stP_W.map (Proc.devRef (τ := τ) .tc)).toFinset := by
  simp only [stP, List.Forall, nullary_writes, unary_writes, binary_writes, ternary_writes, reshape_writes,
    Finset.singleton_subset_iff, List.mem_toFinset]
  repeat' apply And.intro
  all_goals exact List.mem_map_of_mem (by decide)

/-- A buffer stage P does not write keeps its contents through it. -/
theorem stP_keep (V : Valuation τ sig (Elt F)) {r : Ref sig .tc} (h : r ∉ stP_W) :
    after stP V (no_index (Proc.devRef .tc r)) = V (Proc.devRef .tc r) :=
  after_of_writes_sub stP V stP_writes h

set_option maxHeartbeats 2000000 in
/-- The node output from the three terms. -/
theorem stP_v271 (V : Valuation τ sig (Elt F)) :
    after stP V (no_index (Proc.devRef .tc main_v271)) = Cert.Stage.tail (V (Proc.devRef .tc main_v125)) (V (Proc.devRef .tc main_v234)) (V (Proc.devRef .tc main_v247)) (V (Proc.devRef .tc main_arg11)) (V (Proc.devRef .tc main_arg12)) := by
  simp only [stP]; after_results_simp; rfl

set_option maxHeartbeats 2000000 in
/-- The relation output. -/
theorem stP_v273 (V : Valuation τ sig (Elt F)) :
    after stP V (no_index (Proc.devRef .tc main_v273)) = Cert.Stage.relOut (V (Proc.devRef .tc main_v0)) (V (Proc.devRef .tc main_arg8)) := by
  simp only [stP]; after_results_simp; rfl

end Cert.ReferenceIdeal.RefRun

end
-- ==== Proof.RefValue.lean ====
/-
  The value of the reference program's run. The reference's operations are sixteen stages in a row (the index preparation; for
  each of the two directions the gathers, the qualifier embeddings, their sum per edge, the messages, their normalisation, their
  sum per node; the self-loop term; the closing chain and the relation output), so the contents after all of them are the stages'
  folds nested. Reading a result buffer back through the stages — each stage's output is its stage function of the buffers it
  reads, every other buffer is kept — gives the two results as the functions `resEnt` and `resRel` of the thirteen arguments,
  and the arguments, which no stage writes, unchanged. With the run of the operation list this is the run of the program.
-/
import proofs.«143578_j52467320487979_1_alg».proof.Proof.RefOps
import proofs.«143578_j52467320487979_1_alg».proof.Proof.RefValueAB
import proofs.«143578_j52467320487979_1_alg».proof.Proof.RefValueCE
import proofs.«143578_j52467320487979_1_alg».proof.Proof.RefValueFH
import proofs.«143578_j52467320487979_1_alg».proof.Proof.RefValueIK
import proofs.«143578_j52467320487979_1_alg».proof.Proof.RefValueLN
import proofs.«143578_j52467320487979_1_alg».proof.Proof.RefValueOP
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The reference's operations are the sixteen stages in a row. -/
theorem ops_split : (ops : List (HloOp τ sig (Elt F))) = stA ++ (stB ++ (stC ++ (stD ++ (stE ++ (stF ++ (stG ++ (stH ++ (stI ++ (stJ ++ (stK ++ (stL ++ (stM ++ (stN ++ (stO ++ stP)))))))))))))) := by
  rfl

/-- The contents after all the operations: the stages' folds, nested in order. -/
theorem after_ops (V : Valuation τ sig (Elt F)) :
    after ops V = after stP (after stO (after stN (after stM (after stL (after stK (after stJ (after stI (after stH (after stG (after stF (after stE (after stD (after stC (after stB (after stA V))))))))))))))) := by
  rw [ops_split]; simp only [after_append]

set_option maxHeartbeats 4000000 in
/-- The node output is `resEnt` of the arguments: the closing chain of the two directions' aggregated messages and the self-loop
    term, each read back stage by stage to the arguments. -/
theorem fold_ent (V : Valuation τ sig (Elt F)) : after ops V (Proc.devRef .tc main_v271) = Cert.Stage.resEnt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]
  simp (disch := decide) only [Cert.Stage.resEnt, Cert.Stage.dirRes,
    stA_v0, stA_v2, stA_v3, stA_v4, stA_v6, stA_v8, stA_v10, stA_v12, stA_v14, stA_v16, stA_v18, stA_v20, stB_v27, stB_v34, stC_v59, stD_v67, stE_v85, stF_v117, stG_v125, stH_v127, stH_v129, stI_v136, stI_v143, stJ_v168, stK_v176, stL_v194, stM_v226, stN_v234, stO_v247, stP_v271, stP_v273,
    stA_keep, stB_keep, stC_keep, stD_keep, stE_keep, stF_keep, stG_keep, stH_keep, stI_keep, stJ_keep, stK_keep, stL_keep, stM_keep, stN_keep, stO_keep, stP_keep]

set_option maxHeartbeats 4000000 in
/-- The relation output is `resRel` of the arguments: the relation table of stage A, kept to stage P, times its matrix. -/
theorem fold_rel (V : Valuation τ sig (Elt F)) : after ops V (Proc.devRef .tc main_v273) = Cert.Stage.resRel (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]
  simp (disch := decide) only [Cert.Stage.resRel, stA_v0, stP_v273,
    stA_keep, stB_keep, stC_keep, stD_keep, stE_keep, stF_keep, stG_keep, stH_keep, stI_keep, stJ_keep, stK_keep, stL_keep, stM_keep, stN_keep, stO_keep, stP_keep]

set_option maxHeartbeats 4000000 in
/-- No stage writes an argument buffer: the arguments end unchanged. -/
theorem fold_arg (V : Valuation τ sig (Elt F)) : after ops V (Proc.devRef .tc main_arg0) = V (Proc.devRef .tc main_arg0) ∧ after ops V (Proc.devRef .tc main_arg1) = V (Proc.devRef .tc main_arg1) ∧ after ops V (Proc.devRef .tc main_arg2) = V (Proc.devRef .tc main_arg2) ∧ after ops V (Proc.devRef .tc main_arg3) = V (Proc.devRef .tc main_arg3) ∧ after ops V (Proc.devRef .tc main_arg4) = V (Proc.devRef .tc main_arg4) ∧ after ops V (Proc.devRef .tc main_arg5) = V (Proc.devRef .tc main_arg5) ∧ after ops V (Proc.devRef .tc main_arg6) = V (Proc.devRef .tc main_arg6) ∧ after ops V (Proc.devRef .tc main_arg7) = V (Proc.devRef .tc main_arg7) ∧ after ops V (Proc.devRef .tc main_arg8) = V (Proc.devRef .tc main_arg8) ∧ after ops V (Proc.devRef .tc main_arg9) = V (Proc.devRef .tc main_arg9) ∧ after ops V (Proc.devRef .tc main_arg10) = V (Proc.devRef .tc main_arg10) ∧ after ops V (Proc.devRef .tc main_arg11) = V (Proc.devRef .tc main_arg11) ∧ after ops V (Proc.devRef .tc main_arg12) = V (Proc.devRef .tc main_arg12) := by
  rw [after_ops]
  refine ⟨?_, ?_, ?_, ?_, ?_, ?_, ?_, ?_, ?_, ?_, ?_, ?_, ?_⟩ <;>
    simp (disch := decide) only [stA_keep, stB_keep, stC_keep, stD_keep, stE_keep, stF_keep, stG_keep, stH_keep, stI_keep, stJ_keep, stK_keep, stL_keep, stM_keep, stN_keep, stO_keep, stP_keep]

/-- On every device, from any memory with zero counters: every weakly fair execution of the reference terminates with the node
    output at `resEnt` of the arguments, the relation output at `resRel` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v271) = Cert.Stage.resEnt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v273) = Cert.Stage.resRel (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v271).trans (fold_ent _), (h c main_v273).trans (fold_rel _),
      (h c main_arg0).trans (fold_arg _).1,
      (h c main_arg1).trans (fold_arg _).2.1,
      (h c main_arg2).trans (fold_arg _).2.2.1,
      (h c main_arg3).trans (fold_arg _).2.2.2.1,
      (h c main_arg4).trans (fold_arg _).2.2.2.2.1,
      (h c main_arg5).trans (fold_arg _).2.2.2.2.2.1,
      (h c main_arg6).trans (fold_arg _).2.2.2.2.2.2.1,
      (h c main_arg7).trans (fold_arg _).2.2.2.2.2.2.2.1,
      (h c main_arg8).trans (fold_arg _).2.2.2.2.2.2.2.2.1,
      (h c main_arg9).trans (fold_arg _).2.2.2.2.2.2.2.2.2.1,
      (h c main_arg10).trans (fold_arg _).2.2.2.2.2.2.2.2.2.2.1,
      (h c main_arg11).trans (fold_arg _).2.2.2.2.2.2.2.2.2.2.2.1,
      (h c main_arg12).trans (fold_arg _).2.2.2.2.2.2.2.2.2.2.2.2⟩)
    (run_fold m ρ)

end Cert.ReferenceIdeal.RefRun

end
-- ==== Proof.lean ====
/-
  A relational graph convolution with qualifiers, computed two ways. Both programs form the relation table with the loop relation
  appended; for each of the two edge directions gather the source node's row and the edge's relation row, rotate every
  qualifier's entity row by its relation row (rows of a hundred complex numbers, real parts first), add the rotated qualifiers
  up per edge, mix four fifths of the relation row with one fifth of the summed qualifiers times `w_q`, rotate the source row by
  that, multiply by the direction's weight matrix, scale by the edge's degree normalisation and add the messages up per target
  node; add the self-loop term (every node's row rotated by the loop relation, times `w_loop`); take a third of the three terms'
  sum, batch-normalise it over the nodes and pass it through tanh. The relation output is the relation table times `w_rel`.

  The kernel's program does four of these steps in tiled kernels — the qualifier rotation (all 200000 qualifiers of both
  directions at once, a block of 5000 rows per grid point), the two directions' "relation embedding, rotation, product,
  scaling" (2000 edges per grid point, the matrices rounded to bf16) and the self-loop term (2000 nodes per grid point) — and
  everything else by the same host operations as the reference. On extended reals a rounding is the identity and a product
  accumulated from zero is the plain sum, every tiled step acts row by row, and a block of rows of a row-wise function is
  that function of the block; so each region's array is the reference's whole-array function of its entry arrays, the first
  (last) 100000 rotated qualifier rows are the rotation of the first (last) 100000 gathered rows, and the two programs'
  results are one function of the thirteen arguments. No step moves a factor across a sum or cancels anything, so the
  finiteness of the inputs is never used.

  The frames of the two kernel programs are the generated ones; the reference's is its run with the results dropped.
-/
import proofs.«143578_j52467320487979_1_alg».proof.Defs
import proofs.«143578_j52467320487979_1_alg».proof.Proof.Gen.Kernel
import proofs.«143578_j52467320487979_1_alg».proof.Proof.Gen.Kernel.Frame
import proofs.«143578_j52467320487979_1_alg».proof.Proof.Gen.KernelIdeal
import proofs.«143578_j52467320487979_1_alg».proof.Proof.Gen.KernelIdeal.Frame
import proofs.«143578_j52467320487979_1_alg».proof.Proof.Gen.ReferenceIdeal
import proofs.«143578_j52467320487979_1_alg».proof.Proof.Gen.Pre_finite_inputs
import proofs.«143578_j52467320487979_1_alg».proof.Proof.KerRun
import proofs.«143578_j52467320487979_1_alg».proof.Proof.KerFinal
import proofs.«143578_j52467320487979_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference terminates with its arguments unchanged: its run, the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The ideal pass rewrote nothing. -/
theorem preserves : Cert.preserves_Kernel_KernelIdeal := trivial

/-- From memories that agree on the arguments both programs end with the node output at `resEnt` and the relation output at
    `resRel` of the thirteen arguments: the kernel's by its run and the regions' values, the reference's by its run. -/
theorem algebraic : Cert.algebraic_KernelIdeal_ReferenceIdeal := by
  intro m ρ m' ρ' _ hagree
  refine ⟨fun c => Cert.Stage.resEnt (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Stage.resRel (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.KerFinal.ent m ρ c), (h c).2.1.trans (Cert.KernelIdeal.KerFinal.rel m ρ c), (h c).2.2⟩)
      (Cert.KernelIdeal.KerRun.run_fold (F := Ideal) m ρ)
  · refine (θ_run Cert.ReferenceIdeal.defs _ _).mono (fun _ h c => ⟨(h c).1.trans ?_, (h c).2.1.trans ?_, (h c).2.2⟩)
      (Cert.ReferenceIdeal.RefRun.run (F := Ideal) m' ρ')
    · obtain ⟨h0, h1, h2, h3, h4, h5, h6, h7, h8, h9, h10, h11, h12⟩ := hagree c
      rw [h0, h1, h2, h3, h4, h5, h6, h7, h8, h9, h10, h11, h12]
    · obtain ⟨h0, h1, h2, h3, h4, h5, h6, h7, h8, h9, h10, h11, h12⟩ := hagree c
      rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
